-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg1 : IVec S16384 32) (main_v65 : IVec S_ 1) (main_v67 : IVec S16384 1) : IVec S_ 1 :=
  let main_c_26 : IVec S_ 32 := constantI S_ 32 99999#32
  let main_v68 : IVec S16384 32 := broadcastInDim S16384 ![] bcast_S_S16384 main_c_26
  let main_v69 : IVec S16384 1 := cmpi .sle main_arg1 main_v68
  let main_v70 : IVec S16384 1 := andi main_v67 main_v69
  let main_c_27 : IVec S_ 1 := constantI S_ 1 1#1
  let main_v71 : IVec S_ 1 := (fun x v => Host.reduce IntOp.andi x v reducesTo_S16384_S_d0 h_S_) main_v70 main_c_27
  let main_v72 : IVec S_ 1 := andi main_v65 main_v71
  main_v72

def fn_part3 {F : FTy → Type} [FloatOps F] (main_arg0 : IVec S16384 32) (main_arg1 : IVec S16384 32) (main_arg13 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S16384 32 := broadcastInDim S16384 ![] bcast_S_S16384 main_c_22
  let main_v60 : IVec S16384 1 := cmpi .sge main_arg0 main_v59
  let main_c_23 : IVec S_ 32 := constantI S_ 32 99999#32
  let main_v61 : IVec S16384 32 := broadcastInDim S16384 ![] bcast_S_S16384 main_c_23
  let main_v62 : IVec S16384 1 := cmpi .sle main_arg0 main_v61
  let main_v63 : IVec S16384 1 := andi main_v60 main_v62
  let main_c_24 : IVec S_ 1 := constantI S_ 1 1#1
  let main_v64 : IVec S_ 1 := (fun x v => Host.reduce IntOp.andi x v reducesTo_S16384_S_d0 h_S_) main_v63 main_c_24
  let main_v65 : IVec S_ 1 := andi main_v58 main_v64
  let main_c_25 : IVec S_ 32 := constantI S_ 32 0#32
  let main_v66 : IVec S16384 32 := broadcastInDim S16384 ![] bcast_S_S16384 main_c_25
  let main_v67 : IVec S16384 1 := cmpi .sge main_arg1 main_v66
  fn_part4 (F := F) main_arg1 main_v65 main_v67

def fn_part2 {F : FTy → Type} [FloatOps F] (main_arg0 : IVec S16384 32) (main_arg1 : IVec S16384 32) (main_arg9 : FVec F S32 .f32) (main_arg10 : FVec F S32x16 .f32) (main_arg11 : FVec F S16 .f32) (main_arg12 : FVec F S16x1 .f32) (main_arg13 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg10
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg12
  let main_cst_18 : FVec F S_ .f32 := constant S_ .f32 0x7F800000#32
  let main_v50 : FVec F S16x1 .f32 := broadcastInDim S16x1 ![] bcast_S_S16x1 main_cst_18
  fn_part3 (F := F) main_arg0 main_arg1 main_arg13 main_v48 main_v49 main_v50

def fn_part1 {F : FTy → Type} [FloatOps F] (main_arg0 : IVec S16384 32) (main_arg1 : IVec S16384 32) (main_arg6 : FVec F S64x64 .f32) (main_arg7 : FVec F S64 .f32) (main_arg8 : FVec F S64x32 .f32) (main_arg9 : FVec F S32 .f32) (main_arg10 : FVec F S32x16 .f32) (main_arg11 : FVec F S16 .f32) (main_arg12 : FVec F S16x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg0 main_arg1 main_arg9 main_arg10 main_arg11 main_arg12 main_arg13 main_v33

def fn {F : FTy → Type} [FloatOps F] (main_arg0 : IVec S16384 32) (main_arg1 : IVec S16384 32) (main_arg2 : FVec F S100000x128 .f32) (main_arg3 : FVec F S100000x128 .f32) (main_arg4 : FVec F S256x64 .f32) (main_arg5 : FVec F S64 .f32) (main_arg6 : FVec F S64x64 .f32) (main_arg7 : FVec F S64 .f32) (main_arg8 : FVec F S64x32 .f32) (main_arg9 : FVec F S32 .f32) (main_arg10 : FVec F S32x16 .f32) (main_arg11 : FVec F S16 .f32) (main_arg12 : FVec F S16x1 .f32) (main_arg13 : FVec F S1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg6 main_arg7 main_arg8 main_arg9 main_arg10 main_arg11 main_arg12 main_arg13 main_v13 main_v16
-- ==== Kernel.lean ====
abbrev S16384 : Shape := ⟨1, ![16384]⟩
abbrev S100000x128 : Shape := ⟨2, ![100000, 128]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S128x64 : Shape := ⟨2, ![128, 64]⟩
abbrev S1x64 : Shape := ⟨2, ![1, 64]⟩
abbrev S1x32 : Shape := ⟨2, ![1, 32]⟩
abbrev S1x16 : Shape := ⟨2, ![1, 16]⟩
abbrev S1x1 : Shape := ⟨2, ![1, 1]⟩
abbrev S16384x128 : Shape := ⟨2, ![16384, 128]⟩
abbrev S256 : Shape := ⟨1, ![256]⟩
abbrev S256x128 : Shape := ⟨2, ![256, 128]⟩
abbrev S_ : Shape := ⟨0, ![]⟩
abbrev S4096x128 : Shape := ⟨2, ![4096, 128]⟩
abbrev S4096 : Shape := ⟨1, ![4096]⟩
abbrev S4096x64 : Shape := ⟨2, ![4096, 64]⟩
abbrev S4096x32 : Shape := ⟨2, ![4096, 32]⟩
abbrev S4096x16 : Shape := ⟨2, ![4096, 16]⟩
abbrev S16x4096 : Shape := ⟨2, ![16, 4096]⟩
abbrev S16384x1 : Shape := ⟨2, ![16384, 1]⟩

abbrev nBuf : Table → Nat
  | .hbm => 25
  | .local .tc .vmem => 17
  | .local .scVector .vmem => 7
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S128x64, .f32⟩
  | .hbm, ⟨15, _⟩ => ⟨S128x64, .f32⟩
  | .hbm, ⟨16, _⟩ => ⟨S1x64, .f32⟩
  | .hbm, ⟨17, _⟩ => ⟨S1x64, .f32⟩
  | .hbm, ⟨18, _⟩ => ⟨S1x32, .f32⟩
  | .hbm, ⟨19, _⟩ => ⟨S1x16, .f32⟩
  | .hbm, ⟨20, _⟩ => ⟨S1x1, .f32⟩
  | .hbm, ⟨21, _⟩ => ⟨S16384x128, .f32⟩
  | .hbm, ⟨22, _⟩ => ⟨S16384x128, .f32⟩
  | .hbm, ⟨23, _⟩ => ⟨S16384, .f32⟩
  | .hbm, ⟨24, _⟩ => ⟨S16384x1, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S128x64, .f32⟩
  | .local .tc .vmem, ⟨5, _⟩ => ⟨S128x64, .f32⟩
  | .local .tc .vmem, ⟨6, _⟩ => ⟨S1x64, .f32⟩
  | .local .tc .vmem, ⟨7, _⟩ => ⟨S64x64, .f32⟩
  | .local .tc .vmem, ⟨8, _⟩ => ⟨S1x64, .f32⟩
  | .local .tc .vmem, ⟨9, _⟩ => ⟨S64x32, .f32⟩
  | .local .tc .vmem, ⟨10, _⟩ => ⟨S1x32, .f32⟩
  | .local .tc .vmem, ⟨11, _⟩ => ⟨S32x16, .f32⟩
  | .local .tc .vmem, ⟨12, _⟩ => ⟨S1x16, .f32⟩
  | .local .tc .vmem, ⟨13, _⟩ => ⟨S16x1, .f32⟩
  | .local .tc .vmem, ⟨14, _⟩ => ⟨S1x1, .f32⟩
  | .local .tc .vmem, ⟨15, _⟩ => ⟨S4096, .f32⟩
  | .local .tc .vmem, ⟨16, _⟩ => ⟨S4096, .f32⟩
  | .local .scVector .vmem, ⟨0, _⟩ => ⟨S256, .i32⟩
  | .local .scVector .vmem, ⟨1, _⟩ => ⟨S256, .i32⟩
  | .local .scVector .vmem, ⟨2, _⟩ => ⟨S256, .i32⟩
  | .local .scVector .vmem, ⟨3, _⟩ => ⟨S256, .i32⟩
  | .local .scVector .vmem, ⟨4, _⟩ => ⟨S256x128, .f32⟩
  | .local .scVector .vmem, ⟨5, _⟩ => ⟨S256x128, .f32⟩
  | .local .scVector .vmem, ⟨6, _⟩ => ⟨S256x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v8 : Ref sig .tc := ⟨.hbm, 23, rfl⟩
abbrev main_v9 : Ref sig .tc := ⟨.hbm, 24, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v7_0_scv : Ref sig .scVector := ⟨.hbm, 21, rfl⟩
abbrev main_v7_1_scv : Ref sig .scVector := ⟨.hbm, 22, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg13_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem13_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v5 : BitVec 32 := Scalar.addi v2 c256_i32
  ![v5.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_8 : BitVec 32 := 0#32
  ![v2.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_12 : BitVec 32 := 256#32
  let v26 : BitVec 32 := Scalar.addi v2 c256_i32_12
  let c0_i32_13 : BitVec 32 := 0#32
  ![v26.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S16x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S4096 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S256x64_S128x64_0_0 : S256x64.Slices ![0, 0] S128x64
  slices_S256x64_S128x64_128_0 : S256x64.Slices ![128, 0] S128x64
  shapeCasts_S64_S1x64 : S64.ShapeCasts S1x64
  shapeCasts_S32_S1x32 : S32.ShapeCasts S1x32
  shapeCasts_S16_S1x16 : S16.ShapeCasts S1x16
  shapeCasts_S1_S1x1 : S1.ShapeCasts S1x1
  inb_S100000x128_S100000x128_0_0 : ∀ a, (![0, 0] : Fin 2 → Nat) a + S100000x128.size a ≤ S100000x128.size a
  gathers_S100000x128_S256x128 : S100000x128.Gathers 0 S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  transposes_S4096x16_p1_0_S16x4096 : S4096x16.Transposes [1, 0] S16x4096
  inb_S16x1_S16x1_0_0 : ∀ a, (![0, 0] : Fin 2 → Nat) a + S16x1.size a ≤ S16x1.size a
  h_S16x1 : 0 < S16x1.numel
  broadcasts_S16x1_S16x4096 : S16x1.Broadcasts S16x4096
  reduces_S16x4096_S4096 : S16x4096.Reduces [0] S4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096_S4096_0 : ∀ a, (![0] : Fin 1 → Nat) a + S4096.size a ≤ S4096.size a
  h_S4096 : 0 < S4096.numel
  shapeCasts_S16384_S16384x1 : S16384.ShapeCasts S16384x1
  dot_S4096x128_S128x64_S4096x64_1_0_0_1_n_n_wf : DotDims.WF S4096x128 S128x64 S4096x64 [1] [0] [0] [1] [] []
  dot_S4096x64_S64x64_S4096x64_1_0_0_1_n_n_wf : DotDims.WF S4096x64 S64x64 S4096x64 [1] [0] [0] [1] [] []
  dot_S4096x64_S64x32_S4096x32_1_0_0_1_n_n_wf : DotDims.WF S4096x64 S64x32 S4096x32 [1] [0] [0] [1] [] []
  dot_S4096x32_S32x16_S4096x16_1_0_0_1_n_n_wf : DotDims.WF S4096x32 S32x16 S4096x16 [1] [0] [0] [1] [] []
  hcc0_scratch7 : 0 + S_.numel ≤ 27
  hcc0_scratch8 : 1 + S_.numel ≤ 27
  hcc0_scratch9 : 2 + S_.numel ≤ 27
  hcc0_scratch10 : 3 + S_.numel ≤ 27
  hcc0_scratch11 : 4 + S_.numel ≤ 27
  hcc0_scratch12 : 5 + S_.numel ≤ 27
  hcc0_scratch13 : 6 + S_.numel ≤ 27
  hcc0_scratch14 : 7 + S_.numel ≤ 27
  hcc0_scratch15 : 8 + S_.numel ≤ 27
  hcc0_scratch16 : 9 + S_.numel ≤ 27
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S16384.size a
  k0_off2_inb : ∀ i : grid0.Coords, ∀ a, (k0_off2 i) a + S256.size a ≤ S16384.size a
  k0_off3_inb : ∀ i : grid0.Coords, ∀ a, (k0_off3 i) a + S256x128.size a ≤ S16384x128.size a
  k0_off4_inb : ∀ i : grid0.Coords, ∀ a, (k0_off4 i) a + S256x128.size a ≤ S16384x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S16384x128.size a
  hwx1_0 : ∀ i : grid1.Coords, EltTy.bits .f32 = 32 ∨ (Rect.block (s := S16384x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S16384x128.size a
  hwx1_1 : ∀ i : grid1.Coords, EltTy.bits .f32 = 32 ∨ (Rect.block (s := S16384x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x16.size a ≤ S32x16.size a
  hwx1_9 : ∀ i : grid1.Coords, EltTy.bits .f32 = 32 ∨ (Rect.block (s := S32x16) S32x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x16.size a ≤ S1x16.size a
  hwx1_10 : ∀ i : grid1.Coords, EltTy.bits .f32 = 32 ∨ (Rect.block (s := S1x16) S1x16.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S16x1.size a ≤ S16x1.size a
  hwx1_11 : ∀ i : grid1.Coords, EltTy.bits .f32 = 32 ∨ (Rect.block (s := S16x1) S16x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S4096.size a ≤ S16384.size a
  hwx1_13 : ∀ i : grid1.Coords, EltTy.bits .f32 = 32 ∨ (Rect.block (s := S16384) S4096.size (cc1_transform_13 i) (hinb1_13 i)).WholeWords (EltTy.packing .f32)

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf

abbrev win1_0 : Pipeline.Window sig grid1 :=
  Pipeline.Window.ofSpec (Memref.whole main_v7_0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S32x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5) S1x16.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S16x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v6) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v8) S4096.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S16384 : Shape := ⟨1, ![16384]⟩
abbrev S100000x128 : Shape := ⟨2, ![100000, 128]⟩
abbrev S256x64 : Shape := ⟨2, ![256, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x16 : Shape := ⟨2, ![16384, 16]⟩
abbrev S1x16 : Shape := ⟨2, ![1, 16]⟩

abbrev nBuf : Space → Nat
  | .hbm => 109
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1, .i32⟩
  | .hbm, ⟨23, _⟩ => ⟨S_, .i32⟩
  | .hbm, ⟨24, _⟩ => ⟨S16384x1, .i32⟩
  | .hbm, ⟨25, _⟩ => ⟨S16384x1, .i1⟩
  | .hbm, ⟨26, _⟩ => ⟨S1x1, .i32⟩
  | .hbm, ⟨27, _⟩ => ⟨S16384x1, .i32⟩
  | .hbm, ⟨28, _⟩ => ⟨S16384x1, .i1⟩
  | .hbm, ⟨29, _⟩ => ⟨S16384x1, .i1⟩
  | .hbm, ⟨30, _⟩ => ⟨S_, .i1⟩
  | .hbm, ⟨31, _⟩ => ⟨S16384, .i1⟩
  | .hbm, ⟨32, _⟩ => ⟨S16384x128, .f32⟩
  | .hbm, ⟨33, _⟩ => ⟨S16384x128, .i1⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S1, .i32⟩
  | .hbm, ⟨46, _⟩ => ⟨S_, .i32⟩
  | .hbm, ⟨47, _⟩ => ⟨S16384x1, .i32⟩
  | .hbm, ⟨48, _⟩ => ⟨S16384x1, .i1⟩
  | .hbm, ⟨49, _⟩ => ⟨S1x1, .i32⟩
  | .hbm, ⟨50, _⟩ => ⟨S16384x1, .i32⟩
  | .hbm, ⟨51, _⟩ => ⟨S16384x1, .i1⟩
  | .hbm, ⟨52, _⟩ => ⟨S16384x1, .i1⟩
  | .hbm, ⟨53, _⟩ => ⟨S_, .i1⟩
  | .hbm, ⟨54, _⟩ => ⟨S16384, .i1⟩
  | .hbm, ⟨55, _⟩ => ⟨S16384x128, .f32⟩
  | .hbm, ⟨56, _⟩ => ⟨S16384x128, .i1⟩
  | .hbm, ⟨57, _⟩ => ⟨S_, .f32⟩
  | .hbm, ⟨58, _⟩ => ⟨S16384x128, .f32⟩
  | .hbm, ⟨59, _⟩ => ⟨S16384x128, .f32⟩
  | .hbm, ⟨60, _⟩ => ⟨S16384x256, .f32⟩
  | .hbm, ⟨61, _⟩ => ⟨S16384x64, .f32⟩
  | .hbm, ⟨62, _⟩ => ⟨S1x64, .f32⟩
  | .hbm, ⟨63, _⟩ => ⟨S16384x64, .f32⟩
  | .hbm, ⟨64, _⟩ => ⟨S16384x64, .f32⟩
  | .hbm, ⟨65, _⟩ => ⟨S_, .f32⟩
  | .hbm, ⟨66, _⟩ => ⟨S16384x64, .f32⟩
  | .hbm, ⟨67, _⟩ => ⟨S16384x64, .i1⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x64, .f32⟩
  | .hbm, ⟨76, _⟩ => ⟨S_, .f32⟩
  | .hbm, ⟨77, _⟩ => ⟨S16384x64, .f32⟩
  | .hbm, ⟨78, _⟩ => ⟨S16384x64, .i1⟩
  | .hbm, ⟨79, _⟩ => ⟨S_, .f32⟩
  | .hbm, ⟨80, _⟩ => ⟨S16384x64, .f32⟩
  | .hbm, ⟨81, _⟩ => ⟨S16384x64, .f32⟩
  | .hbm, ⟨82, _⟩ => ⟨S16384x64, .f32⟩
  | .hbm, ⟨83, _⟩ => ⟨S16384x32, .f32⟩
  | .hbm, ⟨84, _⟩ => ⟨S1x32, .f32⟩
  | .hbm, ⟨85, _⟩ => ⟨S16384x32, .f32⟩
  | .hbm, ⟨86, _⟩ => ⟨S16384x32, .f32⟩
  | .hbm, ⟨87, _⟩ => ⟨S_, .f32⟩
  | .hbm, ⟨88, _⟩ => ⟨S16384x32, .f32⟩
  | .hbm, ⟨89, _⟩ => ⟨S16384x32, .i1⟩
  | .hbm, ⟨90, _⟩ => ⟨S_, .f32⟩
  | .hbm, ⟨91, _⟩ => ⟨S16384x32, .f32⟩
  | .hbm, ⟨92, _⟩ => ⟨S16384x32, .f32⟩
  | .hbm, ⟨93, _⟩ => ⟨S16384x32, .f32⟩
  | .hbm, ⟨94, _⟩ => ⟨S16384x16, .f32⟩
  | .hbm, ⟨95, _⟩ => ⟨S1x16, .f32⟩
  | .hbm, ⟨96, _⟩ => ⟨S16384x16, .f32⟩
  | .hbm, ⟨97, _⟩ => ⟨S16384x16, .f32⟩
  | .hbm, ⟨98, _⟩ => ⟨S_, .f32⟩
  | .hbm, ⟨99, _⟩ => ⟨S16384x16, .f32⟩
  | .hbm, ⟨100, _⟩ => ⟨S16384x16, .i1⟩
  | .hbm, ⟨101, _⟩ => ⟨S_, .f32⟩
  | .hbm, ⟨102, _⟩ => ⟨S16384x16, .f32⟩
  | .hbm, ⟨103, _⟩ => ⟨S16384x16, .f32⟩
  | .hbm, ⟨104, _⟩ => ⟨S16384x16, .f32⟩
  | .hbm, ⟨105, _⟩ => ⟨S16384x1, .f32⟩
  | .hbm, ⟨106, _⟩ => ⟨S1x1, .f32⟩
  | .hbm, ⟨107, _⟩ => ⟨S16384x1, .f32⟩
  | .hbm, ⟨108, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_cst : Ref sig .tc := ⟨.hbm, 65, rfl⟩
abbrev main_v7 : Ref sig .tc := ⟨.hbm, 66, rfl⟩
abbrev main_v8 : Ref sig .tc := ⟨.hbm, 67, rfl⟩
abbrev main_cst_0 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_cst_1 : Ref sig .tc := ⟨.hbm, 76, rfl⟩
abbrev main_v16 : Ref sig .tc := ⟨.hbm, 77, rfl⟩
abbrev main_v17 : Ref sig .tc := ⟨.hbm, 78, rfl⟩
abbrev main_cst_2 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_cst_3 : Ref sig .tc := ⟨.hbm, 87, rfl⟩
abbrev main_v25 : Ref sig .tc := ⟨.hbm, 88, rfl⟩
abbrev main_v26 : Ref sig .tc := ⟨.hbm, 89, rfl⟩
abbrev main_cst_4 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_5 : Ref sig .tc := ⟨.hbm, 98, rfl⟩
abbrev main_v34 : Ref sig .tc := ⟨.hbm, 99, rfl⟩
abbrev main_v35 : Ref sig .tc := ⟨.hbm, 100, rfl⟩
abbrev main_cst_6 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x256_d1 : Shape.Concatenates [S16384x128, S16384x128] S16384x256 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  gather_S100000x128_S16384x1_S16384x128_1_0_n_n_0_1_1128_wf : GatherDims.WF S100000x128 S16384x1 S16384x128 [1] [0] [] [0] [] 1 ![1, 128]
  dot_S16384x256_S256x64_S16384x64_1_0_0_1_n_n_wf : DotDims.WF S16384x256 S256x64 S16384x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x32_S32x16_S16384x16_1_0_0_1_n_n_wf : DotDims.WF S16384x32 S32x16 S16384x16 [1] [0] [0] [1] [] []
  dot_S16384x16_S16x1_S16384x1_1_0_0_1_n_n_wf : DotDims.WF S16384x16 S16x1 S16384x1 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.IdealCommon.lean ====
/-
  The idealized kernel program as the SparseCore launch theorem sees it: its call table, body table and variants, the
  resource algebra of the proof (the launch handshakes' rounds, the TensorCore pipeline's staging cells' rounds, and the
  counters of local transfers), and the locations of the arrays the two kernels move.
-/
import proofs.«207198_g34918084116659_cont_8to1_b_1870_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207198_g34918084116659_cont_8to1_b_1870_22_alg».proof.Proof.Gen.KernelIdeal
import proofs.«207198_g34918084116659_cont_8to1_b_1870_22_alg».proof.Proof.Gen.KernelIdeal.Skeleton
import proofs.«207198_g34918084116659_cont_8to1_b_1870_22_alg».proof.Proof.Gen.KernelIdeal.Launch
import proofs.«207198_g34918084116659_cont_8to1_b_1870_22_alg».proof.Proof.Gen.KernelIdeal.Points

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipeline's rounds library: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

abbrev uidLoc (d : Dev nD) : Loc nD τ sig := (SparseCore.T d).loc main_arg0
abbrev iidLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev ouLoc (d : Dev nD) : Loc nD τ sig := (SparseCore.T d).loc main_v7_0
abbrev oiLoc (d : Dev nD) : Loc nD τ sig := (SparseCore.T d).loc main_v7_1

end Cert.KernelIdeal.Launch

end
-- ==== Proof.GatherSpec.lean ====
/-
  The gathered array: row r of the result is the row of the table that the r-th index word names (the word reduced
  modulo the table's extent, which changes nothing for a word in range).
-/
import Idealize.ShloMosaic.Lib.ValueIdx
import Idealize.ShloMosaic.PureOps

noncomputable section

namespace Cert.GatherSpec

open Idealize.ShloMosaic Idealize.ShloMosaic.ValueIdx

/-- Row `j 0` of the result is row `idx[j 0] mod 100000` of the table. -/
def gath {α : Type} (tab : (⟨2, ![100000, 128]⟩ : Shape).Idx → α) (idx : (⟨1, ![16384]⟩ : Shape).Idx → BitVec 32) :
    (⟨2, ![16384, 128]⟩ : Shape).Idx → α :=
  fun j => tab (ix2 (⟨(idx (ix1 (j 0))).toNat % 100000, Nat.mod_lt _ (by decide)⟩ : Fin 100000) (j 1))

theorem gath_apply {α : Type} (tab : (⟨2, ![100000, 128]⟩ : Shape).Idx → α) (idx : (⟨1, ![16384]⟩ : Shape).Idx → BitVec 32)
    (r : Fin 16384) (k : Fin 128) (h : (idx (ix1 r)).toNat < 100000) :
    gath tab idx (ix2 r k) = tab (ix2 (⟨(idx (ix1 r)).toNat, h⟩ : Fin 100000) k) := by
  unfold gath
  congr 1
  have e : (ix2 r k : (⟨2, ![16384, 128]⟩ : Shape).Idx) 0 = r := rfl
  have e1 : (ix2 r k : (⟨2, ![16384, 128]⟩ : Shape).Idx) 1 = k := rfl
  rw [e1]
  congr 1
  apply Fin.ext
  show (idx (ix1 ((ix2 r k : (⟨2, ![16384, 128]⟩ : Shape).Idx) 0))).toNat % 100000 = _
  rw [e]
  exact Nat.mod_eq_of_lt h

end Cert.GatherSpec

end
-- ==== Proof.IdealGathered.lean ====
/-
  The two gathered arrays, as functions of the launch memory: the result arrays of the gather kernel once every
  task has run.
-/
import proofs.«207198_g34918084116659_cont_8to1_b_1870_22_alg».proof.Proof.IdealCommon
import proofs.«207198_g34918084116659_cont_8to1_b_1870_22_alg».proof.Proof.GatherSpec

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The gathered arrays, whole. -/
abbrev Gu (d : Dev nD) : Buf (Elt F) (ouLoc d) := Cert.GatherSpec.gath (m (utLoc d)) (m (uidLoc d))
abbrev Gi (d : Dev nD) : Buf (Elt F) (oiLoc d) := Cert.GatherSpec.gath (m (itLoc d)) (m (iidLoc d))

end Cert.KernelIdeal.Launch

end
-- ==== Proof.IdealMlpBody.lean ====
/-
  The multilayer-perceptron kernel's body on whole staging buffers: what it leaves in the output's staging buffer,
  as the canonical contents of its one store over the two payloads of the inputs' loaded contents, and the
  triple of the body from the fourteen buffers held whole.
-/
import proofs.«207198_g34918084116659_cont_8to1_b_1870_22_alg».proof.Proof.IdealCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.MlpRegion

open Cert.KernelIdeal Cert.KernelIdeal.Gen Cert.KernelIdeal.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: every load and the one store are of a whole buffer -/

abbrev rA : Rect S4096x128 := Rect.unit (s := S4096x128) ![0, 0] S4096x128.size inb_S4096x128_S4096x128_0_0
abbrev rW1 : Rect S128x64 := Rect.unit (s := S128x64) ![0, 0] S128x64.size inb_S128x64_S128x64_0_0
abbrev rB1 : Rect S1x64 := Rect.unit (s := S1x64) ![0, 0] S1x64.size inb_S1x64_S1x64_0_0
abbrev rW2 : Rect S64x64 := Rect.unit (s := S64x64) ![0, 0] S64x64.size inb_S64x64_S64x64_0_0
abbrev rW3 : Rect S64x32 := Rect.unit (s := S64x32) ![0, 0] S64x32.size inb_S64x32_S64x32_0_0
abbrev rB3 : Rect S1x32 := Rect.unit (s := S1x32) ![0, 0] S1x32.size inb_S1x32_S1x32_0_0
abbrev rW4 : Rect S32x16 := Rect.unit (s := S32x16) ![0, 0] S32x16.size inb_S32x16_S32x16_0_0
abbrev rB4 : Rect S1x16 := Rect.unit (s := S1x16) ![0, 0] S1x16.size inb_S1x16_S1x16_0_0
abbrev rW5 : Rect S16x1 := Rect.unit (s := S16x1) ![0, 0] S16x1.size inb_S16x1_S16x1_0_0
abbrev rB5 : Rect S1x1 := Rect.unit (s := S1x1) ![0, 0] S1x1.size inb_S1x1_S1x1_0_0
abbrev rO : Rect S4096 := Rect.unit (s := S4096) ![0] S4096.size inb_S4096_S4096_0

/-- The output's staging buffer after the body, from the thirteen inputs' buffers: its one store as a piece. -/
def out13 (x0 x1 : Vec F S4096x128 .f32) (x2 x3 : Vec F S128x64 .f32) (x4 : Vec F S1x64 .f32) (x5 : Vec F S64x64 .f32)
    (x6 : Vec F S1x64 .f32) (x7 : Vec F S64x32 .f32) (x8 : Vec F S1x32 .f32) (x9 : Vec F S32x16 .f32) (x10 : Vec F S1x16 .f32)
    (x11 : Vec F S16x1 .f32) (x12 : Vec F S1x1 .f32) : Vec F S4096 .f32 :=
  View.canon [⟨rO, k1_pay1 (k1_pay2 (View.ld x0 rA) (View.ld x2 rW1) (View.ld x1 rA) (View.ld x3 rW1) (View.ld x4 rB1) (View.ld x5 rW2) (View.ld x6 rB1))
    (View.ld x7 rW3) (View.ld x8 rB3) (View.ld x9 rW4) (View.ld x10 rB4) (View.ld x11 rW5) (View.ld x12 rB5)⟩]

/-- The store tiles the buffer, so it covers it. -/
theorem cover13 (p0 : Vec F S4096 .f32) (y : S4096.Idx) :
    ∃ pc ∈ ([⟨rO, p0⟩] : List (View.Piece (Elt F) S4096 .f32)), y ∈ pc.1.set :=
  View.cover_of_tiled [⟨rO, p0⟩] S4096.size (by rfl) y

set_option maxHeartbeats 1000000 in
/-- The body on whole staging memrefs, the inputs' at contents `x0 … x12` and the output's at anything, runs to the
    continuation holding the inputs' as they were and the output's at `out13` of them. -/
theorem sound_kernel (c : Dev nD) (E : Set ℕ) (i : grid1.Coords)
    (a0 : Memref sig .tc .vmem S4096x128 .f32) (h0 : a0.IsWhole) (a1 : Memref sig .tc .vmem S4096x128 .f32) (h1 : a1.IsWhole)
    (a2 : Memref sig .tc .vmem S128x64 .f32) (h2 : a2.IsWhole) (a3 : Memref sig .tc .vmem S128x64 .f32) (h3 : a3.IsWhole)
    (a4 : Memref sig .tc .vmem S1x64 .f32) (h4 : a4.IsWhole) (a5 : Memref sig .tc .vmem S64x64 .f32) (h5 : a5.IsWhole)
    (a6 : Memref sig .tc .vmem S1x64 .f32) (h6 : a6.IsWhole) (a7 : Memref sig .tc .vmem S64x32 .f32) (h7 : a7.IsWhole)
    (a8 : Memref sig .tc .vmem S1x32 .f32) (h8 : a8.IsWhole) (a9 : Memref sig .tc .vmem S32x16 .f32) (h9 : a9.IsWhole)
    (a10 : Memref sig .tc .vmem S1x16 .f32) (h10 : a10.IsWhole) (a11 : Memref sig .tc .vmem S16x1 .f32) (h11 : a11.IsWhole)
    (a12 : Memref sig .tc .vmem S1x1 .f32) (h12 : a12.IsWhole) (a13 : Memref sig .tc .vmem S4096 .f32) (h13 : a13.IsWhole)
    (x0 x1 : Vec F S4096x128 .f32) (x2 x3 : Vec F S128x64 .f32) (x4 : Vec F S1x64 .f32) (x5 : Vec F S64x64 .f32)
    (x6 : Vec F S1x64 .f32) (x7 : Vec F S64x32 .f32) (x8 : Vec F S1x32 .f32) (x9 : Vec F S32x16 .f32) (x10 : Vec F S1x16 .f32)
    (x11 : Vec F S16x1 .f32) (x12 : Vec F S1x1 .f32) (Kk : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ owns (c : Thread nD τ) a9 fullShare x9 ∗ owns (c : Thread nD τ) a10 fullShare x10 ∗ owns (c : Thread nD τ) a11 fullShare x11
        ∗ owns (c : Thread nD τ) a12 fullShare x12 ∗ (∃ d, owns (c : Thread nD τ) a13 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare x9 ∗ owns (c : Thread nD τ) a10 fullShare x10 ∗ owns (c : Thread nD τ) a11 fullShare x11
            ∗ owns (c : Thread nD τ) a12 fullShare x12
            ∗ owns (c : Thread nD τ) a13 fullShare (out13 x0 x1 x2 x3 x4 x5 x6 x7 x8 x9 x10 x11 x12)) -∗ Kk ⟨⟩))
      ⊢ wp frame (wpE (defs₀ (F := F)) Variants.none c none) E
          (cc1__mlp_body i a0 h0 a1 h1 a2 h2 a3 h3 a4 h4 a5 h5 a6 h6 a7 h7 a8 h8 a9 h9 a10 h10 a11 h11 a12 h12 a13 h13) Kk := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover13 _)

end Cert.KernelIdeal.MlpRegion

end
-- ==== Proof.IdealMlpDefs.lean ====
/-
  The multilayer-perceptron kernel region's vocabulary: the arrays its windows move, and its result as one function
  of those arrays — row by row, the body's result on the block of rows that holds the row.
-/
import proofs.«207198_g34918084116659_cont_8to1_b_1870_22_alg».proof.Proof.IdealMlpBody
import Idealize.ShloMosaic.Lib.ValueIdx

set_option maxRecDepth 16384

noncomputable section

namespace Cert.KernelIdeal.MlpRegion

open Cert.KernelIdeal Cert.KernelIdeal.Gen Cert.KernelIdeal.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

/-- The prefetched tables' admissible contents: no table. -/
abbrev adm : (p : Fin 1) → (pcfgs (F := F) p).Adm := fun p => (cfgs p).toPCfg_adm

/-- The fourteen arrays the region's windows move. -/
def Sreg : Finset (DevRef τ sig) :=
  {Proc.devRef .tc main_v7_0, Proc.devRef .tc main_v7_1, Proc.devRef .tc main_v0, Proc.devRef .tc main_v1, Proc.devRef .tc main_v2,
   Proc.devRef .tc main_arg6, Proc.devRef .tc main_v3, Proc.devRef .tc main_arg8, Proc.devRef .tc main_v4, Proc.devRef .tc main_arg10,
   Proc.devRef .tc main_v5, Proc.devRef .tc main_arg12, Proc.devRef .tc main_v6, Proc.devRef .tc main_v8}

/-- The output array. -/
abbrev v8' : DevRef τ sig := Proc.devRef .tc main_v8

/-- The windows' arrays are pairwise distinct buffers. -/
theorem arrDev_inj : Function.Injective fun w : Fin 14 => (Proc.devRef .tc (Pipeline.arrRef spec1 w) : DevRef τ sig) := by decide

/-- The fourteen arrays are the windows' arrays. -/
theorem Sreg_eq : Sreg = Finset.univ.map ⟨fun w : Fin 14 => (Proc.devRef .tc (Pipeline.arrRef spec1 w) : DevRef τ sig), arrDev_inj⟩ := by decide

/-! ## The region's result as one function of the arrays -/

/-- The grid point whose output block holds row `j`, and the row's place in the block. -/
def tOf (j : S16384.Idx) : Fin cfg1.N := ⟨(j 0).val / 4096, by have h : (j 0).val < 16384 := (j 0).isLt; show (j 0).val / 4096 < 4; omega⟩
def rOf (j : S16384.Idx) : Fin 4096 := ⟨(j 0).val % 4096, Nat.mod_lt _ (by decide)⟩

/-- The body's result on block `t` of the two gathered arrays and the eleven weight arrays. -/
def mlpRow (u i : Vec F S16384x128 .f32) (w1a w1b : Vec F S128x64 .f32) (b1 : Vec F S1x64 .f32) (w2 : Vec F S64x64 .f32)
    (b2 : Vec F S1x64 .f32) (w3 : Vec F S64x32 .f32) (b3 : Vec F S1x32 .f32) (w4 : Vec F S32x16 .f32) (b4 : Vec F S1x16 .f32)
    (w5 : Vec F S16x1 .f32) (b5 : Vec F S1x1 .f32) (t : Fin cfg1.N) : Vec F S4096 .f32 :=
  out13 (((cfg1.win 0).blk t).view.read (Elt F) u) (((cfg1.win 1).blk t).view.read (Elt F) i) w1a w1b b1 w2 b2 w3 b3 w4 b4 w5 b5

/-- Row `j` of the result: with `t = j / 4096` the grid point whose block holds the row and `r = j % 4096` the row's place in
    it, the body's result on block `t`, at `r`. -/
def mlpOut (u i : Vec F S16384x128 .f32) (w1a w1b : Vec F S128x64 .f32) (b1 : Vec F S1x64 .f32) (w2 : Vec F S64x64 .f32)
    (b2 : Vec F S1x64 .f32) (w3 : Vec F S64x32 .f32) (b3 : Vec F S1x32 .f32) (w4 : Vec F S32x16 .f32) (b4 : Vec F S1x16 .f32)
    (w5 : Vec F S16x1 .f32) (b5 : Vec F S1x1 .f32) : Vec F S16384 .f32 := fun j =>
  mlpRow u i w1a w1b b1 w2 b2 w3 b3 w4 b4 w5 b5 (tOf j) (ix1 (rOf j))

/-- The result at a row that sits at place `y` of block `t`. -/
theorem mlpOut_at (u i : Vec F S16384x128 .f32) (w1a w1b : Vec F S128x64 .f32) (b1 : Vec F S1x64 .f32) (w2 : Vec F S64x64 .f32)
    (b2 : Vec F S1x64 .f32) (w3 : Vec F S64x32 .f32) (b3 : Vec F S1x32 .f32) (w4 : Vec F S32x16 .f32) (b4 : Vec F S1x16 .f32)
    (w5 : Vec F S16x1 .f32) (b5 : Vec F S1x1 .f32) (t : Fin cfg1.N) (j : S16384.Idx) (y : S4096.Idx) (h : (j 0).val = 4096 * t.val + (y 0).val) :
    mlpOut u i w1a w1b b1 w2 b2 w3 b3 w4 b4 w5 b5 j = mlpRow u i w1a w1b b1 w2 b2 w3 b3 w4 b4 w5 b5 t y := by
  have hy0 : (y 0).val < 4096 := (y 0).isLt
  have ht : tOf j = t := Fin.ext (by show (j 0).val / 4096 = t.val; omega)
  have hy : ix1 (rOf j) = y := by
    funext a
    match a with
    | ⟨0, _⟩ => exact Fin.ext (by show (j 0).val % 4096 = (y 0).val; omega)
  show mlpRow u i w1a w1b b1 w2 b2 w3 b3 w4 b4 w5 b5 (tOf j) (ix1 (rOf j)) = _
  rw [ht, hy]

variable (Vv : Valuation τ sig (Elt F)) (W : Waits sig (HIx 1))

/-- The region's result at the entry valuation. -/
abbrev mlpOutV : Vec F S16384 .f32 :=
  mlpOut (Vv (Proc.devRef .tc main_v7_0)) (Vv (Proc.devRef .tc main_v7_1)) (Vv (Proc.devRef .tc main_v0)) (Vv (Proc.devRef .tc main_v1))
    (Vv (Proc.devRef .tc main_v2)) (Vv (Proc.devRef .tc main_arg6)) (Vv (Proc.devRef .tc main_v3)) (Vv (Proc.devRef .tc main_arg8))
    (Vv (Proc.devRef .tc main_v4)) (Vv (Proc.devRef .tc main_arg10)) (Vv (Proc.devRef .tc main_v5)) (Vv (Proc.devRef .tc main_arg12))
    (Vv (Proc.devRef .tc main_v6))

/-- The valuation the region leaves: the output array at the result, every other array as it was. -/
abbrev Vout : Valuation τ sig (Elt F) := Function.update Vv v8' (mlpOutV Vv)

end Cert.KernelIdeal.MlpRegion

end
-- ==== Proof.IdealMainDefs.lean ====
/-
  @main of the kernel program on the TensorCore, as values: the host operations before and after the two kernel
  calls, and the valuation of @main's arrays after each stretch — the launch contents, then the seven slices and reshapes
  of the weights, then the two gathered arrays, then the multilayer perceptron's result, then its reshape to a column.
-/
import proofs.«207198_g34918084116659_cont_8to1_b_1870_22_alg».proof.Proof.IdealGathered
import proofs.«207198_g34918084116659_cont_8to1_b_1870_22_alg».proof.Proof.IdealMlpDefs

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sub_split held_congr held_sdiff_result wp_hlo_within)

variable (m : (ℓ : Loc nD τ sig) → Buf (Elt F) ℓ)

variable [FloatOps F]

/-! ## The host operations -/

abbrev op0 : HloOp τ sig (Elt F) := StableHlo.unary main_arg4 main_v0 ((extractStridedSlice S128x64 ![0, 0] · slices_S256x64_S128x64_0_0) : (⟨S256x64, .f32⟩ : BufTy).Contents (Elt F) → (⟨S128x64, .f32⟩ : BufTy).Contents (Elt F))
abbrev op1 : HloOp τ sig (Elt F) := StableHlo.unary main_arg4 main_v1 ((extractStridedSlice S128x64 ![128, 0] · slices_S256x64_S128x64_128_0) : (⟨S256x64, .f32⟩ : BufTy).Contents (Elt F) → (⟨S128x64, .f32⟩ : BufTy).Contents (Elt F))
abbrev op2 : HloOp τ sig (Elt F) := StableHlo.reshape main_arg5 main_v2 rfl shapeCasts_S64_S1x64
abbrev op3 : HloOp τ sig (Elt F) := StableHlo.reshape main_arg7 main_v3 rfl shapeCasts_S64_S1x64
abbrev op4 : HloOp τ sig (Elt F) := StableHlo.reshape main_arg9 main_v4 rfl shapeCasts_S32_S1x32
abbrev op5 : HloOp τ sig (Elt F) := StableHlo.reshape main_arg11 main_v5 rfl shapeCasts_S16_S1x16
abbrev op6 : HloOp τ sig (Elt F) := StableHlo.reshape main_arg13 main_v6 rfl shapeCasts_S1_S1x1
abbrev op9 : HloOp τ sig (Elt F) := StableHlo.reshape main_v8 main_v9 rfl shapeCasts_S16384_S16384x1

/-! ## @main's arrays -/

/-- The TensorCore's unscoped buffers: @main's arrays. -/
def Sall : Finset (DevRef τ sig) :=
  (Finset.univ.filter fun b : Ref sig .tc => ¬ b.isScoped).map ⟨Proc.devRef .tc, Proc.devRef_injective _⟩

abbrev ou' : DevRef τ sig := Proc.devRef .tc (main_v7_0 : Ref sig .tc)
abbrev oi' : DevRef τ sig := Proc.devRef .tc (main_v7_1 : Ref sig .tc)

/-- The launch contents; -/
def V0 (d : Dev nD) : Valuation τ sig (Elt F) := fun b => m (d, b)
/-- after the seven host operations on the weights; -/
def V1 (d : Dev nD) : Valuation τ sig (Elt F) :=
  (op6 (F := F)).result ((op5 (F := F)).result ((op4 (F := F)).result ((op3 (F := F)).result ((op2 (F := F)).result
    ((op1 (F := F)).result ((op0 (F := F)).result (V0 m d)))))))
/-- after the gather kernel: its two results at the gathered arrays; -/
def V2 (d : Dev nD) : Valuation τ sig (Elt F) := Function.update (Function.update (V1 m d) ou' (Gu m d)) oi' (Gi m d)
/-- after the multilayer-perceptron region: its result array; -/
def V3 (d : Dev nD) : Valuation τ sig (Elt F) := MlpRegion.Vout (V2 m d)
/-- after the last reshape. -/
def V4 (d : Dev nD) : Valuation τ sig (Elt F) := (op9 (F := F)).result (V3 m d)

end Cert.KernelIdeal.Launch

end
-- ==== Proof.PreDecode.lean ====
/-
  The precondition read back: both index arrays lie in the tables' row range.

  The precondition is a conjunction (a chain of `and`s of one-bit words) whose last two conjuncts say, of the user
  and of the item index array, that every entry `v` satisfies `0 ≤ v` and `v ≤ 99999` as signed 32-bit words. If the
  whole conjunction is 1, each conjunct is 1; a conjunct is a reduction by `and` over all entries, so each entry's
  pair of comparisons is 1; and a signed word between 0 and 99999 is, read unsigned, below 100000.
-/
import proofs.«207198_g34918084116659_cont_8to1_b_1870_22_alg».proof.Pre_input_domain
import Idealize.ShloMosaic.Lib.ReduceAll

noncomputable section

namespace Cert.PreDecode

open Idealize.ShloMosaic Cert.Pre_input_domain

/-- A signed 32-bit word with `0 ≤ v` and `v ≤ 99999` is, as a natural number, below 100000. -/
theorem range_of_cmp (v : BitVec 32)
    (e : IntOp.andi (IntOp.cmpi .sge v 0#32) (IntOp.cmpi .sle v 99999#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- Under the precondition every user index and every item index is below 100000. -/
theorem idx_in_range {F : FTy → Type} [FloatOps F] (a0 : IVec S16384 32) (a1 : IVec S16384 32)
    (a2 : FVec F S100000x128 .f32) (a3 : FVec F S100000x128 .f32) (a4 : FVec F S256x64 .f32) (a5 : FVec F S64 .f32)
    (a6 : FVec F S64x64 .f32) (a7 : FVec F S64 .f32) (a8 : FVec F S64x32 .f32) (a9 : FVec F S32 .f32)
    (a10 : FVec F S32x16 .f32) (a11 : FVec F S16 .f32) (a12 : FVec F S16x1 .f32) (a13 : FVec F S1 .f32) [Facts]
    (h : fn (F := F) a0 a1 a2 a3 a4 a5 a6 a7 a8 a9 a10 a11 a12 a13 = fun _ => 1#1) :
    (∀ j, (a0 j).toNat < 100000) ∧ (∀ j, (a1 j).toNat < 100000) := by
  haveI : Subsingleton S_.Idx := ⟨fun _ _ => funext fun x => x.elim0⟩
  have e := congrFun h (fun x => x.elim0)
  simp only [fn, fn_part1, fn_part2, fn_part3, fn_part4] at e
  obtain ⟨e1, e2⟩ := IntOp.andi_eq_one.1 e
  obtain ⟨_, e3⟩ := IntOp.andi_eq_one.1 e1
  refine ⟨fun j => ?_, fun j => ?_⟩
  · exact range_of_cmp _ (Host.reduce_andi_all _ _ _ _ _ e3 j)
  · exact range_of_cmp _ (Host.reduce_andi_all _ _ _ _ _ e2 j)

end Cert.PreDecode

end
-- ==== Proof.IdealGlueFrame.lean ====
import proofs.«207198_g34918084116659_cont_8to1_b_1870_22_alg».proof.Proof.IdealMainDefs
import proofs.«207198_g34918084116659_cont_8to1_b_1870_22_alg».proof.Proof.PreDecode

/-! The kernel program's run, read at @main's arguments.

The program's host operations and its two kernels write eleven arrays, none of them an argument: an argument's
contents after the run are its launch contents. With the precondition read back into the index ranges the run
needs, this is the program's frame. -/

noncomputable section

namespace Cert.KernelIdeal.Glue

open Cert.KernelIdeal Cert.KernelIdeal.Gen Cert.KernelIdeal.Launch
open Idealize.ShloMosaic Idealize.SL.Sem Idealize.ShloMosaic.StableHlo

variable {F : FTy → Type} [FloatOps F]

/-- The arrays the host operations and the two kernels write. -/
abbrev Wr : List (Ref sig .tc) :=
  [main_v0, main_v1, main_v2, main_v3, main_v4, main_v5, main_v6, main_v7_0, main_v7_1, main_v8, main_v9]

/-- An array none of them writes ends at its launch contents. -/
theorem V4_keep (m : (ℓ : Loc nD τ sig) → Buf (Elt F) ℓ) (d : Dev nD) (r : Ref sig .tc) (h : r ∉ Wr) :
    V4 m d (Proc.devRef .tc r) = m (d, Proc.devRef .tc r) := by
  have ne : ∀ y, y ∈ Wr → r ≠ y := fun y hy e => h (e ▸ hy)
  calc V4 m d (Proc.devRef .tc r) = V3 m d (Proc.devRef .tc r) :=
        reshape_result_ne _ _ _ _ _ _ _ (ne main_v9 (by decide))
    _ = V2 m d (Proc.devRef .tc r) := Function.update_of_ne (devRef_ne_of_ne (ne main_v8 (by decide))) _ _
    _ = V1 m d (Proc.devRef .tc r) := by
        unfold V2
        rw [Function.update_of_ne (devRef_ne_of_ne (ne main_v7_1 (by decide))),
          Function.update_of_ne (devRef_ne_of_ne (ne main_v7_0 (by decide)))]
    _ = V0 m d (Proc.devRef .tc r) := by
        unfold V1
        rw [reshape_result_ne _ _ _ _ _ _ _ (ne main_v6 (by decide)), reshape_result_ne _ _ _ _ _ _ _ (ne main_v5 (by decide)),
          reshape_result_ne _ _ _ _ _ _ _ (ne main_v4 (by decide)), reshape_result_ne _ _ _ _ _ _ _ (ne main_v3 (by decide)),
          reshape_result_ne _ _ _ _ _ _ _ (ne main_v2 (by decide)), unary_result_ne _ _ _ _ _ _ (ne main_v1 (by decide)),
          unary_result_ne _ _ _ _ _ _ (ne main_v0 (by decide))]
    _ = m (d, Proc.devRef .tc r) := rfl

/-- An array the seven host operations on the weights do not write is, after them, at its launch contents. -/
theorem V1_keep (m : (ℓ : Loc nD τ sig) → Buf (Elt F) ℓ) (d : Dev nD) (r : Ref sig .tc)
    (h : r ∉ ([main_v0, main_v1, main_v2, main_v3, main_v4, main_v5, main_v6] : List (Ref sig .tc))) :
    V1 m d (Proc.devRef .tc r) = m (d, Proc.devRef .tc r) := by
  have ne : ∀ y, y ∈ ([main_v0, main_v1, main_v2, main_v3, main_v4, main_v5, main_v6] : List (Ref sig .tc)) → r ≠ y :=
    fun y hy e => h (e ▸ hy)
  unfold V1
  rw [reshape_result_ne _ _ _ _ _ _ _ (ne main_v6 (by decide)), reshape_result_ne _ _ _ _ _ _ _ (ne main_v5 (by decide)),
    reshape_result_ne _ _ _ _ _ _ _ (ne main_v4 (by decide)), reshape_result_ne _ _ _ _ _ _ _ (ne main_v3 (by decide)),
    reshape_result_ne _ _ _ _ _ _ _ (ne main_v2 (by decide)), unary_result_ne _ _ _ _ _ _ (ne main_v1 (by decide)),
    unary_result_ne _ _ _ _ _ _ (ne main_v0 (by decide))]
  rfl

/-- An unscoped TensorCore buffer is one of @main's arrays. -/
theorem mem_Sall (r : Ref sig .tc) (h : r.isScoped = false) : (Proc.devRef .tc r : DevRef τ sig) ∈ Sall :=
  Finset.mem_map_of_mem _ (Finset.mem_filter.mpr ⟨Finset.mem_univ _, by rw [h]; decide⟩)

/-- The run's statement: from a memory whose index arrays are in range, every weakly fair execution terminates with
    each of @main's arrays at the value the stretches of @main leave. -/
def RunsTo (F : FTy → Type) [FloatOps F] : Prop :=
  ∀ (m : (ℓ : Loc nD τ sig) → Buf (Elt F) ℓ) (ρ : Dev nD → PrngReg),
    (∀ d j, (m (uidLoc d) j).toNat < 100000) → (∀ d j, (m (iidLoc d) j).toNat < 100000) →
    θ_run (Cert.KernelIdeal.defs (F := F)) (Cert.KernelIdeal.threads (F := F)) ⟨m, fun _ => 0, ρ⟩
      (fun r => ∀ d : Dev nD, ∀ b ∈ Sall, r.2.mem (d, b) = V4 m d b)

/-- The precondition, at any float values: the input-domain predicate of the arguments is all ones. -/
def PreAt [Cert.Pre_input_domain.Facts] (m : (ℓ : Loc nD τ sig) → Buf (Elt F) ℓ) : Prop :=
  ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = (fun _ => 1#1)

/-- Under the precondition both index arrays are in range. -/
theorem ranges [Cert.Pre_input_domain.Facts] (m : (ℓ : Loc nD τ sig) → Buf (Elt F) ℓ) (hpre : PreAt m) :
    (∀ d j, (m (uidLoc d) j).toNat < 100000) ∧ (∀ d j, (m (iidLoc d) j).toNat < 100000) :=
  ⟨fun d => (Cert.PreDecode.idx_in_range _ _ _ _ _ _ _ _ _ _ _ _ _ _ (hpre d)).1,
    fun d => (Cert.PreDecode.idx_in_range _ _ _ _ _ _ _ _ _ _ _ _ _ _ (hpre d)).2⟩

/-- THE FRAME: under the precondition the program runs and every argument ends unchanged. -/
theorem frame [Cert.Pre_input_domain.Facts] (hrun : RunsTo F) (m : (ℓ : Loc nD τ sig) → Buf (Elt F) ℓ) (g : Dev nD → PrngReg)
    (hpre : PreAt m) :
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c => ⟨(h c _ (mem_Sall main_arg0 rfl)).trans (V4_keep m c main_arg0 (by decide)),
      (h c _ (mem_Sall main_arg1 rfl)).trans (V4_keep m c main_arg1 (by decide)),
      (h c _ (mem_Sall main_arg2 rfl)).trans (V4_keep m c main_arg2 (by decide)),
      (h c _ (mem_Sall main_arg3 rfl)).trans (V4_keep m c main_arg3 (by decide)),
      (h c _ (mem_Sall main_arg4 rfl)).trans (V4_keep m c main_arg4 (by decide)),
      (h c _ (mem_Sall main_arg5 rfl)).trans (V4_keep m c main_arg5 (by decide)),
      (h c _ (mem_Sall main_arg6 rfl)).trans (V4_keep m c main_arg6 (by decide)),
      (h c _ (mem_Sall main_arg7 rfl)).trans (V4_keep m c main_arg7 (by decide)),
      (h c _ (mem_Sall main_arg8 rfl)).trans (V4_keep m c main_arg8 (by decide)),
      (h c _ (mem_Sall main_arg9 rfl)).trans (V4_keep m c main_arg9 (by decide)),
      (h c _ (mem_Sall main_arg10 rfl)).trans (V4_keep m c main_arg10 (by decide)),
      (h c _ (mem_Sall main_arg11 rfl)).trans (V4_keep m c main_arg11 (by decide)),
      (h c _ (mem_Sall main_arg12 rfl)).trans (V4_keep m c main_arg12 (by decide)),
      (h c _ (mem_Sall main_arg13 rfl)).trans (V4_keep m c main_arg13 (by decide))⟩)
    (hrun m g (ranges m hpre).1 (ranges m hpre).2)

end Cert.KernelIdeal.Glue

end
-- ==== Proof.Spec.lean ====
/-
  The function both programs compute for one row of the batch, on the extended reals.

  A row carries two embedding vectors `u`, `i` of length 128. The first layer contracts the
  concatenation of the two with a [256, 64] weight, which is the sum of the two half contractions
  `∑ k, u k * W1a k c + ∑ k, i k * W1b k c` (`W1a`, `W1b` the weight's upper and lower halves); three more
  dense layers of widths 64, 32, 16 follow, each an affine map followed by the leaky rectifier; the last layer
  is one affine form into a single number.

  The leaky rectifier is spelt as both programs compute it: the comparison `x ≥ 0` against the extended real the
  zero pattern denotes selects `x` itself, and otherwise the product of `x` with the extended real the f32 pattern
  `0x3C23D70A` (the float nearest 0.01) denotes.
-/
import Idealize.ShloMosaic.PureOps.Ideal.Laws

noncomputable section

namespace Cert.Spec

open Idealize.ShloMosaic

/-- The slope on the negative side: the extended real the f32 pattern of 0.01 denotes. -/
def slope : EReal := Ideal.ofBits .f32 0x3C23D70A#32

/-- The leaky rectifier: `x` where `x ≥ 0`, else `slope * x`. -/
def leaky (x : EReal) : EReal :=
  Scalar.select (Ideal.cmp .oge x (Ideal.ofBits .f32 0x00000000#32)) x (slope * x)

/-- The rectifier by cases on the order: the zero pattern denotes `0`. -/
theorem leaky_eq (x : EReal) : leaky x = if 0 ≤ x then x else slope * x := by
  unfold leaky Scalar.select Ideal.cmp
  rw [Ideal.ofBits_zero_f32]
  by_cases h : (0 : EReal) ≤ x <;> simp [h]

/-- An affine form: `∑ k, h k * W k c + b c`. -/
def dense {K N : ℕ} (h : Fin K → EReal) (W : Fin K → Fin N → EReal) (b : Fin N → EReal) (c : Fin N) : EReal :=
  ∑ k, h k * W k c + b c

/-- A dense layer followed by the rectifier. -/
def layer {K N : ℕ} (h : Fin K → EReal) (W : Fin K → Fin N → EReal) (b : Fin N → EReal) (c : Fin N) : EReal :=
  leaky (dense h W b c)

/-- The first layer: the two half contractions, added, plus the bias, rectified. -/
def layer1 (u i : Fin 128 → EReal) (W1a W1b : Fin 128 → Fin 64 → EReal) (b1 : Fin 64 → EReal) (c : Fin 64) : EReal :=
  leaky (∑ k, u k * W1a k c + ∑ k, i k * W1b k c + b1 c)

/-- The network's output for one row. -/
def score (u i : Fin 128 → EReal) (W1a W1b : Fin 128 → Fin 64 → EReal) (b1 : Fin 64 → EReal)
    (W2 : Fin 64 → Fin 64 → EReal) (b2 : Fin 64 → EReal) (W3 : Fin 64 → Fin 32 → EReal) (b3 : Fin 32 → EReal)
    (W4 : Fin 32 → Fin 16 → EReal) (b4 : Fin 16 → EReal) (w5 : Fin 16 → EReal) (b5 : EReal) : EReal :=
  ∑ k, layer (layer (layer (layer1 u i W1a W1b b1) W2 b2) W3 b3) W4 b4 k * w5 k + b5

end Cert.Spec

end
-- ==== Proof.LibPlainDot.lean ====
/-
  Two general facts about finite sums, used to read a matrix product and a blocked sum index by index.

  A plain product of an `[M, K]` array with a `[K, N]` array — one contracted axis, no batch axis — read at the
  output position `(r, c)` is the sum over `k : Fin K` of the left operand at `(r, k)` times the right operand at
  `(k, c)`: the contraction index of such a product is its one coordinate. The four coordinate facts of the
  dimension numbers are hypotheses, so the statement applies to any record of this form.

  A sum over `N = A * B` positions is the sum over `A` consecutive blocks of the sums over the `B` positions of
  each block, in any commutative monoid: position `e` is `t * B + r` for exactly one block `t` and offset `r`.
-/
import Idealize.ShloMosaic.Lib.ValueIdx
import Idealize.ShloMosaic.PureOps.Ideal.Laws

noncomputable section

namespace Idealize.ShloMosaic.ValueIdx

/-- The sum over the one-axis contraction index of a plain `[M, K] × [K, N]` product, at output position `(r, c)`,
    is the sum over `k : Fin K` of `lhs (r, k) * rhs (k, c)`. -/
theorem plain_dot_sum {M K N : ℕ} (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (r : Fin M) (c : Fin N) :
    ∑ q : d.contr.Idx, lhs (d.lhsIdx (ix2 r c) q) * rhs (d.rhsIdx (ix2 r c) q)
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (hl1 _ _).trans hk)
  have er : d.rhsIdx (ix2 r c) ((contrEquiv1 d K hr hs).symm k) = ix2 k c := funext fun a => Fin.ext (by
    match a with
    | ⟨0, _⟩ => exact (hr0 _ _).trans hk
    | ⟨1, _⟩ => exact hr1 _ _)
  rw [el, er]

/-- A sum over `N = A * B` positions is the sum over the `A` blocks of the sums over each block's `B` positions. -/
theorem sum_fin_blocks {M : Type*} [AddCommMonoid M] {N : ℕ} (A B : ℕ) (hN : N = A * B) (g : Fin N → M) :
    ∑ e : Fin N, g e
      = ∑ t : Fin A, ∑ r : Fin B, g ⟨t.val * B + r.val, by
          have h1 : t.val * B + r.val < t.val * B + B := Nat.add_lt_add_left r.isLt _
          have h3 : (t.val + 1) * B ≤ A * B := Nat.mul_le_mul_right B t.isLt
          rw [Nat.add_mul, Nat.one_mul] at h3
          rw [hN]; exact Nat.lt_of_lt_of_le h1 h3⟩ := by
  subst hN
  rw [← Equiv.sum_comp finProdFinEquiv g, Fintype.sum_prod_type]
  refine Finset.sum_congr rfl fun t _ => Finset.sum_congr rfl fun r _ => ?_
  refine congrArg g (Fin.ext ?_)
  show r.val + B * t.val = t.val * B + r.val
  rw [Nat.mul_comm, Nat.add_comm]

end Idealize.ShloMosaic.ValueIdx

end
-- ==== Proof.MlpLayers.lean ====
/-
  The layers of the network as vector expressions, each read at an index.

  A dense layer of the kernel is a matrix product into a zero accumulator, plus a bias row broadcast down the rows,
  followed pointwise by the leaky rectifier. Read at row `r` and column `c` on the extended reals it is the
  rectifier of `∑ k, x (r, k) * w (k, c) + b (0, c)`. The first layer adds two such products before the bias; its
  operands pass through changes of format, which are the identity on the extended reals. The last layer transposes
  the hidden block, multiplies by the weight column broadcast along the rows, and sums over the leading axis: at row
  `r` that is `∑ k, x (r, k) * w (k, 0)`, to which the one bias entry is added.
-/
import proofs.«207198_g34918084116659_cont_8to1_b_1870_22_alg».proof.Proof.Spec
import proofs.«207198_g34918084116659_cont_8to1_b_1870_22_alg».proof.Proof.LibPlainDot
import Idealize.ShloMosaic.Lib.Pipeline.Value
import Idealize.ShloMosaic.Lib.ValueLayout

noncomputable section

namespace Cert.MlpLayers

open Idealize.ShloMosaic Idealize.ShloMosaic.ValueIdx

/-- The dimension numbers of a plain `[M, K] × [K, N]` product: one contracted axis of extent `K`, the left
    operand read at (row, `k`), the right one at (`k`, column). -/
structure IsPlain {M K N : ℕ} (d : DotDims ⟨2, ![M, K]⟩ ⟨2, ![K, N]⟩ ⟨2, ![M, N]⟩) : Prop where
  hr : d.contr.rank = 1
  hs : d.contr.size ⟨0, by omega⟩ = K
  hl0 : ∀ j q, (d.lhsIdx j q 0).val = (j 0).val
  hl1 : ∀ j q, (d.lhsIdx j q 1).val = (q ⟨0, by omega⟩).val
  hr0 : ∀ j q, (d.rhsIdx j q 0).val = (q ⟨0, by omega⟩).val
  hr1 : ∀ j q, (d.rhsIdx j q 1).val = (j 1).val

/-- A plain product into the zero accumulator, read at `(r, c)`: the sum over `k` of the operands' products. -/
theorem matmul_zero_ix2 {M K N : ℕ} {φ₁ φ₂ : FTy} (d : DotDims ⟨2, ![M, K]⟩ ⟨2, ![K, N]⟩ ⟨2, ![M, N]⟩) (hd : IsPlain d)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c)
      = ∑ k : Fin K, lhs (ix2 r k) * rhs (ix2 k c) :=
  (Ideal.matmul_constant_zero_apply d none lhs rhs (ix2 r c)).trans
    (plain_dot_sum d hd.hr hd.hs hd.hl0 hd.hl1 hd.hr0 hd.hr1 lhs rhs r c)

/-- The leaky rectifier on a vector, as the programs print it. -/
def lrelu {s : Shape} (z : FVec Ideal s .f32) : FVec Ideal s .f32 :=
  select (cmpf .oge z (broadcast s (Scalar.ofBits .f32 0x00000000#32))) z
    (mulf (broadcast s (Scalar.ofBits .f32 0x3C23D70A#32)) z)

theorem lrelu_apply {s : Shape} (z : FVec Ideal s .f32) (j : s.Idx) : lrelu z j = Cert.Spec.leaky (z j) := rfl

/-- A dense layer: product into zero, bias row broadcast, rectifier. -/
def denseV {M K N : ℕ} (d : DotDims ⟨2, ![M, K]⟩ ⟨2, ![K, N]⟩ ⟨2, ![M, N]⟩) (x : FVec Ideal ⟨2, ![M, K]⟩ .f32)
    (w : FVec Ideal ⟨2, ![K, N]⟩ .f32) (b : FVec Ideal ⟨2, ![1, N]⟩ .f32)
    (hsc : (⟨2, ![1, N]⟩ : Shape).ShapeCasts ⟨2, ![1, N]⟩) (hb : (⟨2, ![1, N]⟩ : Shape).Broadcasts ⟨2, ![M, N]⟩) :
    FVec Ideal ⟨2, ![M, N]⟩ .f32 :=
  lrelu (addf (matmul d none x w (constant ⟨2, ![M, N]⟩ .f32 0x00000000#32))
    (broadcastTo ⟨2, ![M, N]⟩ (shapeCast ⟨2, ![1, N]⟩ b hsc) hb))

/-- A dense layer read at `(r, c)`, given the bias row's broadcast read there and the input row. -/
theorem denseV_apply {M K N : ℕ} (d : DotDims ⟨2, ![M, K]⟩ ⟨2, ![K, N]⟩ ⟨2, ![M, N]⟩) (hd : IsPlain d)
    (x : FVec Ideal ⟨2, ![M, K]⟩ .f32) (w : FVec Ideal ⟨2, ![K, N]⟩ .f32) (b : FVec Ideal ⟨2, ![1, N]⟩ .f32)
    (hsc : (⟨2, ![1, N]⟩ : Shape).ShapeCasts ⟨2, ![1, N]⟩) (hb : (⟨2, ![1, N]⟩ : Shape).Broadcasts ⟨2, ![M, N]⟩)
    (r : Fin M) (c : Fin N) (hbc : broadcastTo ⟨2, ![M, N]⟩ b hb (ix2 r c) = b (ix2 0 c))
    (h : Fin K → EReal) (hx : ∀ k, x (ix2 r k) = h k) :
    denseV d x w b hsc hb (ix2 r c) = Cert.Spec.layer h (fun k c => w (ix2 k c)) (fun c => b (ix2 0 c)) c := by
  unfold denseV
  rw [lrelu_apply, shapeCast_self, addf_apply, matmul_zero_ix2 d hd, hbc]
  unfold Cert.Spec.layer Cert.Spec.dense
  simp only [hx]

/-- The first layer: two products of format-changed operands, added, bias row broadcast, rectifier. -/
def firstV {M K N : ℕ} (d : DotDims ⟨2, ![M, K]⟩ ⟨2, ![K, N]⟩ ⟨2, ![M, N]⟩)
    (u : FVec Ideal ⟨2, ![M, K]⟩ .f32) (wa : FVec Ideal ⟨2, ![K, N]⟩ .f32)
    (i : FVec Ideal ⟨2, ![M, K]⟩ .f32) (wb : FVec Ideal ⟨2, ![K, N]⟩ .f32) (b : FVec Ideal ⟨2, ![1, N]⟩ .f32)
    (hx : (⟨2, ![M, K]⟩ : Shape).ShapeCasts ⟨2, ![M, K]⟩) (hw : (⟨2, ![K, N]⟩ : Shape).ShapeCasts ⟨2, ![K, N]⟩)
    (hlt : FTy.bits .bf16 < FTy.bits .f32)
    (hsc : (⟨2, ![1, N]⟩ : Shape).ShapeCasts ⟨2, ![1, N]⟩) (hb : (⟨2, ![1, N]⟩ : Shape).Broadcasts ⟨2, ![M, N]⟩) :
    FVec Ideal ⟨2, ![M, N]⟩ .f32 :=
  lrelu (addf
    (addf
      (matmul d none (truncf .bf16 (shapeCast ⟨2, ![M, K]⟩ u hx) hlt) (truncf .bf16 (shapeCast ⟨2, ![K, N]⟩ wa hw) hlt)
        (constant ⟨2, ![M, N]⟩ .f32 0x00000000#32))
      (matmul d none (truncf .bf16 (shapeCast ⟨2, ![M, K]⟩ i hx) hlt) (truncf .bf16 (shapeCast ⟨2, ![K, N]⟩ wb hw) hlt)
        (constant ⟨2, ![M, N]⟩ .f32 0x00000000#32)))
    (broadcastTo ⟨2, ![M, N]⟩ (shapeCast ⟨2, ![1, N]⟩ b hsc) hb))

/-- The first layer read at `(r, c)`. -/
theorem firstV_apply (d : DotDims ⟨2, ![4096, 128]⟩ ⟨2, ![128, 64]⟩ ⟨2, ![4096, 64]⟩) (hd : IsPlain d)
    (u : FVec Ideal ⟨2, ![4096, 128]⟩ .f32) (wa : FVec Ideal ⟨2, ![128, 64]⟩ .f32)
    (i : FVec Ideal ⟨2, ![4096, 128]⟩ .f32) (wb : FVec Ideal ⟨2, ![128, 64]⟩ .f32) (b : FVec Ideal ⟨2, ![1, 64]⟩ .f32)
    (hx : (⟨2, ![4096, 128]⟩ : Shape).ShapeCasts ⟨2, ![4096, 128]⟩) (hw : (⟨2, ![128, 64]⟩ : Shape).ShapeCasts ⟨2, ![128, 64]⟩)
    (hlt : FTy.bits .bf16 < FTy.bits .f32)
    (hsc : (⟨2, ![1, 64]⟩ : Shape).ShapeCasts ⟨2, ![1, 64]⟩) (hb : (⟨2, ![1, 64]⟩ : Shape).Broadcasts ⟨2, ![4096, 64]⟩)
    (r : Fin 4096) (c : Fin 64) (hbc : broadcastTo ⟨2, ![4096, 64]⟩ b hb (ix2 r c) = b (ix2 0 c)) :
    firstV d u wa i wb b hx hw hlt hsc hb (ix2 r c)
      = Cert.Spec.layer1 (fun k => u (ix2 r k)) (fun k => i (ix2 r k)) (fun k c => wa (ix2 k c)) (fun k c => wb (ix2 k c))
          (fun c => b (ix2 0 c)) c := by
  unfold firstV
  rw [lrelu_apply, shapeCast_self, shapeCast_self, shapeCast_self, shapeCast_self, shapeCast_self, addf_apply, addf_apply,
    matmul_zero_ix2 d hd, matmul_zero_ix2 d hd, hbc]
  rfl

/-- The last layer: transpose, multiply by the broadcast weight column, sum over the leading axis, add the bias. -/
def lastV {M K : ℕ} (x : FVec Ideal ⟨2, ![M, K]⟩ .f32) (w : FVec Ideal ⟨2, ![K, 1]⟩ .f32) (b : FVec Ideal ⟨2, ![1, 1]⟩ .f32)
    (ht : (⟨2, ![M, K]⟩ : Shape).Transposes [1, 0] ⟨2, ![K, M]⟩) (hb : (⟨2, ![K, 1]⟩ : Shape).Broadcasts ⟨2, ![K, M]⟩)
    (hred : (⟨2, ![K, M]⟩ : Shape).Reduces [0] ⟨1, ![M]⟩) (hpos : ∀ a, (![0, 0] : Fin 2 → Nat) a < (⟨2, ![1, 1]⟩ : Shape).size a) :
    FVec Ideal ⟨1, ![M]⟩ .f32 :=
  addf
    (multiReduction .add [0] ⟨1, ![M]⟩
      (mulf (transpose ⟨2, ![K, M]⟩ [1, 0] x ht) (broadcastTo ⟨2, ![K, M]⟩ w hb)) 0x00000000#32 hred (.inl rfl) rfl)
    (broadcast ⟨1, ![M]⟩ (extractAt ![0, 0] b hpos))

/-- The index the reduction over the leading axis inserts: `(k, r)`. -/
theorem lift_ix1 {M K : ℕ} (hred : (⟨2, ![K, M]⟩ : Shape).Reduces [0] ⟨1, ![M]⟩) (r : Fin M) (k : Fin K) :
    hred.lift (ix1 r) k = ix2 k r :=
  funext fun a => match a with
    | ⟨0, _⟩ => Fin.ext rfl
    | ⟨1, _⟩ => Fin.ext rfl

/-- The last layer read at row `r`. -/
theorem lastV_apply {M K : ℕ} (x : FVec Ideal ⟨2, ![M, K]⟩ .f32) (w : FVec Ideal ⟨2, ![K, 1]⟩ .f32) (b : FVec Ideal ⟨2, ![1, 1]⟩ .f32)
    (ht : (⟨2, ![M, K]⟩ : Shape).Transposes [1, 0] ⟨2, ![K, M]⟩) (hb : (⟨2, ![K, 1]⟩ : Shape).Broadcasts ⟨2, ![K, M]⟩)
    (hred : (⟨2, ![K, M]⟩ : Shape).Reduces [0] ⟨1, ![M]⟩) (hpos : ∀ a, (![0, 0] : Fin 2 → Nat) a < (⟨2, ![1, 1]⟩ : Shape).size a)
    (r : Fin M) (hbc : ∀ k : Fin K, broadcastTo ⟨2, ![K, M]⟩ w hb (ix2 k r) = w (ix2 k 0))
    (h : Fin K → EReal) (hx : ∀ k, x (ix2 r k) = h k) :
    lastV x w b ht hb hred hpos (ix1 r) = ∑ k : Fin K, h k * w (ix2 k 0) + b (ix2 0 0) := by
  unfold lastV
  rw [addf_apply, broadcast_apply]
  have e1 : multiReduction .add [0] ⟨1, ![M]⟩
      (mulf (transpose ⟨2, ![K, M]⟩ [1, 0] x ht) (broadcastTo ⟨2, ![K, M]⟩ w hb)) 0x00000000#32 hred (.inl rfl) rfl (ix1 r)
      = ∑ k : Fin K, h k * w (ix2 k 0) := by
    refine (Ideal.multiReduction_add_single _ _ hred _ _ (ix1 r)).trans ?_
    show ∑ k : Fin K, _ = _
    refine Finset.sum_congr rfl fun k _ => ?_
    rw [lift_ix1, mulf_apply, transpose_ix2_apply, hbc, hx]
  have e2 : extractAt ![0, 0] b hpos = b (ix2 0 0) :=
    congrArg b (funext fun a => match a with
      | ⟨0, _⟩ => Fin.ext rfl
      | ⟨1, _⟩ => Fin.ext rfl)
  rw [e1, e2]

end Cert.MlpLayers

end
-- ==== Proof.MlpValue.lean ====
/-
  The kernel's row computation is the specified network.

  The two pure payloads of the kernel body compose the five layers: the first payload is the first two layers, the
  second is the third and fourth layers and the final affine form. Each layer read at an index is the specified
  layer of the row read so far, so the composite at row `r` is the specified score of row `r`.
-/
import proofs.«207198_g34918084116659_cont_8to1_b_1870_22_alg».proof.Proof.MlpLayers
import proofs.«207198_g34918084116659_cont_8to1_b_1870_22_alg».proof.Proof.Gen.KernelIdeal.Skeleton

noncomputable section

namespace Cert.KernelIdeal.MlpValue

open Cert.KernelIdeal Cert.KernelIdeal.Gen Idealize.ShloMosaic Idealize.ShloMosaic.ValueIdx Cert.MlpLayers

/-- The four products are plain: one contracted axis, read at (row, `k`) and (`k`, column). -/
theorem plain1 : IsPlain dot_S4096x128_S128x64_S4096x64_1_0_0_1_n_n :=
  ⟨rfl, rfl, fun _ _ => rfl, fun _ _ => rfl, fun _ _ => rfl, fun _ _ => rfl⟩
theorem plain2 : IsPlain dot_S4096x64_S64x64_S4096x64_1_0_0_1_n_n :=
  ⟨rfl, rfl, fun _ _ => rfl, fun _ _ => rfl, fun _ _ => rfl, fun _ _ => rfl⟩
theorem plain3 : IsPlain dot_S4096x64_S64x32_S4096x32_1_0_0_1_n_n :=
  ⟨rfl, rfl, fun _ _ => rfl, fun _ _ => rfl, fun _ _ => rfl, fun _ _ => rfl⟩
theorem plain4 : IsPlain dot_S4096x32_S32x16_S4096x16_1_0_0_1_n_n :=
  ⟨rfl, rfl, fun _ _ => rfl, fun _ _ => rfl, fun _ _ => rfl, fun _ _ => rfl⟩

/-- A bias row broadcast down the rows reads the row's entry of that column. -/
theorem bias64 (b : FVec Ideal S1x64 .f32) (r : Fin 4096) (c : Fin 64) :
    broadcastTo S4096x64 b broadcasts_S1x64_S4096x64 (ix2 r c) = b (ix2 0 c) :=
  broadcastTo_apply b _ _ _ fun a => match a with | ⟨0, _⟩ => rfl | ⟨1, _⟩ => rfl
theorem bias32 (b : FVec Ideal S1x32 .f32) (r : Fin 4096) (c : Fin 32) :
    broadcastTo S4096x32 b broadcasts_S1x32_S4096x32 (ix2 r c) = b (ix2 0 c) :=
  broadcastTo_apply b _ _ _ fun a => match a with | ⟨0, _⟩ => rfl | ⟨1, _⟩ => rfl
theorem bias16 (b : FVec Ideal S1x16 .f32) (r : Fin 4096) (c : Fin 16) :
    broadcastTo S4096x16 b broadcasts_S1x16_S4096x16 (ix2 r c) = b (ix2 0 c) :=
  broadcastTo_apply b _ _ _ fun a => match a with | ⟨0, _⟩ => rfl | ⟨1, _⟩ => rfl
/-- The last weight column broadcast along the rows reads the column's entry. -/
theorem col16 (w : FVec Ideal S16x1 .f32) (k : Fin 16) (r : Fin 4096) :
    broadcastTo S16x4096 w broadcasts_S16x1_S16x4096 (ix2 k r) = w (ix2 k 0) :=
  broadcastTo_apply w _ _ _ fun a => match a with | ⟨0, _⟩ => rfl | ⟨1, _⟩ => rfl

/-- The first payload is the first two layers. -/
theorem pay2_eq (u : Vec Ideal S4096x128 .f32) (w1a : Vec Ideal S128x64 .f32) (i : Vec Ideal S4096x128 .f32)
    (w1b : Vec Ideal S128x64 .f32) (b1 : Vec Ideal S1x64 .f32) (w2 : Vec Ideal S64x64 .f32) (b2 : Vec Ideal S1x64 .f32) :
    k1_pay2 (F := Ideal) u w1a i w1b b1 w2 b2
      = denseV dot_S4096x64_S64x64_S4096x64_1_0_0_1_n_n
          (firstV dot_S4096x128_S128x64_S4096x64_1_0_0_1_n_n u w1a i w1b b1 shapeCasts_S4096x128_S4096x128
            shapeCasts_S128x64_S128x64 bitsLt_bf16_f32 shapeCasts_S1x64_S1x64 broadcasts_S1x64_S4096x64)
          w2 b2 shapeCasts_S1x64_S1x64 broadcasts_S1x64_S4096x64 := rfl

/-- The second payload is the third and fourth layers and the final affine form. -/
theorem pay1_eq (x : FVec Ideal S4096x64 .f32) (w3 : Vec Ideal S64x32 .f32) (b3 : Vec Ideal S1x32 .f32)
    (w4 : Vec Ideal S32x16 .f32) (b4 : Vec Ideal S1x16 .f32) (w5 : Vec Ideal S16x1 .f32) (b5 : Vec Ideal S1x1 .f32) :
    k1_pay1 (F := Ideal) x w3 b3 w4 b4 w5 b5
      = lastV
          (denseV dot_S4096x32_S32x16_S4096x16_1_0_0_1_n_n
            (denseV dot_S4096x64_S64x32_S4096x32_1_0_0_1_n_n x w3 b3 shapeCasts_S1x32_S1x32 broadcasts_S1x32_S4096x32)
            w4 b4 shapeCasts_S1x16_S1x16 broadcasts_S1x16_S4096x16)
          w5 b5 transposes_S4096x16_p1_0_S16x4096 broadcasts_S16x1_S16x4096 reduces_S16x4096_S4096 inpos_S1x1_p0_0 := rfl

/-- The kernel's value at row `r` of a block is the specified score of that row. -/
theorem mlp_apply (u i : Vec Ideal S4096x128 .f32) (w1a w1b : Vec Ideal S128x64 .f32) (b1 : Vec Ideal S1x64 .f32)
    (w2 : Vec Ideal S64x64 .f32) (b2 : Vec Ideal S1x64 .f32) (w3 : Vec Ideal S64x32 .f32) (b3 : Vec Ideal S1x32 .f32)
    (w4 : Vec Ideal S32x16 .f32) (b4 : Vec Ideal S1x16 .f32) (w5 : Vec Ideal S16x1 .f32) (b5 : Vec Ideal S1x1 .f32)
    (r : Fin 4096) :
    k1_pay1 (F := Ideal) (k1_pay2 (F := Ideal) u w1a i w1b b1 w2 b2) w3 b3 w4 b4 w5 b5 (ix1 r)
      = Cert.Spec.score (fun k => u (ix2 r k)) (fun k => i (ix2 r k)) (fun k c => w1a (ix2 k c)) (fun k c => w1b (ix2 k c))
          (fun c => b1 (ix2 0 c)) (fun k c => w2 (ix2 k c)) (fun c => b2 (ix2 0 c)) (fun k c => w3 (ix2 k c))
          (fun c => b3 (ix2 0 c)) (fun k c => w4 (ix2 k c)) (fun c => b4 (ix2 0 c)) (fun k => w5 (ix2 k 0)) (b5 (ix2 0 0)) := by
  rw [pay1_eq, pay2_eq]
  refine lastV_apply _ w5 b5 _ _ _ _ r (fun k => col16 w5 k r) _ fun c4 => ?_
  refine denseV_apply _ plain4 _ w4 b4 _ _ r c4 (bias16 b4 r c4) _ fun c3 => ?_
  refine denseV_apply _ plain3 _ w3 b3 _ _ r c3 (bias32 b3 r c3) _ fun c2 => ?_
  refine denseV_apply _ plain2 _ w2 b2 _ _ r c2 (bias64 b2 r c2) _ fun c1 => ?_
  exact firstV_apply _ plain1 u w1a i w1b b1 _ _ _ _ _ r c1 (bias64 b1 r c1)

end Cert.KernelIdeal.MlpValue

end
-- ==== Proof.LibColumnCast.lean ====
/-
  Two small general facts.

  A vector of `a` entries reshaped into a column `[a, 1]` reads, at `(i, u)`, the vector at `i`: both row-major
  positions are `i`. And a sum over `m + n` positions is the sum over the first `m` plus the sum over the last `n`, in
  any commutative monoid; it is stated over an index type `Fin N` with `N = m + n` given as an equation, so that it
  applies to a literal extent.
-/
import Idealize.ShloMosaic.Lib.Pipeline.Value
import Idealize.ShloMosaic.Lib.ValueIdx
import Idealize.ShloMosaic.Lib.ValueLayout

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over `N = m + n` positions splits into the first `m` and the last `n`. -/
theorem sum_fin_split {M : Type*} [AddCommMonoid M] {N : ℕ} (m n : ℕ) (hN : N = m + n) (g : Fin N → M) :
    ∑ k : Fin N, g k
      = ∑ k : Fin m, g ⟨k.val, by have := k.isLt; omega⟩ + ∑ k : Fin n, g ⟨m + k.val, by have := k.isLt; omega⟩ := by
  subst hN
  rw [Fin.sum_univ_add]
  rfl

end Idealize.ShloMosaic.ValueIdx

end
-- ==== Proof.KernelValue.lean ====
/-
  The kernel program's result, row by row, is the specified network of the gathered rows.

  The program slices the first weight matrix into its upper and lower halves, reshapes each bias vector into a row,
  gathers the two embedding arrays, runs the network on four consecutive blocks of 4096 rows, and reshapes the
  16384 results into a column. Row `r` lies in block `r / 4096` at offset `r % 4096`; the network's value there is
  the specified score of the two gathered rows; a gathered row is the table's row the index word names, the word
  being in range; a slice read at `(k, c)` is the matrix at `(k, c)` or `(128 + k, c)`; a vector reshaped into a row
  or a column reads the vector's entry.
-/
import proofs.«207198_g34918084116659_cont_8to1_b_1870_22_alg».proof.Proof.MlpValue
import proofs.«207198_g34918084116659_cont_8to1_b_1870_22_alg».proof.Proof.GatherSpec
import proofs.«207198_g34918084116659_cont_8to1_b_1870_22_alg».proof.Proof.LibColumnCast

noncomputable section

namespace Cert.KernelIdeal.KernelValue

open Cert.KernelIdeal Cert.KernelIdeal.Gen Idealize.ShloMosaic Idealize.ShloMosaic.ValueIdx Cert.GatherSpec

/-- Row `4096 * t + r` of the batch: row `r` of block `t`. -/
abbrev row (t : Fin 4) (r : Fin 4096) : Fin 16384 := ⟨4096 * t.val + r.val, by have := t.isLt; have := r.isLt; omega⟩

/-- Every row of the batch is a row of one of the four blocks. -/
theorem exists_row (q : Fin 16384) : ∃ (t : Fin 4) (r : Fin 4096), q = row t r :=
  ⟨⟨q.val / 4096, by have := q.isLt; omega⟩, ⟨q.val % 4096, Nat.mod_lt _ (by decide)⟩,
    Fin.ext (Nat.div_add_mod q.val 4096).symm⟩

/-- Block `t` of a `[16384, 128]` array: its rows `4096 * t` to `4096 * t + 4095`. -/
def blk {α : Type} (X : S16384x128.Idx → α) (t : Fin 4) : S4096x128.Idx → α :=
  fun y => X (ix2 (row t ⟨(y 0).val, idx2_lt0 y⟩) (⟨(y 1).val, idx2_lt1 y⟩ : Fin 128))

theorem blk_apply {α : Type} (X : S16384x128.Idx → α) (t : Fin 4) (r : Fin 4096) (k : Fin 128) :
    blk X t (ix2 r k) = X (ix2 (row t r) k) := rfl

/-- The general form: whatever the block operands and the weight operands of the network are, if they read as the
    gathered arrays' blocks and as the program's weights, and the result array at each block row is the network's
    value there, then the result array at a row is the specified score of the tables' rows the index words name. -/
theorem out_of_blocks (a0 a1 : IVec S16384 32) (a2 a3 : FVec Ideal S100000x128 .f32) (a4 : FVec Ideal S256x64 .f32)
    (a5 : FVec Ideal S64 .f32) (a6 : FVec Ideal S64x64 .f32) (a7 : FVec Ideal S64 .f32) (a8 : FVec Ideal S64x32 .f32)
    (a9 : FVec Ideal S32 .f32) (a10 : FVec Ideal S32x16 .f32) (a11 : FVec Ideal S16 .f32) (a12 : FVec Ideal S16x1 .f32)
    (a13 : FVec Ideal S1 .f32) (out8 : FVec Ideal S16384 .f32)
    (Ub Ib : Fin 4 → Vec Ideal S4096x128 .f32) (v0 v1 : Vec Ideal S128x64 .f32) (v2 v3 : Vec Ideal S1x64 .f32)
    (v4 : Vec Ideal S1x32 .f32) (v5 : Vec Ideal S1x16 .f32) (v6 : Vec Ideal S1x1 .f32)
    (hU : ∀ t r k, Ub t (ix2 r k) = gath a2 a0 (ix2 (row t r) k))
    (hI : ∀ t r k, Ib t (ix2 r k) = gath a3 a1 (ix2 (row t r) k))
    (hv0 : ∀ (k : Fin 128) (c : Fin 64), v0 (ix2 k c) = a4 (ix2 (⟨k.val, by have := k.isLt; omega⟩ : Fin 256) c))
    (hv1 : ∀ (k : Fin 128) (c : Fin 64), v1 (ix2 k c) = a4 (ix2 (⟨128 + k.val, by have := k.isLt; omega⟩ : Fin 256) c))
    (hv2 : ∀ c : Fin 64, v2 (ix2 0 c) = a5 (ix1 c)) (hv3 : ∀ c : Fin 64, v3 (ix2 0 c) = a7 (ix1 c))
    (hv4 : ∀ c : Fin 32, v4 (ix2 0 c) = a9 (ix1 c)) (hv5 : ∀ c : Fin 16, v5 (ix2 0 c) = a11 (ix1 c))
    (hv6 : v6 (ix2 0 0) = a13 (ix1 0))
    (hblk : ∀ (t : Fin 4) (r : Fin 4096), out8 (ix1 (row t r))
      = k1_pay1 (F := Ideal) (k1_pay2 (F := Ideal) (Ub t) v0 (Ib t) v1 v2 a6 v3) a8 v4 a10 v5 a12 v6 (ix1 r))
    (h0 : ∀ j, (a0 j).toNat < 100000) (h1 : ∀ j, (a1 j).toNat < 100000) (q : Fin 16384) :
    out8 (ix1 q)
      = Cert.Spec.score (fun k => a2 (ix2 (⟨(a0 (ix1 q)).toNat, h0 _⟩ : Fin 100000) k))
          (fun k => a3 (ix2 (⟨(a1 (ix1 q)).toNat, h1 _⟩ : Fin 100000) k))
          (fun k c => a4 (ix2 (⟨k.val, by have := k.isLt; omega⟩ : Fin 256) c))
          (fun k c => a4 (ix2 (⟨128 + k.val, by have := k.isLt; omega⟩ : Fin 256) c))
          (fun c => a5 (ix1 c)) (fun k c => a6 (ix2 k c)) (fun c => a7 (ix1 c)) (fun k c => a8 (ix2 k c))
          (fun c => a9 (ix1 c)) (fun k c => a10 (ix2 k c)) (fun c => a11 (ix1 c)) (fun k => a12 (ix2 k 0))
          (a13 (ix1 0)) := by
  obtain ⟨t, r, rfl⟩ := exists_row q
  rw [hblk t r, MlpValue.mlp_apply]
  simp only [hU, hI, hv0, hv1, hv2, hv3, hv4, hv5, hv6, gath_apply _ _ _ _ (h0 _), gath_apply _ _ _ _ (h1 _)]

/-- The program's result at row `q`, with the operands spelt as the program computes them. -/
theorem kernel_out_apply (a0 a1 : IVec S16384 32) (a2 a3 : FVec Ideal S100000x128 .f32) (a4 : FVec Ideal S256x64 .f32)
    (a5 : FVec Ideal S64 .f32) (a6 : FVec Ideal S64x64 .f32) (a7 : FVec Ideal S64 .f32) (a8 : FVec Ideal S64x32 .f32)
    (a9 : FVec Ideal S32 .f32) (a10 : FVec Ideal S32x16 .f32) (a11 : FVec Ideal S16 .f32) (a12 : FVec Ideal S16x1 .f32)
    (a13 : FVec Ideal S1 .f32) (out8 : FVec Ideal S16384 .f32)
    (hblk : ∀ (t : Fin 4) (r : Fin 4096), out8 (ix1 (row t r))
      = k1_pay1 (F := Ideal)
          (k1_pay2 (F := Ideal) (blk (gath a2 a0) t) (extractStridedSlice S128x64 ![0, 0] a4 slices_S256x64_S128x64_0_0)
            (blk (gath a3 a1) t) (extractStridedSlice S128x64 ![128, 0] a4 slices_S256x64_S128x64_128_0)
            (shapeCast S1x64 a5 shapeCasts_S64_S1x64) a6 (shapeCast S1x64 a7 shapeCasts_S64_S1x64))
          a8 (shapeCast S1x32 a9 shapeCasts_S32_S1x32) a10 (shapeCast S1x16 a11 shapeCasts_S16_S1x16) a12
          (shapeCast S1x1 a13 shapeCasts_S1_S1x1) (ix1 r))
    (h0 : ∀ j, (a0 j).toNat < 100000) (h1 : ∀ j, (a1 j).toNat < 100000) (q : Fin 16384) :
    shapeCast S16384x1 out8 shapeCasts_S16384_S16384x1 (ix2 q 0)
      = Cert.Spec.score (fun k => a2 (ix2 (⟨(a0 (ix1 q)).toNat, h0 _⟩ : Fin 100000) k))
          (fun k => a3 (ix2 (⟨(a1 (ix1 q)).toNat, h1 _⟩ : Fin 100000) k))
          (fun k c => a4 (ix2 (⟨k.val, by have := k.isLt; omega⟩ : Fin 256) c))
          (fun k c => a4 (ix2 (⟨128 + k.val, by have := k.isLt; omega⟩ : Fin 256) c))
          (fun c => a5 (ix1 c)) (fun k c => a6 (ix2 k c)) (fun c => a7 (ix1 c)) (fun k c => a8 (ix2 k c))
          (fun c => a9 (ix1 c)) (fun k c => a10 (ix2 k c)) (fun c => a11 (ix1 c)) (fun k => a12 (ix2 k 0))
          (a13 (ix1 0)) := by
  rw [shapeCast_a_a1_apply]
  exact out_of_blocks a0 a1 a2 a3 a4 a5 a6 a7 a8 a9 a10 a11 a12 a13 out8 _ _ _ _ _ _ _ _ _
    (fun t r k => blk_apply _ t r k) (fun t r k => blk_apply _ t r k)
    (fun k c => slice2_axis0_apply 0 a4 _ k c _ (Nat.zero_add _).symm)
    (fun k c => slice2_axis0_apply 128 a4 _ k c _ rfl)
    (fun c => shapeCast_a_1a_apply a5 _ 0 c) (fun c => shapeCast_a_1a_apply a7 _ 0 c)
    (fun c => shapeCast_a_1a_apply a9 _ 0 c) (fun c => shapeCast_a_1a_apply a11 _ 0 c)
    (shapeCast_a_1a_apply a13 _ 0 0) hblk h0 h1 q

end Cert.KernelIdeal.KernelValue

end
-- ==== Proof.RefRun.lean ====
import proofs.«207198_g34918084116659_cont_8to1_b_1870_22_alg».proof.Proof.Gen.ReferenceIdeal
import Idealize.ShloMosaic.Lib.StableHlo.Run

/-! The reference program's run, read back as a pure function of its fourteen arguments.

The reference is a straight line of ninety-five tensor operations: two row look-ups (each the wrap of negative
indices, the bounds mask, the gather and the masked select), the concatenation of the two looked-up arrays, and five
dense layers, the first four followed by the leaky rectifier. The line is cut into seven consecutive windows, each
window's result is stated as a small pure term of what the window reads, and the terms compose to `out`. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The pure terms -/

/-- The start-index column of a look-up: a negative index is moved up by the table's height, then the vector is
    read as a one-column array. -/
def idxCol (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 100000#32))) idx)

/-- The look-up's mask: row `r` is kept when `0 ≤ col r ≤ 99999` (signed), the same bit along the whole row. -/
def inBounds (col : IVec S16384x1 32) : IVec S16384x128 1 :=
  broadcastInDim S16384x128 ![0] bcast_S16384_S16384x128_0
    (Host.reduce IntOp.andi
      (andi (cmpi .sge col (broadcastInDim S16384x1 ![] bcast_S_S16384x1 (constantI S_ 32 0#32)))
        (cmpi .sle col (broadcastInDim S16384x1 ![0, 1] bcast_S1x1_S16384x1_0_1
          (broadcastInDim S1x1 ![1] bcast_S1_S1x1_1 (constantI S1 32 99999#32)))))
      (constantI S_ 1 1#1) reducesTo_S16384x1_S16384_d1 h_S_)

/-- One look-up: the rows of `tbl` at the wrapped indices, a row out of bounds filled with the quiet NaN. -/
def take (tbl : FVec F S100000x128 .f32) (idx : IVec S16384 32) : FVec F S16384x128 .f32 :=
  select (inBounds (idxCol idx))
    (Host.gather gather_S100000x128_S16384x1_S16384x128_1_0_n_n_0_1_1128 tbl (idxCol idx))
    (broadcastInDim S16384x128 ![] bcast_S_S16384x128 (constant S_ .f32 0x7FC00000#32))

/-- The leaky rectifier on a whole array: `x` where `x ≥ 0`, else `x` times the binary32 constant nearest 0.01. -/
def leaky {s : Shape} (hb : S_.BroadcastsInDim s (![] : Fin 0 → Fin s.rank)) (x : FVec F s .f32) : FVec F s .f32 :=
  select (cmpf .oge x (broadcastInDim s ![] hb (constant S_ .f32 0x00000000#32))) x
    (mulf (broadcastInDim s ![] hb (constant S_ .f32 0x3C23D70A#32)) x)

/-- The first dense layer before its rectifier: the two looked-up arrays side by side, times `W1`, plus `b1`. -/
def pre1 (u i : FVec F S16384x128 .f32) (W : FVec F S256x64 .f32) (b : FVec F S64 .f32) : FVec F S16384x64 .f32 :=
  addf (Host.dotGeneral dot_S16384x256_S256x64_S16384x64_1_0_0_1_n_n none
      (concatenate S16384x256 1 [⟨S16384x128, u⟩, ⟨S16384x128, i⟩] concatenates_S16384x128_S16384x128_S16384x256_d1) W)
    (broadcastInDim S16384x64 ![0, 1] bcast_S1x64_S16384x64_0_1 (broadcastInDim S1x64 ![1] bcast_S64_S1x64_1 b))

/-- The second dense layer before its rectifier. -/
def pre2 (h : FVec F S16384x64 .f32) (W : FVec F S64x64 .f32) (b : FVec F S64 .f32) : FVec F S16384x64 .f32 :=
  addf (Host.dotGeneral dot_S16384x64_S64x64_S16384x64_1_0_0_1_n_n none h W)
    (broadcastInDim S16384x64 ![0, 1] bcast_S1x64_S16384x64_0_1 (broadcastInDim S1x64 ![1] bcast_S64_S1x64_1 b))

/-- The third dense layer before its rectifier. -/
def pre3 (h : FVec F S16384x64 .f32) (W : FVec F S64x32 .f32) (b : FVec F S32 .f32) : FVec F S16384x32 .f32 :=
  addf (Host.dotGeneral dot_S16384x64_S64x32_S16384x32_1_0_0_1_n_n none h W)
    (broadcastInDim S16384x32 ![0, 1] bcast_S1x32_S16384x32_0_1 (broadcastInDim S1x32 ![1] bcast_S32_S1x32_1 b))

/-- The fourth dense layer before its rectifier. -/
def pre4 (h : FVec F S16384x32 .f32) (W : FVec F S32x16 .f32) (b : FVec F S16 .f32) : FVec F S16384x16 .f32 :=
  addf (Host.dotGeneral dot_S16384x32_S32x16_S16384x16_1_0_0_1_n_n none h W)
    (broadcastInDim S16384x16 ![0, 1] bcast_S1x16_S16384x16_0_1 (broadcastInDim S1x16 ![1] bcast_S16_S1x16_1 b))

/-- The last dense layer (no rectifier). -/
def pre5 (h : FVec F S16384x16 .f32) (W : FVec F S16x1 .f32) (b : FVec F S1 .f32) : FVec F S16384x1 .f32 :=
  addf (Host.dotGeneral dot_S16384x16_S16x1_S16384x1_1_0_0_1_n_n none h W)
    (broadcastInDim S16384x1 ![0, 1] bcast_S1x1_S16384x1_0_1 (broadcastInDim S1x1 ![1] bcast_S1_S1x1_1 b))

/-- The reference's result as a function of its fourteen arguments. -/
def out (a0 : IVec S16384 32) (a1 : IVec S16384 32) (a2 : FVec F S100000x128 .f32) (a3 : FVec F S100000x128 .f32) (a4 : FVec F S256x64 .f32) (a5 : FVec F S64 .f32) (a6 : FVec F S64x64 .f32) (a7 : FVec F S64 .f32) (a8 : FVec F S64x32 .f32) (a9 : FVec F S32 .f32) (a10 : FVec F S32x16 .f32) (a11 : FVec F S16 .f32) (a12 : FVec F S16x1 .f32) (a13 : FVec F S1 .f32) : FVec F S16384x1 .f32 :=
  pre5 (leaky bcast_S_S16384x16 (pre4 (leaky bcast_S_S16384x32 (pre3 (leaky bcast_S_S16384x64 (pre2 (leaky bcast_S_S16384x64
    (pre1 (take a2 a0) (take a3 a1) a4 a5)) a6 a7)) a8 a9)) a10 a11)) a12 a13

/-! ## The operations -/

/-- The ninety-five operations in order, each called function's operations in place of its call. -/
abbrev flat : List (HloOp τ sig (Elt F)) :=
  [ TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2 : TRef sig ⟨S100000x128, .f32⟩) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1 : TRef sig ⟨S16384, .i32⟩) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1 : TRef sig ⟨S16384, .i32⟩) main_call1.v2 main_call1.v3 addi,
    TRef.ternary main_call1.v1 main_call1.v3 (.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3 : TRef sig ⟨S100000x128, .f32⟩) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    binary main_v0 main_v1 main_v2 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v2 main_arg4 main_v3 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    unary main_arg5 main_v4 (broadcastInDim S1x64 ![1] bcast_S64_S1x64_1 : (⟨S64, .f32⟩ : BufTy).Contents (Elt F) → (⟨S1x64, .f32⟩ : BufTy).Contents (Elt F)),
    unary main_v4 main_v5 (broadcastInDim S16384x64 ![0, 1] bcast_S1x64_S16384x64_0_1 : (⟨S1x64, .f32⟩ : BufTy).Contents (Elt F) → (⟨S16384x64, .f32⟩ : BufTy).Contents (Elt F)),
    binary main_v3 main_v5 main_v6 (addf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    unary main_cst main_v7 (broadcastInDim S16384x64 ![] bcast_S_S16384x64 : (⟨S_, .f32⟩ : BufTy).Contents (Elt F) → (⟨S16384x64, .f32⟩ : BufTy).Contents (Elt F)),
    binary main_v6 main_v7 main_v8 (cmpf .oge : (⟨S16384x64, .f32⟩ : BufTy).Contents (Elt F) → (⟨S16384x64, .f32⟩ : BufTy).Contents (Elt F) → (⟨S16384x64, .i1⟩ : BufTy).Contents (Elt F)),
    nullary main_cst_0 (constant S_ .f32 0x3C23D70A#32),
    unary main_cst_0 main_v9 (broadcastInDim S16384x64 ![] bcast_S_S16384x64 : (⟨S_, .f32⟩ : BufTy).Contents (Elt F) → (⟨S16384x64, .f32⟩ : BufTy).Contents (Elt F)),
    binary main_v9 main_v6 main_v10 (mulf : (⟨S16384x64, .f32⟩ : BufTy).Contents (Elt F) → (⟨S16384x64, .f32⟩ : BufTy).Contents (Elt F) → (⟨S16384x64, .f32⟩ : BufTy).Contents (Elt F)),
    TRef.ternary (.of main_v8 : TRef sig ⟨S16384x64, .i1⟩) (.of main_v6 : TRef sig ⟨S16384x64, .f32⟩) (.of main_v10 : TRef sig ⟨S16384x64, .f32⟩) main_call2.v0 select,
    binary main_v11 main_arg6 main_v12 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg7 main_v13 (broadcastInDim S1x64 ![1] bcast_S64_S1x64_1 : (⟨S64, .f32⟩ : BufTy).Contents (Elt F) → (⟨S1x64, .f32⟩ : BufTy).Contents (Elt F)),
    unary main_v13 main_v14 (broadcastInDim S16384x64 ![0, 1] bcast_S1x64_S16384x64_0_1 : (⟨S1x64, .f32⟩ : BufTy).Contents (Elt F) → (⟨S16384x64, .f32⟩ : BufTy).Contents (Elt F)),
    binary main_v12 main_v14 main_v15 (addf : (⟨S16384x64, .f32⟩ : BufTy).Contents (Elt F) → (⟨S16384x64, .f32⟩ : BufTy).Contents (Elt F) → (⟨S16384x64, .f32⟩ : BufTy).Contents (Elt F)),
    nullary main_cst_1 (constant S_ .f32 0x00000000#32),
    unary main_cst_1 main_v16 (broadcastInDim S16384x64 ![] bcast_S_S16384x64 : (⟨S_, .f32⟩ : BufTy).Contents (Elt F) → (⟨S16384x64, .f32⟩ : BufTy).Contents (Elt F)),
    binary main_v15 main_v16 main_v17 (cmpf .oge : (⟨S16384x64, .f32⟩ : BufTy).Contents (Elt F) → (⟨S16384x64, .f32⟩ : BufTy).Contents (Elt F) → (⟨S16384x64, .i1⟩ : BufTy).Contents (Elt F)),
    nullary main_cst_2 (constant S_ .f32 0x3C23D70A#32),
    unary main_cst_2 main_v18 (broadcastInDim S16384x64 ![] bcast_S_S16384x64 : (⟨S_, .f32⟩ : BufTy).Contents (Elt F) → (⟨S16384x64, .f32⟩ : BufTy).Contents (Elt F)),
    binary main_v18 main_v15 main_v19 (mulf : (⟨S16384x64, .f32⟩ : BufTy).Contents (Elt F) → (⟨S16384x64, .f32⟩ : BufTy).Contents (Elt F) → (⟨S16384x64, .f32⟩ : BufTy).Contents (Elt F)),
    TRef.ternary (.of main_v17 : TRef sig ⟨S16384x64, .i1⟩) (.of main_v15 : TRef sig ⟨S16384x64, .f32⟩) (.of main_v19 : TRef sig ⟨S16384x64, .f32⟩) main_call3.v0 select,
    binary main_v20 main_arg8 main_v21 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    unary main_arg9 main_v22 (broadcastInDim S1x32 ![1] bcast_S32_S1x32_1 : (⟨S32, .f32⟩ : BufTy).Contents (Elt F) → (⟨S1x32, .f32⟩ : BufTy).Contents (Elt F)),
    unary main_v22 main_v23 (broadcastInDim S16384x32 ![0, 1] bcast_S1x32_S16384x32_0_1 : (⟨S1x32, .f32⟩ : BufTy).Contents (Elt F) → (⟨S16384x32, .f32⟩ : BufTy).Contents (Elt F)),
    binary main_v21 main_v23 main_v24 (addf : (⟨S16384x32, .f32⟩ : BufTy).Contents (Elt F) → (⟨S16384x32, .f32⟩ : BufTy).Contents (Elt F) → (⟨S16384x32, .f32⟩ : BufTy).Contents (Elt F)),
    nullary main_cst_3 (constant S_ .f32 0x00000000#32),
    unary main_cst_3 main_v25 (broadcastInDim S16384x32 ![] bcast_S_S16384x32 : (⟨S_, .f32⟩ : BufTy).Contents (Elt F) → (⟨S16384x32, .f32⟩ : BufTy).Contents (Elt F)),
    binary main_v24 main_v25 main_v26 (cmpf .oge : (⟨S16384x32, .f32⟩ : BufTy).Contents (Elt F) → (⟨S16384x32, .f32⟩ : BufTy).Contents (Elt F) → (⟨S16384x32, .i1⟩ : BufTy).Contents (Elt F)),
    nullary main_cst_4 (constant S_ .f32 0x3C23D70A#32),
    unary main_cst_4 main_v27 (broadcastInDim S16384x32 ![] bcast_S_S16384x32 : (⟨S_, .f32⟩ : BufTy).Contents (Elt F) → (⟨S16384x32, .f32⟩ : BufTy).Contents (Elt F)),
    binary main_v27 main_v24 main_v28 (mulf : (⟨S16384x32, .f32⟩ : BufTy).Contents (Elt F) → (⟨S16384x32, .f32⟩ : BufTy).Contents (Elt F) → (⟨S16384x32, .f32⟩ : BufTy).Contents (Elt F)),
    TRef.ternary (.of main_v26 : TRef sig ⟨S16384x32, .i1⟩) (.of main_v24 : TRef sig ⟨S16384x32, .f32⟩) (.of main_v28 : TRef sig ⟨S16384x32, .f32⟩) main_call4.v0 select,
    binary main_v29 main_arg10 main_v30 ((fun l r => Host.dotGeneral dot_S16384x32_S32x16_S16384x16_1_0_0_1_n_n none l r) : (⟨S16384x32, .f32⟩ : BufTy).Contents (Elt F) → (⟨S32x16, .f32⟩ : BufTy).Contents (Elt F) → (⟨S16384x16, .f32⟩ : BufTy).Contents (Elt F)),
    unary main_arg11 main_v31 (broadcastInDim S1x16 ![1] bcast_S16_S1x16_1 : (⟨S16, .f32⟩ : BufTy).Contents (Elt F) → (⟨S1x16, .f32⟩ : BufTy).Contents (Elt F)),
    unary main_v31 main_v32 (broadcastInDim S16384x16 ![0, 1] bcast_S1x16_S16384x16_0_1 : (⟨S1x16, .f32⟩ : BufTy).Contents (Elt F) → (⟨S16384x16, .f32⟩ : BufTy).Contents (Elt F)),
    binary main_v30 main_v32 main_v33 (addf : (⟨S16384x16, .f32⟩ : BufTy).Contents (Elt F) → (⟨S16384x16, .f32⟩ : BufTy).Contents (Elt F) → (⟨S16384x16, .f32⟩ : BufTy).Contents (Elt F)),
    nullary main_cst_5 (constant S_ .f32 0x00000000#32),
    unary main_cst_5 main_v34 (broadcastInDim S16384x16 ![] bcast_S_S16384x16 : (⟨S_, .f32⟩ : BufTy).Contents (Elt F) → (⟨S16384x16, .f32⟩ : BufTy).Contents (Elt F)),
    binary main_v33 main_v34 main_v35 (cmpf .oge : (⟨S16384x16, .f32⟩ : BufTy).Contents (Elt F) → (⟨S16384x16, .f32⟩ : BufTy).Contents (Elt F) → (⟨S16384x16, .i1⟩ : BufTy).Contents (Elt F)),
    nullary main_cst_6 (constant S_ .f32 0x3C23D70A#32),
    unary main_cst_6 main_v36 (broadcastInDim S16384x16 ![] bcast_S_S16384x16 : (⟨S_, .f32⟩ : BufTy).Contents (Elt F) → (⟨S16384x16, .f32⟩ : BufTy).Contents (Elt F)),
    binary main_v36 main_v33 main_v37 (mulf : (⟨S16384x16, .f32⟩ : BufTy).Contents (Elt F) → (⟨S16384x16, .f32⟩ : BufTy).Contents (Elt F) → (⟨S16384x16, .f32⟩ : BufTy).Contents (Elt F)),
    TRef.ternary (.of main_v35 : TRef sig ⟨S16384x16, .i1⟩) (.of main_v33 : TRef sig ⟨S16384x16, .f32⟩) (.of main_v37 : TRef sig ⟨S16384x16, .f32⟩) main_call5.v0 select,
    binary main_v38 main_arg12 main_v39 ((fun l r => Host.dotGeneral dot_S16384x16_S16x1_S16384x1_1_0_0_1_n_n none l r) : (⟨S16384x16, .f32⟩ : BufTy).Contents (Elt F) → (⟨S16x1, .f32⟩ : BufTy).Contents (Elt F) → (⟨S16384x1, .f32⟩ : BufTy).Contents (Elt F)),
    unary main_arg13 main_v40 (broadcastInDim S1x1 ![1] bcast_S1_S1x1_1 : (⟨S1, .f32⟩ : BufTy).Contents (Elt F) → (⟨S1x1, .f32⟩ : BufTy).Contents (Elt F)),
    unary main_v40 main_v41 (broadcastInDim S16384x1 ![0, 1] bcast_S1x1_S16384x1_0_1 : (⟨S1x1, .f32⟩ : BufTy).Contents (Elt F) → (⟨S16384x1, .f32⟩ : BufTy).Contents (Elt F)),
    binary main_v39 main_v41 main_v42 (addf : (⟨S16384x1, .f32⟩ : BufTy).Contents (Elt F) → (⟨S16384x1, .f32⟩ : BufTy).Contents (Elt F) → (⟨S16384x1, .f32⟩ : BufTy).Contents (Elt F)) ]

/-- Window 1 of the line. -/
abbrev w1 : List (HloOp τ sig (Elt F)) :=
  [ TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2 : TRef sig ⟨S100000x128, .f32⟩) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- Window 2 of the line. -/
abbrev w2 : List (HloOp τ sig (Elt F)) :=
  [ TRef.nullary main_call1.c (constantI S_ 32 0#32),
    TRef.unary main_call1.c main_call1.v0 (broadcastInDim S16384 ![] bcast_S_S16384),
    TRef.binary (.of main_arg1 : TRef sig ⟨S16384, .i32⟩) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1 : TRef sig ⟨S16384, .i32⟩) main_call1.v2 main_call1.v3 addi,
    TRef.ternary main_call1.v1 main_call1.v3 (.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3 : TRef sig ⟨S100000x128, .f32⟩) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

/-- Window 3 of the line. -/
abbrev w3 : List (HloOp τ sig (Elt F)) :=
  [ binary main_v0 main_v1 main_v2 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v2 main_arg4 main_v3 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    unary main_arg5 main_v4 (broadcastInDim S1x64 ![1] bcast_S64_S1x64_1 : (⟨S64, .f32⟩ : BufTy).Contents (Elt F) → (⟨S1x64, .f32⟩ : BufTy).Contents (Elt F)),
    unary main_v4 main_v5 (broadcastInDim S16384x64 ![0, 1] bcast_S1x64_S16384x64_0_1 : (⟨S1x64, .f32⟩ : BufTy).Contents (Elt F) → (⟨S16384x64, .f32⟩ : BufTy).Contents (Elt F)),
    binary main_v3 main_v5 main_v6 (addf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    unary main_cst main_v7 (broadcastInDim S16384x64 ![] bcast_S_S16384x64 : (⟨S_, .f32⟩ : BufTy).Contents (Elt F) → (⟨S16384x64, .f32⟩ : BufTy).Contents (Elt F)),
    binary main_v6 main_v7 main_v8 (cmpf .oge : (⟨S16384x64, .f32⟩ : BufTy).Contents (Elt F) → (⟨S16384x64, .f32⟩ : BufTy).Contents (Elt F) → (⟨S16384x64, .i1⟩ : BufTy).Contents (Elt F)),
    nullary main_cst_0 (constant S_ .f32 0x3C23D70A#32),
    unary main_cst_0 main_v9 (broadcastInDim S16384x64 ![] bcast_S_S16384x64 : (⟨S_, .f32⟩ : BufTy).Contents (Elt F) → (⟨S16384x64, .f32⟩ : BufTy).Contents (Elt F)),
    binary main_v9 main_v6 main_v10 (mulf : (⟨S16384x64, .f32⟩ : BufTy).Contents (Elt F) → (⟨S16384x64, .f32⟩ : BufTy).Contents (Elt F) → (⟨S16384x64, .f32⟩ : BufTy).Contents (Elt F)),
    TRef.ternary (.of main_v8 : TRef sig ⟨S16384x64, .i1⟩) (.of main_v6 : TRef sig ⟨S16384x64, .f32⟩) (.of main_v10 : TRef sig ⟨S16384x64, .f32⟩) main_call2.v0 select ]

/-- Window 4 of the line. -/
abbrev w4 : List (HloOp τ sig (Elt F)) :=
  [ binary main_v11 main_arg6 main_v12 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg7 main_v13 (broadcastInDim S1x64 ![1] bcast_S64_S1x64_1 : (⟨S64, .f32⟩ : BufTy).Contents (Elt F) → (⟨S1x64, .f32⟩ : BufTy).Contents (Elt F)),
    unary main_v13 main_v14 (broadcastInDim S16384x64 ![0, 1] bcast_S1x64_S16384x64_0_1 : (⟨S1x64, .f32⟩ : BufTy).Contents (Elt F) → (⟨S16384x64, .f32⟩ : BufTy).Contents (Elt F)),
    binary main_v12 main_v14 main_v15 (addf : (⟨S16384x64, .f32⟩ : BufTy).Contents (Elt F) → (⟨S16384x64, .f32⟩ : BufTy).Contents (Elt F) → (⟨S16384x64, .f32⟩ : BufTy).Contents (Elt F)),
    nullary main_cst_1 (constant S_ .f32 0x00000000#32),
    unary main_cst_1 main_v16 (broadcastInDim S16384x64 ![] bcast_S_S16384x64 : (⟨S_, .f32⟩ : BufTy).Contents (Elt F) → (⟨S16384x64, .f32⟩ : BufTy).Contents (Elt F)),
    binary main_v15 main_v16 main_v17 (cmpf .oge : (⟨S16384x64, .f32⟩ : BufTy).Contents (Elt F) → (⟨S16384x64, .f32⟩ : BufTy).Contents (Elt F) → (⟨S16384x64, .i1⟩ : BufTy).Contents (Elt F)),
    nullary main_cst_2 (constant S_ .f32 0x3C23D70A#32),
    unary main_cst_2 main_v18 (broadcastInDim S16384x64 ![] bcast_S_S16384x64 : (⟨S_, .f32⟩ : BufTy).Contents (Elt F) → (⟨S16384x64, .f32⟩ : BufTy).Contents (Elt F)),
    binary main_v18 main_v15 main_v19 (mulf : (⟨S16384x64, .f32⟩ : BufTy).Contents (Elt F) → (⟨S16384x64, .f32⟩ : BufTy).Contents (Elt F) → (⟨S16384x64, .f32⟩ : BufTy).Contents (Elt F)),
    TRef.ternary (.of main_v17 : TRef sig ⟨S16384x64, .i1⟩) (.of main_v15 : TRef sig ⟨S16384x64, .f32⟩) (.of main_v19 : TRef sig ⟨S16384x64, .f32⟩) main_call3.v0 select ]

/-- Window 5 of the line. -/
abbrev w5 : List (HloOp τ sig (Elt F)) :=
  [ binary main_v20 main_arg8 main_v21 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    unary main_arg9 main_v22 (broadcastInDim S1x32 ![1] bcast_S32_S1x32_1 : (⟨S32, .f32⟩ : BufTy).Contents (Elt F) → (⟨S1x32, .f32⟩ : BufTy).Contents (Elt F)),
    unary main_v22 main_v23 (broadcastInDim S16384x32 ![0, 1] bcast_S1x32_S16384x32_0_1 : (⟨S1x32, .f32⟩ : BufTy).Contents (Elt F) → (⟨S16384x32, .f32⟩ : BufTy).Contents (Elt F)),
    binary main_v21 main_v23 main_v24 (addf : (⟨S16384x32, .f32⟩ : BufTy).Contents (Elt F) → (⟨S16384x32, .f32⟩ : BufTy).Contents (Elt F) → (⟨S16384x32, .f32⟩ : BufTy).Contents (Elt F)),
    nullary main_cst_3 (constant S_ .f32 0x00000000#32),
    unary main_cst_3 main_v25 (broadcastInDim S16384x32 ![] bcast_S_S16384x32 : (⟨S_, .f32⟩ : BufTy).Contents (Elt F) → (⟨S16384x32, .f32⟩ : BufTy).Contents (Elt F)),
    binary main_v24 main_v25 main_v26 (cmpf .oge : (⟨S16384x32, .f32⟩ : BufTy).Contents (Elt F) → (⟨S16384x32, .f32⟩ : BufTy).Contents (Elt F) → (⟨S16384x32, .i1⟩ : BufTy).Contents (Elt F)),
    nullary main_cst_4 (constant S_ .f32 0x3C23D70A#32),
    unary main_cst_4 main_v27 (broadcastInDim S16384x32 ![] bcast_S_S16384x32 : (⟨S_, .f32⟩ : BufTy).Contents (Elt F) → (⟨S16384x32, .f32⟩ : BufTy).Contents (Elt F)),
    binary main_v27 main_v24 main_v28 (mulf : (⟨S16384x32, .f32⟩ : BufTy).Contents (Elt F) → (⟨S16384x32, .f32⟩ : BufTy).Contents (Elt F) → (⟨S16384x32, .f32⟩ : BufTy).Contents (Elt F)),
    TRef.ternary (.of main_v26 : TRef sig ⟨S16384x32, .i1⟩) (.of main_v24 : TRef sig ⟨S16384x32, .f32⟩) (.of main_v28 : TRef sig ⟨S16384x32, .f32⟩) main_call4.v0 select ]

/-- Window 6 of the line. -/
abbrev w6 : List (HloOp τ sig (Elt F)) :=
  [ binary main_v29 main_arg10 main_v30 ((fun l r => Host.dotGeneral dot_S16384x32_S32x16_S16384x16_1_0_0_1_n_n none l r) : (⟨S16384x32, .f32⟩ : BufTy).Contents (Elt F) → (⟨S32x16, .f32⟩ : BufTy).Contents (Elt F) → (⟨S16384x16, .f32⟩ : BufTy).Contents (Elt F)),
    unary main_arg11 main_v31 (broadcastInDim S1x16 ![1] bcast_S16_S1x16_1 : (⟨S16, .f32⟩ : BufTy).Contents (Elt F) → (⟨S1x16, .f32⟩ : BufTy).Contents (Elt F)),
    unary main_v31 main_v32 (broadcastInDim S16384x16 ![0, 1] bcast_S1x16_S16384x16_0_1 : (⟨S1x16, .f32⟩ : BufTy).Contents (Elt F) → (⟨S16384x16, .f32⟩ : BufTy).Contents (Elt F)),
    binary main_v30 main_v32 main_v33 (addf : (⟨S16384x16, .f32⟩ : BufTy).Contents (Elt F) → (⟨S16384x16, .f32⟩ : BufTy).Contents (Elt F) → (⟨S16384x16, .f32⟩ : BufTy).Contents (Elt F)),
    nullary main_cst_5 (constant S_ .f32 0x00000000#32),
    unary main_cst_5 main_v34 (broadcastInDim S16384x16 ![] bcast_S_S16384x16 : (⟨S_, .f32⟩ : BufTy).Contents (Elt F) → (⟨S16384x16, .f32⟩ : BufTy).Contents (Elt F)),
    binary main_v33 main_v34 main_v35 (cmpf .oge : (⟨S16384x16, .f32⟩ : BufTy).Contents (Elt F) → (⟨S16384x16, .f32⟩ : BufTy).Contents (Elt F) → (⟨S16384x16, .i1⟩ : BufTy).Contents (Elt F)),
    nullary main_cst_6 (constant S_ .f32 0x3C23D70A#32),
    unary main_cst_6 main_v36 (broadcastInDim S16384x16 ![] bcast_S_S16384x16 : (⟨S_, .f32⟩ : BufTy).Contents (Elt F) → (⟨S16384x16, .f32⟩ : BufTy).Contents (Elt F)),
    binary main_v36 main_v33 main_v37 (mulf : (⟨S16384x16, .f32⟩ : BufTy).Contents (Elt F) → (⟨S16384x16, .f32⟩ : BufTy).Contents (Elt F) → (⟨S16384x16, .f32⟩ : BufTy).Contents (Elt F)),
    TRef.ternary (.of main_v35 : TRef sig ⟨S16384x16, .i1⟩) (.of main_v33 : TRef sig ⟨S16384x16, .f32⟩) (.of main_v37 : TRef sig ⟨S16384x16, .f32⟩) main_call5.v0 select ]

/-- Window 7 of the line. -/
abbrev w7 : List (HloOp τ sig (Elt F)) :=
  [ binary main_v38 main_arg12 main_v39 ((fun l r => Host.dotGeneral dot_S16384x16_S16x1_S16384x1_1_0_0_1_n_n none l r) : (⟨S16384x16, .f32⟩ : BufTy).Contents (Elt F) → (⟨S16x1, .f32⟩ : BufTy).Contents (Elt F) → (⟨S16384x1, .f32⟩ : BufTy).Contents (Elt F)),
    unary main_arg13 main_v40 (broadcastInDim S1x1 ![1] bcast_S1_S1x1_1 : (⟨S1, .f32⟩ : BufTy).Contents (Elt F) → (⟨S1x1, .f32⟩ : BufTy).Contents (Elt F)),
    unary main_v40 main_v41 (broadcastInDim S16384x1 ![0, 1] bcast_S1x1_S16384x1_0_1 : (⟨S1x1, .f32⟩ : BufTy).Contents (Elt F) → (⟨S16384x1, .f32⟩ : BufTy).Contents (Elt F)),
    binary main_v39 main_v41 main_v42 (addf : (⟨S16384x1, .f32⟩ : BufTy).Contents (Elt F) → (⟨S16384x1, .f32⟩ : BufTy).Contents (Elt F) → (⟨S16384x1, .f32⟩ : BufTy).Contents (Elt F)) ]

/-- The line is its windows in order. -/
theorem flat_eq : (flat : List (HloOp τ sig (Elt F))) = w1 ++ (w2 ++ (w3 ++ (w4 ++ (w5 ++ (w6 ++ w7))))) := rfl

/-- A fold over two lines run one after the other is the fold over the second of the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- @main is that straight line: the called functions unfolded at their calls, sequencing reassociated. -/
theorem main_eq (c : Dev nD) : main (F := F) c = seq flat := by
  simp only [main, fn_take.body, fn_where.body, fn_where_0.body, fn_where_1.body, fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem flat_sub : (flat : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

/-! ## The windows: what each writes, what each leaves, its result -/

/-- The buffers window 1 writes. -/
abbrev w1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer window 1 does not write keeps its contents through it. -/
theorem w1_keep (V : Valuation τ sig (Elt F)) (r : Ref sig .tc) (h : r ∉ w1_W) :
    after w1 V (Proc.devRef .tc r) = V (Proc.devRef .tc r) :=
  after_of_writes_sub w1 _ w1_writes h

/-- The buffers window 2 writes. -/
abbrev w2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer window 2 does not write keeps its contents through it. -/
theorem w2_keep (V : Valuation τ sig (Elt F)) (r : Ref sig .tc) (h : r ∉ w2_W) :
    after w2 V (Proc.devRef .tc r) = V (Proc.devRef .tc r) :=
  after_of_writes_sub w2 _ w2_writes h

/-- The buffers window 3 writes. -/
abbrev w3_W : List (Ref sig .tc) := [main_v2, main_v3, main_v4, main_v5, main_v6, main_cst, main_v7, main_v8, main_cst_0, main_v9, main_v10, main_v11]
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer window 3 does not write keeps its contents through it. -/
theorem w3_keep (V : Valuation τ sig (Elt F)) (r : Ref sig .tc) (h : r ∉ w3_W) :
    after w3 V (Proc.devRef .tc r) = V (Proc.devRef .tc r) :=
  after_of_writes_sub w3 _ w3_writes h

/-- The buffers window 4 writes. -/
abbrev w4_W : List (Ref sig .tc) := [main_v12, main_v13, main_v14, main_v15, main_cst_1, main_v16, main_v17, main_cst_2, main_v18, main_v19, main_v20]
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer window 4 does not write keeps its contents through it. -/
theorem w4_keep (V : Valuation τ sig (Elt F)) (r : Ref sig .tc) (h : r ∉ w4_W) :
    after w4 V (Proc.devRef .tc r) = V (Proc.devRef .tc r) :=
  after_of_writes_sub w4 _ w4_writes h

/-- The buffers window 5 writes. -/
abbrev w5_W : List (Ref sig .tc) := [main_v21, main_v22, main_v23, main_v24, main_cst_3, main_v25, main_v26, main_cst_4, main_v27, main_v28, main_v29]
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer window 5 does not write keeps its contents through it. -/
theorem w5_keep (V : Valuation τ sig (Elt F)) (r : Ref sig .tc) (h : r ∉ w5_W) :
    after w5 V (Proc.devRef .tc r) = V (Proc.devRef .tc r) :=
  after_of_writes_sub w5 _ w5_writes h

/-- The buffers window 6 writes. -/
abbrev w6_W : List (Ref sig .tc) := [main_v30, main_v31, main_v32, main_v33, main_cst_5, main_v34, main_v35, main_cst_6, main_v36, main_v37, main_v38]
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer window 6 does not write keeps its contents through it. -/
theorem w6_keep (V : Valuation τ sig (Elt F)) (r : Ref sig .tc) (h : r ∉ w6_W) :
    after w6 V (Proc.devRef .tc r) = V (Proc.devRef .tc r) :=
  after_of_writes_sub w6 _ w6_writes h

/-- The buffers window 7 writes. -/
abbrev w7_W : List (Ref sig .tc) := [main_v39, main_v40, main_v41, main_v42]
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer window 7 does not write keeps its contents through it. -/
theorem w7_keep (V : Valuation τ sig (Elt F)) (r : Ref sig .tc) (h : r ∉ w7_W) :
    after w7 V (Proc.devRef .tc r) = V (Proc.devRef .tc r) :=
  after_of_writes_sub w7 _ w7_writes h

section Results

attribute [local irreducible] Host.reduce Host.gather concatenate broadcastInDim

set_option maxRecDepth 8192 in
set_option maxHeartbeats 2000000 in
/-- Window 1's result, of the contents it starts from. -/
theorem w1_res (V : Valuation τ sig (Elt F)) : after w1 V (Proc.devRef .tc main_v0) = take (V (Proc.devRef .tc main_arg2)) (V (Proc.devRef .tc main_arg0)) := by
  simp only [w1]
  after_results_simp
  all_goals rfl

set_option maxRecDepth 8192 in
set_option maxHeartbeats 2000000 in
/-- Window 2's result, of the contents it starts from. -/
theorem w2_res (V : Valuation τ sig (Elt F)) : after w2 V (Proc.devRef .tc main_v1) = take (V (Proc.devRef .tc main_arg3)) (V (Proc.devRef .tc main_arg1)) := by
  simp only [w2]
  after_results_simp
  all_goals rfl

set_option maxRecDepth 8192 in
set_option maxHeartbeats 2000000 in
/-- Window 3's result, of the contents it starts from. -/
theorem w3_res (V : Valuation τ sig (Elt F)) : after w3 V (Proc.devRef .tc main_v11) = leaky bcast_S_S16384x64 (pre1 (V (Proc.devRef .tc main_v0)) (V (Proc.devRef .tc main_v1)) (V (Proc.devRef .tc main_arg4)) (V (Proc.devRef .tc main_arg5))) := by
  simp only [w3]
  after_results_simp
  all_goals rfl

set_option maxRecDepth 8192 in
set_option maxHeartbeats 2000000 in
/-- Window 4's result, of the contents it starts from. -/
theorem w4_res (V : Valuation τ sig (Elt F)) : after w4 V (Proc.devRef .tc main_v20) = leaky bcast_S_S16384x64 (pre2 (V (Proc.devRef .tc main_v11)) (V (Proc.devRef .tc main_arg6)) (V (Proc.devRef .tc main_arg7))) := by
  simp only [w4]
  after_results_simp
  all_goals rfl

set_option maxRecDepth 8192 in
set_option maxHeartbeats 2000000 in
/-- Window 5's result, of the contents it starts from. -/
theorem w5_res (V : Valuation τ sig (Elt F)) : after w5 V (Proc.devRef .tc main_v29) = leaky bcast_S_S16384x32 (pre3 (V (Proc.devRef .tc main_v20)) (V (Proc.devRef .tc main_arg8)) (V (Proc.devRef .tc main_arg9))) := by
  simp only [w5]
  after_results_simp
  all_goals rfl

set_option maxRecDepth 8192 in
set_option maxHeartbeats 2000000 in
/-- Window 6's result, of the contents it starts from. -/
theorem w6_res (V : Valuation τ sig (Elt F)) : after w6 V (Proc.devRef .tc main_v38) = leaky bcast_S_S16384x16 (pre4 (V (Proc.devRef .tc main_v29)) (V (Proc.devRef .tc main_arg10)) (V (Proc.devRef .tc main_arg11))) := by
  simp only [w6]
  after_results_simp
  all_goals rfl

set_option maxRecDepth 8192 in
set_option maxHeartbeats 2000000 in
/-- Window 7's result, of the contents it starts from. -/
theorem w7_res (V : Valuation τ sig (Elt F)) : after w7 V (Proc.devRef .tc main_v42) = pre5 (V (Proc.devRef .tc main_v38)) (V (Proc.devRef .tc main_arg12)) (V (Proc.devRef .tc main_arg13)) := by
  simp only [w7]
  after_results_simp
  all_goals rfl

end Results

/-! ## The windows composed -/

/-- The contents after the first 1 window. -/
def upto1 (V : Valuation τ sig (Elt F)) : Valuation τ sig (Elt F) := after w1 (V)
theorem upto1_keep (V : Valuation τ sig (Elt F)) (r : Ref sig .tc) (h1 : r ∉ w1_W) :
    upto1 V (Proc.devRef .tc r) = V (Proc.devRef .tc r) :=
  (w1_keep _ r h1)

/-- The contents after the first 2 windows. -/
def upto2 (V : Valuation τ sig (Elt F)) : Valuation τ sig (Elt F) := after w2 (upto1 V)
theorem upto2_keep (V : Valuation τ sig (Elt F)) (r : Ref sig .tc) (h1 : r ∉ w1_W) (h2 : r ∉ w2_W) :
    upto2 V (Proc.devRef .tc r) = V (Proc.devRef .tc r) :=
  (w2_keep _ r h2).trans (upto1_keep V r h1)

/-- The contents after the first 3 windows. -/
def upto3 (V : Valuation τ sig (Elt F)) : Valuation τ sig (Elt F) := after w3 (upto2 V)
theorem upto3_keep (V : Valuation τ sig (Elt F)) (r : Ref sig .tc) (h1 : r ∉ w1_W) (h2 : r ∉ w2_W) (h3 : r ∉ w3_W) :
    upto3 V (Proc.devRef .tc r) = V (Proc.devRef .tc r) :=
  (w3_keep _ r h3).trans (upto2_keep V r h1 h2)

/-- The contents after the first 4 windows. -/
def upto4 (V : Valuation τ sig (Elt F)) : Valuation τ sig (Elt F) := after w4 (upto3 V)
theorem upto4_keep (V : Valuation τ sig (Elt F)) (r : Ref sig .tc) (h1 : r ∉ w1_W) (h2 : r ∉ w2_W) (h3 : r ∉ w3_W) (h4 : r ∉ w4_W) :
    upto4 V (Proc.devRef .tc r) = V (Proc.devRef .tc r) :=
  (w4_keep _ r h4).trans (upto3_keep V r h1 h2 h3)

/-- The contents after the first 5 windows. -/
def upto5 (V : Valuation τ sig (Elt F)) : Valuation τ sig (Elt F) := after w5 (upto4 V)
theorem upto5_keep (V : Valuation τ sig (Elt F)) (r : Ref sig .tc) (h1 : r ∉ w1_W) (h2 : r ∉ w2_W) (h3 : r ∉ w3_W) (h4 : r ∉ w4_W) (h5 : r ∉ w5_W) :
    upto5 V (Proc.devRef .tc r) = V (Proc.devRef .tc r) :=
  (w5_keep _ r h5).trans (upto4_keep V r h1 h2 h3 h4)

/-- The contents after the first 6 windows. -/
def upto6 (V : Valuation τ sig (Elt F)) : Valuation τ sig (Elt F) := after w6 (upto5 V)
theorem upto6_keep (V : Valuation τ sig (Elt F)) (r : Ref sig .tc) (h1 : r ∉ w1_W) (h2 : r ∉ w2_W) (h3 : r ∉ w3_W) (h4 : r ∉ w4_W) (h5 : r ∉ w5_W) (h6 : r ∉ w6_W) :
    upto6 V (Proc.devRef .tc r) = V (Proc.devRef .tc r) :=
  (w6_keep _ r h6).trans (upto5_keep V r h1 h2 h3 h4 h5)

/-- The contents after the first 7 windows. -/
def upto7 (V : Valuation τ sig (Elt F)) : Valuation τ sig (Elt F) := after w7 (upto6 V)
theorem upto7_keep (V : Valuation τ sig (Elt F)) (r : Ref sig .tc) (h1 : r ∉ w1_W) (h2 : r ∉ w2_W) (h3 : r ∉ w3_W) (h4 : r ∉ w4_W) (h5 : r ∉ w5_W) (h6 : r ∉ w6_W) (h7 : r ∉ w7_W) :
    upto7 V (Proc.devRef .tc r) = V (Proc.devRef .tc r) :=
  (w7_keep _ r h7).trans (upto6_keep V r h1 h2 h3 h4 h5 h6)

theorem after_flat (V : Valuation τ sig (Elt F)) : after flat V = upto7 V := by
  rw [flat_eq]
  simp only [after_app]
  rfl

/-- The result buffer after the whole line is `out` of the arguments' contents. -/
theorem out_eq (V : Valuation τ sig (Elt F)) :
    after flat V (Proc.devRef .tc main_v42) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_flat]
  unfold upto7
  rw [w7_res, upto6_keep V main_arg12 (by decide) (by decide) (by decide) (by decide) (by decide) (by decide), upto6_keep V main_arg13 (by decide) (by decide) (by decide) (by decide) (by decide) (by decide)]
  unfold upto6
  rw [w6_res, upto5_keep V main_arg10 (by decide) (by decide) (by decide) (by decide) (by decide), upto5_keep V main_arg11 (by decide) (by decide) (by decide) (by decide) (by decide)]
  unfold upto5
  rw [w5_res, upto4_keep V main_arg8 (by decide) (by decide) (by decide) (by decide), upto4_keep V main_arg9 (by decide) (by decide) (by decide) (by decide)]
  unfold upto4
  rw [w4_res, upto3_keep V main_arg6 (by decide) (by decide) (by decide), upto3_keep V main_arg7 (by decide) (by decide) (by decide)]
  unfold upto3
  rw [w3_res, upto2_keep V main_arg4 (by decide) (by decide), upto2_keep V main_arg5 (by decide) (by decide)]
  unfold upto2
  rw [w2_res, w2_keep _ main_v0 (by decide), upto1_keep V main_arg3 (by decide), upto1_keep V main_arg1 (by decide)]
  unfold upto1
  rw [w1_res]
  rfl

/-- An argument's buffer is written by no operation. -/
theorem arg_keep (V : Valuation τ sig (Elt F)) (r : Ref sig .tc) (h1 : r ∉ w1_W) (h2 : r ∉ w2_W) (h3 : r ∉ w3_W) (h4 : r ∉ w4_W) (h5 : r ∉ w5_W) (h6 : r ∉ w6_W) (h7 : r ∉ w7_W) :
    after flat V (Proc.devRef .tc r) = V (Proc.devRef .tc r) := by
  rw [after_flat]; exact upto7_keep V r h1 h2 h3 h4 h5 h6 h7

/-! ## The run -/

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v42).trans (out_eq _),
      (h c main_arg0).trans (arg_keep _ main_arg0 (by decide) (by decide) (by decide) (by decide) (by decide) (by decide) (by decide)),
      (h c main_arg1).trans (arg_keep _ main_arg1 (by decide) (by decide) (by decide) (by decide) (by decide) (by decide) (by decide)),
      (h c main_arg2).trans (arg_keep _ main_arg2 (by decide) (by decide) (by decide) (by decide) (by decide) (by decide) (by decide)),
      (h c main_arg3).trans (arg_keep _ main_arg3 (by decide) (by decide) (by decide) (by decide) (by decide) (by decide) (by decide)),
      (h c main_arg4).trans (arg_keep _ main_arg4 (by decide) (by decide) (by decide) (by decide) (by decide) (by decide) (by decide)),
      (h c main_arg5).trans (arg_keep _ main_arg5 (by decide) (by decide) (by decide) (by decide) (by decide) (by decide) (by decide)),
      (h c main_arg6).trans (arg_keep _ main_arg6 (by decide) (by decide) (by decide) (by decide) (by decide) (by decide) (by decide)),
      (h c main_arg7).trans (arg_keep _ main_arg7 (by decide) (by decide) (by decide) (by decide) (by decide) (by decide) (by decide)),
      (h c main_arg8).trans (arg_keep _ main_arg8 (by decide) (by decide) (by decide) (by decide) (by decide) (by decide) (by decide)),
      (h c main_arg9).trans (arg_keep _ main_arg9 (by decide) (by decide) (by decide) (by decide) (by decide) (by decide) (by decide)),
      (h c main_arg10).trans (arg_keep _ main_arg10 (by decide) (by decide) (by decide) (by decide) (by decide) (by decide) (by decide)),
      (h c main_arg11).trans (arg_keep _ main_arg11 (by decide) (by decide) (by decide) (by decide) (by decide) (by decide) (by decide)),
      (h c main_arg12).trans (arg_keep _ main_arg12 (by decide) (by decide) (by decide) (by decide) (by decide) (by decide) (by decide)),
      (h c main_arg13).trans (arg_keep _ main_arg13 (by decide) (by decide) (by decide) (by decide) (by decide) (by decide) (by decide))⟩)
    (run_seq scopedRefs_eq scopedSems_eq defs main (fun _ => flat) main_eq (fun _ => flat_sub) m ρ)

end Cert.ReferenceIdeal.RefValue

end
-- ==== Proof.LibRowGatherScatter.lean ====
/-
  Row gather and row scatter-add, read at an index.

  `x[idx]` on the rows of a two-dimensional array lowers to a gather whose result element `(e, c)` is the operand at
  row `idx[e, 0]` (read as a signed integer and clamped into `[0, N − 1]`) and column `c`.  `zeros.at[idx].add(u)` on
  rows lowers to an accumulating scatter: update element `(e, c)` lands at row `idx[e, 0]` (read signed, NOT clamped:
  an update whose row is outside `[0, N)` is dropped) and column `c`.  At the ideal instance the accumulating scatter
  is the exact sum, so the result at `(n, c)` is the operand's element plus the sum, over the edges `e` whose index is
  `n`, of `u (e, c)`.  The same for a one-dimensional operand (a degree count).
  All statements are over shape parameters `N E C`.  A program prints such a record as a `def` whose `wf` field is one of the
  program's stated side conditions (a field of its `Facts₀` class); that `def` is the record here at the same `wf`, by `rfl`.
-/
import Idealize.ShloMosaic.PureOps.Ideal
import Idealize.ShloMosaic.Lib.ValueIdx

noncomputable section

open scoped BigOperators

namespace Cert.LibRows

open Idealize.ShloMosaic Idealize.ShloMosaic.ValueIdx

/-! ## The row gather -/

section Gather
variable {α : Type}

/-- The dimension numbers of a gather of whole rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (b : BitVec w) : Fin N := ⟨min b.toInt.toNat (N - 1), by omega⟩

/-- THE ROW GATHER READ AT `(e, c)`: the operand at the clamped row `idx[e, 0]`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (clampRow N hN (idx (ix2 e (0 : Fin 1)))) c) := by
  unfold Host.gather
  congr 1
  have key : ∀ a : Fin 2, ((rowGatherDims N E C wf).operandIdx (ix2 e c) idx a).val
      = ((ix2 (clampRow N hN (idx (ix2 e (0 : Fin 1)))) c : (⟨2, ![N, C]⟩ : Shape).Idx) a).val := by
    refine Fin.forall_fin_two.mpr ⟨?_, ?_⟩
    · show (rowGatherDims N E C wf).start (ix2 e c) idx 0 + (rowGatherDims N E C wf).batchCoord (ix2 e c) 0
          + (rowGatherDims N E C wf).offCoord (ix2 e c) 0 = _
      rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGatherDims N E C wf).startIndexMap from List.mem_singleton.mpr rfl)]
      have hsi : (rowGatherDims N E C wf).siIdx (ix2 e c) ⟨List.idxOf (0 : Fin 2) (rowGatherDims N E C wf).startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
      rfl
    · show (rowGatherDims N E C wf).start (ix2 e c) idx 1 + (rowGatherDims N E C wf).batchCoord (ix2 e c) 1
          + (rowGatherDims N E C wf).offCoord (ix2 e c) 1 = _
      have h10 : (1 : Fin 2) ∉ ([0] : List (Fin 2)) := fun h => Nat.one_ne_zero (congrArg Fin.val (List.mem_singleton.mp h))
      rw [GatherDims.batchCoord_eq_zero _ _ _ List.not_mem_nil]
      have h0 : (rowGatherDims N E C wf).start (ix2 e c) idx 1 = 0 := by
        unfold GatherDims.start
        rw [dif_neg h10]
      rw [h0]
      simp only [Nat.add_zero, Nat.zero_add]
      unfold GatherDims.offCoord
      rw [dif_pos ((GatherDims.mem_sKept _ _).mpr ⟨h10, List.not_mem_nil⟩)]
      rfl
  funext a
  exact Fin.ext (key a)

end Gather

/-! ## The row scatter-add -/

section Scatter

/-- The dimension numbers of an accumulating scatter of whole rows: operand `[N, C]`, scatter indices `[E, 1]`,
    updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

private theorem one_not_mem_zero : (1 : Fin 2) ∉ ([0] : List (Fin 2)) :=
  fun h => Nat.one_ne_zero (congrArg Fin.val (List.mem_singleton.mp h))

/-- On the row axis an update's window starts at its edge's index word, read signed. -/
theorem rowScatter_start0 (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at `0`. -/
theorem rowScatter_start1 (idx : IVec ⟨2, ![E, 1]⟩ w) (e : Fin E) (c : Fin C) :
    (rowScatterDims N E C wf).start (ix2 e c) idx 1 = 0 := by
  unfold ScatterDims.start
  rw [dif_neg one_not_mem_zero]

/-- The window coordinate is `0` on the row axis (an inserted axis) -/
theorem rowScatter_window0 (e : Fin E) (c : Fin C) : (rowScatterDims N E C wf).window (ix2 e c) 0 = 0 := by
  unfold ScatterDims.window
  rw [dif_neg (fun h => by
    have := (List.mem_filter.mp h).2
    simp at this)]

/-- and the update's column on the column axis. -/
theorem rowScatter_window1 (e : Fin E) (c : Fin C) : (rowScatterDims N E C wf).window (ix2 e c) 1 = c.val := by
  unfold ScatterDims.window
  rw [dif_pos (by
    refine List.mem_filter.mpr ⟨List.mem_finRange _, ?_⟩
    simp)]
  rfl

/-- WHERE A ROW UPDATE LANDS: update `(e, c)` lands at `(n, c')` exactly when the edge's index word reads `n` as a signed
    integer and the columns agree (an index outside `[0, N)` lands nowhere). -/
theorem rowScatter_resultIdx_iff (idx : IVec ⟨2, ![E, 1]⟩ w) (e : Fin E) (c : Fin C) (n : Fin N) (c' : Fin C) :
    (rowScatterDims N E C wf).resultIdx? (ix2 e c) idx = some (ix2 n c')
      ↔ (idx (ix2 e (0 : Fin 1))).toInt = (n.val : Int) ∧ c = c' := by
  have hs0 := rowScatter_start0 wf idx e c
  have hs1 := rowScatter_start1 wf idx e c
  have hw0 := rowScatter_window0 wf e c
  have hw1 := rowScatter_window1 wf e c
  unfold ScatterDims.resultIdx?
  split
  · rename_i h
    constructor
    · intro heq
      have hf := Option.some.inj heq
      have h0 := congrArg (fun f => (f 0).val) hf
      have h1 := congrArg (fun f => (f 1).val) hf
      simp only at h0 h1
      have hb0 := (h 0).1
      rw [hs0, hw0] at h0 hb0
      rw [hs1, hw1] at h1
      refine ⟨?_, Fin.ext ?_⟩
      · have : ((idx (ix2 e (0 : Fin 1))).toInt + ((0 : Nat) : Int)).toNat = n.val := h0
        omega
      · have : ((0 : Int) + (c.val : Int)).toNat = c'.val := h1
        omega
    · rintro ⟨hn, rfl⟩
      congr 1
      funext a
      refine Fin.ext ?_
      revert a
      refine Fin.forall_fin_two.mpr ⟨?_, ?_⟩
      · show ((rowScatterDims N E C wf).start (ix2 e c) idx 0 + ((rowScatterDims N E C wf).window (ix2 e c) 0 : Int)).toNat = n.val
        rw [hs0, hw0, hn]; omega
      · show ((rowScatterDims N E C wf).start (ix2 e c) idx 1 + ((rowScatterDims N E C wf).window (ix2 e c) 1 : Int)).toNat = c.val
        rw [hs1, hw1]; omega
  · rename_i h
    constructor
    · intro heq; cases heq
    · rintro ⟨hn, rfl⟩
      exfalso
      apply h
      refine Fin.forall_fin_two.mpr ⟨?_, ?_⟩
      · show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [hs0, hw0, hn]; have := n.isLt; omega
      · show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [hs1, hw1]; have := c.isLt; omega

/-- THE ROW SCATTER-ADD READ AT `(n, c)`, at the ideal instance: the operand's element plus the sum, over the edges whose
    index word reads `n`, of the update's element in column `c`. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : Int)),
          upd (ix2 e c) := by
  show Ideal.hostScatterAdd (rowScatterDims N E C wf) x idx upd (ix2 n c) = _
  unfold Ideal.hostScatterAdd
  congr 1
  refine Finset.sum_nbij' (fun j => (j 0 : Fin E)) (fun e => ix2 e c) ?_ ?_ ?_ ?_ ?_
  · intro j hj
    obtain ⟨e, c0, rfl⟩ : ∃ (e : Fin E) (c0 : Fin C), j = ix2 e c0 := ⟨j 0, j 1, eq_ix2 j⟩
    show e ∈ Finset.univ.filter (fun e : Fin E => (idx (ix2 e (0 : Fin 1))).toInt = (n.val : Int))
    exact Finset.mem_filter.mpr ⟨Finset.mem_univ _, ((rowScatter_resultIdx_iff wf idx e c0 n c).mp (Finset.mem_filter.mp hj).2).1⟩
  · intro e he
    rw [Finset.mem_filter] at he ⊢
    exact ⟨Finset.mem_univ _, (rowScatter_resultIdx_iff wf idx e c n c).mpr ⟨he.2, rfl⟩⟩
  · intro j hj
    obtain ⟨e, c0, rfl⟩ : ∃ (e : Fin E) (c0 : Fin C), j = ix2 e c0 := ⟨j 0, j 1, eq_ix2 j⟩
    rw [Finset.mem_filter] at hj
    obtain rfl := ((rowScatter_resultIdx_iff wf idx e c0 n c).mp hj.2).2
    rfl
  · intro e _; rfl
  · intro j hj
    obtain ⟨e, c0, rfl⟩ : ∃ (e : Fin E) (c0 : Fin C), j = ix2 e c0 := ⟨j 0, j 1, eq_ix2 j⟩
    rw [Finset.mem_filter] at hj
    obtain rfl := ((rowScatter_resultIdx_iff wf idx e c0 n c).mp hj.2).2
    rfl

end Scatter

/-! ## The same for a one-dimensional operand -/

section Vec
variable {α : Type}

/-- A gather of single elements: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at the clamped index `idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- An accumulating scatter of single elements: operand `[N]`, scatter indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vecScatter_start (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window (e : Fin E) : (vecScatterDims N E wf).window (ix1 e) 0 = 0 := by
  unfold ScatterDims.window
  rw [dif_neg (fun h => by
    have := (List.mem_filter.mp h).2
    simp at this)]

/-- Update `e` lands at `n` exactly when its index word reads `n` as a signed integer. -/
theorem vecScatter_resultIdx_iff (idx : IVec ⟨2, ![E, 1]⟩ w) (e : Fin E) (n : Fin N) :
    (vecScatterDims N E wf).resultIdx? (ix1 e) idx = some (ix1 n) ↔ (idx (ix2 e (0 : Fin 1))).toInt = (n.val : Int) := by
  have hs0 := vecScatter_start wf idx e
  have hw0 := vecScatter_window wf e
  unfold ScatterDims.resultIdx?
  split
  · rename_i h
    constructor
    · intro heq
      have h0 := congrArg (fun f => (f 0).val) (Option.some.inj heq)
      simp only at h0
      have hb0 := (h 0).1
      rw [hs0, hw0] at h0 hb0
      have : ((idx (ix2 e (0 : Fin 1))).toInt + ((0 : Nat) : Int)).toNat = n.val := h0
      omega
    · intro hn
      congr 1
      funext a
      obtain rfl : a = 0 := Subsingleton.elim _ _
      refine Fin.ext ?_
      show ((vecScatterDims N E wf).start (ix1 e) idx 0 + ((vecScatterDims N E wf).window (ix1 e) 0 : Int)).toNat = n.val
      rw [hs0, hw0, hn]; omega
  · rename_i h
    constructor
    · intro heq; cases heq
    · intro hn
      exfalso
      apply h
      intro a
      obtain rfl : a = 0 := Subsingleton.elim _ _
      show 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int)
      rw [hs0, hw0, hn]; have := n.isLt; omega

/-- THE ELEMENT SCATTER-ADD READ AT `n`, at the ideal instance: the operand's element plus the sum of the updates of
    the edges whose index word reads `n`. -/
theorem scatterAdd_vec_apply {φ : FTy} (x : FVec Ideal ⟨1, ![N]⟩ φ) (idx : IVec ⟨2, ![E, 1]⟩ w)
    (upd : FVec Ideal ⟨1, ![E]⟩ φ) (n : Fin N) :
    Host.scatterAdd (F := Ideal) (vecScatterDims N E wf) x idx upd (ix1 n)
      = x (ix1 n) + ∑ e ∈ Finset.univ.filter (fun e : Fin E => (idx (ix2 e (0 : Fin 1))).toInt = (n.val : Int)),
          upd (ix1 e) := by
  show Ideal.hostScatterAdd (vecScatterDims N E wf) x idx upd (ix1 n) = _
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    show e ∈ Finset.univ.filter (fun e : Fin E => (idx (ix2 e (0 : Fin 1))).toInt = (n.val : Int))
    exact Finset.mem_filter.mpr ⟨Finset.mem_univ _, (vecScatter_resultIdx_iff wf idx e n).mp (Finset.mem_filter.mp hj).2⟩
  · intro e he
    rw [Finset.mem_filter] at he ⊢
    exact ⟨Finset.mem_univ _, (vecScatter_resultIdx_iff wf idx e n).mpr he.2⟩
  · intro j _
    obtain ⟨e, rfl⟩ : ∃ e : Fin E, j = ix1 e := ⟨j 0, eq_ix1 j⟩
    rfl
  · intro e _; rfl
  · intro j _
    obtain ⟨e, rfl⟩ : ∃ e : Fin E, j = ix1 e := ⟨j 0, eq_ix1 j⟩
    rfl

end Vec

end Cert.LibRows

end
-- ==== Proof.RefLayers.lean ====
/-
  The reference's dense layers, each read at an index.

  A dense layer of the reference is the host's matrix product plus a bias vector broadcast first into a row and then
  down the rows. Read at row `r` and column `c` on the extended reals it is `∑ k, h (r, k) * W (k, c) + b c`. The first
  layer's left operand is the concatenation of two `[16384, 128]` arrays along the columns, so its sum over 256
  positions splits into the sum over the first array's 128 columns against the upper half of the weight and the sum
  over the second array's against the lower half. The rectifier read at an index is the specified one.
-/
import proofs.«207198_g34918084116659_cont_8to1_b_1870_22_alg».proof.Proof.RefRun
import proofs.«207198_g34918084116659_cont_8to1_b_1870_22_alg».proof.Proof.MlpLayers
import proofs.«207198_g34918084116659_cont_8to1_b_1870_22_alg».proof.Proof.LibColumnCast

noncomputable section

namespace Cert.ReferenceIdeal.RefLayers

open Cert.ReferenceIdeal Cert.ReferenceIdeal.Gen Cert.ReferenceIdeal.RefValue Idealize.ShloMosaic Idealize.ShloMosaic.ValueIdx
open Cert.MlpLayers (IsPlain)

/-- The rectifier on an array, read at an index. -/
theorem leaky_apply {s : Shape} (hb : S_.BroadcastsInDim s (![] : Fin 0 → Fin s.rank)) (x : FVec Ideal s .f32) (j : s.Idx) :
    leaky (F := Ideal) hb x j = Cert.Spec.leaky (x j) := rfl

/-- The host's plain product read at `(r, c)`: the sum over `k` of the operands' products. -/
theorem dot_ix2 {M K N : ℕ} {φ₁ φ₂ : FTy} (d : DotDims ⟨2, ![M, K]⟩ ⟨2, ![K, N]⟩ ⟨2, ![M, N]⟩) (hd : IsPlain d)
    (lhs : FVec Ideal ⟨2, ![M, K]⟩ φ₁) (rhs : FVec Ideal ⟨2, ![K, N]⟩ φ₂) (r : Fin M) (c : Fin N) :
    Host.dotGeneral d none lhs rhs (ix2 r c) = ∑ k : Fin K, lhs (ix2 r k) * rhs (ix2 k c) :=
  (Ideal.dotGeneral_apply d none .single lhs rhs (ix2 r c)).trans
    (plain_dot_sum d hd.hr hd.hs hd.hl0 hd.hl1 hd.hr0 hd.hr1 lhs rhs r c)

/-- The five products are plain. -/
theorem plain1 : IsPlain dot_S16384x256_S256x64_S16384x64_1_0_0_1_n_n :=
  ⟨rfl, rfl, fun _ _ => rfl, fun _ _ => rfl, fun _ _ => rfl, fun _ _ => rfl⟩
theorem plain2 : IsPlain dot_S16384x64_S64x64_S16384x64_1_0_0_1_n_n :=
  ⟨rfl, rfl, fun _ _ => rfl, fun _ _ => rfl, fun _ _ => rfl, fun _ _ => rfl⟩
theorem plain3 : IsPlain dot_S16384x64_S64x32_S16384x32_1_0_0_1_n_n :=
  ⟨rfl, rfl, fun _ _ => rfl, fun _ _ => rfl, fun _ _ => rfl, fun _ _ => rfl⟩
theorem plain4 : IsPlain dot_S16384x32_S32x16_S16384x16_1_0_0_1_n_n :=
  ⟨rfl, rfl, fun _ _ => rfl, fun _ _ => rfl, fun _ _ => rfl, fun _ _ => rfl⟩
theorem plain5 : IsPlain dot_S16384x16_S16x1_S16384x1_1_0_0_1_n_n :=
  ⟨rfl, rfl, fun _ _ => rfl, fun _ _ => rfl, fun _ _ => rfl, fun _ _ => rfl⟩

/-- A bias vector broadcast into a row and then down the rows reads the vector's entry of that column. -/
theorem bias64 (b : FVec Ideal S64 .f32) (r : Fin 16384) (c : Fin 64) :
    broadcastInDim S16384x64 ![0, 1] bcast_S1x64_S16384x64_0_1 (broadcastInDim S1x64 ![1] bcast_S64_S1x64_1 b) (ix2 r c)
      = b (ix1 c) :=
  (broadcastInDim_apply _ _ _ (ix2 r c) (ix2 0 c) fun a => match a with | ⟨0, _⟩ => rfl | ⟨1, _⟩ => rfl).trans
    (broadcastInDim_apply _ _ b (ix2 0 c) (ix1 c) fun a => match a with | ⟨0, _⟩ => rfl)
theorem bias32 (b : FVec Ideal S32 .f32) (r : Fin 16384) (c : Fin 32) :
    broadcastInDim S16384x32 ![0, 1] bcast_S1x32_S16384x32_0_1 (broadcastInDim S1x32 ![1] bcast_S32_S1x32_1 b) (ix2 r c)
      = b (ix1 c) :=
  (broadcastInDim_apply _ _ _ (ix2 r c) (ix2 0 c) fun a => match a with | ⟨0, _⟩ => rfl | ⟨1, _⟩ => rfl).trans
    (broadcastInDim_apply _ _ b (ix2 0 c) (ix1 c) fun a => match a with | ⟨0, _⟩ => rfl)
theorem bias16 (b : FVec Ideal S16 .f32) (r : Fin 16384) (c : Fin 16) :
    broadcastInDim S16384x16 ![0, 1] bcast_S1x16_S16384x16_0_1 (broadcastInDim S1x16 ![1] bcast_S16_S1x16_1 b) (ix2 r c)
      = b (ix1 c) :=
  (broadcastInDim_apply _ _ _ (ix2 r c) (ix2 0 c) fun a => match a with | ⟨0, _⟩ => rfl | ⟨1, _⟩ => rfl).trans
    (broadcastInDim_apply _ _ b (ix2 0 c) (ix1 c) fun a => match a with | ⟨0, _⟩ => rfl)
theorem bias1 (b : FVec Ideal S1 .f32) (r : Fin 16384) :
    broadcastInDim S16384x1 ![0, 1] bcast_S1x1_S16384x1_0_1 (broadcastInDim S1x1 ![1] bcast_S1_S1x1_1 b) (ix2 r 0)
      = b (ix1 0) :=
  (broadcastInDim_apply _ _ _ (ix2 r 0) (ix2 0 0) fun a => match a with | ⟨0, _⟩ => rfl | ⟨1, _⟩ => rfl).trans
    (broadcastInDim_apply _ _ b (ix2 0 0) (ix1 0) fun a => match a with | ⟨0, _⟩ => rfl)

/-- The second layer before its rectifier, read at `(r, c)`. -/
theorem pre2_apply (h : FVec Ideal S16384x64 .f32) (W : FVec Ideal S64x64 .f32) (b : FVec Ideal S64 .f32) (r : Fin 16384)
    (c : Fin 64) :
    pre2 (F := Ideal) h W b (ix2 r c)
      = Cert.Spec.dense (fun k => h (ix2 r k)) (fun k c => W (ix2 k c)) (fun c => b (ix1 c)) c := by
  unfold pre2
  rw [addf_apply, dot_ix2 _ plain2, bias64]
  rfl

/-- The third layer before its rectifier, read at `(r, c)`. -/
theorem pre3_apply (h : FVec Ideal S16384x64 .f32) (W : FVec Ideal S64x32 .f32) (b : FVec Ideal S32 .f32) (r : Fin 16384)
    (c : Fin 32) :
    pre3 (F := Ideal) h W b (ix2 r c)
      = Cert.Spec.dense (fun k => h (ix2 r k)) (fun k c => W (ix2 k c)) (fun c => b (ix1 c)) c := by
  unfold pre3
  rw [addf_apply, dot_ix2 _ plain3, bias32]
  rfl

/-- The fourth layer before its rectifier, read at `(r, c)`. -/
theorem pre4_apply (h : FVec Ideal S16384x32 .f32) (W : FVec Ideal S32x16 .f32) (b : FVec Ideal S16 .f32) (r : Fin 16384)
    (c : Fin 16) :
    pre4 (F := Ideal) h W b (ix2 r c)
      = Cert.Spec.dense (fun k => h (ix2 r k)) (fun k c => W (ix2 k c)) (fun c => b (ix1 c)) c := by
  unfold pre4
  rw [addf_apply, dot_ix2 _ plain4, bias16]
  rfl

/-- The last layer, read at row `r`. -/
theorem pre5_apply (h : FVec Ideal S16384x16 .f32) (W : FVec Ideal S16x1 .f32) (b : FVec Ideal S1 .f32) (r : Fin 16384) :
    pre5 (F := Ideal) h W b (ix2 r 0) = ∑ k : Fin 16, h (ix2 r k) * W (ix2 k 0) + b (ix1 0) := by
  unfold pre5
  rw [addf_apply, dot_ix2 _ plain5, bias1]

/-- The concatenation of two `[16384, 128]` arrays along the columns, read in its left half. -/
theorem cat_left (u i : FVec Ideal S16384x128 .f32) (r : Fin 16384) (k : Fin 128) :
    concatenate S16384x256 1 [⟨S16384x128, u⟩, ⟨S16384x128, i⟩] concatenates_S16384x128_S16384x128_S16384x256_d1
        (ix2 r (⟨k.val, by have := k.isLt; omega⟩ : Fin 256)) = u (ix2 r k) :=
  concatenate_pair_apply_left (t := S16384x256) (s₁ := S16384x128) (s₂ := S16384x128) 1 u i
    concatenates_S16384x128_S16384x128_S16384x256_d1 (ix2 r (⟨k.val, by have := k.isLt; omega⟩ : Fin 256)) rfl (ix2 r k)
    fun b => match b with | ⟨0, _⟩ => rfl | ⟨1, _⟩ => rfl

/-- The same, read in its right half. -/
theorem cat_right (u i : FVec Ideal S16384x128 .f32) (r : Fin 16384) (k : Fin 128) :
    concatenate S16384x256 1 [⟨S16384x128, u⟩, ⟨S16384x128, i⟩] concatenates_S16384x128_S16384x128_S16384x256_d1
        (ix2 r (⟨128 + k.val, by have := k.isLt; omega⟩ : Fin 256)) = i (ix2 r k) :=
  concatenate_pair_apply_right (t := S16384x256) (s₁ := S16384x128) (s₂ := S16384x128) 1 u i
    concatenates_S16384x128_S16384x128_S16384x256_d1 (ix2 r (⟨128 + k.val, by have := k.isLt; omega⟩ : Fin 256)) rfl rfl (ix2 r k)
    (fun b hb => match b, hb with | ⟨0, _⟩, _ => rfl | ⟨1, _⟩, hb => (hb rfl).elim)
    (Nat.add_comm k.val 128)

/-- The first layer before its rectifier, read at `(r, c)`: the two half contractions and the bias. -/
theorem pre1_apply (u i : FVec Ideal S16384x128 .f32) (W : FVec Ideal S256x64 .f32) (b : FVec Ideal S64 .f32) (r : Fin 16384)
    (c : Fin 64) :
    pre1 (F := Ideal) u i W b (ix2 r c)
      = ∑ k : Fin 128, u (ix2 r k) * W (ix2 (⟨k.val, by have := k.isLt; omega⟩ : Fin 256) c)
        + ∑ k : Fin 128, i (ix2 r k) * W (ix2 (⟨128 + k.val, by have := k.isLt; omega⟩ : Fin 256) c) + b (ix1 c) := by
  unfold pre1
  rw [addf_apply, dot_ix2 _ plain1, bias64, sum_fin_split 128 128 rfl]
  simp only [cat_left, cat_right]

end Cert.ReferenceIdeal.RefLayers

end
-- ==== Proof.RefRead.lean ====
import proofs.«207198_g34918084116659_cont_8to1_b_1870_22_alg».proof.Proof.RefRun
import proofs.«207198_g34918084116659_cont_8to1_b_1870_22_alg».proof.Proof.LibRowGatherScatter
import proofs.«207198_g34918084116659_cont_8to1_b_1870_22_alg».proof.Proof.RefLayers
import proofs.«207198_g34918084116659_cont_8to1_b_1870_22_alg».proof.Proof.Spec
import Idealize.ShloMosaic.Lib.ValueIdx
import Idealize.ShloMosaic.Lib.Pipeline.Value
import Idealize.ShloMosaic.PureOps.Reduce

/-! The reference's look-up read at an index, under the range of the index words.

A look-up wraps a negative index word up by the table's height, masks the rows whose wrapped index is outside
`[0, 99999]` and gathers whole rows. When every index word is below 100000 as an unsigned number it is also below
2^31, so read as a signed number it is the same non-negative number: the wrap leaves it alone, the mask is set on
every row, and the gather's clamp is the identity. -/

noncomputable section

namespace Cert.ReferenceIdeal.RefRead

open Cert.ReferenceIdeal Cert.ReferenceIdeal.Gen Cert.ReferenceIdeal.RefValue Idealize.ShloMosaic Idealize.ShloMosaic.ValueIdx

/-! ## Words -/

/-- A 32-bit word below 100000 reads, as a signed integer, its unsigned value. -/
theorem toInt_small (b : BitVec 32) (h : b.toNat < 100000) : b.toInt = (b.toNat : Int) := by
  rw [BitVec.toInt_eq_toNat_cond]
  split
  · rfl
  · omega

/-- Such a word is not below zero, signed. -/
theorem cmpi_slt_zero (b : BitVec 32) (h : b.toNat < 100000) : IntOp.cmpi .slt b 0#32 = 0#1 := by
  have e := toInt_small b h
  have hn : ¬ ((b.toNat : Int) < 0) := by omega
  simp only [IntOp.cmpi, BitVec.slt, e]
  simp [hn]

/-- It is at least zero, signed. -/
theorem cmpi_sge_zero (b : BitVec 32) (h : b.toNat < 100000) : IntOp.cmpi .sge b 0#32 = 1#1 := by
  have e := toInt_small b h
  simp only [IntOp.cmpi, BitVec.sle, e]
  simp

/-- It is at most 99999, signed. -/
theorem cmpi_sle_top (b : BitVec 32) (h : b.toNat < 100000) : IntOp.cmpi .sle b 99999#32 = 1#1 := by
  have e := toInt_small b h
  have e9 : (99999#32 : BitVec 32).toInt = 99999 := by decide
  have hle : (b.toNat : Int) ≤ 99999 := by omega
  simp only [IntOp.cmpi, BitVec.sle, e, e9]
  simp [hle]

/-- A reduction by `and` of an array of set bits, from a set bit, is a set bit. -/
theorem reduce_and_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a, show IntOp.andi (1#1 : BitVec 1) 1#1 = 1#1 from by decide]
    exact ih

/-! ## The look-up -/

/-- The start-index column at row `r` is the index word itself. -/
theorem idxCol_apply (idx : IVec S16384 32) (h : ∀ j, (idx j).toNat < 100000) (r : Fin 16384) (u : Fin 1) :
    idxCol idx (ix2 r u) = idx (ix1 r) := by
  unfold idxCol
  rw [broadcastInDim_apply _ _ _ (ix2 r u) (ix1 r) (fun a => match a with | ⟨0, _⟩ => rfl)]
  show Scalar.select (IntOp.cmpi .slt (idx (ix1 r)) 0#32) _ (idx (ix1 r)) = _
  rw [cmpi_slt_zero _ (h _), select_zero]

/-- The mask is set everywhere. -/
theorem inBounds_one (col : IVec S16384x1 32) (hc : ∀ i, (col i).toNat < 100000) (j : S16384x128.Idx) :
    inBounds col j = 1#1 := by
  unfold inBounds broadcastInDim
  exact reduce_and_ones _ _ _ _ (fun i => by
    show IntOp.andi (IntOp.cmpi .sge (col i) 0#32) (IntOp.cmpi .sle (col i) 99999#32) = 1#1
    rw [cmpi_sge_zero _ (hc i), cmpi_sle_top _ (hc i)]
    decide) (fun _ => rfl) _

/-- THE LOOK-UP READ AT `(r, c)`: the table at row `idx r`, column `c`. -/
theorem take_apply {F : FTy → Type} [FloatOps F] (tbl : FVec F S100000x128 .f32) (idx : IVec S16384 32)
    (h : ∀ j, (idx j).toNat < 100000) (r : Fin 16384) (c : Fin 128) :
    take tbl idx (ix2 r c) = tbl (ix2 ⟨(idx (ix1 r)).toNat, h _⟩ c) := by
  have hc : ∀ i, (idxCol idx i).toNat < 100000 := fun i => by
    obtain ⟨a, b, rfl⟩ : ∃ (a : Fin 16384) (b : Fin 1), i = ix2 a b := ⟨i 0, i 1, eq_ix2 i⟩
    rw [idxCol_apply idx h]; exact h _
  unfold take
  rw [select_apply, inBounds_one _ hc, select_one]
  refine (Cert.LibRows.gather_rows_apply (N := 100000) (E := 16384) (C := 128) (by decide)
    gather_S100000x128_S16384x1_S16384x128_1_0_n_n_0_1_1128_wf tbl (idxCol idx) r c).trans ?_
  rw [idxCol_apply idx h]
  have e : Cert.LibRows.clampRow 100000 (by decide) (idx (ix1 r)) = ⟨(idx (ix1 r)).toNat, h _⟩ := Fin.ext (by
    show min (idx (ix1 r)).toInt.toNat (100000 - 1) = (idx (ix1 r)).toNat
    rw [toInt_small _ (h _)]
    have := h (ix1 r)
    omega)
  rw [e]

/-! ## The layers composed -/

open Cert.ReferenceIdeal.RefLayers

/-- A rectified dense layer read at `(r, c)`, its input row given: the specified layer of that row. -/
theorem layer2_read (h : FVec Ideal S16384x64 .f32) (W : FVec Ideal S64x64 .f32) (b : FVec Ideal S64 .f32) (r : Fin 16384)
    (g : Fin 64 → EReal) (hg : ∀ k, h (ix2 r k) = g k) (c : Fin 64) :
    leaky (F := Ideal) bcast_S_S16384x64 (pre2 h W b) (ix2 r c)
      = Cert.Spec.layer g (fun k c => W (ix2 k c)) (fun c => b (ix1 c)) c := by
  rw [leaky_apply, pre2_apply, show (fun k => h (ix2 r k)) = g from funext hg]
  rfl

theorem layer3_read (h : FVec Ideal S16384x64 .f32) (W : FVec Ideal S64x32 .f32) (b : FVec Ideal S32 .f32) (r : Fin 16384)
    (g : Fin 64 → EReal) (hg : ∀ k, h (ix2 r k) = g k) (c : Fin 32) :
    leaky (F := Ideal) bcast_S_S16384x32 (pre3 h W b) (ix2 r c)
      = Cert.Spec.layer g (fun k c => W (ix2 k c)) (fun c => b (ix1 c)) c := by
  rw [leaky_apply, pre3_apply, show (fun k => h (ix2 r k)) = g from funext hg]
  rfl

theorem layer4_read (h : FVec Ideal S16384x32 .f32) (W : FVec Ideal S32x16 .f32) (b : FVec Ideal S16 .f32) (r : Fin 16384)
    (g : Fin 32 → EReal) (hg : ∀ k, h (ix2 r k) = g k) (c : Fin 16) :
    leaky (F := Ideal) bcast_S_S16384x16 (pre4 h W b) (ix2 r c)
      = Cert.Spec.layer g (fun k c => W (ix2 k c)) (fun c => b (ix1 c)) c := by
  rw [leaky_apply, pre4_apply, show (fun k => h (ix2 r k)) = g from funext hg]
  rfl

/-- The first rectified layer read at `(r, c)`, under the index ranges: the specified first layer of the two looked-up rows. -/
theorem layer1_read (a0 a1 : IVec S16384 32) (a2 a3 : FVec Ideal S100000x128 .f32) (a4 : FVec Ideal S256x64 .f32) (a5 : FVec Ideal S64 .f32)
    (h0 : ∀ j, (a0 j).toNat < 100000) (h1 : ∀ j, (a1 j).toNat < 100000) (r : Fin 16384) (c : Fin 64) :
    leaky (F := Ideal) bcast_S_S16384x64 (pre1 (take a2 a0) (take a3 a1) a4 a5) (ix2 r c)
      = Cert.Spec.layer1 (fun k => a2 (ix2 ⟨(a0 (ix1 r)).toNat, h0 _⟩ k)) (fun k => a3 (ix2 ⟨(a1 (ix1 r)).toNat, h1 _⟩ k))
          (fun k c => a4 (ix2 ⟨k.val, by have := k.isLt; omega⟩ c)) (fun k c => a4 (ix2 ⟨128 + k.val, by have := k.isLt; omega⟩ c)) (fun c => a5 (ix1 c)) c := by
  rw [leaky_apply, pre1_apply]
  simp only [take_apply a2 a0 h0, take_apply a3 a1 h1]
  rfl

/-- THE REFERENCE'S RESULT READ AT ROW `r`, under the index ranges: the specified score of the two looked-up rows. -/
theorem out_apply (a0 a1 : IVec S16384 32) (a2 a3 : FVec Ideal S100000x128 .f32) (a4 : FVec Ideal S256x64 .f32) (a5 : FVec Ideal S64 .f32)
    (a6 : FVec Ideal S64x64 .f32) (a7 : FVec Ideal S64 .f32) (a8 : FVec Ideal S64x32 .f32) (a9 : FVec Ideal S32 .f32) (a10 : FVec Ideal S32x16 .f32)
    (a11 : FVec Ideal S16 .f32) (a12 : FVec Ideal S16x1 .f32) (a13 : FVec Ideal S1 .f32)
    (h0 : ∀ j, (a0 j).toNat < 100000) (h1 : ∀ j, (a1 j).toNat < 100000) (r : Fin 16384) :
    out (F := Ideal) a0 a1 a2 a3 a4 a5 a6 a7 a8 a9 a10 a11 a12 a13 (ix2 r 0)
      = Cert.Spec.score (fun k => a2 (ix2 ⟨(a0 (ix1 r)).toNat, h0 _⟩ k)) (fun k => a3 (ix2 ⟨(a1 (ix1 r)).toNat, h1 _⟩ k))
          (fun k c => a4 (ix2 ⟨k.val, by have := k.isLt; omega⟩ c)) (fun k c => a4 (ix2 ⟨128 + k.val, by have := k.isLt; omega⟩ c)) (fun c => a5 (ix1 c))
          (fun k c => a6 (ix2 k c)) (fun c => a7 (ix1 c)) (fun k c => a8 (ix2 k c)) (fun c => a9 (ix1 c))
          (fun k c => a10 (ix2 k c)) (fun c => a11 (ix1 c)) (fun k => a12 (ix2 k 0)) (a13 (ix1 0)) := by
  have e1 := layer1_read a0 a1 a2 a3 a4 a5 h0 h1 r
  have e2 := layer2_read _ a6 a7 r _ e1
  have e3 := layer3_read _ a8 a9 r _ e2
  have e4 := layer4_read _ a10 a11 r _ e3
  unfold out
  rw [pre5_apply]
  unfold Cert.Spec.score
  simp only [e4]

end Cert.ReferenceIdeal.RefRead

end
-- ==== Proof.IdealGlueValue.lean ====
import proofs.«207198_g34918084116659_cont_8to1_b_1870_22_alg».proof.Proof.IdealGlueFrame
import proofs.«207198_g34918084116659_cont_8to1_b_1870_22_alg».proof.Proof.KernelValue
import proofs.«207198_g34918084116659_cont_8to1_b_1870_22_alg».proof.Proof.RefRead

/-! The kernel program's result array is the reference's result, and the certificate's claims from the two runs.

After the run the kernel program's result array is the column reshape of the network region's result on the two
gathered arrays and the sliced and reshaped weights; row by row that is the specified score of the two table rows
the index words name, which is also what the reference's result reads at that row. -/

noncomputable section

namespace Cert.KernelIdeal.Glue

open Cert.KernelIdeal Cert.KernelIdeal.Gen Cert.KernelIdeal.Launch
open Idealize.ShloMosaic Idealize.SL.Sem Idealize.ShloMosaic.StableHlo Idealize.ShloMosaic.ValueIdx

/-! ## @main's arrays at the network region's entry -/

section Vals

variable {F : FTy → Type} [FloatOps F] (m : (ℓ : Loc nD τ sig) → Buf (Elt F) ℓ) (d : Dev nD)

theorem V2_u : V2 m d (Proc.devRef .tc main_v7_0) = Gu m d := by
  unfold V2
  rw [Function.update_of_ne (show (ou' : DevRef τ sig) ≠ oi' by decide), Function.update_self]

theorem V2_i : V2 m d (Proc.devRef .tc main_v7_1) = Gi m d := by
  unfold V2
  rw [Function.update_self]

/-- An array other than the two gathered ones is as the host operations left it. -/
theorem V2_of_V1 (r : Ref sig .tc) (h0 : r ≠ main_v7_0) (h1 : r ≠ main_v7_1) :
    V2 m d (Proc.devRef .tc r) = V1 m d (Proc.devRef .tc r) := by
  unfold V2
  rw [Function.update_of_ne (devRef_ne_of_ne h1), Function.update_of_ne (devRef_ne_of_ne h0)]

theorem V2_v0 : V2 m d (Proc.devRef .tc main_v0) = extractStridedSlice S128x64 ![0, 0] (m (d, (Proc.devRef .tc main_arg4)) : FVec F S256x64 .f32) slices_S256x64_S128x64_0_0 := by
  rw [V2_of_V1 m d main_v0 (by decide) (by decide)]
  simp only [V1, op0, op1, op2, op3, op4, op5, op6]
  after_results_simp
  all_goals rfl

theorem V2_v1 : V2 m d (Proc.devRef .tc main_v1) = extractStridedSlice S128x64 ![128, 0] (m (d, (Proc.devRef .tc main_arg4)) : FVec F S256x64 .f32) slices_S256x64_S128x64_128_0 := by
  rw [V2_of_V1 m d main_v1 (by decide) (by decide)]
  simp only [V1, op0, op1, op2, op3, op4, op5, op6]
  after_results_simp
  all_goals rfl

theorem V2_v2 : V2 m d (Proc.devRef .tc main_v2) = shapeCast S1x64 (m (d, (Proc.devRef .tc main_arg5)) : FVec F S64 .f32) shapeCasts_S64_S1x64 := by
  rw [V2_of_V1 m d main_v2 (by decide) (by decide)]
  simp only [V1, op0, op1, op2, op3, op4, op5, op6]
  after_results_simp
  all_goals rfl

theorem V2_v3 : V2 m d (Proc.devRef .tc main_v3) = shapeCast S1x64 (m (d, (Proc.devRef .tc main_arg7)) : FVec F S64 .f32) shapeCasts_S64_S1x64 := by
  rw [V2_of_V1 m d main_v3 (by decide) (by decide)]
  simp only [V1, op0, op1, op2, op3, op4, op5, op6]
  after_results_simp
  all_goals rfl

theorem V2_v4 : V2 m d (Proc.devRef .tc main_v4) = shapeCast S1x32 (m (d, (Proc.devRef .tc main_arg9)) : FVec F S32 .f32) shapeCasts_S32_S1x32 := by
  rw [V2_of_V1 m d main_v4 (by decide) (by decide)]
  simp only [V1, op0, op1, op2, op3, op4, op5, op6]
  after_results_simp
  all_goals rfl

theorem V2_v5 : V2 m d (Proc.devRef .tc main_v5) = shapeCast S1x16 (m (d, (Proc.devRef .tc main_arg11)) : FVec F S16 .f32) shapeCasts_S16_S1x16 := by
  rw [V2_of_V1 m d main_v5 (by decide) (by decide)]
  simp only [V1, op0, op1, op2, op3, op4, op5, op6]
  after_results_simp
  all_goals rfl

theorem V2_v6 : V2 m d (Proc.devRef .tc main_v6) = shapeCast S1x1 (m (d, (Proc.devRef .tc main_arg13)) : FVec F S1 .f32) shapeCasts_S1_S1x1 := by
  rw [V2_of_V1 m d main_v6 (by decide) (by decide)]
  simp only [V1, op0, op1, op2, op3, op4, op5, op6]
  after_results_simp
  all_goals rfl

theorem V2_a6 : V2 m d (Proc.devRef .tc main_arg6) = m (d, (Proc.devRef .tc main_arg6)) := by
  rw [V2_of_V1 m d main_arg6 (by decide) (by decide)]
  simp only [V1, op0, op1, op2, op3, op4, op5, op6]
  after_results_simp
  all_goals rfl

theorem V2_a8 : V2 m d (Proc.devRef .tc main_arg8) = m (d, (Proc.devRef .tc main_arg8)) := by
  rw [V2_of_V1 m d main_arg8 (by decide) (by decide)]
  simp only [V1, op0, op1, op2, op3, op4, op5, op6]
  after_results_simp
  all_goals rfl

theorem V2_a10 : V2 m d (Proc.devRef .tc main_arg10) = m (d, (Proc.devRef .tc main_arg10)) := by
  rw [V2_of_V1 m d main_arg10 (by decide) (by decide)]
  simp only [V1, op0, op1, op2, op3, op4, op5, op6]
  after_results_simp
  all_goals rfl

theorem V2_a12 : V2 m d (Proc.devRef .tc main_arg12) = m (d, (Proc.devRef .tc main_arg12)) := by
  rw [V2_of_V1 m d main_arg12 (by decide) (by decide)]
  simp only [V1, op0, op1, op2, op3, op4, op5, op6]
  after_results_simp
  all_goals rfl

/-- The result array after the run: the column reshape of the network region's result. -/
theorem V4_v9 : V4 m d (Proc.devRef .tc main_v9)
    = shapeCast S16384x1 (MlpRegion.mlpOut (Gu m d) (Gi m d) (extractStridedSlice S128x64 ![0, 0] (m (d, (Proc.devRef .tc main_arg4)) : FVec F S256x64 .f32) slices_S256x64_S128x64_0_0) (extractStridedSlice S128x64 ![128, 0] (m (d, (Proc.devRef .tc main_arg4)) : FVec F S256x64 .f32) slices_S256x64_S128x64_128_0)
      (shapeCast S1x64 (m (d, (Proc.devRef .tc main_arg5)) : FVec F S64 .f32) shapeCasts_S64_S1x64) (m (d, (Proc.devRef .tc main_arg6)) : FVec F S64x64 .f32) (shapeCast S1x64 (m (d, (Proc.devRef .tc main_arg7)) : FVec F S64 .f32) shapeCasts_S64_S1x64) (m (d, (Proc.devRef .tc main_arg8)) : FVec F S64x32 .f32)
      (shapeCast S1x32 (m (d, (Proc.devRef .tc main_arg9)) : FVec F S32 .f32) shapeCasts_S32_S1x32) (m (d, (Proc.devRef .tc main_arg10)) : FVec F S32x16 .f32) (shapeCast S1x16 (m (d, (Proc.devRef .tc main_arg11)) : FVec F S16 .f32) shapeCasts_S16_S1x16) (m (d, (Proc.devRef .tc main_arg12)) : FVec F S16x1 .f32)
      (shapeCast S1x1 (m (d, (Proc.devRef .tc main_arg13)) : FVec F S1 .f32) shapeCasts_S1_S1x1)) shapeCasts_S16384_S16384x1 := by
  have e : V4 m d (Proc.devRef .tc main_v9) = shapeCast S16384x1 (V3 m d (Proc.devRef .tc main_v8)) shapeCasts_S16384_S16384x1 := by
    simp only [V4, op9]
    rw [reshape_result]
    rfl
  have e3 : V3 m d (Proc.devRef .tc main_v8) = MlpRegion.mlpOutV (V2 m d) := by
    unfold V3
    exact Function.update_self _ _ _
  rw [e, e3]
  simp only [MlpRegion.mlpOutV]
  rw [V2_u, V2_i, V2_v0, V2_v1, V2_v2, V2_v3, V2_v4, V2_v5, V2_v6, V2_a6, V2_a8, V2_a10, V2_a12]

end Vals

/-! ## The result array is the reference's result -/

/-- The network region's result on block `t`, row `r`, is the network's two payloads on the blocks of the two
    gathered arrays: the statement of the region's value theorem, taken here as a hypothesis. -/
def MlpOutApply : Prop :=
  ∀ (u i : Vec Ideal S16384x128 .f32) (w1a w1b : Vec Ideal S128x64 .f32) (b1 : Vec Ideal S1x64 .f32) (w2 : Vec Ideal S64x64 .f32)
    (b2 : Vec Ideal S1x64 .f32) (w3 : Vec Ideal S64x32 .f32) (b3 : Vec Ideal S1x32 .f32) (w4 : Vec Ideal S32x16 .f32)
    (b4 : Vec Ideal S1x16 .f32) (w5 : Vec Ideal S16x1 .f32) (b5 : Vec Ideal S1x1 .f32) (t : Fin 4) (r : Fin 4096),
    MlpRegion.mlpOut (F := Ideal) u i w1a w1b b1 w2 b2 w3 b3 w4 b4 w5 b5 (ix1 (KernelValue.row t r))
      = k1_pay1 (F := Ideal) (k1_pay2 (F := Ideal) (KernelValue.blk u t) w1a (KernelValue.blk i t) w1b b1 w2 b2)
          w3 b3 w4 b4 w5 b5 (ix1 r)

/-- THE RESULT ARRAY after the run, under the index ranges, is the reference's result of the launch arguments. -/
theorem V4_out (m : (ℓ : Loc nD τ sig) → Buf (Elt Ideal) ℓ) (d : Dev nD)
    (h0 : ∀ j, (m (uidLoc d) j).toNat < 100000) (h1 : ∀ j, (m (iidLoc d) j).toNat < 100000) (hT : MlpOutApply) :
    V4 m d (Proc.devRef .tc main_v9)
      = Cert.ReferenceIdeal.RefValue.out (F := Ideal) (m (d, (Proc.devRef .tc main_arg0))) (m (d, (Proc.devRef .tc main_arg1))) (m (d, (Proc.devRef .tc main_arg2))) (m (d, (Proc.devRef .tc main_arg3))) (m (d, (Proc.devRef .tc main_arg4))) (m (d, (Proc.devRef .tc main_arg5))) (m (d, (Proc.devRef .tc main_arg6))) (m (d, (Proc.devRef .tc main_arg7))) (m (d, (Proc.devRef .tc main_arg8))) (m (d, (Proc.devRef .tc main_arg9))) (m (d, (Proc.devRef .tc main_arg10))) (m (d, (Proc.devRef .tc main_arg11))) (m (d, (Proc.devRef .tc main_arg12))) (m (d, (Proc.devRef .tc main_arg13))) := by
  rw [V4_v9]
  funext j
  obtain ⟨q, b, rfl⟩ : ∃ (q : Fin 16384) (b : Fin 1), j = ix2 q b := ⟨j 0, j 1, eq_ix2 j⟩
  obtain rfl : b = 0 := Subsingleton.elim _ _
  rw [Cert.ReferenceIdeal.RefRead.out_apply _ _ _ _ _ _ _ _ _ _ _ _ _ _ h0 h1 q]
  exact KernelValue.kernel_out_apply _ _ _ _ _ _ _ _ _ _ _ _ _ _ _ (fun t r => hT _ _ _ _ _ _ _ _ _ _ _ _ _ t r) h0 h1 q

end Cert.KernelIdeal.Glue

end
-- ==== Proof.IdealGlueClaims.lean ====
import proofs.«207198_g34918084116659_cont_8to1_b_1870_22_alg».proof.Proof.IdealGlueValue
import proofs.«207198_g34918084116659_cont_8to1_b_1870_22_alg».proof.Proof.Gen.Pre_input_domain

/-! The certificate's claims about the idealized programs, from the kernel program's run (a hypothesis here), the
reference's run, and the equality of the two results. -/

noncomputable section

namespace Cert.GlueClaims

open Idealize.ShloMosaic Idealize.SL.Sem Idealize.ShloMosaic.ValueIdx
open Cert.KernelIdeal.Glue

/-- The idealized kernel program's frame, from its run. -/
theorem frame_ki (hrun : RunsTo Ideal) : Cert.frame_KernelIdeal :=
  fun m g hpre => frame (F := Ideal) hrun m g hpre

/-- The reference's frame: its run holds from every memory. -/
theorem frame_ri : Cert.frame_ReferenceIdeal :=
  fun m g _ => (θ_run _ _ _).mono (fun r h c => (h c).2) (Cert.ReferenceIdeal.RefValue.run (F := Ideal) m g)

/-- The two programs end with equal results, from memories that agree on the arguments: both results are the
    reference's pure result of the kernel program's launch arguments. -/
theorem algebraic (hrun : RunsTo Ideal) (hT : MlpOutApply) : Cert.algebraic_KernelIdeal_ReferenceIdeal := by
  intro m g m' g' hpre hagree
  have hr := ranges (F := Ideal) m hpre
  refine ⟨fun c => Cert.ReferenceIdeal.RefValue.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run _ _ _).mono (fun r h c => ⟨(h c _ (mem_Sall Cert.KernelIdeal.main_v9 rfl)).trans (V4_out m c (hr.1 c) (hr.2 c) hT),
      (h c _ (mem_Sall Cert.KernelIdeal.main_arg0 rfl)).trans (V4_keep m c Cert.KernelIdeal.main_arg0 (by decide)),
      (h c _ (mem_Sall Cert.KernelIdeal.main_arg1 rfl)).trans (V4_keep m c Cert.KernelIdeal.main_arg1 (by decide)),
      (h c _ (mem_Sall Cert.KernelIdeal.main_arg2 rfl)).trans (V4_keep m c Cert.KernelIdeal.main_arg2 (by decide)),
      (h c _ (mem_Sall Cert.KernelIdeal.main_arg3 rfl)).trans (V4_keep m c Cert.KernelIdeal.main_arg3 (by decide)),
      (h c _ (mem_Sall Cert.KernelIdeal.main_arg4 rfl)).trans (V4_keep m c Cert.KernelIdeal.main_arg4 (by decide)),
      (h c _ (mem_Sall Cert.KernelIdeal.main_arg5 rfl)).trans (V4_keep m c Cert.KernelIdeal.main_arg5 (by decide)),
      (h c _ (mem_Sall Cert.KernelIdeal.main_arg6 rfl)).trans (V4_keep m c Cert.KernelIdeal.main_arg6 (by decide)),
      (h c _ (mem_Sall Cert.KernelIdeal.main_arg7 rfl)).trans (V4_keep m c Cert.KernelIdeal.main_arg7 (by decide)),
      (h c _ (mem_Sall Cert.KernelIdeal.main_arg8 rfl)).trans (V4_keep m c Cert.KernelIdeal.main_arg8 (by decide)),
      (h c _ (mem_Sall Cert.KernelIdeal.main_arg9 rfl)).trans (V4_keep m c Cert.KernelIdeal.main_arg9 (by decide)),
      (h c _ (mem_Sall Cert.KernelIdeal.main_arg10 rfl)).trans (V4_keep m c Cert.KernelIdeal.main_arg10 (by decide)),
      (h c _ (mem_Sall Cert.KernelIdeal.main_arg11 rfl)).trans (V4_keep m c Cert.KernelIdeal.main_arg11 (by decide)),
      (h c _ (mem_Sall Cert.KernelIdeal.main_arg12 rfl)).trans (V4_keep m c Cert.KernelIdeal.main_arg12 (by decide)),
      (h c _ (mem_Sall Cert.KernelIdeal.main_arg13 rfl)).trans (V4_keep m c Cert.KernelIdeal.main_arg13 (by decide))⟩)
      (hrun m g hr.1 hr.2)
  · refine (θ_run _ _ _).mono (fun r h c => ?_) (Cert.ReferenceIdeal.RefValue.run (F := Ideal) m' g')
    obtain ⟨e0, e1, e2, e3, e4, e5, e6, e7, e8, e9, e10, e11, e12, e13⟩ := hagree c
    refine ⟨(h c).1.trans ?_, (h c).2⟩
    rw [e0, e1, e2, e3, e4, e5, e6, e7, e8, e9, e10, e11, e12, e13]

end Cert.GlueClaims

end
-- ==== Proof.IdealMlpValue.lean ====
/-
  The multilayer-perceptron kernel region's result in index form: row `4096 t + r` of the result is the body's two payloads
  of rows `4096 t … 4096 t + 4095` of the two gathered arrays and of the weight arrays, read at `r`.
-/
import proofs.«207198_g34918084116659_cont_8to1_b_1870_22_alg».proof.Proof.IdealMlpDefs

set_option maxRecDepth 16384

noncomputable section

namespace Cert.KernelIdeal.MlpRegion

open Cert.KernelIdeal Cert.KernelIdeal.Gen Cert.KernelIdeal.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

/-! ## The result in index form -/

theorem hz1 : (![0] : Fin 1 → Nat) = fun _ => 0 := funext fun a => by fin_cases a; rfl
theorem hz2 : (![0, 0] : Fin 2 → Nat) = fun _ => 0 := funext fun a => by fin_cases a <;> rfl

/-- The body's result is the second payload of the first: every load reads a whole buffer and the one store writes one. -/
theorem out13_eq (x0 x1 : Vec F S4096x128 .f32) (x2 x3 : Vec F S128x64 .f32) (x4 : Vec F S1x64 .f32) (x5 : Vec F S64x64 .f32)
    (x6 : Vec F S1x64 .f32) (x7 : Vec F S64x32 .f32) (x8 : Vec F S1x32 .f32) (x9 : Vec F S32x16 .f32) (x10 : Vec F S1x16 .f32)
    (x11 : Vec F S16x1 .f32) (x12 : Vec F S1x1 .f32) :
    out13 x0 x1 x2 x3 x4 x5 x6 x7 x8 x9 x10 x11 x12 = k1_pay1 (k1_pay2 x0 x2 x1 x3 x4 x5 x6) x7 x8 x9 x10 x11 x12 := by
  unfold out13
  rw [View.canon_unit_zero hz1]
  simp only [View.ld_unit_zero (S := S4096x128) hz2, View.ld_unit_zero (S := S128x64) hz2, View.ld_unit_zero (S := S1x64) hz2,
    View.ld_unit_zero (S := S64x64) hz2, View.ld_unit_zero (S := S64x32) hz2, View.ld_unit_zero (S := S1x32) hz2,
    View.ld_unit_zero (S := S32x16) hz2, View.ld_unit_zero (S := S1x16) hz2, View.ld_unit_zero (S := S16x1) hz2,
    View.ld_unit_zero (S := S1x1) hz2]

/-- The two gathered arrays' windows' block index at point `t` is `(t, 0)`. -/
theorem idx01 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0)

/-- A grid point from its number. -/
def tc (t : Fin 4) : Fin cfg1.N := ⟨t.val, by have h := t.isLt; show t.val < 4; exact h⟩

/-- Rows `4096 t … 4096 t + 4095` of a gathered array, as a block. -/
def blkRows (u : Vec F S16384x128 .f32) (t : Fin 4) : Vec F S4096x128 .f32 := fun y =>
  u (ix2 ⟨4096 * t.val + (y 0).val, by have h := t.isLt; have h' : (y 0).val < 4096 := (y 0).isLt; omega⟩ ⟨(y 1).val, (y 1).isLt⟩)

/-- The first gathered array's block at a point is those rows. -/
theorem blk0_read (u : Vec F S16384x128 .f32) (t : Fin 4) : ((cfg1.win 0).blk (tc t)).view.read (Elt F) u = blkRows u t := by
  funext y
  rw [View.read_apply, cast_eq]
  unfold blkRows
  congr 1
  funext a; apply Fin.ext
  match a with
  | ⟨0, _⟩ => show win1_0.index (tc t) (0 : Fin 2) * 4096 + 1 * (y 0).val = 4096 * t.val + (y 0).val; rw [(idx01 (tc t)).1]; show t.val * 4096 + 1 * (y 0).val = _; omega
  | ⟨1, _⟩ => show win1_0.index (tc t) (1 : Fin 2) * 128 + 1 * (y 1).val = (y 1).val; rw [(idx01 (tc t)).2.1]; omega

/-- The second gathered array's block at a point is those rows. -/
theorem blk1_read (u : Vec F S16384x128 .f32) (t : Fin 4) : ((cfg1.win 1).blk (tc t)).view.read (Elt F) u = blkRows u t := by
  funext y
  rw [View.read_apply, cast_eq]
  unfold blkRows
  congr 1
  funext a; apply Fin.ext
  match a with
  | ⟨0, _⟩ => show win1_1.index (tc t) (0 : Fin 2) * 4096 + 1 * (y 0).val = 4096 * t.val + (y 0).val; rw [(idx01 (tc t)).2.2.1]; show t.val * 4096 + 1 * (y 0).val = _; omega
  | ⟨1, _⟩ => show win1_1.index (tc t) (1 : Fin 2) * 128 + 1 * (y 1).val = (y 1).val; rw [(idx01 (tc t)).2.2.2]; omega

/-- THE RESULT AT A ROW: row `4096 t + r` is the two payloads of rows `4096 t …` of the gathered arrays and the weights, at `r`. -/
theorem mlpOut_apply (u i : Vec F S16384x128 .f32) (w1a w1b : Vec F S128x64 .f32) (b1 : Vec F S1x64 .f32) (w2 : Vec F S64x64 .f32)
    (b2 : Vec F S1x64 .f32) (w3 : Vec F S64x32 .f32) (b3 : Vec F S1x32 .f32) (w4 : Vec F S32x16 .f32) (b4 : Vec F S1x16 .f32)
    (w5 : Vec F S16x1 .f32) (b5 : Vec F S1x1 .f32) (t : Fin 4) (r : Fin 4096) :
    mlpOut u i w1a w1b b1 w2 b2 w3 b3 w4 b4 w5 b5 (ix1 ⟨4096 * t.val + r.val, by have h := t.isLt; have h' := r.isLt; omega⟩)
      = k1_pay1 (k1_pay2 (blkRows u t) w1a (blkRows i t) w1b b1 w2 b2) w3 b3 w4 b4 w5 b5 (ix1 r) := by
  rw [mlpOut_at u i w1a w1b b1 w2 b2 w3 b3 w4 b4 w5 b5 (tc t) _ (ix1 r) rfl]
  unfold mlpRow
  rw [out13_eq, blk0_read, blk1_read]

end Cert.KernelIdeal.MlpRegion

end
-- ==== Proof.IdealTileDefs.lean ====
/-
  One vector subcore's task of the gather kernel: the memrefs it names. Its share of the work is rows
  [512·w, 512·w + 512) of the two gathered arrays, w = 2·s + c for subcore s of SparseCore c, in two halves of 256 rows.
-/
import proofs.«207198_g34918084116659_cont_8to1_b_1870_22_alg».proof.Proof.IdealCommon

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The kernel's memrefs, spelt as the body table passes them -/

abbrev uidW : Memref Cert.KernelIdeal.sig Kind.scVector Space.hbm Cert.KernelIdeal.S16384 EltTy.i32 := Memref.whole Cert.KernelIdeal.main_arg0_scv
abbrev iidW : Memref Cert.KernelIdeal.sig Kind.scVector Space.hbm Cert.KernelIdeal.S16384 EltTy.i32 := Memref.whole Cert.KernelIdeal.main_arg1_scv
abbrev utW : Memref Cert.KernelIdeal.sig Kind.scVector Space.hbm Cert.KernelIdeal.S100000x128 EltTy.f32 := Memref.whole Cert.KernelIdeal.main_arg2_scv
abbrev itW : Memref Cert.KernelIdeal.sig Kind.scVector Space.hbm Cert.KernelIdeal.S100000x128 EltTy.f32 := Memref.whole Cert.KernelIdeal.main_arg3_scv
abbrev ouW : Memref Cert.KernelIdeal.sig Kind.scVector Space.hbm Cert.KernelIdeal.S16384x128 EltTy.f32 := Memref.whole Cert.KernelIdeal.main_v7_0_scv
abbrev oiW : Memref Cert.KernelIdeal.sig Kind.scVector Space.hbm Cert.KernelIdeal.S16384x128 EltTy.f32 := Memref.whole Cert.KernelIdeal.main_v7_1_scv
abbrev sI0 : Memref Cert.KernelIdeal.sig Kind.scVector Space.vmem Cert.KernelIdeal.S256 EltTy.i32 := Memref.whole Cert.KernelIdeal.cc0_scratch0
abbrev sI1 : Memref Cert.KernelIdeal.sig Kind.scVector Space.vmem Cert.KernelIdeal.S256 EltTy.i32 := Memref.whole Cert.KernelIdeal.cc0_scratch1
abbrev sI2 : Memref Cert.KernelIdeal.sig Kind.scVector Space.vmem Cert.KernelIdeal.S256 EltTy.i32 := Memref.whole Cert.KernelIdeal.cc0_scratch2
abbrev sI3 : Memref Cert.KernelIdeal.sig Kind.scVector Space.vmem Cert.KernelIdeal.S256 EltTy.i32 := Memref.whole Cert.KernelIdeal.cc0_scratch3
abbrev sB0 : Memref Cert.KernelIdeal.sig Kind.scVector Space.vmem Cert.KernelIdeal.S256x128 EltTy.f32 := Memref.whole Cert.KernelIdeal.cc0_scratch4
abbrev sB1 : Memref Cert.KernelIdeal.sig Kind.scVector Space.vmem Cert.KernelIdeal.S256x128 EltTy.f32 := Memref.whole Cert.KernelIdeal.cc0_scratch5
abbrev sB2 : Memref Cert.KernelIdeal.sig Kind.scVector Space.vmem Cert.KernelIdeal.S256x128 EltTy.f32 := Memref.whole Cert.KernelIdeal.cc0_scratch6

abbrev cV (L : grid0.Coords) : Fin τ.nSC := (L 0).castLE hcore0
abbrev jV (L : grid0.Coords) : Fin τ.nSub := (L 1).castLE hsub0

/-- The four slices of the index arrays and the four of the result arrays a task names. -/
abbrev uid1 (L : grid0.Coords) : Memref sig .scVector .hbm S256 .i32 := uidW.slice (Rect.unit (s := S16384) (k0_off1 L) S256.size (k0_off1_inb L)) (fun _ => rfl)
abbrev uid2 (L : grid0.Coords) : Memref sig .scVector .hbm S256 .i32 := uidW.slice (Rect.unit (s := S16384) (k0_off2 L) S256.size (k0_off2_inb L)) (fun _ => rfl)
abbrev iid1 (L : grid0.Coords) : Memref sig .scVector .hbm S256 .i32 := iidW.slice (Rect.unit (s := S16384) (k0_off1 L) S256.size (k0_off1_inb L)) (fun _ => rfl)
abbrev iid2 (L : grid0.Coords) : Memref sig .scVector .hbm S256 .i32 := iidW.slice (Rect.unit (s := S16384) (k0_off2 L) S256.size (k0_off2_inb L)) (fun _ => rfl)
abbrev ou1 (L : grid0.Coords) : Memref sig .scVector .hbm S256x128 .f32 := ouW.slice (Rect.unit (s := S16384x128) (k0_off3 L) S256x128.size (k0_off3_inb L)) (fun _ => rfl)
abbrev ou2 (L : grid0.Coords) : Memref sig .scVector .hbm S256x128 .f32 := ouW.slice (Rect.unit (s := S16384x128) (k0_off4 L) S256x128.size (k0_off4_inb L)) (fun _ => rfl)
abbrev oi1 (L : grid0.Coords) : Memref sig .scVector .hbm S256x128 .f32 := oiW.slice (Rect.unit (s := S16384x128) (k0_off3 L) S256x128.size (k0_off3_inb L)) (fun _ => rfl)
abbrev oi2 (L : grid0.Coords) : Memref sig .scVector .hbm S256x128 .f32 := oiW.slice (Rect.unit (s := S16384x128) (k0_off4 L) S256x128.size (k0_off4_inb L)) (fun _ => rfl)
abbrev utS : Memref sig .scVector .hbm S100000x128 .f32 := utW.slice (Rect.unit (s := S100000x128) ![0, 0] S100000x128.size inb_S100000x128_S100000x128_0_0) (fun _ => rfl)
abbrev itS : Memref sig .scVector .hbm S100000x128 .f32 := itW.slice (Rect.unit (s := S100000x128) ![0, 0] S100000x128.size inb_S100000x128_S100000x128_0_0) (fun _ => rfl)

abbrev thr (d : Dev nD) (L : grid0.Coords) : Thread nD τ := V d (cV L) (jV L)

end Cert.KernelIdeal.Launch

end
-- ==== Proof.IdealTileOwn.lean ====
/-
  What a vector subcore holds of its own while it runs a task: its seven scratch buffers and its ten DMA semaphores,
  listed out of the scoped storage the launch hands it; and the task's share of the arrays, spelt as the task's memrefs
  address them.
-/
import proofs.«207198_g34918084116659_cont_8to1_b_1870_22_alg».proof.Proof.IdealTileDefs

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Own

variable (d : Dev nD) (L : grid0.Coords)

abbrev tileSemL : List (SemLoc sig) := [.dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scratch15.sem, .dma cc0_scratch16.sem]
abbrev tileRefL : List (Ref sig .scVector) := [cc0_scratch0, cc0_scratch1, cc0_scratch2, cc0_scratch3, cc0_scratch4, cc0_scratch5, cc0_scratch6]

omit [FloatOps F] in
/-- The task's ten DMA semaphores at zero, and the subcore's other scoped semaphores. -/
theorem ownSems0_tile :
    (ownSems0 (thr d L) : sProp 𝕄)
      = iprop((semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0)
          ∗ bigSep (ownCells (thr d L) \ (tileSemL.map (Prod.mk (thr d L))).toFinset) fun g => semVal g 0) := by
  unfold SparseCore.Cfg.ownSems0
  have hsub : (tileSemL.map (Prod.mk (thr d L))).toFinset ⊆ ownCells (sig := sig) (thr d L) := by
    intro g hg
    obtain ⟨sm, hsm, rfl⟩ := List.mem_map.mp (List.mem_toFinset.mp hg)
    simp only [List.mem_cons, List.not_mem_nil, _root_.or_false] at hsm
    rcases hsm with rfl | rfl | rfl | rfl | rfl | rfl | rfl | rfl | rfl | rfl <;> exact mem_ownCells.mpr ⟨rfl, by show (SemLoc.dma _ : SemLoc sig).isScoped Kind.scVector = true; decide⟩
  have hnd : (tileSemL.map (Prod.mk (thr d L))).Nodup := List.Nodup.map (Prod.mk_right_injective _) (show (tileSemL : List (SemLoc sig)).Nodup by decide)
  rw [SparseCore.bigSep_sdiff_split' hsub, bigSep_eq_bigSepL _ hnd]
  rfl

omit [FloatOps F] in
/-- The task's seven scratch buffers, each at some contents, and the subcore's other buffers. -/
theorem ownBufs_tile :
    (ownBufs (thr d L) : sProp 𝕄)
      = iprop(((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f))
          ∗ bigSep (ownRefs (τ := τ) (.scVector (cV L) (jV L)) \ (tileRefL.map (Proc.scVector (cV L) (jV L)).devRef).toFinset)
              fun b => iprop(∃ f, ((d, b) : Loc nD τ sig) ↦{fullShare} f)) := by
  unfold SparseCore.Cfg.ownBufs
  have hsub : (tileRefL.map (Proc.scVector (cV L) (jV L)).devRef).toFinset ⊆ ownRefs (τ := τ) (sig := sig) (.scVector (cV L) (jV L)) := by
    intro b hb
    obtain ⟨r, hr, rfl⟩ := List.mem_map.mp (List.mem_toFinset.mp hb)
    simp only [List.mem_cons, List.not_mem_nil, _root_.or_false] at hr
    rcases hr with rfl | rfl | rfl | rfl | rfl | rfl | rfl <;> exact SparseCore.Cfg.mem_ownRefs_of_owner rfl
  have hnd : (tileRefL.map (Proc.scVector (cV L) (jV L)).devRef).Nodup := List.Nodup.map (Proc.devRef_injective _) (show (tileRefL : List (Ref sig .scVector)).Nodup by decide)
  refine (SparseCore.bigSep_sdiff_split' hsub).trans ?_
  rw [bigSep_eq_bigSepL _ hnd]
  rfl

end Own

end Cert.KernelIdeal.Launch

end
-- ==== Proof.IdealTileValue.lean ====
/-
  What one task of the gather kernel leaves in its four result blocks, as values.

  A block of 256 rows of a result array is written from a staging buffer that an indirect transfer filled: row `k` of
  the staging buffer is the table's row named by the `k`-th word of a 256-word slice of an index array. The slice of
  the index array and the block of the result array start at the same row, so the block's row `k` is the table's row
  named by the index word of that very row: the block reads as the gathered array does. A buffer written whole and
  unmasked holds the payload, whatever it held before and however many earlier whole writes the last one covers.
-/
import proofs.«207198_g34918084116659_cont_8to1_b_1870_22_alg».proof.Proof.IdealTileDefs
import proofs.«207198_g34918084116659_cont_8to1_b_1870_22_alg».proof.Proof.GatherSpec

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A view written whole -/

/-- The view's elements after `X` is written through all of it, at any prior contents, are the points-to at any
    contents that read as `X` through the view. -/
theorem pts_block (c : Thread nD τ) {sp : Space} {s : Shape} {e : EltTy} (v : View sig c.2.kind sp s e)
    (q : PosShare TreeShare) (fd G : Buf (Elt F) (v.loc c)) (X : s.Idx → Elt F e) (h : ∀ y, v.read (Elt F) G y = X y) :
    (v.loc c ↦[v.set]{q} v.writes (Elt F) fd [⟨Rect.whole s, X⟩] : sProp 𝕄) = v.loc c ↦[v.set]{q} G :=
  pointsTo_congr fun i hi => by
    obtain ⟨x, -, rfl⟩ := Finset.mem_map.mp hi
    have e1 : v.read (Elt F) (v.writes (Elt F) fd [⟨Rect.whole s, X⟩]) x = v.read (Elt F) G x := by
      have e2 := View.read_writes_cons_emb v fd (Rect.whole s) X [] x
      rw [Rect.emb_whole_apply] at e2
      rw [e2, h]
    rw [View.read_apply, View.read_apply] at e1
    exact eq_of_heq ((cast_heq _ _).symm.trans ((heq_of_eq e1).trans (cast_heq _ _)))

/-! ## The gathered rows -/

/-- The one coordinate of the `k`-th index of a vector in row-major order is `k`. -/
theorem rowMajor_symm_val {n : ℕ} (k : Fin (⟨1, ![n]⟩ : Shape).numel) :
    (((⟨1, ![n]⟩ : Shape).rowMajor.symm k) 0).val = k.val := by
  have := Shape.rowMajor_val_one ((⟨1, ![n]⟩ : Shape).rowMajor.symm k)
  rw [Equiv.apply_symm_apply] at this
  exact this.symm

/-- The gathered array at an index of a 256-row block starting at row `offO 0` is the table at the row the block's
    own slice of the index array names: the slice starts at the same row. -/
theorem gath_block (tab : S100000x128.Idx → Elt F .f32) (idx : S16384.Idx → Elt F .i32)
    (hidx : ∀ j, (idx j).toNat < 100000) (offI : Fin S16384.rank → Nat) (offO : Fin S16384x128.rank → Nat)
    (h0 : offO 0 = offI 0) (h1 : offO 1 = 0) (inbI : ∀ a, offI a + S256.size a ≤ S16384.size a)
    (inbO : ∀ a, offO a + S256x128.size a ≤ S16384x128.size a)
    (vec : S256.Idx → Elt F .i32) (hvec : ∀ x, vec x = idx ((Rect.unit (s := S16384) offI S256.size inbI).emb x))
    (hn : S256.numel = S256x128.size gathers_S100000x128_S256x128.axis')
    (hin : ∀ x, (vec x).toNat < S100000x128.size gathers_S100000x128_S256x128.axis) (y : S256x128.Idx) :
    Cert.GatherSpec.gath tab idx ((Rect.unit (s := S16384x128) offO S256x128.size inbO).emb y)
      = tab (gathers_S100000x128_S256x128.idx (SparseCore.rows vec hn hin) y) := by
  unfold Cert.GatherSpec.gath
  refine congrArg tab (funext fun a => Fin.ext ?_)
  match a with
  | ⟨0, _⟩ =>
    have e1 := congrArg Fin.val (Shape.Gathers.idx_axis gathers_S100000x128_S256x128 (SparseCore.rows vec hn hin) y)
    refine Eq.trans ?_ e1.symm
    show (idx _).toNat % 100000 = (vec _).toNat
    rw [hvec, Nat.mod_eq_of_lt (hidx _)]
    refine congrArg (fun j => (idx j).toNat) (funext fun b => Fin.ext ?_)
    match b with
    | ⟨0, _⟩ =>
      have e3 : ((S256.rowMajor.symm ((y gathers_S100000x128_S256x128.axis').cast hn.symm)) 0).val = (y 0).val :=
        rowMajor_symm_val (n := 256) _
      show offO 0 + 1 * (y 0).val = offI 0 + 1 * _
      rw [h0]
      exact congrArg (fun t => offI 0 + 1 * t) e3.symm
  | ⟨1, _⟩ =>
    have e1 := Shape.Gathers.idx_of_ne gathers_S100000x128_S256x128 (SparseCore.rows vec hn hin) y ⟨1, by decide⟩ (by decide)
    refine Eq.trans ?_ e1.symm
    show offO 1 + 1 * (y 1).val = (y 1).val
    rw [h1, Nat.zero_add, Nat.one_mul]

/-! ## The four blocks -/

/-- The index slice a staging list holds after it was written whole is the slice of the index array itself. -/
theorem vecA (d : Dev nD) (L : grid0.Coords) (fu : Buf (Elt F) (uidLoc d)) (s0 : Buf (Elt F) ((thr d L).loc cc0_scratch0))
    (x : S256.Idx) :
    sI0.view.read (Elt F) (sI0.view.write (Elt F) s0 (ReadAs.same.apply ((uid1 L).view.read (Elt F) fu)) Finset.univ) x
      = fu ((Rect.unit (s := S16384) (k0_off1 L) S256.size (k0_off1_inb L)).emb x) := by
  rw [View.write_whole_univ, View.read_whole]
  rfl

theorem vecB (d : Dev nD) (L : grid0.Coords) (fu : Buf (Elt F) (uidLoc d)) (s1 : Buf (Elt F) ((thr d L).loc cc0_scratch1))
    (x : S256.Idx) :
    sI1.view.read (Elt F) (sI1.view.write (Elt F) s1 (ReadAs.same.apply ((uid2 L).view.read (Elt F) fu)) Finset.univ) x
      = fu ((Rect.unit (s := S16384) (k0_off2 L) S256.size (k0_off2_inb L)).emb x) := by
  rw [View.write_whole_univ, View.read_whole]
  rfl

theorem vecC (d : Dev nD) (L : grid0.Coords) (fi : Buf (Elt F) (iidLoc d)) (s2 : Buf (Elt F) ((thr d L).loc cc0_scratch2))
    (x : S256.Idx) :
    sI2.view.read (Elt F) (sI2.view.write (Elt F) s2 (ReadAs.same.apply ((iid1 L).view.read (Elt F) fi)) Finset.univ) x
      = fi ((Rect.unit (s := S16384) (k0_off1 L) S256.size (k0_off1_inb L)).emb x) := by
  rw [View.write_whole_univ, View.read_whole]
  rfl

theorem vecD (d : Dev nD) (L : grid0.Coords) (fi : Buf (Elt F) (iidLoc d)) (s3 : Buf (Elt F) ((thr d L).loc cc0_scratch3))
    (x : S256.Idx) :
    sI3.view.read (Elt F) (sI3.view.write (Elt F) s3 (ReadAs.same.apply ((iid2 L).view.read (Elt F) fi)) Finset.univ) x
      = fi ((Rect.unit (s := S16384) (k0_off2 L) S256.size (k0_off2_inb L)).emb x) := by
  rw [View.write_whole_univ, View.read_whole]
  rfl

/-- The first block of user rows reads as the gathered user array. -/
theorem payA (d : Dev nD) (L : grid0.Coords) (fu : Buf (Elt F) (uidLoc d)) (fut : Buf (Elt F) (utLoc d))
    (s0 : Buf (Elt F) ((thr d L).loc cc0_scratch0)) (b0 : Buf (Elt F) ((thr d L).loc cc0_scratch4))
    (hidx : ∀ j, (fu j).toNat < 100000)
    (hn : S256.numel = S256x128.size gathers_S100000x128_S256x128.axis')
    (hin : ∀ x, ((sI0.view.read (Elt F) (sI0.view.write (Elt F) s0 (ReadAs.same.apply ((uid1 L).view.read (Elt F) fu)) Finset.univ)) x).toNat < S100000x128.size gathers_S100000x128_S256x128.axis) (y : S256x128.Idx) :
    (ou1 L).view.read (Elt F) (Cert.GatherSpec.gath fut fu) y
      = ReadAs.same.apply (sB0.view.read (Elt F) (sB0.view.writes (Elt F) b0
          [⟨Rect.whole cc0_scratch4.ty.shape, SparseCore.gatherPayload gathers_S100000x128_S256x128 (utS.view.read (Elt F) fut)
            (SparseCore.rows (sI0.view.read (Elt F) (sI0.view.write (Elt F) s0 (ReadAs.same.apply ((uid1 L).view.read (Elt F) fu)) Finset.univ)) hn hin)⟩])) y := by
  have eW := Memref.write_access_whole_univ (Elt F) cc0_scratch4 b0
    (SparseCore.gatherPayload gathers_S100000x128_S256x128 (utS.view.read (Elt F) fut)
            (SparseCore.rows (sI0.view.read (Elt F) (sI0.view.write (Elt F) s0 (ReadAs.same.apply ((uid1 L).view.read (Elt F) fu)) Finset.univ)) hn hin))
  have eT : utS.view.read (Elt F) fut = fut :=
    Memref.read_access_unit_zero (Elt F) main_arg2_scv (funext fun a => match a with | ⟨0, _⟩ => rfl | ⟨1, _⟩ => rfl) _ fut
  refine Eq.trans ?_ (congrFun (congrArg (sB0.view.read (Elt F)) eW.symm) y)
  show Cert.GatherSpec.gath fut fu ((Rect.unit (s := S16384x128) (k0_off3 L) S256x128.size (k0_off3_inb L)).emb y)
    = (utS.view.read (Elt F) fut) (gathers_S100000x128_S256x128.idx _ y)
  rw [eT]
  exact gath_block fut fu hidx (k0_off1 L) (k0_off3 L) (by rw [k0_off3_eq, k0_off1_eq]; rfl) (by rw [k0_off3_eq]; rfl)
    (k0_off1_inb L) (k0_off3_inb L) _ (vecA d L fu s0) hn hin y

/-- The second block of user rows reads as the gathered user array. -/
theorem payB (d : Dev nD) (L : grid0.Coords) (fu : Buf (Elt F) (uidLoc d)) (fut : Buf (Elt F) (utLoc d))
    (s1 : Buf (Elt F) ((thr d L).loc cc0_scratch1)) (b1 : Buf (Elt F) ((thr d L).loc cc0_scratch5))
    (hidx : ∀ j, (fu j).toNat < 100000)
    (hn : S256.numel = S256x128.size gathers_S100000x128_S256x128.axis')
    (hin : ∀ x, ((sI1.view.read (Elt F) (sI1.view.write (Elt F) s1 (ReadAs.same.apply ((uid2 L).view.read (Elt F) fu)) Finset.univ)) x).toNat < S100000x128.size gathers_S100000x128_S256x128.axis) (y : S256x128.Idx) :
    (ou2 L).view.read (Elt F) (Cert.GatherSpec.gath fut fu) y
      = ReadAs.same.apply (sB1.view.read (Elt F) (sB1.view.writes (Elt F) b1
          [⟨Rect.whole cc0_scratch5.ty.shape, SparseCore.gatherPayload gathers_S100000x128_S256x128 (utS.view.read (Elt F) fut)
            (SparseCore.rows (sI1.view.read (Elt F) (sI1.view.write (Elt F) s1 (ReadAs.same.apply ((uid2 L).view.read (Elt F) fu)) Finset.univ)) hn hin)⟩])) y := by
  have eW := Memref.write_access_whole_univ (Elt F) cc0_scratch5 b1
    (SparseCore.gatherPayload gathers_S100000x128_S256x128 (utS.view.read (Elt F) fut)
            (SparseCore.rows (sI1.view.read (Elt F) (sI1.view.write (Elt F) s1 (ReadAs.same.apply ((uid2 L).view.read (Elt F) fu)) Finset.univ)) hn hin))
  have eT : utS.view.read (Elt F) fut = fut :=
    Memref.read_access_unit_zero (Elt F) main_arg2_scv (funext fun a => match a with | ⟨0, _⟩ => rfl | ⟨1, _⟩ => rfl) _ fut
  refine Eq.trans ?_ (congrFun (congrArg (sB1.view.read (Elt F)) eW.symm) y)
  show Cert.GatherSpec.gath fut fu ((Rect.unit (s := S16384x128) (k0_off4 L) S256x128.size (k0_off4_inb L)).emb y)
    = (utS.view.read (Elt F) fut) (gathers_S100000x128_S256x128.idx _ y)
  rw [eT]
  exact gath_block fut fu hidx (k0_off2 L) (k0_off4 L) (by rw [k0_off4_eq, k0_off2_eq]; rfl) (by rw [k0_off4_eq]; rfl)
    (k0_off2_inb L) (k0_off4_inb L) _ (vecB d L fu s1) hn hin y

/-- The first block of item rows reads as the gathered item array. -/
theorem payC (d : Dev nD) (L : grid0.Coords) (fi : Buf (Elt F) (iidLoc d)) (fit : Buf (Elt F) (itLoc d))
    (s2 : Buf (Elt F) ((thr d L).loc cc0_scratch2)) (b2 : Buf (Elt F) ((thr d L).loc cc0_scratch6))
    (hidx : ∀ j, (fi j).toNat < 100000)
    (hn : S256.numel = S256x128.size gathers_S100000x128_S256x128.axis')
    (hin : ∀ x, ((sI2.view.read (Elt F) (sI2.view.write (Elt F) s2 (ReadAs.same.apply ((iid1 L).view.read (Elt F) fi)) Finset.univ)) x).toNat < S100000x128.size gathers_S100000x128_S256x128.axis) (y : S256x128.Idx) :
    (oi1 L).view.read (Elt F) (Cert.GatherSpec.gath fit fi) y
      = ReadAs.same.apply (sB2.view.read (Elt F) (sB2.view.writes (Elt F) b2
          [⟨Rect.whole cc0_scratch6.ty.shape, SparseCore.gatherPayload gathers_S100000x128_S256x128 (itS.view.read (Elt F) fit)
            (SparseCore.rows (sI2.view.read (Elt F) (sI2.view.write (Elt F) s2 (ReadAs.same.apply ((iid1 L).view.read (Elt F) fi)) Finset.univ)) hn hin)⟩])) y := by
  have eW := Memref.write_access_whole_univ (Elt F) cc0_scratch6 b2
    (SparseCore.gatherPayload gathers_S100000x128_S256x128 (itS.view.read (Elt F) fit)
            (SparseCore.rows (sI2.view.read (Elt F) (sI2.view.write (Elt F) s2 (ReadAs.same.apply ((iid1 L).view.read (Elt F) fi)) Finset.univ)) hn hin))
  have eT : itS.view.read (Elt F) fit = fit :=
    Memref.read_access_unit_zero (Elt F) main_arg3_scv (funext fun a => match a with | ⟨0, _⟩ => rfl | ⟨1, _⟩ => rfl) _ fit
  refine Eq.trans ?_ (congrFun (congrArg (sB2.view.read (Elt F)) eW.symm) y)
  show Cert.GatherSpec.gath fit fi ((Rect.unit (s := S16384x128) (k0_off3 L) S256x128.size (k0_off3_inb L)).emb y)
    = (itS.view.read (Elt F) fit) (gathers_S100000x128_S256x128.idx _ y)
  rw [eT]
  exact gath_block fit fi hidx (k0_off1 L) (k0_off3 L) (by rw [k0_off3_eq, k0_off1_eq]; rfl) (by rw [k0_off3_eq]; rfl)
    (k0_off1_inb L) (k0_off3_inb L) _ (vecC d L fi s2) hn hin y

/-- The second block of item rows reads as the gathered item array; its staging buffer was written whole twice, and the later write covers the earlier. -/
theorem payD (d : Dev nD) (L : grid0.Coords) (fi : Buf (Elt F) (iidLoc d)) (fit : Buf (Elt F) (itLoc d))
    (s3 : Buf (Elt F) ((thr d L).loc cc0_scratch3)) (b0 : Buf (Elt F) ((thr d L).loc cc0_scratch4))
    (Y : S256x128.Idx → Elt F .f32)
    (hidx : ∀ j, (fi j).toNat < 100000)
    (hn : S256.numel = S256x128.size gathers_S100000x128_S256x128.axis')
    (hin : ∀ x, ((sI3.view.read (Elt F) (sI3.view.write (Elt F) s3 (ReadAs.same.apply ((iid2 L).view.read (Elt F) fi)) Finset.univ)) x).toNat < S100000x128.size gathers_S100000x128_S256x128.axis) (y : S256x128.Idx) :
    (oi2 L).view.read (Elt F) (Cert.GatherSpec.gath fit fi) y
      = ReadAs.same.apply (sB0.view.read (Elt F) (sB0.view.writes (Elt F) b0
          [⟨Rect.whole cc0_scratch4.ty.shape, SparseCore.gatherPayload gathers_S100000x128_S256x128 (itS.view.read (Elt F) fit)
            (SparseCore.rows (sI3.view.read (Elt F) (sI3.view.write (Elt F) s3 (ReadAs.same.apply ((iid2 L).view.read (Elt F) fi)) Finset.univ)) hn hin)⟩, ⟨Rect.whole cc0_scratch4.ty.shape, Y⟩])) y := by
  have eW := Memref.write_access_whole_univ (Elt F) cc0_scratch4 (sB0.view.writes (Elt F) b0 [⟨Rect.whole cc0_scratch4.ty.shape, Y⟩])
    (SparseCore.gatherPayload gathers_S100000x128_S256x128 (itS.view.read (Elt F) fit)
            (SparseCore.rows (sI3.view.read (Elt F) (sI3.view.write (Elt F) s3 (ReadAs.same.apply ((iid2 L).view.read (Elt F) fi)) Finset.univ)) hn hin))
  have eT : itS.view.read (Elt F) fit = fit :=
    Memref.read_access_unit_zero (Elt F) main_arg3_scv (funext fun a => match a with | ⟨0, _⟩ => rfl | ⟨1, _⟩ => rfl) _ fit
  refine Eq.trans ?_ (congrFun (congrArg (sB0.view.read (Elt F)) eW.symm) y)
  show Cert.GatherSpec.gath fit fi ((Rect.unit (s := S16384x128) (k0_off4 L) S256x128.size (k0_off4_inb L)).emb y)
    = (itS.view.read (Elt F) fit) (gathers_S100000x128_S256x128.idx _ y)
  rw [eT]
  exact gath_block fit fi hidx (k0_off2 L) (k0_off4 L) (by rw [k0_off4_eq, k0_off2_eq]; rfl) (by rw [k0_off4_eq]; rfl)
    (k0_off2_inb L) (k0_off4_inb L) _ (vecD d L fi s3) hn hin y

end Cert.KernelIdeal.Launch

end
-- ==== Proof.IdealTile.lean ====
/-
  One vector subcore's task of the gather kernel, run: from a read share of the two index arrays and the two tables
  and its own 512 rows of the two result arrays (two halves of 256 rows each), to the same with its rows of the results
  holding the gathered table rows. Every copy completes on a semaphore of its own before the next copy on that
  semaphore is issued; the offsets each gather reads are words of an index array, in range by hypothesis.
-/
import proofs.«207198_g34918084116659_cont_8to1_b_1870_22_alg».proof.Proof.IdealTileOwn
import proofs.«207198_g34918084116659_cont_8to1_b_1870_22_alg».proof.Proof.IdealGathered
import proofs.«207198_g34918084116659_cont_8to1_b_1870_22_alg».proof.Proof.IdealTileValue
import Idealize.ShloMosaic.Lib.Pipeline.Value

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- What a task is handed: a read share `q` of the index arrays and the tables, its rows of the results. -/
def tileGo (q : PosShare TreeShare) (d : Dev nD) (L : grid0.Coords) : sProp 𝕄 :=
  iprop((uidLoc d ↦{q} m (uidLoc d)) ∗ (iidLoc d ↦{q} m (iidLoc d)) ∗ (utLoc d ↦{q} m (utLoc d)) ∗ (itLoc d ↦{q} m (itLoc d))
    ∗ (ouLoc d ↦[(ou1 L).view.set]{fullShare} m (ouLoc d)) ∗ (ouLoc d ↦[(ou2 L).view.set]{fullShare} m (ouLoc d))
    ∗ (oiLoc d ↦[(oi1 L).view.set]{fullShare} m (oiLoc d)) ∗ (oiLoc d ↦[(oi2 L).view.set]{fullShare} m (oiLoc d)))
/-- What it hands back: the same, its rows of the results at the gathered arrays. -/
def tileTd (q : PosShare TreeShare) (d : Dev nD) (L : grid0.Coords) : sProp 𝕄 :=
  iprop((uidLoc d ↦{q} m (uidLoc d)) ∗ (iidLoc d ↦{q} m (iidLoc d)) ∗ (utLoc d ↦{q} m (utLoc d)) ∗ (itLoc d ↦{q} m (itLoc d))
    ∗ (ouLoc d ↦[(ou1 L).view.set]{fullShare} Gu m d) ∗ (ouLoc d ↦[(ou2 L).view.set]{fullShare} Gu m d)
    ∗ (oiLoc d ↦[(oi1 L).view.set]{fullShare} Gi m d) ∗ (oiLoc d ↦[(oi2 L).view.set]{fullShare} Gi m d))

instance tileGo_storable (q : PosShare TreeShare) : BI.Storable (upEmb : UEmb _ 𝕄) (tileGo m q d L) := by unfold tileGo; infer_instance
instance tileTd_storable (q : PosShare TreeShare) : BI.Storable (upEmb : UEmb _ 𝕄) (tileTd m q d L) := by unfold tileTd; infer_instance

/-! ### The arrays as the task's memrefs address them -/

omit [FloatOps F] in
theorem utS_set : (utS).view.set = (Finset.univ : Finset (Idx (utLoc d))) := by
  show ((View.whole main_arg2_scv).slice (Rect.unit (s := S100000x128) ![0, 0] S100000x128.size inb_S100000x128_S100000x128_0_0)).set = _
  rw [View.set_slice_whole]
  exact Finset.eq_univ_iff_forall.mpr fun y => View.mem_set_unit_zero (by funext a; fin_cases a <;> rfl) _ y
omit [FloatOps F] in
theorem itS_set : (itS).view.set = (Finset.univ : Finset (Idx (itLoc d))) := by
  show ((View.whole main_arg3_scv).slice (Rect.unit (s := S100000x128) ![0, 0] S100000x128.size inb_S100000x128_S100000x128_0_0)).set = _
  rw [View.set_slice_whole]
  exact Finset.eq_univ_iff_forall.mpr fun y => View.mem_set_unit_zero (by funext a; fin_cases a <;> rfl) _ y

omit [FloatOps F] in
theorem pts_u1 (q : PosShare TreeShare) (f : Buf (Elt F) (uidLoc d)) :
    ((uid1 L).view.loc (thr d L) ↦[(uid1 L).view.set]{q} f : sProp 𝕄) = uidLoc d ↦[(uid1 L).view.set]{q} f := rfl
omit [FloatOps F] in
theorem pts_u2 (q : PosShare TreeShare) (f : Buf (Elt F) (uidLoc d)) :
    ((uid2 L).view.loc (thr d L) ↦[(uid2 L).view.set]{q} f : sProp 𝕄) = uidLoc d ↦[(uid2 L).view.set]{q} f := rfl
omit [FloatOps F] in
theorem pts_i1 (q : PosShare TreeShare) (f : Buf (Elt F) (iidLoc d)) :
    ((iid1 L).view.loc (thr d L) ↦[(iid1 L).view.set]{q} f : sProp 𝕄) = iidLoc d ↦[(iid1 L).view.set]{q} f := rfl
omit [FloatOps F] in
theorem pts_i2 (q : PosShare TreeShare) (f : Buf (Elt F) (iidLoc d)) :
    ((iid2 L).view.loc (thr d L) ↦[(iid2 L).view.set]{q} f : sProp 𝕄) = iidLoc d ↦[(iid2 L).view.set]{q} f := rfl
omit [FloatOps F] in
theorem pts_ut (q : PosShare TreeShare) (f : Buf (Elt F) (utLoc d)) :
    ((utS).view.loc (thr d L) ↦[(utS).view.set]{q} f : sProp 𝕄) = utLoc d ↦{q} f := by rw [utS_set d]
omit [FloatOps F] in
theorem pts_it (q : PosShare TreeShare) (f : Buf (Elt F) (itLoc d)) :
    ((itS).view.loc (thr d L) ↦[(itS).view.set]{q} f : sProp 𝕄) = itLoc d ↦{q} f := by rw [itS_set d]
omit [FloatOps F] in
theorem pts_ou1 (f : Buf (Elt F) (ouLoc d)) :
    ((ou1 L).view.loc (thr d L) ↦[(ou1 L).view.set]{fullShare} f : sProp 𝕄) = ouLoc d ↦[(ou1 L).view.set]{fullShare} f := rfl
omit [FloatOps F] in
theorem pts_ou2 (f : Buf (Elt F) (ouLoc d)) :
    ((ou2 L).view.loc (thr d L) ↦[(ou2 L).view.set]{fullShare} f : sProp 𝕄) = ouLoc d ↦[(ou2 L).view.set]{fullShare} f := rfl
omit [FloatOps F] in
theorem pts_oi1 (f : Buf (Elt F) (oiLoc d)) :
    ((oi1 L).view.loc (thr d L) ↦[(oi1 L).view.set]{fullShare} f : sProp 𝕄) = oiLoc d ↦[(oi1 L).view.set]{fullShare} f := rfl
omit [FloatOps F] in
theorem pts_oi2 (f : Buf (Elt F) (oiLoc d)) :
    ((oi2 L).view.loc (thr d L) ↦[(oi2 L).view.set]{fullShare} f : sProp 𝕄) = oiLoc d ↦[(oi2 L).view.set]{fullShare} f := rfl
omit [FloatOps F] in
theorem pts_own (b : Ref sig .scVector) (f : Buf (Elt F) ((thr d L).loc b)) :
    ((Memref.whole b).view.loc (thr d L) ↦{fullShare} f : sProp 𝕄) = (thr d L).loc b ↦{fullShare} f := rfl

omit [FloatOps F] in
theorem waits_insert {W W' : Waits sig (HIx 1)} {x : SemLoc sig × HIx 1} (hx : x.2 = none) (h : ∀ p ∈ W', p ∈ W ∨ p.2 = none) :
    ∀ p ∈ insert x W', p ∈ W ∨ p.2 = none := by
  intro p hp
  rcases Finset.mem_insert.mp hp with rfl | hp
  · exact .inr hx
  · exact h p hp

/-- The task on vector subcore `(L 0, L 1)` of device `d`. -/
theorem tile_body (hF : (K (F := F)).Facts) (q : PosShare TreeShare) (O : CellTallies nD τ sig (HIx 1)) (W : Waits sig (HIx 1)) (hO : ∀ g, O g none = 0)
    (hfu : ∀ j, (m (uidLoc d) j).toNat < 100000) (hfi : ∀ j, (m (iidLoc d) j).toNat < 100000) :
    iprop((levAts (K (F := F)).L (K (F := F)).lev : sProp 𝕄) ∗ emp ∗ tileGo m q d L
        ∗ scopedBufs (thr d L) ∗ scopedSems0 (thr d L) ∗ owes (thr d L) O W)
      ⊢ wp frame (wpE (defs₀ (F := F)) 𝒱₀ (thr d L) none) Set.univ
          (cc0__gather_body L uidW (Memref.isWhole_whole _) iidW (Memref.isWhole_whole _) utW (Memref.isWhole_whole _) itW (Memref.isWhole_whole _)
            ouW (Memref.isWhole_whole _) oiW (Memref.isWhole_whole _) sI0 (Memref.isWhole_whole _) sI1 (Memref.isWhole_whole _)
            sI2 (Memref.isWhole_whole _) sI3 (Memref.isWhole_whole _) sB0 (Memref.isWhole_whole _) sB1 (Memref.isWhole_whole _) sB2 (Memref.isWhole_whole _)
            cc0_scratch7 cc0_scratch8 cc0_scratch9 cc0_scratch10 cc0_scratch11 cc0_scratch12 cc0_scratch13 cc0_scratch14 cc0_scratch15 cc0_scratch16)
          fun _ => iprop(tileTd m q d L ∗ scopedBufs (thr d L) ∗ scopedSems0 (thr d L)
            ∗ ∃ W', ⌜∀ p ∈ W', p ∈ W ∨ p.2 = none⌝ ∗ owes (thr d L) O W') := by
  rw [cc0__gather_body_eq_skeleton]; unfold cc0__gather_body_skel
  rw [k0_part1_eq_skeleton]; unfold k0_part1_skel
  rw [(K (F := F)).scopedBufs_V hF d (cV L) (jV L), SparseCore.Cfg.scopedSems0_V (Val := Elt F) d (cV L) (jV L), ownSems0_tile, ownBufs_tile]
  unfold tileGo tileTd
  iintro ⟨#Hlv, -, ⟨Hu, Hi, Hut, Hit, Hou1, Hou2, Hoi1, Hoi2⟩, ⟨⟨⟨%s0, Hs0⟩, ⟨%s1, Hs1⟩, ⟨%s2, Hs2⟩, ⟨%s3, Hs3⟩, ⟨%b0, Hb0⟩, ⟨%b1, Hb1⟩, ⟨%b2, Hb2⟩⟩, Hbufs⟩,
    ⟨⟨Hm7, Hm8, Hm9, Hm10, Hm11, Hm12, Hm13, Hm14, Hm15, Hm16⟩, Hsems⟩, HO⟩
  ihave Hmw := ((K (F := F)).mayWaits_none (thr := thr d L) hO) $$ Hlv
  -- each read share in two halves, one per copy that reads the array at a time; the index arrays' halves cut to the slices
  ihave Hu' := (pointsTo_share (PosShare.mem_left_op_right q)).1 $$ Hu
  icases Hu' with ⟨HuL, HuR⟩
  ihave HuL' := (pointsTo_split_subset (Finset.subset_univ (uid1 L).view.set)).1 $$ HuL
  icases HuL' with ⟨Hu1, Hu1r⟩
  ihave HuR' := (pointsTo_split_subset (Finset.subset_univ (uid2 L).view.set)).1 $$ HuR
  icases HuR' with ⟨Hu2, Hu2r⟩
  ihave Hi' := (pointsTo_share (PosShare.mem_left_op_right q)).1 $$ Hi
  icases Hi' with ⟨HiL, HiR⟩
  ihave HiL' := (pointsTo_split_subset (Finset.subset_univ (iid1 L).view.set)).1 $$ HiL
  icases HiL' with ⟨Hi1, Hi1r⟩
  ihave HiR' := (pointsTo_split_subset (Finset.subset_univ (iid2 L).view.set)).1 $$ HiR
  icases HiR' with ⟨Hi2, Hi2r⟩
  ihave Hut' := (pointsTo_share (PosShare.mem_left_op_right q)).1 $$ Hut
  icases Hut' with ⟨Hut1, Hut2⟩
  ihave Hit' := (pointsTo_share (PosShare.mem_left_op_right q)).1 $$ Hit
  icases Hit' with ⟨Hit1, Hit2⟩
  ihave Hu1 := (Entails.of_eq (pts_u1 (F := F) d L _ _).symm) $$ Hu1
  ihave Hu2 := (Entails.of_eq (pts_u2 (F := F) d L _ _).symm) $$ Hu2
  ihave Hi1 := (Entails.of_eq (pts_i1 (F := F) d L _ _).symm) $$ Hi1
  ihave Hi2 := (Entails.of_eq (pts_i2 (F := F) d L _ _).symm) $$ Hi2
  ihave Hut1 := (Entails.of_eq (pts_ut (F := F) d L _ _).symm) $$ Hut1
  ihave Hut2 := (Entails.of_eq (pts_ut (F := F) d L _ _).symm) $$ Hut2
  ihave Hit1 := (Entails.of_eq (pts_it (F := F) d L _ _).symm) $$ Hit1
  ihave Hit2 := (Entails.of_eq (pts_it (F := F) d L _ _).symm) $$ Hit2
  ihave Hou1 := (Entails.of_eq (pts_ou1 (F := F) d L _).symm) $$ Hou1
  ihave Hou2 := (Entails.of_eq (pts_ou2 (F := F) d L _).symm) $$ Hou2
  ihave Hoi1 := (Entails.of_eq (pts_oi1 (F := F) d L _).symm) $$ Hoi1
  ihave Hoi2 := (Entails.of_eq (pts_oi2 (F := F) d L _).symm) $$ Hoi2
  ihave Hs0 := (Entails.of_eq (pts_own (F := F) d L cc0_scratch0 _).symm) $$ Hs0
  ihave Hs1 := (Entails.of_eq (pts_own (F := F) d L cc0_scratch1 _).symm) $$ Hs1
  ihave Hs2 := (Entails.of_eq (pts_own (F := F) d L cc0_scratch2 _).symm) $$ Hs2
  ihave Hs3 := (Entails.of_eq (pts_own (F := F) d L cc0_scratch3 _).symm) $$ Hs3
  ihave Hb0 := (Entails.of_eq (pts_own (F := F) d L cc0_scratch4 _).symm) $$ Hb0
  ihave Hb1 := (Entails.of_eq (pts_own (F := F) d L cc0_scratch5 _).symm) $$ Hb1
  ihave Hb2 := (Entails.of_eq (pts_own (F := F) d L cc0_scratch6 _).symm) $$ Hb2
  -- the offsets of each gather are words of an index array, whatever its staging list held before
  have hinA : ∀ (g : Buf (Elt F) ((thr d L).loc cc0_scratch0)) (x : S256.Idx),
      ((sI0).view.read (Elt F) ((sI0).view.write (Elt F) g (ReadAs.same.apply ((uid1 L).view.read (Elt F) (m (uidLoc d)))) Finset.univ) x).toNat
        < S100000x128.size (gathers_S100000x128_S256x128).axis := by
    intro g x
    rw [View.write_whole_univ, View.read_whole]
    exact hfu _
  have hinB : ∀ (g : Buf (Elt F) ((thr d L).loc cc0_scratch1)) (x : S256.Idx),
      ((sI1).view.read (Elt F) ((sI1).view.write (Elt F) g (ReadAs.same.apply ((uid2 L).view.read (Elt F) (m (uidLoc d)))) Finset.univ) x).toNat
        < S100000x128.size (gathers_S100000x128_S256x128).axis := by
    intro g x
    rw [View.write_whole_univ, View.read_whole]
    exact hfu _
  have hinC : ∀ (g : Buf (Elt F) ((thr d L).loc cc0_scratch2)) (x : S256.Idx),
      ((sI2).view.read (Elt F) ((sI2).view.write (Elt F) g (ReadAs.same.apply ((iid1 L).view.read (Elt F) (m (iidLoc d)))) Finset.univ) x).toNat
        < S100000x128.size (gathers_S100000x128_S256x128).axis := by
    intro g x
    rw [View.write_whole_univ, View.read_whole]
    exact hfi _
  have hinD : ∀ (g : Buf (Elt F) ((thr d L).loc cc0_scratch3)) (x : S256.Idx),
      ((sI3).view.read (Elt F) ((sI3).view.write (Elt F) g (ReadAs.same.apply ((iid2 L).view.read (Elt F) (m (iidLoc d)))) Finset.univ) x).toNat
        < S100000x128.size (gathers_S100000x128_S256x128).axis := by
    intro g x
    rw [View.write_whole_univ, View.read_whole]
    exact hfi _
  sl_exec
  sl_step
  isplitl [Hu1r Hu2r Hi1r Hi2r Hut1 Hut2 Hit1 Hit2 Hou1 Hou2 Hoi1 Hoi2]
  · isplitl [Hu1r Hu2r]
    · iapply (pointsTo_share (PosShare.mem_left_op_right q)).2
      isplitl [Hu1r]
      · iexact Hu1r
      · iexact Hu2r
    isplitl [Hi1r Hi2r]
    · iapply (pointsTo_share (PosShare.mem_left_op_right q)).2
      isplitl [Hi1r]
      · iexact Hi1r
      · iexact Hi2r
    isplitl [Hut1 Hut2]
    · iapply (pointsTo_share (PosShare.mem_left_op_right q)).2
      isplitl [Hut1]
      · iapply (Entails.of_eq (pts_ut (F := F) d L _ _)); iexact Hut1
      · iapply (Entails.of_eq (pts_ut (F := F) d L _ _)); iexact Hut2
    isplitl [Hit1 Hit2]
    · iapply (pointsTo_share (PosShare.mem_left_op_right q)).2
      isplitl [Hit1]
      · iapply (Entails.of_eq (pts_it (F := F) d L _ _)); iexact Hit1
      · iapply (Entails.of_eq (pts_it (F := F) d L _ _)); iexact Hit2
    isplitl [Hou1]
    · iapply (Entails.of_eq (pts_ou1 (F := F) d L _))
      iapply (Entails.of_eq (pts_block (F := F) (thr d L) (ou1 L).view fullShare (m (ouLoc d)) (Gu m d) _
        (fun y => payA (F := F) d L (m (uidLoc d)) (m (utLoc d)) s0 b0 hfu rfl (hinA s0) y)))
      iexact Hou1
    isplitl [Hou2]
    · iapply (Entails.of_eq (pts_ou2 (F := F) d L _))
      iapply (Entails.of_eq (pts_block (F := F) (thr d L) (ou2 L).view fullShare (m (ouLoc d)) (Gu m d) _
        (fun y => payB (F := F) d L (m (uidLoc d)) (m (utLoc d)) s1 b1 hfu rfl (hinB s1) y)))
      iexact Hou2
    isplitl [Hoi1]
    · iapply (Entails.of_eq (pts_oi1 (F := F) d L _))
      iapply (Entails.of_eq (pts_block (F := F) (thr d L) (oi1 L).view fullShare (m (oiLoc d)) (Gi m d) _
        (fun y => payC (F := F) d L (m (iidLoc d)) (m (itLoc d)) s2 b2 hfi rfl (hinC s2) y)))
      iexact Hoi1
    · iapply (Entails.of_eq (pts_oi2 (F := F) d L _))
      iapply (Entails.of_eq (pts_block (F := F) (thr d L) (oi2 L).view fullShare (m (oiLoc d)) (Gi m d) _
        (fun y => payD (F := F) d L (m (iidLoc d)) (m (itLoc d)) s3 b0 _ hfi rfl (hinD s3) y)))
      iexact Hoi2
  isplitl [Hs0 Hs1 Hs2 Hs3 Hb0 Hb1 Hb2 Hbufs]
  · isplitr [Hbufs]
    · isplitl [Hs0]; · iexists _; iapply (Entails.of_eq (pts_own (F := F) d L cc0_scratch0 _)); iexact Hs0
      isplitl [Hs1]; · iexists _; iapply (Entails.of_eq (pts_own (F := F) d L cc0_scratch1 _)); iexact Hs1
      isplitl [Hs2]; · iexists _; iapply (Entails.of_eq (pts_own (F := F) d L cc0_scratch2 _)); iexact Hs2
      isplitl [Hs3]; · iexists _; iapply (Entails.of_eq (pts_own (F := F) d L cc0_scratch3 _)); iexact Hs3
      isplitl [Hb0]; · iexists _; iapply (Entails.of_eq (pts_own (F := F) d L cc0_scratch4 _)); iexact Hb0
      isplitl [Hb1]; · iexists _; iapply (Entails.of_eq (pts_own (F := F) d L cc0_scratch5 _)); iexact Hb1
      iexists _; iapply (Entails.of_eq (pts_own (F := F) d L cc0_scratch6 _)); iexact Hb2
    · iexact Hbufs
  isplitl [Hm7 Hm8 Hm9 Hm10 Hm11 Hm12 Hm13 Hm14 Hm15 Hm16 Hsems]
  · isplitr [Hsems]
    · isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      iexact Hm16
    · iexact Hsems
  iexists _; isplitr
  rotate_left
  · iexact HO
  · ipureintro
    iterate 12 (refine waits_insert ?_ ?_; · rfl)
    exact fun p hp => .inl hp

end Tile

end Cert.KernelIdeal.Launch

end
-- ==== Proof.IdealCoords.lean ====
/-
  A vector subcore's grid coordinates, and the read share each subcore is dealt of an array every subcore reads.
-/
import proofs.«207198_g34918084116659_cont_8to1_b_1870_22_alg».proof.Proof.IdealTileDefs

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of subcore `i` of SparseCore `c`: the `i`-th of sixteen tokens of the `c`-th of two tokens of the full share. -/
abbrev qT (c : Fin 2) (i : Fin 16) : PosShare TreeShare := Transfers.shareTok (Transfers.shareTok fullShare 2 c) 16 i

end Cert.KernelIdeal.Launch

end
-- ==== Proof.IdealLaunchA.lean ====
/-
  The launch of the gather kernel's tasks: what the one SparseCore call takes for each SparseCore (its sixteen tasks'
  shares) and brings back, the task's obligation, and the launch element of the proof's ghost state (the handshakes'
  rounds; the pipeline's staging cells' rounds, funded for the TensorCore region; the transfers' counters).
-/
import proofs.«207198_g34918084116659_cont_8to1_b_1870_22_alg».proof.Proof.IdealTile
import proofs.«207198_g34918084116659_cont_8to1_b_1870_22_alg».proof.Proof.IdealCoords
import proofs.«207198_g34918084116659_cont_8to1_b_1870_22_alg».proof.Proof.IdealMlpDefs

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The grid point and the read share of task `i` of SparseCore `c` of the call. -/
abbrev LV (c : Fin ((K (F := F)).nCore 0)) (i : Fin ((K (F := F)).nSub 0)) : grid0.Coords := coordsV c i
abbrev qV (c : Fin ((K (F := F)).nCore 0)) (i : Fin ((K (F := F)).nSub 0)) : PosShare TreeShare := qT c i

/-- The one call takes, per SparseCore, its sixteen tasks' shares, and brings them back with the results' rows gathered. -/
def P : (K (F := F)).Pay (nD := nD) (Val := Elt F) (Name := ℕ) (U := UU) where
  st := fun q d c => match q with | 0 => bigSep Finset.univ fun i : Fin ((K (F := F)).nSub 0) => tileGo m (qV c i) d (LV c i)
  dn := fun q d c => match q with | 0 => bigSep Finset.univ fun i : Fin ((K (F := F)).nSub 0) => tileTd m (qV c i) d (LV c i)
  go := fun q d c i => match q with | 0 => tileGo m (qV c i) d (LV c i)
  td := fun q d c i => match q with | 0 => tileTd m (qV c i) d (LV c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileGo m (qV c i) d (LV c i)))
  dn q d c := match q with
    | 0 => (inferInstance : BI.Storable (upEmb : UEmb _ 𝕄) (bigSep Finset.univ fun i : Fin ((K (F := F)).nSub 0) => tileTd m (qV c i) d (LV c i)))
  go q d c i := match q with
    | 0 => (inferInstance : BI.Storable (upEmb : UEmb _ 𝕄) (tileGo m (qV c i) d (LV c i)))
  td q d c i := match q with
    | 0 => (inferInstance : BI.Storable (upEmb : UEmb _ 𝕄) (tileTd m (qV c i) d (LV c i)))

/-! ## The launch theorem's obligations -/

theorem defs₀_vector (c : Fin τ.nSC) (s : Fin τ.nSub) :
    defs₀ (F := F) (.scVector c s) 0 ()
      = SparseCore.onTile hcore0 hsub0 (fun c s => cc0__gather_body (coordsV c s)
          uidW (Memref.isWhole_whole _) iidW (Memref.isWhole_whole _) utW (Memref.isWhole_whole _) itW (Memref.isWhole_whole _)
          ouW (Memref.isWhole_whole _) oiW (Memref.isWhole_whole _) sI0 (Memref.isWhole_whole _) sI1 (Memref.isWhole_whole _)
          sI2 (Memref.isWhole_whole _) sI3 (Memref.isWhole_whole _) sB0 (Memref.isWhole_whole _) sB1 (Memref.isWhole_whole _) sB2 (Memref.isWhole_whole _)
          cc0_scratch7 cc0_scratch8 cc0_scratch9 cc0_scratch10 cc0_scratch11 cc0_scratch12 cc0_scratch13 cc0_scratch14 cc0_scratch15 cc0_scratch16) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hfu : ∀ d j, (m (uidLoc d) j).toNat < 100000) (hfi : ∀ d j, (m (iidLoc d) j).toNat < 100000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (qV c i) O W hO (hfu d) (hfi d)).trans (wp_mono frame _ _ fun _ => obl_post)

theorem vecSplit : (K (F := F)).VecSplit' (P m) 0 := by
  intro d c
  show (bigSep Finset.univ fun i : Fin ((K (F := F)).nSub 0) => tileGo m (qV c i) d (LV c i)) ⊢ |={Set.univ}=> iprop(
      (bigSep Finset.univ fun i : Fin ((K (F := F)).nSub 0) => tileGo m (qV c i) d (LV c i))
      ∗ ((bigSep Finset.univ fun i : Fin ((K (F := F)).nSub 0) => tileTd m (qV c i) d (LV c i))
          -∗ bigSep Finset.univ fun i : Fin ((K (F := F)).nSub 0) => tileTd m (qV c i) d (LV c i)))
  iintro H; imodintro
  isplitl [H]; · iexact H
  iintro H; iexact H

/-! ## The launch element -/

/-- The pipeline's staging cells are pairwise distinct. -/
theorem pinj : Function.Injective (Pipeline.cellOf (nD := nD) (τ := τ) (Pipeline.pin (pcfgs (F := F)) (MlpRegion.adm (F := F)))) := cellOf_inj

/-- What @main's proof starts from beyond the launch's deal: the staging cells' ghost state and duty tokens. -/
abbrev GG (d : Dev nD) : sProp 𝕄 :=
  iprop(Pipeline.cellsGhost (Pipeline.pin (pcfgs (F := F)) (MlpRegion.adm (F := F))) EP 0 d
    ∗ Pipeline.toksInit (Pipeline.pin (pcfgs (F := F)) (MlpRegion.adm (F := F))) EP 0 d)

def u₀ : UU :=
  (initOf (K (F := F)).hsCells (K (F := F)).hsToks,
    (initOf (Pipeline.cells (Pipeline.pin (pcfgs (F := F)) (MlpRegion.adm (F := F))) pinj)
      (Pipeline.launchToks (Pipeline.pin (pcfgs (F := F)) (MlpRegion.adm (F := F))) pinj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (Entails.of_eq (show (BI.own (((Emb.inl : Emb UP (UP × Counters)).trans (embR : Emb (UP × Counters) 𝕄))
      (initOf (Pipeline.cells (Pipeline.pin (pcfgs (F := F)) (MlpRegion.adm (F := F))) pinj)
        (Pipeline.launchToks (Pipeline.pin (pcfgs (F := F)) (MlpRegion.adm (F := F))) pinj))) : sProp 𝕄)
      = BI.own (EP (initOf (Pipeline.cells (Pipeline.pin (pcfgs (F := F)) (MlpRegion.adm (F := F))) pinj)
        (Pipeline.launchToks (Pipeline.pin (pcfgs (F := F)) (MlpRegion.adm (F := F))) pinj))) from rfl)) $$ HP
  imod (Pipeline.fund_ghost (Pipeline.pin (pcfgs (F := F)) (MlpRegion.adm (F := F))) EP pinj) $$ HP' with ⟨Hg, Ht⟩
  imodintro
  isplitl [HH]; · iexact HH
  isplitl [Hg Ht]
  · rw [bigSep_sep']
    isplitl [Hg]
    · iapply (Entails.of_eq (show (bigSep Finset.univ fun c : Dev nD => bigSep Finset.univ fun p : Fin 1 => Pipeline.cellsGhost (Pipeline.pin (pcfgs (F := F)) (MlpRegion.adm (F := F))) EP p c)
          = (bigSep Finset.univ fun d : Dev nD => (Pipeline.cellsGhost (Pipeline.pin (pcfgs (F := F)) (MlpRegion.adm (F := F))) EP 0 d : sProp 𝕄))
          from bigSep_congr fun d _ => bigSep_univ_of_subsingleton (0 : Fin 1)))
      iexact Hg
    · iapply (Entails.of_eq (show (bigSep Finset.univ fun c : Dev nD => bigSep Finset.univ fun p : Fin 1 => (Pipeline.toksInit (Pipeline.pin (pcfgs (F := F)) (MlpRegion.adm (F := F))) EP p c : sProp 𝕄))
          = (bigSep Finset.univ fun d : Dev nD => (Pipeline.toksInit (Pipeline.pin (pcfgs (F := F)) (MlpRegion.adm (F := F))) EP 0 d : sProp 𝕄))
          from bigSep_congr fun d _ => bigSep_univ_of_subsingleton (0 : Fin 1)))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Launch

end
-- ==== Proof.IdealSplit.lean ====
/-
  The arrays the launch hands over whole, shared out among the 2 × 16 vector subcores.

  Each of the four input arrays is read by every subcore: its full share is cut into two read tokens, one per
  SparseCore, and each of those into sixteen, one per subcore; the remainders are kept aside and everything joins back
  to the full share. Each of the two result arrays is cut by rows instead: subcore `i` of SparseCore `c` owns the two
  blocks of 256 rows starting at row `1024 i + 512 c` and 256 rows later. These 64 blocks are pairwise disjoint and
  cover the 16384 rows: row `r` lies in the block of `i = r / 1024`, `c = (r / 512) mod 2`, half `(r / 256) mod 2`.
-/
import proofs.«207198_g34918084116659_cont_8to1_b_1870_22_alg».proof.Proof.IdealCoords
import Idealize.ShloMosaic.Lib.Transfers
import Idealize.ShloMosaic.Lib.ValueIdx

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## Read shares -/

/-- What is kept aside when an array's full share is cut into the 32 read tokens. -/
def readRem (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- The sixteen remainders and the 32 tokens, regrouped: one equation used in both directions. -/
theorem toks_regroup (ℓ : Loc nD τ sig) (f : Buf (Elt F) ℓ) :
    (bigSep Finset.univ fun c : Fin 2 =>
        iprop((ℓ ↦{Transfers.shareDrop (Transfers.shareTok fullShare 2 c) 16} f)
          ∗ bigSep Finset.univ fun i : Fin 16 => ℓ ↦{Transfers.shareTok (Transfers.shareTok fullShare 2 c) 16 i} f) : sProp 𝕄)
      = iprop((bigSep Finset.univ fun c : Fin 2 => ℓ ↦{Transfers.shareDrop (Transfers.shareTok fullShare 2 c) 16} f)
          ∗ bigSep Finset.univ fun c : Fin 2 => bigSep Finset.univ fun i : Fin 16 => ℓ ↦{qT c i} f) :=
  bigSep_sep _ _ _

/-- The full share is the remainders and one read token per subcore; -/
theorem read_split (ℓ : Loc nD τ sig) (f : Buf (Elt F) ℓ) :
    (ℓ ↦{fullShare} f : sProp 𝕄)
      ⊢ iprop(readRem ℓ f ∗ bigSep Finset.univ fun c : Fin 2 => bigSep Finset.univ fun i : Fin 16 => ℓ ↦{qT c i} f) := by
  have h1 : (iprop((ℓ ↦{Transfers.shareDrop fullShare 2} f)
          ∗ bigSep Finset.univ fun c : Fin 2 =>
              iprop((ℓ ↦{Transfers.shareDrop (Transfers.shareTok fullShare 2 c) 16} f)
                ∗ bigSep Finset.univ fun i : Fin 16 => ℓ ↦{Transfers.shareTok (Transfers.shareTok fullShare 2 c) 16 i} f)) : sProp 𝕄)
      ⊢ iprop(readRem ℓ f ∗ bigSep Finset.univ fun c : Fin 2 => bigSep Finset.univ fun i : Fin 16 => ℓ ↦{qT c i} f) := by
    rw [toks_regroup]
    unfold readRem
    iintro ⟨Hd, Hr, Ht⟩
    isplitl [Hd Hr]
    · isplitl [Hd] <;> iassumption
    · iexact Ht
  exact (Transfers.pointsTo_toks_split fullShare 2).trans
    ((sep_mono_r (bigSep_mono fun c _ => Transfers.pointsTo_toks_split (Transfers.shareTok fullShare 2 c) 16)).trans h1)

/-- and they join back to it. -/
theorem read_join (ℓ : Loc nD τ sig) (f : Buf (Elt F) ℓ) :
    iprop(readRem ℓ f ∗ bigSep Finset.univ fun c : Fin 2 => bigSep Finset.univ fun i : Fin 16 => ℓ ↦{qT c i} f)
      ⊢ (ℓ ↦{fullShare} f : sProp 𝕄) := by
  have h1 : iprop(readRem ℓ f ∗ bigSep Finset.univ fun c : Fin 2 => bigSep Finset.univ fun i : Fin 16 => ℓ ↦{qT c i} f)
      ⊢ (iprop((ℓ ↦{Transfers.shareDrop fullShare 2} f)
          ∗ bigSep Finset.univ fun c : Fin 2 =>
              iprop((ℓ ↦{Transfers.shareDrop (Transfers.shareTok fullShare 2 c) 16} f)
                ∗ bigSep Finset.univ fun i : Fin 16 => ℓ ↦{Transfers.shareTok (Transfers.shareTok fullShare 2 c) 16 i} f)) : sProp 𝕄) := by
    rw [toks_regroup]
    unfold readRem
    iintro ⟨⟨Hd, Hr⟩, Ht⟩
    isplitl [Hd]
    · iexact Hd
    · isplitl [Hr] <;> iassumption
  exact h1.trans ((sep_mono_r (bigSep_mono fun c _ => Transfers.pointsTo_toks_join (Transfers.shareTok fullShare 2 c) 16)).trans
    (Transfers.pointsTo_toks_join fullShare 2))

/-! ## The rows of a result array -/

theorem off3_0 (L : grid0.Coords) : k0_off3 L 0 = 1024 * (L 1).val + 512 * (L 0).val := by rw [k0_off3_eq]; rfl
theorem off3_1 (L : grid0.Coords) : k0_off3 L 1 = 0 := by rw [k0_off3_eq]; rfl
theorem off4_0 (L : grid0.Coords) : k0_off4 L 0 = 1024 * (L 1).val + 512 * (L 0).val + 256 := by rw [k0_off4_eq]; rfl
theorem off4_1 (L : grid0.Coords) : k0_off4 L 1 = 0 := by rw [k0_off4_eq]; rfl

/-- The two blocks of rows of a task, as rectangles of the array's shape. -/
abbrev R1 (L : grid0.Coords) : Rect S16384x128 := Rect.unit (s := S16384x128) (k0_off3 L) S256x128.size (k0_off3_inb L)
abbrev R2 (L : grid0.Coords) : Rect S16384x128 := Rect.unit (s := S16384x128) (k0_off4 L) S256x128.size (k0_off4_inb L)

/-- A block holds the indices whose row lies in its 256 rows. -/
theorem mem_R1 (L : grid0.Coords) (j : S16384x128.Idx) :
    j ∈ (R1 L).set ↔ 1024 * (L 1).val + 512 * (L 0).val ≤ (j 0).val ∧ (j 0).val < 1024 * (L 1).val + 512 * (L 0).val + 256 := by
  rw [Rect.mem_set_unit]
  constructor
  · intro H
    have h : k0_off3 L 0 ≤ (j 0).val ∧ (j 0).val < k0_off3 L 0 + 256 := H 0
    rw [off3_0] at h
    exact h
  · intro h a
    match a with
    | ⟨0, _⟩ =>
      show k0_off3 L 0 ≤ (j 0).val ∧ (j 0).val < k0_off3 L 0 + 256
      rw [off3_0]; exact h
    | ⟨1, _⟩ =>
      show k0_off3 L 1 ≤ (j 1).val ∧ (j 1).val < k0_off3 L 1 + 128
      rw [off3_1]; exact ⟨Nat.zero_le _, by have := idx2_lt1 j; omega⟩

theorem mem_R2 (L : grid0.Coords) (j : S16384x128.Idx) :
    j ∈ (R2 L).set ↔ 1024 * (L 1).val + 512 * (L 0).val + 256 ≤ (j 0).val
      ∧ (j 0).val < 1024 * (L 1).val + 512 * (L 0).val + 256 + 256 := by
  rw [Rect.mem_set_unit]
  constructor
  · intro H
    have h : k0_off4 L 0 ≤ (j 0).val ∧ (j 0).val < k0_off4 L 0 + 256 := H 0
    rw [off4_0] at h
    exact h
  · intro h a
    match a with
    | ⟨0, _⟩ =>
      show k0_off4 L 0 ≤ (j 0).val ∧ (j 0).val < k0_off4 L 0 + 256
      rw [off4_0]; exact h
    | ⟨1, _⟩ =>
      show k0_off4 L 1 ≤ (j 1).val ∧ (j 1).val < k0_off4 L 1 + 128
      rw [off4_1]; exact ⟨Nat.zero_le _, by have := idx2_lt1 j; omega⟩

/-- The first row of block `(c, i, h)`. -/
def base (p : Fin 2 × Fin 16 × Fin 2) : ℕ := 1024 * p.2.1.val + 512 * p.1.val + 256 * p.2.2.val

/-- Block `(c, i, h)`: half `h` of the rows of subcore `i` of SparseCore `c`. -/
def tset (p : Fin 2 × Fin 16 × Fin 2) : Finset S16384x128.Idx :=
  if p.2.2 = 0 then (R1 (coordsV p.1 p.2.1)).set else (R2 (coordsV p.1 p.2.1)).set

theorem mem_tset (p : Fin 2 × Fin 16 × Fin 2) (j : S16384x128.Idx) :
    j ∈ tset p ↔ base p ≤ (j 0).val ∧ (j 0).val < base p + 256 := by
  obtain ⟨c, i, h⟩ := p
  unfold tset base
  by_cases hh : h = 0
  · subst hh
    rw [if_pos rfl, mem_R1]
    show 1024 * i.val + 512 * c.val ≤ _ ∧ _ < 1024 * i.val + 512 * c.val + 256 ↔ _
    simp only [Fin.val_zero, Nat.mul_zero, Nat.add_zero]
  · have h1 : h.val = 1 := by
      have := h.isLt
      have : h.val ≠ 0 := fun e => hh (Fin.ext e)
      omega
    rw [if_neg hh, mem_R2]
    show 1024 * i.val + 512 * c.val + 256 ≤ _ ∧ _ < 1024 * i.val + 512 * c.val + 256 + 256 ↔ _
    simp only [h1, Nat.mul_one]

theorem tset_disjoint : ∀ p ∈ (Finset.univ : Finset (Fin 2 × Fin 16 × Fin 2)), ∀ p' ∈ (Finset.univ : Finset (Fin 2 × Fin 16 × Fin 2)),
    p ≠ p' → Disjoint (tset p) (tset p') := by
  intro p _ p' _ hne
  refine Finset.disjoint_left.2 fun j hj hj' => hne ?_
  rw [mem_tset] at hj hj'
  obtain ⟨c, i, h⟩ := p
  obtain ⟨c', i', h'⟩ := p'
  unfold base at hj hj'
  have := c.isLt; have := c'.isLt; have := h.isLt; have := h'.isLt
  simp only at hj hj'
  exact Prod.ext (Fin.ext (by show c.val = c'.val; omega))
    (Prod.ext (Fin.ext (by show i.val = i'.val; omega)) (Fin.ext (by show h.val = h'.val; omega)))

theorem tset_cover : (Finset.univ : Finset (Fin 2 × Fin 16 × Fin 2)).biUnion tset = Finset.univ := by
  refine Finset.eq_univ_iff_forall.2 fun j => Finset.mem_biUnion.2 ?_
  have hr := idx2_lt0 j
  refine ⟨(⟨(j 0).val / 512 % 2, Nat.mod_lt _ (by decide)⟩, ⟨(j 0).val / 1024, by omega⟩,
    ⟨(j 0).val / 256 % 2, Nat.mod_lt _ (by decide)⟩), Finset.mem_univ _, (mem_tset _ j).2 ?_⟩
  unfold base
  simp only
  constructor <;> omega

/-- A task's two blocks of a result array, as element sets of the array. -/
theorem ou1_set (L : grid0.Coords) : (ou1 L).view.set = (R1 L).set := View.set_slice_whole _ _
theorem ou2_set (L : grid0.Coords) : (ou2 L).view.set = (R2 L).set := View.set_slice_whole _ _
theorem oi1_set (L : grid0.Coords) : (oi1 L).view.set = (R1 L).set := View.set_slice_whole _ _
theorem oi2_set (L : grid0.Coords) : (oi2 L).view.set = (R2 L).set := View.set_slice_whole _ _

/-- The gathered user array, whole, is its 64 blocks of rows. -/
theorem ou_rows (d : Dev nD) (f : Buf (Elt F) (ouLoc d)) :
    (ouLoc d ↦{fullShare} f : sProp 𝕄)
      = bigSep Finset.univ fun c : Fin 2 => bigSep Finset.univ fun i : Fin 16 =>
          iprop((ouLoc d ↦[(ou1 (coordsV c i)).view.set]{fullShare} f) ∗ ouLoc d ↦[(ou2 (coordsV c i)).view.set]{fullShare} f) := by
  have e : (ouLoc d ↦{fullShare} f : sProp 𝕄) = bigSep Finset.univ fun p => ouLoc d ↦[tset p]{fullShare} f := by
    rw [← pointsTo_biUnion Finset.univ (ℓ := ouLoc d) tset tset_disjoint, tset_cover]; try rfl
  rw [e, bigSep_univ_prod]
  refine bigSep_congr fun c _ => ?_
  rw [bigSep_univ_prod]
  refine bigSep_congr fun i _ => ?_
  rw [bigSep_univ_two, ou1_set, ou2_set]
  rfl

/-- The gathered item array likewise. -/
theorem oi_rows (d : Dev nD) (f : Buf (Elt F) (oiLoc d)) :
    (oiLoc d ↦{fullShare} f : sProp 𝕄)
      = bigSep Finset.univ fun c : Fin 2 => bigSep Finset.univ fun i : Fin 16 =>
          iprop((oiLoc d ↦[(oi1 (coordsV c i)).view.set]{fullShare} f) ∗ oiLoc d ↦[(oi2 (coordsV c i)).view.set]{fullShare} f) := by
  have e : (oiLoc d ↦{fullShare} f : sProp 𝕄) = bigSep Finset.univ fun p => oiLoc d ↦[tset p]{fullShare} f := by
    rw [← pointsTo_biUnion Finset.univ (ℓ := oiLoc d) tset tset_disjoint, tset_cover]; try rfl
  rw [e, bigSep_univ_prod]
  refine bigSep_congr fun c _ => ?_
  rw [bigSep_univ_prod]
  refine bigSep_congr fun i _ => ?_
  rw [bigSep_univ_two, oi1_set, oi2_set]
  rfl

end Cert.KernelIdeal.Launch

end
-- ==== Proof.IdealMlpRegion.lean ====
/-
  The multilayer-perceptron kernel region's proof data and body obligation: the arrays at the entry valuation, every input
  window's staging buffer at its block, the output's at the body's result of the blocks.
-/
import proofs.«207198_g34918084116659_cont_8to1_b_1870_22_alg».proof.Proof.IdealMlpDefs

set_option maxRecDepth 16384

noncomputable section

namespace Cert.KernelIdeal.MlpRegion

open Cert.KernelIdeal Cert.KernelIdeal.Gen Cert.KernelIdeal.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vv : Valuation τ sig (Elt F)) (W : Waits sig (HIx 1))

/-! ## The pipeline's proof data -/

/-- The valuation read at a TensorCore reference of core `c`. -/
abbrev VV (c : Dev nD) (b : Ref sig .tc) : Buf (Elt F) ((c : Thread nD τ).loc b) := Vv (Proc.devRef .tc b)

/-- Window `w`'s block at point `t`, read off its array at the entry valuation. -/
def iblk (c : Dev nD) (w : Fin cfg1.W) (t : Fin cfg1.N) : ((cfg1.win w).xblock (cfg1.grid.coords t)).Idx → Elt F (cfg1.win w).elt :=
  ((cfg1.win w).blk t).view.read (Elt F) (VV Vv c (Pipeline.arrRef spec1 w))

/-- The pairs the TensorCore's waits may have recorded: those recorded before the region, and any at the kernels' own index. -/
def recd : Set (SemLoc sig × HIx 1) := {p | p ∈ W ∨ p.2 = none}

/-- The proof data on core `c`: the arrays at the entry valuation; after the body at point `t` each input's buffer at its
    block and the output's at the body's result of the blocks; the invariant the scoped buffers no window stages; nothing
    owed; full shares. -/
def dats (_ : Fin 1) (c : Dev nD) : Dat τ (Elt F) (HIx 1) ℕ UU ℕ cfg1 c where
  A w := VV Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => iblk Vv c 6 t
    | ⟨7, _⟩ => iblk Vv c 7 t
    | ⟨8, _⟩ => iblk Vv c 8 t
    | ⟨9, _⟩ => iblk Vv c 9 t
    | ⟨10, _⟩ => iblk Vv c 10 t
    | ⟨11, _⟩ => iblk Vv c 11 t
    | ⟨12, _⟩ => iblk Vv c 12 t
    | ⟨13, _⟩ => out13 (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t)
  Φ _ := Pipeline.scopedRest (Ix := HIx 1) (Name := ℕ) (U := UU) (Lvl := ℕ) (Val := Elt F) spec1 c
  q _ := fullShare
  owed _ := 0
  recorded _ := recd W

theorem A_eq (c : Dev nD) (w : Fin cfg1.W) : (dats Vv W 0 c).A w = VV Vv c (Pipeline.arrRef spec1 w) := by
  dsimp only [dats]

theorem after1_0 (c : Dev nD) (t : Fin cfg1.N) : (dats Vv W 0 c).after 0 t = iblk Vv c 0 t := by dsimp only [dats]
theorem after1_1 (c : Dev nD) (t : Fin cfg1.N) : (dats Vv W 0 c).after 1 t = iblk Vv c 1 t := by dsimp only [dats]
theorem after1_2 (c : Dev nD) (t : Fin cfg1.N) : (dats Vv W 0 c).after 2 t = iblk Vv c 2 t := by dsimp only [dats]
theorem after1_3 (c : Dev nD) (t : Fin cfg1.N) : (dats Vv W 0 c).after 3 t = iblk Vv c 3 t := by dsimp only [dats]
theorem after1_4 (c : Dev nD) (t : Fin cfg1.N) : (dats Vv W 0 c).after 4 t = iblk Vv c 4 t := by dsimp only [dats]
theorem after1_5 (c : Dev nD) (t : Fin cfg1.N) : (dats Vv W 0 c).after 5 t = iblk Vv c 5 t := by dsimp only [dats]
theorem after1_6 (c : Dev nD) (t : Fin cfg1.N) : (dats Vv W 0 c).after 6 t = iblk Vv c 6 t := by dsimp only [dats]
theorem after1_7 (c : Dev nD) (t : Fin cfg1.N) : (dats Vv W 0 c).after 7 t = iblk Vv c 7 t := by dsimp only [dats]
theorem after1_8 (c : Dev nD) (t : Fin cfg1.N) : (dats Vv W 0 c).after 8 t = iblk Vv c 8 t := by dsimp only [dats]
theorem after1_9 (c : Dev nD) (t : Fin cfg1.N) : (dats Vv W 0 c).after 9 t = iblk Vv c 9 t := by dsimp only [dats]
theorem after1_10 (c : Dev nD) (t : Fin cfg1.N) : (dats Vv W 0 c).after 10 t = iblk Vv c 10 t := by dsimp only [dats]
theorem after1_11 (c : Dev nD) (t : Fin cfg1.N) : (dats Vv W 0 c).after 11 t = iblk Vv c 11 t := by dsimp only [dats]
theorem after1_12 (c : Dev nD) (t : Fin cfg1.N) : (dats Vv W 0 c).after 12 t = iblk Vv c 12 t := by dsimp only [dats]
theorem after1_13 (c : Dev nD) (t : Fin cfg1.N) : (dats Vv W 0 c).after 13 t = out13 (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t) := by dsimp only [dats]

/-- Input window 0's current staging buffer holds its block at every point, fetched there or not. -/
theorem before1_0 (c : Dev nD) (t : Fin cfg1.N) (d) : (dats Vv W 0 c).before 0 t d = iblk Vv c 0 t :=
  ((dats Vv W 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
/-- Input window 1's current staging buffer holds its block at every point, fetched there or not. -/
theorem before1_1 (c : Dev nD) (t : Fin cfg1.N) (d) : (dats Vv W 0 c).before 1 t d = iblk Vv c 1 t :=
  ((dats Vv W 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
/-- Input window 2's current staging buffer holds its block at every point, fetched there or not. -/
theorem before1_2 (c : Dev nD) (t : Fin cfg1.N) (d) : (dats Vv W 0 c).before 2 t d = iblk Vv c 2 t :=
  ((dats Vv W 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
/-- Input window 3's current staging buffer holds its block at every point, fetched there or not. -/
theorem before1_3 (c : Dev nD) (t : Fin cfg1.N) (d) : (dats Vv W 0 c).before 3 t d = iblk Vv c 3 t :=
  ((dats Vv W 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
/-- Input window 4's current staging buffer holds its block at every point, fetched there or not. -/
theorem before1_4 (c : Dev nD) (t : Fin cfg1.N) (d) : (dats Vv W 0 c).before 4 t d = iblk Vv c 4 t :=
  ((dats Vv W 0 c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
/-- Input window 5's current staging buffer holds its block at every point, fetched there or not. -/
theorem before1_5 (c : Dev nD) (t : Fin cfg1.N) (d) : (dats Vv W 0 c).before 5 t d = iblk Vv c 5 t :=
  ((dats Vv W 0 c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
/-- Input window 6's current staging buffer holds its block at every point, fetched there or not. -/
theorem before1_6 (c : Dev nD) (t : Fin cfg1.N) (d) : (dats Vv W 0 c).before 6 t d = iblk Vv c 6 t :=
  ((dats Vv W 0 c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
/-- Input window 7's current staging buffer holds its block at every point, fetched there or not. -/
theorem before1_7 (c : Dev nD) (t : Fin cfg1.N) (d) : (dats Vv W 0 c).before 7 t d = iblk Vv c 7 t :=
  ((dats Vv W 0 c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
/-- Input window 8's current staging buffer holds its block at every point, fetched there or not. -/
theorem before1_8 (c : Dev nD) (t : Fin cfg1.N) (d) : (dats Vv W 0 c).before 8 t d = iblk Vv c 8 t :=
  ((dats Vv W 0 c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)
/-- Input window 9's current staging buffer holds its block at every point, fetched there or not. -/
theorem before1_9 (c : Dev nD) (t : Fin cfg1.N) (d) : (dats Vv W 0 c).before 9 t d = iblk Vv c 9 t :=
  ((dats Vv W 0 c).before_in_eq_fetched 9 rfl (fun _ => rfl) (fun _ _ _ => rfl) (fun t => by rw [after1_9]; unfold Dat.blockOf iblk; rw [A_eq]; try rfl) t d).trans
    (by unfold Dat.fetched Dat.blockOf iblk; rw [A_eq]; try rfl)
/-- Input window 10's current staging buffer holds its block at every point, fetched there or not. -/
theorem before1_10 (c : Dev nD) (t : Fin cfg1.N) (d) : (dats Vv W 0 c).before 10 t d = iblk Vv c 10 t :=
  ((dats Vv W 0 c).before_in_eq_fetched 10 rfl (fun _ => rfl) (fun _ _ _ => rfl) (fun t => by rw [after1_10]; unfold Dat.blockOf iblk; rw [A_eq]; try rfl) t d).trans
    (by unfold Dat.fetched Dat.blockOf iblk; rw [A_eq]; try rfl)
/-- Input window 11's current staging buffer holds its block at every point, fetched there or not. -/
theorem before1_11 (c : Dev nD) (t : Fin cfg1.N) (d) : (dats Vv W 0 c).before 11 t d = iblk Vv c 11 t :=
  ((dats Vv W 0 c).before_in_eq_fetched 11 rfl (fun _ => rfl) (fun _ _ _ => rfl) (fun t => by rw [after1_11]; unfold Dat.blockOf iblk; rw [A_eq]; try rfl) t d).trans
    (by unfold Dat.fetched Dat.blockOf iblk; rw [A_eq]; try rfl)
/-- Input window 12's current staging buffer holds its block at every point, fetched there or not. -/
theorem before1_12 (c : Dev nD) (t : Fin cfg1.N) (d) : (dats Vv W 0 c).before 12 t d = iblk Vv c 12 t :=
  ((dats Vv W 0 c).before_in_eq_fetched 12 rfl (fun _ => rfl) (fun _ _ _ => rfl) (fun t => by rw [after1_12]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats Vv W 0 c).Φ t.castSucc ∗ (dats Vv W 0 c).owesAt none t.castSucc
    ∗ (∃ d, owns (c : Thread nD τ) (st1_0 t) fullShare ((dats Vv W 0 c).before 0 t d))
    ∗ (∃ d, owns (c : Thread nD τ) (st1_1 t) fullShare ((dats Vv W 0 c).before 1 t d))
    ∗ (∃ d, owns (c : Thread nD τ) (st1_2 t) fullShare ((dats Vv W 0 c).before 2 t d))
    ∗ (∃ d, owns (c : Thread nD τ) (st1_3 t) fullShare ((dats Vv W 0 c).before 3 t d))
    ∗ (∃ d, owns (c : Thread nD τ) (st1_4 t) fullShare ((dats Vv W 0 c).before 4 t d))
    ∗ (∃ d, owns (c : Thread nD τ) (st1_5 t) fullShare ((dats Vv W 0 c).before 5 t d))
    ∗ (∃ d, owns (c : Thread nD τ) (st1_6 t) fullShare ((dats Vv W 0 c).before 6 t d))
    ∗ (∃ d, owns (c : Thread nD τ) (st1_7 t) fullShare ((dats Vv W 0 c).before 7 t d))
    ∗ (∃ d, owns (c : Thread nD τ) (st1_8 t) fullShare ((dats Vv W 0 c).before 8 t d))
    ∗ (∃ d, owns (c : Thread nD τ) (st1_9 t) fullShare ((dats Vv W 0 c).before 9 t d))
    ∗ (∃ d, owns (c : Thread nD τ) (st1_10 t) fullShare ((dats Vv W 0 c).before 10 t d))
    ∗ (∃ d, owns (c : Thread nD τ) (st1_11 t) fullShare ((dats Vv W 0 c).before 11 t d))
    ∗ (∃ d, owns (c : Thread nD τ) (st1_12 t) fullShare ((dats Vv W 0 c).before 12 t d))
    ∗ (∃ d, owns (c : Thread nD τ) (st1_13 t) fullShare ((dats Vv W 0 c).before 13 t d)))

/-- and what it returns. -/
def bodyPost (c : Dev nD) (t : Fin cfg1.N) : sProp 𝕄 :=
  iprop((dats Vv W 0 c).Φ t.succ ∗ (dats Vv W 0 c).owesAt none t.succ
    ∗ owns (c : Thread nD τ) (st1_0 t) fullShare ((dats Vv W 0 c).after 0 t)
    ∗ owns (c : Thread nD τ) (st1_1 t) fullShare ((dats Vv W 0 c).after 1 t)
    ∗ owns (c : Thread nD τ) (st1_2 t) fullShare ((dats Vv W 0 c).after 2 t)
    ∗ owns (c : Thread nD τ) (st1_3 t) fullShare ((dats Vv W 0 c).after 3 t)
    ∗ owns (c : Thread nD τ) (st1_4 t) fullShare ((dats Vv W 0 c).after 4 t)
    ∗ owns (c : Thread nD τ) (st1_5 t) fullShare ((dats Vv W 0 c).after 5 t)
    ∗ owns (c : Thread nD τ) (st1_6 t) fullShare ((dats Vv W 0 c).after 6 t)
    ∗ owns (c : Thread nD τ) (st1_7 t) fullShare ((dats Vv W 0 c).after 7 t)
    ∗ owns (c : Thread nD τ) (st1_8 t) fullShare ((dats Vv W 0 c).after 8 t)
    ∗ owns (c : Thread nD τ) (st1_9 t) fullShare ((dats Vv W 0 c).after 9 t)
    ∗ owns (c : Thread nD τ) (st1_10 t) fullShare ((dats Vv W 0 c).after 10 t)
    ∗ owns (c : Thread nD τ) (st1_11 t) fullShare ((dats Vv W 0 c).after 11 t)
    ∗ owns (c : Thread nD τ) (st1_12 t) fullShare ((dats Vv W 0 c).after 12 t)
    ∗ owns (c : Thread nD τ) (st1_13 t) fullShare ((dats Vv W 0 c).after 13 t))

/-- The body at any point: the inputs' memrefs hold their blocks, so the body's triple applies; the invariant and the core's
    `owes` pass through unread. -/
theorem sound_body (c : Dev nD) (t : Fin cfg1.N) :
    bodyPre Vv W c t ⊢ wp frame (wpE (defs₀ (F := F)) Variants.none c none) Set.univ (bodyAt1 t) (fun _ => bodyPost Vv W c t) := by
  unfold bodyPre bodyPost bodyAt1
  simp only [before1_0, before1_1, before1_2, before1_3, before1_4, before1_5, before1_6, before1_7, before1_8, before1_9, before1_10, before1_11, before1_12]
  rw [show (dats Vv W 0 c).Φ t.succ = (dats Vv W 0 c).Φ t.castSucc from rfl,
    show (dats Vv W 0 c).owesAt none t.succ = (dats Vv W 0 c).owesAt none t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) Vv W 0 c) (defs₀ (F := F)) Variants.none (none : HIx 1) Set.univ := fun t => by
  rw [bigSep_W1, bigSep_W1]
  exact sound_body Vv W c t

end Cert.KernelIdeal.MlpRegion

end
-- ==== Proof.IdealMlpReg.lean ====
/-
  The multilayer-perceptron kernel region's record: the arrays after the region, and the region as the library's launch
  theorem for a list of segments takes it.
-/
import proofs.«207198_g34918084116659_cont_8to1_b_1870_22_alg».proof.Proof.IdealMlpRegion

set_option maxRecDepth 16384

noncomputable section

namespace Cert.KernelIdeal.MlpRegion

open Cert.KernelIdeal Cert.KernelIdeal.Gen Cert.KernelIdeal.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vv : Valuation τ sig (Elt F)) (W : Waits sig (HIx 1))

/-! ## The arrays after the region -/

/-- The output window's block index at point `t` is `t`. -/
theorem idx13 : ∀ t : Fin cfg1.N, win1_13.index t (0 : Fin 1) = t.val :=
  (by decide +kernel : ∀ t : Fin grid1.N, win1_13.index t (0 : Fin 1) = t.val)

/-- Place `y` of the output's block at point `t` is row `4096 t + y` of the array. -/
theorem emb13 (t : Fin cfg1.N) (y : S4096.Idx) : ((((cfg1.win 13).blk t).view.emb y) 0).val = 4096 * t.val + (y 0).val := by
  have h : ((((cfg1.win 13).blk t).view.emb y) 0).val = win1_13.index t (0 : Fin 1) * 4096 + 1 * (y 0).val := rfl
  rw [idx13] at h
  omega

/-- An index of the output array is in point `t`'s block iff its coordinate is in the block's range. -/
theorem mem_blk13 (t : Fin cfg1.N) (i : S16384.Idx) :
    i ∈ ((cfg1.win 13).blk t).view.set ↔ ∀ a : Fin 1, win1_13.index t a * S4096.size a ≤ (i a).val ∧ (i a).val < win1_13.index t a * S4096.size a + S4096.size a := by
  show i ∈ ((View.whole main_v8).slice (win1_13.rect t)).set ↔ _
  rw [View.set_slice_whole, Rect.mem_set_unit]
  exact Iff.rfl

/-- The output's blocks cover its array. -/
theorem cover_arr13 (i : S16384.Idx) : ∃ t : Fin cfg1.N, (cfg1.win 13).flush t = true ∧ i ∈ ((cfg1.win 13).blk t).view.set := by
  refine ⟨tOf i, flush1_13 _, ?_⟩
  rw [mem_blk13]
  intro a
  match a with
  | ⟨0, _⟩ =>
    show win1_13.index (tOf i) (0 : Fin 1) * 4096 ≤ (i 0).val ∧ (i 0).val < win1_13.index (tOf i) (0 : Fin 1) * 4096 + 4096
    rw [idx13]
    show (i 0).val / 4096 * 4096 ≤ (i 0).val ∧ (i 0).val < (i 0).val / 4096 * 4096 + 4096
    omega

/-- Window 2's block at every point is its whole array. -/
theorem iblk_2 (c : Dev nD) (t : Fin cfg1.N) : iblk Vv c 2 t = Vv (Proc.devRef .tc main_v0) := by
  funext y
  have e : ((cfg1.win 2).blk t).view.emb y = y := by
    funext a; apply Fin.ext
    match a with
    | ⟨0, _⟩ => show win1_2.index t (0 : Fin 2) * 128 + 1 * (y 0).val = (y 0).val; rw [show win1_2.index t (0 : Fin 2) = 0 from rfl]; omega
    | ⟨1, _⟩ => show win1_2.index t (1 : Fin 2) * 64 + 1 * (y 1).val = (y 1).val; rw [show win1_2.index t (1 : Fin 2) = 0 from rfl]; omega
  show VV Vv c (Pipeline.arrRef spec1 2) (((cfg1.win 2).blk t).view.emb y) = Vv (Proc.devRef .tc main_v0) y
  rw [e]
/-- Window 3's block at every point is its whole array. -/
theorem iblk_3 (c : Dev nD) (t : Fin cfg1.N) : iblk Vv c 3 t = Vv (Proc.devRef .tc main_v1) := by
  funext y
  have e : ((cfg1.win 3).blk t).view.emb y = y := by
    funext a; apply Fin.ext
    match a with
    | ⟨0, _⟩ => show win1_3.index t (0 : Fin 2) * 128 + 1 * (y 0).val = (y 0).val; rw [show win1_3.index t (0 : Fin 2) = 0 from rfl]; omega
    | ⟨1, _⟩ => show win1_3.index t (1 : Fin 2) * 64 + 1 * (y 1).val = (y 1).val; rw [show win1_3.index t (1 : Fin 2) = 0 from rfl]; omega
  show VV Vv c (Pipeline.arrRef spec1 3) (((cfg1.win 3).blk t).view.emb y) = Vv (Proc.devRef .tc main_v1) y
  rw [e]
/-- Window 4's block at every point is its whole array. -/
theorem iblk_4 (c : Dev nD) (t : Fin cfg1.N) : iblk Vv c 4 t = Vv (Proc.devRef .tc main_v2) := by
  funext y
  have e : ((cfg1.win 4).blk t).view.emb y = y := by
    funext a; apply Fin.ext
    match a with
    | ⟨0, _⟩ => show win1_4.index t (0 : Fin 2) * 1 + 1 * (y 0).val = (y 0).val; rw [show win1_4.index t (0 : Fin 2) = 0 from rfl]; omega
    | ⟨1, _⟩ => show win1_4.index t (1 : Fin 2) * 64 + 1 * (y 1).val = (y 1).val; rw [show win1_4.index t (1 : Fin 2) = 0 from rfl]; omega
  show VV Vv c (Pipeline.arrRef spec1 4) (((cfg1.win 4).blk t).view.emb y) = Vv (Proc.devRef .tc main_v2) y
  rw [e]
/-- Window 5's block at every point is its whole array. -/
theorem iblk_5 (c : Dev nD) (t : Fin cfg1.N) : iblk Vv c 5 t = Vv (Proc.devRef .tc main_arg6) := by
  funext y
  have e : ((cfg1.win 5).blk t).view.emb y = y := by
    funext a; apply Fin.ext
    match a with
    | ⟨0, _⟩ => show win1_5.index t (0 : Fin 2) * 64 + 1 * (y 0).val = (y 0).val; rw [show win1_5.index t (0 : Fin 2) = 0 from rfl]; omega
    | ⟨1, _⟩ => show win1_5.index t (1 : Fin 2) * 64 + 1 * (y 1).val = (y 1).val; rw [show win1_5.index t (1 : Fin 2) = 0 from rfl]; omega
  show VV Vv c (Pipeline.arrRef spec1 5) (((cfg1.win 5).blk t).view.emb y) = Vv (Proc.devRef .tc main_arg6) y
  rw [e]
/-- Window 6's block at every point is its whole array. -/
theorem iblk_6 (c : Dev nD) (t : Fin cfg1.N) : iblk Vv c 6 t = Vv (Proc.devRef .tc main_v3) := by
  funext y
  have e : ((cfg1.win 6).blk t).view.emb y = y := by
    funext a; apply Fin.ext
    match a with
    | ⟨0, _⟩ => show win1_6.index t (0 : Fin 2) * 1 + 1 * (y 0).val = (y 0).val; rw [show win1_6.index t (0 : Fin 2) = 0 from rfl]; omega
    | ⟨1, _⟩ => show win1_6.index t (1 : Fin 2) * 64 + 1 * (y 1).val = (y 1).val; rw [show win1_6.index t (1 : Fin 2) = 0 from rfl]; omega
  show VV Vv c (Pipeline.arrRef spec1 6) (((cfg1.win 6).blk t).view.emb y) = Vv (Proc.devRef .tc main_v3) y
  rw [e]
/-- Window 7's block at every point is its whole array. -/
theorem iblk_7 (c : Dev nD) (t : Fin cfg1.N) : iblk Vv c 7 t = Vv (Proc.devRef .tc main_arg8) := by
  funext y
  have e : ((cfg1.win 7).blk t).view.emb y = y := by
    funext a; apply Fin.ext
    match a with
    | ⟨0, _⟩ => show win1_7.index t (0 : Fin 2) * 64 + 1 * (y 0).val = (y 0).val; rw [show win1_7.index t (0 : Fin 2) = 0 from rfl]; omega
    | ⟨1, _⟩ => show win1_7.index t (1 : Fin 2) * 32 + 1 * (y 1).val = (y 1).val; rw [show win1_7.index t (1 : Fin 2) = 0 from rfl]; omega
  show VV Vv c (Pipeline.arrRef spec1 7) (((cfg1.win 7).blk t).view.emb y) = Vv (Proc.devRef .tc main_arg8) y
  rw [e]
/-- Window 8's block at every point is its whole array. -/
theorem iblk_8 (c : Dev nD) (t : Fin cfg1.N) : iblk Vv c 8 t = Vv (Proc.devRef .tc main_v4) := by
  funext y
  have e : ((cfg1.win 8).blk t).view.emb y = y := by
    funext a; apply Fin.ext
    match a with
    | ⟨0, _⟩ => show win1_8.index t (0 : Fin 2) * 1 + 1 * (y 0).val = (y 0).val; rw [show win1_8.index t (0 : Fin 2) = 0 from rfl]; omega
    | ⟨1, _⟩ => show win1_8.index t (1 : Fin 2) * 32 + 1 * (y 1).val = (y 1).val; rw [show win1_8.index t (1 : Fin 2) = 0 from rfl]; omega
  show VV Vv c (Pipeline.arrRef spec1 8) (((cfg1.win 8).blk t).view.emb y) = Vv (Proc.devRef .tc main_v4) y
  rw [e]
/-- Window 9's block at every point is its whole array. -/
theorem iblk_9 (c : Dev nD) (t : Fin cfg1.N) : iblk Vv c 9 t = Vv (Proc.devRef .tc main_arg10) := by
  funext y
  have e : ((cfg1.win 9).blk t).view.emb y = y := by
    funext a; apply Fin.ext
    match a with
    | ⟨0, _⟩ => show win1_9.index t (0 : Fin 2) * 32 + 1 * (y 0).val = (y 0).val; rw [show win1_9.index t (0 : Fin 2) = 0 from rfl]; omega
    | ⟨1, _⟩ => show win1_9.index t (1 : Fin 2) * 16 + 1 * (y 1).val = (y 1).val; rw [show win1_9.index t (1 : Fin 2) = 0 from rfl]; omega
  show VV Vv c (Pipeline.arrRef spec1 9) (((cfg1.win 9).blk t).view.emb y) = Vv (Proc.devRef .tc main_arg10) y
  rw [e]
/-- Window 10's block at every point is its whole array. -/
theorem iblk_10 (c : Dev nD) (t : Fin cfg1.N) : iblk Vv c 10 t = Vv (Proc.devRef .tc main_v5) := by
  funext y
  have e : ((cfg1.win 10).blk t).view.emb y = y := by
    funext a; apply Fin.ext
    match a with
    | ⟨0, _⟩ => show win1_10.index t (0 : Fin 2) * 1 + 1 * (y 0).val = (y 0).val; rw [show win1_10.index t (0 : Fin 2) = 0 from rfl]; omega
    | ⟨1, _⟩ => show win1_10.index t (1 : Fin 2) * 16 + 1 * (y 1).val = (y 1).val; rw [show win1_10.index t (1 : Fin 2) = 0 from rfl]; omega
  show VV Vv c (Pipeline.arrRef spec1 10) (((cfg1.win 10).blk t).view.emb y) = Vv (Proc.devRef .tc main_v5) y
  rw [e]
/-- Window 11's block at every point is its whole array. -/
theorem iblk_11 (c : Dev nD) (t : Fin cfg1.N) : iblk Vv c 11 t = Vv (Proc.devRef .tc main_arg12) := by
  funext y
  have e : ((cfg1.win 11).blk t).view.emb y = y := by
    funext a; apply Fin.ext
    match a with
    | ⟨0, _⟩ => show win1_11.index t (0 : Fin 2) * 16 + 1 * (y 0).val = (y 0).val; rw [show win1_11.index t (0 : Fin 2) = 0 from rfl]; omega
    | ⟨1, _⟩ => show win1_11.index t (1 : Fin 2) * 1 + 1 * (y 1).val = (y 1).val; rw [show win1_11.index t (1 : Fin 2) = 0 from rfl]; omega
  show VV Vv c (Pipeline.arrRef spec1 11) (((cfg1.win 11).blk t).view.emb y) = Vv (Proc.devRef .tc main_arg12) y
  rw [e]
/-- Window 12's block at every point is its whole array. -/
theorem iblk_12 (c : Dev nD) (t : Fin cfg1.N) : iblk Vv c 12 t = Vv (Proc.devRef .tc main_v6) := by
  funext y
  have e : ((cfg1.win 12).blk t).view.emb y = y := by
    funext a; apply Fin.ext
    match a with
    | ⟨0, _⟩ => show win1_12.index t (0 : Fin 2) * 1 + 1 * (y 0).val = (y 0).val; rw [show win1_12.index t (0 : Fin 2) = 0 from rfl]; omega
    | ⟨1, _⟩ => show win1_12.index t (1 : Fin 2) * 1 + 1 * (y 1).val = (y 1).val; rw [show win1_12.index t (1 : Fin 2) = 0 from rfl]; omega
  show VV Vv c (Pipeline.arrRef spec1 12) (((cfg1.win 12).blk t).view.emb y) = Vv (Proc.devRef .tc main_v6) y
  rw [e]

/-- What point `t` writes back is block `t` of the region's result. -/
theorem flushed13_eq (c : Dev nD) (t : Fin cfg1.N) :
    (dats Vv W 0 c).flushed 13 t = ((cfg1.win 13).blk t).view.read (Elt F) (mlpOutV Vv) := by
  show (cfg1.win 13).cut (grid1.coords t) ((dats Vv W 0 c).after 13 t) = _
  rw [after1_13]
  simp only [iblk_2, iblk_3, iblk_4, iblk_5, iblk_6, iblk_7, iblk_8, iblk_9, iblk_10, iblk_11, iblk_12]
  funext y
  have key := mlpOut_at (Vv (Proc.devRef .tc main_v7_0)) (Vv (Proc.devRef .tc main_v7_1)) (Vv (Proc.devRef .tc main_v0)) (Vv (Proc.devRef .tc main_v1)) (Vv (Proc.devRef .tc main_v2)) (Vv (Proc.devRef .tc main_arg6)) (Vv (Proc.devRef .tc main_v3)) (Vv (Proc.devRef .tc main_arg8)) (Vv (Proc.devRef .tc main_v4)) (Vv (Proc.devRef .tc main_arg10)) (Vv (Proc.devRef .tc main_v5)) (Vv (Proc.devRef .tc main_arg12)) (Vv (Proc.devRef .tc main_v6)) t (((cfg1.win 13).blk t).view.emb y) y (emb13 t y)
  rw [View.read_apply]
  unfold mlpOutV
  rw [key]
  rw [cast_eq]
  rfl

/-- The output array after the region is the region's result. -/
theorem arrAt13 (c : Dev nD) : (dats Vv W 0 c).arrAt 13 cfg1.N = mlpOutV Vv :=
  (dats Vv W 0 c).arrAt_eq_of_cover 13 (mlpOutV Vv) (fun t _ => flushed13_eq Vv W c t) cover_arr13

/-- The final valuation at the output array, and elsewhere. -/
theorem Vout_v8 : Vout Vv v8' = mlpOutV Vv := Function.update_self v8' (mlpOutV Vv) Vv
theorem Vout_of_ne (b : DevRef τ sig) (h : b ≠ v8') : Vout Vv b = Vv b := Function.update_of_ne h (mlpOutV Vv) Vv

/-- Every array after the region is the final valuation's. -/
theorem arrAt_final (c : Dev nD) (w : Fin cfg1.W) : (dats Vv W 0 c).arrAt w cfg1.N = VV (Vout Vv) c (Pipeline.arrRef spec1 w) := by
  match w with
  | ⟨0, _⟩ => exact ((dats Vv W 0 c).arrAt_in 0 rfl _).trans ((A_eq Vv W c 0).trans (Vout_of_ne Vv (Proc.devRef .tc main_v7_0) (by decide)).symm)
  | ⟨1, _⟩ => exact ((dats Vv W 0 c).arrAt_in 1 rfl _).trans ((A_eq Vv W c 1).trans (Vout_of_ne Vv (Proc.devRef .tc main_v7_1) (by decide)).symm)
  | ⟨2, _⟩ => exact ((dats Vv W 0 c).arrAt_in 2 rfl _).trans ((A_eq Vv W c 2).trans (Vout_of_ne Vv (Proc.devRef .tc main_v0) (by decide)).symm)
  | ⟨3, _⟩ => exact ((dats Vv W 0 c).arrAt_in 3 rfl _).trans ((A_eq Vv W c 3).trans (Vout_of_ne Vv (Proc.devRef .tc main_v1) (by decide)).symm)
  | ⟨4, _⟩ => exact ((dats Vv W 0 c).arrAt_in 4 rfl _).trans ((A_eq Vv W c 4).trans (Vout_of_ne Vv (Proc.devRef .tc main_v2) (by decide)).symm)
  | ⟨5, _⟩ => exact ((dats Vv W 0 c).arrAt_in 5 rfl _).trans ((A_eq Vv W c 5).trans (Vout_of_ne Vv (Proc.devRef .tc main_arg6) (by decide)).symm)
  | ⟨6, _⟩ => exact ((dats Vv W 0 c).arrAt_in 6 rfl _).trans ((A_eq Vv W c 6).trans (Vout_of_ne Vv (Proc.devRef .tc main_v3) (by decide)).symm)
  | ⟨7, _⟩ => exact ((dats Vv W 0 c).arrAt_in 7 rfl _).trans ((A_eq Vv W c 7).trans (Vout_of_ne Vv (Proc.devRef .tc main_arg8) (by decide)).symm)
  | ⟨8, _⟩ => exact ((dats Vv W 0 c).arrAt_in 8 rfl _).trans ((A_eq Vv W c 8).trans (Vout_of_ne Vv (Proc.devRef .tc main_v4) (by decide)).symm)
  | ⟨9, _⟩ => exact ((dats Vv W 0 c).arrAt_in 9 rfl _).trans ((A_eq Vv W c 9).trans (Vout_of_ne Vv (Proc.devRef .tc main_arg10) (by decide)).symm)
  | ⟨10, _⟩ => exact ((dats Vv W 0 c).arrAt_in 10 rfl _).trans ((A_eq Vv W c 10).trans (Vout_of_ne Vv (Proc.devRef .tc main_v5) (by decide)).symm)
  | ⟨11, _⟩ => exact ((dats Vv W 0 c).arrAt_in 11 rfl _).trans ((A_eq Vv W c 11).trans (Vout_of_ne Vv (Proc.devRef .tc main_arg12) (by decide)).symm)
  | ⟨12, _⟩ => exact ((dats Vv W 0 c).arrAt_in 12 rfl _).trans ((A_eq Vv W c 12).trans (Vout_of_ne Vv (Proc.devRef .tc main_v6) (by decide)).symm)
  | ⟨13, _⟩ => exact (arrAt13 Vv W c).trans (Vout_v8 Vv).symm

/-- The fourteen arrays held at a valuation are the windows' arrays at it, one by one. -/
theorem held_arrays (c : Dev nD) (V' : Valuation τ sig (Elt F)) :
    (StableHlo.held (c : Thread nD τ) Sreg V' : sProp 𝕄)
      = bigSep Finset.univ fun w : Fin 14 => (((c : Thread nD τ).loc (Pipeline.arrRef spec1 w)) ↦{fullShare} VV V' c (Pipeline.arrRef spec1 w) : sProp 𝕄) := by
  unfold StableHlo.held
  rw [Sreg_eq, bigSep_map]
  rfl

set_option backward.isDefEq.respectTransparency.types false in
/-- The proof data's arrays after `n` points, when they are a valuation's, are the fourteen arrays held at it. -/
theorem arrays_held (c : Dev nD) (n : Nat) (V' : Valuation τ sig (Elt F))
    (h : ∀ w, (dats Vv W 0 c).arrAt w n = VV V' c (Pipeline.arrRef spec1 w)) :
    ((dats Vv W 0 c).arrays ((dats Vv W 0 c).arrAt · n) : sProp 𝕄) = StableHlo.held (c : Thread nD τ) Sreg V' := by
  rw [held_arrays, Pipeline.arrays_eq (Pipeline.pin (pcfgs (F := F)) adm) (dats Vv W) 0 c launch1.arr_whole ((dats Vv W 0 c).share_full fun _ => rfl)]
  exact bigSep_congr fun w _ => by rw [h w]

/-! ## The region -/

set_option backward.isDefEq.respectTransparency.types false in
/-- THE REGION: the launch's layout, no semaphore of the kernel's own, the body obligation; entered from the fourteen
    arrays held at the entry valuation and the core owing nothing, left with them at the final valuation. -/
def reg : Pipeline.RegionSeg (pcfgs (F := F)) adm (dats Vv W) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation Vv W c).loose
  hwaits := Pipeline.hwaits_of_owed_zero _ _ _ _ _ _ 0 fun _ _ => rfl
  pre c := iprop(StableHlo.held (c : Thread nD τ) Sreg Vv ∗ owes (c : Thread nD τ) (0 : CellTallies nD τ sig (HIx 1)) W)
  post c := iprop(StableHlo.held (c : Thread nD τ) Sreg (Vout Vv)
    ∗ ∃ W', ⌜∀ p ∈ W', p ∈ W ∨ p.2 = none⌝ ∗ owes (c : Thread nD τ) (0 : CellTallies nD τ sig (HIx 1)) W')
  X _ := iprop(emp)
  Y _ := iprop(emp)
  Z _ := iprop(emp)
  hentry c := by
    rw [← arrays_held Vv W c 0 Vv (fun w => A_eq Vv W c w)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl (Finset.mem_coe.mp hp))
      iexact HO
    isplitr <;> iempintro
  hin c := by
    rw [show (dats Vv W 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (dats Vv W 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_held Vv W c cfg1.N (Vout Vv) (arrAt_final Vv W c)]
    iintro ⟨Ha, HO, -, -⟩
    imodintro
    isplitl [Ha]; · iexact Ha
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

/-! ## The step -/

/-- The region's call, lifted to the extended signature, is the call of the lifted label. -/
theorem lift_eq : (SparseCore.liftProg (Q := 1) (Prog.lift (.customCall (Pipeline.entry 0) ())) : Prog (TpuEff nD τ sig (Elt F) (SparseCore.Sig (ΛP (F := F)) 1) .tc) PUnit)
    = Prog.lift (.customCall (SparseCore.inner (Pipeline.entry 0)) ()) := rfl

/-- A proof about the region's call under the program's body table is one under the extended table. -/
theorem lift_call (d : Dev nD) {Φ : PUnit → sProp 𝕄} :
    wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ
          (Prog.lift (.customCall (SparseCore.inner (Pipeline.entry 0)) ())) Φ := by
  have h := (K (F := F)).wp_liftProg (nD := nD) (Name := ℕ) (U := UU) (D (F := F)) 𝒱 (SparseCore.T d) Set.univ none (Prog.lift (.customCall (Pipeline.entry 0) ())) Φ
  rw [lift_eq] at h
  exact h

end Cert.KernelIdeal.MlpRegion

end
-- ==== Proof.IdealMlpCall.lean ====
/-
  The multilayer-perceptron kernel region's step of the program's main function on the TensorCore, inside the launch of
  the whole family of threads: the region's call under the extended body table, run by the library's rule for a region.
-/
import proofs.«207198_g34918084116659_cont_8to1_b_1870_22_alg».proof.Proof.IdealMlpReg

set_option maxRecDepth 16384

noncomputable section

namespace Cert.KernelIdeal.MlpRegion

open Cert.KernelIdeal Cert.KernelIdeal.Gen Cert.KernelIdeal.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vv : Valuation τ sig (Elt F)) (W : Waits sig (HIx 1))

set_option backward.isDefEq.respectTransparency.types false in
/-- THE REGION'S STEP on the TensorCore, inside the program's main function under the extended body table: from the level
    facts, the region boundary, the fourteen arrays held at a valuation, the core owing nothing and the pipeline's
    staging cells' ghost state, the region's call runs to the boundary, the arrays at the final valuation and the core
    owing nothing, its recorded pairs the earlier ones or at the kernels' own index. -/
theorem mlp_call (d : Dev nD) {Φ : PUnit → sProp 𝕄} :
    iprop(levAts (K (F := F)).L (K (F := F)).lev ∗ boundary (SparseCore.T d) ∗ StableHlo.held (SparseCore.T d) Sreg Vv
          ∗ owes (SparseCore.T d) (0 : CellTallies nD τ sig (HIx 1)) W
          ∗ Pipeline.cellsGhost (Pipeline.pin (pcfgs (F := F)) (adm (F := F))) EP 0 d ∗ Pipeline.toksInit (Pipeline.pin (pcfgs (F := F)) (adm (F := F))) EP 0 d
          ∗ (iprop(boundary (SparseCore.T d) ∗ StableHlo.held (SparseCore.T d) Sreg (Vout Vv)
              ∗ ∃ W', ⌜∀ p ∈ W', p ∈ W ∨ p.2 = none⌝ ∗ owes (SparseCore.T d) (0 : CellTallies nD τ sig (HIx 1)) W') -∗ Φ ⟨⟩))
      ⊢ wp frame (wpE ((K (F := F)).defs (D (F := F))) 𝒱 (SparseCore.T d) none) Set.univ
          (Prog.lift (.customCall (SparseCore.inner (Pipeline.entry 0)) ())) Φ := by
  have h2 := Pipeline.RegionSeg.wp (pcfgs (F := F)) adm (dats Vv W) (none : HIx 1) cellOf_inj EP defs₀ 𝒱₀ (K (F := F)).L (K (F := F)).lev
    (reg Vv W) d none (fun u hu => by cases hu) (α := PUnit.{1}) (fun _ => Prog.ret PUnit.unit) Φ
  have hpre : (reg Vv W).pre d = iprop(StableHlo.held (SparseCore.T d) Sreg Vv ∗ owes (SparseCore.T d) (0 : CellTallies nD τ sig (HIx 1)) W) := rfl
  have hpost : (reg Vv W).post d = iprop(StableHlo.held (SparseCore.T d) Sreg (Vout Vv)
      ∗ ∃ W', ⌜∀ p ∈ W', p ∈ W ∨ p.2 = none⌝ ∗ owes (SparseCore.T d) (0 : CellTallies nD τ sig (HIx 1)) W') := rfl
  rw [hpre, hpost] at h2
  refine BIBase.Entails.trans ?_ (lift_call d)
  refine BIBase.Entails.trans ?_ h2
  iintro ⟨#Hlev, Hb, Hh, Ho, Hg, Ht, Hk⟩
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh Ho]
  · isplitl [Hh] <;> iassumption
  isplitr; · iexact Hlev
  isplitl [Hg] <;> iassumption

end Cert.KernelIdeal.MlpRegion

end
-- ==== Proof.IdealMain.lean ====
/-
  @main of the kernel program on the TensorCore, run: seven host operations slice and reshape the weights; the
  SparseCore call gathers the table rows, every task at its read share of the inputs and its own rows of the results;
  the TensorCore region computes the multilayer perceptron block by block; a last host operation reshapes its result to
  a column. Every array of @main ends at its value as a function of the launch memory.
-/
import proofs.«207198_g34918084116659_cont_8to1_b_1870_22_alg».proof.Proof.IdealLaunchA
import proofs.«207198_g34918084116659_cont_8to1_b_1870_22_alg».proof.Proof.IdealSplit
import proofs.«207198_g34918084116659_cont_8to1_b_1870_22_alg».proof.Proof.IdealMainDefs
import proofs.«207198_g34918084116659_cont_8to1_b_1870_22_alg».proof.Proof.IdealMlpCall
import proofs.«207198_g34918084116659_cont_8to1_b_1870_22_alg».proof.Proof.IdealGlueFrame

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sub_split held_congr held_sdiff_result wp_hlo_within)

variable (m : (ℓ : Loc nD τ sig) → Buf (Elt F) ℓ) (ρ : Dev nD → PrngReg)

variable [FloatOps F]

/-! ## The launch's deal as a valuation -/

theorem unscoped_held (d : Dev nD) : (unscopedBufs d (fun b => m ((SparseCore.T d).loc b)) : sProp 𝕄) = held (T d) Sall (V0 m d) := by
  unfold unscopedBufs held Sall
  rw [bigSep_map]
  rfl

/-- The six arrays the SparseCore call moves. -/
def T6 : Finset (DevRef τ sig) :=
  {Proc.devRef .tc (main_arg0 : Ref sig .tc), Proc.devRef .tc (main_arg1 : Ref sig .tc), Proc.devRef .tc (main_arg2 : Ref sig .tc),
   Proc.devRef .tc (main_arg3 : Ref sig .tc), ou', oi'}

omit [FloatOps F] in
theorem T6_sub : T6 ⊆ Sall := by decide
omit [FloatOps F] in
theorem Sreg_sub : MlpRegion.Sreg ⊆ Sall := by decide

omit [FloatOps F] in
theorem held_T6 (d : Dev nD) (Vv : Valuation τ sig (Elt F)) :
    (held (T d) T6 Vv : sProp 𝕄)
      = iprop((uidLoc d ↦{fullShare} Vv (Proc.devRef .tc (main_arg0 : Ref sig .tc))) ∗ (iidLoc d ↦{fullShare} Vv (Proc.devRef .tc (main_arg1 : Ref sig .tc)))
          ∗ (utLoc d ↦{fullShare} Vv (Proc.devRef .tc (main_arg2 : Ref sig .tc))) ∗ (itLoc d ↦{fullShare} Vv (Proc.devRef .tc (main_arg3 : Ref sig .tc)))
          ∗ (ouLoc d ↦{fullShare} Vv ou') ∗ (oiLoc d ↦{fullShare} Vv oi')) := by
  unfold held T6
  rw [SparseCore.bigSep_insert' (by decide), SparseCore.bigSep_insert' (by decide), SparseCore.bigSep_insert' (by decide),
    SparseCore.bigSep_insert' (by decide), SparseCore.bigSep_insert' (by decide), bigSep_singleton]

/-! ## The call's operands, split among the tasks -/

theorem st0_eq (d : Dev nD) :
    (bigSep Finset.univ fun c : Fin ((K (F := F)).nCore 0) => (P m).st 0 d c)
      = iprop((bigSep Finset.univ fun c : Fin 2 => bigSep Finset.univ fun i : Fin 16 => uidLoc d ↦{qT c i} m (uidLoc d))
    ∗ (bigSep Finset.univ fun c : Fin 2 => bigSep Finset.univ fun i : Fin 16 => iidLoc d ↦{qT c i} m (iidLoc d))
    ∗ (bigSep Finset.univ fun c : Fin 2 => bigSep Finset.univ fun i : Fin 16 => utLoc d ↦{qT c i} m (utLoc d))
    ∗ (bigSep Finset.univ fun c : Fin 2 => bigSep Finset.univ fun i : Fin 16 => itLoc d ↦{qT c i} m (itLoc d))
    ∗ (bigSep Finset.univ fun c : Fin 2 => bigSep Finset.univ fun i : Fin 16 => ouLoc d ↦[(ou1 (coordsV c i)).view.set]{fullShare} m (ouLoc d))
    ∗ (bigSep Finset.univ fun c : Fin 2 => bigSep Finset.univ fun i : Fin 16 => ouLoc d ↦[(ou2 (coordsV c i)).view.set]{fullShare} m (ouLoc d))
    ∗ (bigSep Finset.univ fun c : Fin 2 => bigSep Finset.univ fun i : Fin 16 => oiLoc d ↦[(oi1 (coordsV c i)).view.set]{fullShare} m (oiLoc d))
    ∗ (bigSep Finset.univ fun c : Fin 2 => bigSep Finset.univ fun i : Fin 16 => oiLoc d ↦[(oi2 (coordsV c i)).view.set]{fullShare} m (oiLoc d))) := by
  show (bigSep Finset.univ fun c : Fin 2 => bigSep Finset.univ fun i : Fin 16 => tileGo m (qT c i) d (coordsV c i)) = _
  unfold tileGo
  simp only [bigSep_sep']
theorem dn0_eq (d : Dev nD) :
    (bigSep Finset.univ fun c : Fin ((K (F := F)).nCore 0) => (P m).dn 0 d c)
      = iprop((bigSep Finset.univ fun c : Fin 2 => bigSep Finset.univ fun i : Fin 16 => uidLoc d ↦{qT c i} m (uidLoc d))
    ∗ (bigSep Finset.univ fun c : Fin 2 => bigSep Finset.univ fun i : Fin 16 => iidLoc d ↦{qT c i} m (iidLoc d))
    ∗ (bigSep Finset.univ fun c : Fin 2 => bigSep Finset.univ fun i : Fin 16 => utLoc d ↦{qT c i} m (utLoc d))
    ∗ (bigSep Finset.univ fun c : Fin 2 => bigSep Finset.univ fun i : Fin 16 => itLoc d ↦{qT c i} m (itLoc d))
    ∗ (bigSep Finset.univ fun c : Fin 2 => bigSep Finset.univ fun i : Fin 16 => ouLoc d ↦[(ou1 (coordsV c i)).view.set]{fullShare} Gu m d)
    ∗ (bigSep Finset.univ fun c : Fin 2 => bigSep Finset.univ fun i : Fin 16 => ouLoc d ↦[(ou2 (coordsV c i)).view.set]{fullShare} Gu m d)
    ∗ (bigSep Finset.univ fun c : Fin 2 => bigSep Finset.univ fun i : Fin 16 => oiLoc d ↦[(oi1 (coordsV c i)).view.set]{fullShare} Gi m d)
    ∗ (bigSep Finset.univ fun c : Fin 2 => bigSep Finset.univ fun i : Fin 16 => oiLoc d ↦[(oi2 (coordsV c i)).view.set]{fullShare} Gi m d)) := by
  show (bigSep Finset.univ fun c : Fin 2 => bigSep Finset.univ fun i : Fin 16 => tileTd m (qT c i) d (coordsV c i)) = _
  unfold tileTd
  simp only [bigSep_sep']

omit [FloatOps F] in
theorem ou_rows' (d : Dev nD) (f : Buf (Elt F) (ouLoc d)) :
    (ouLoc d ↦{fullShare} f : sProp 𝕄) = iprop((bigSep Finset.univ fun c : Fin 2 => bigSep Finset.univ fun i : Fin 16 => ouLoc d ↦[(ou1 (coordsV c i)).view.set]{fullShare} f)
      ∗ (bigSep Finset.univ fun c : Fin 2 => bigSep Finset.univ fun i : Fin 16 => ouLoc d ↦[(ou2 (coordsV c i)).view.set]{fullShare} f)) := by
  rw [ou_rows]; simp only [bigSep_sep']
omit [FloatOps F] in
theorem oi_rows' (d : Dev nD) (f : Buf (Elt F) (oiLoc d)) :
    (oiLoc d ↦{fullShare} f : sProp 𝕄) = iprop((bigSep Finset.univ fun c : Fin 2 => bigSep Finset.univ fun i : Fin 16 => oiLoc d ↦[(oi1 (coordsV c i)).view.set]{fullShare} f)
      ∗ (bigSep Finset.univ fun c : Fin 2 => bigSep Finset.univ fun i : Fin 16 => oiLoc d ↦[(oi2 (coordsV c i)).view.set]{fullShare} f)) := by
  rw [oi_rows]; simp only [bigSep_sep']

/-- What @main leaves the claim: every array of @main at its final value. -/
abbrev FIN (d : Dev nD) : sProp 𝕄 := held (T d) Sall (V4 m d)

/-! ## The valuations at the arrays the kernels move -/

theorem V2_ou (d : Dev nD) : V2 m d ou' = Gu m d := by
  unfold V2; rw [Function.update_of_ne (show ou' ≠ oi' by decide), Function.update_self]
theorem V2_oi (d : Dev nD) : V2 m d oi' = Gi m d := by
  unfold V2; rw [Function.update_self]
theorem V2_arg (d : Dev nD) (r : Ref sig .tc) (h : r ∉ [main_v0, main_v1, main_v2, main_v3, main_v4, main_v5, main_v6]) (h0 : r ≠ main_v7_0) (h1 : r ≠ main_v7_1) :
    V2 m d (Proc.devRef .tc r) = m (d, Proc.devRef .tc r) := by
  unfold V2
  rw [Function.update_of_ne (fun e => h1 (Proc.devRef_injective _ e)), Function.update_of_ne (fun e => h0 (Proc.devRef_injective _ e)), Glue.V1_keep m d r h]
theorem V2_off (d : Dev nD) : ∀ b ∈ Sall \ T6, V1 m d b = V2 m d b := by
  intro b hb
  have hb' := (Finset.mem_sdiff.mp hb).2
  have h1 : b ≠ oi' := fun e => hb' (by rw [e]; decide)
  have h0 : b ≠ ou' := fun e => hb' (by rw [e]; decide)
  unfold V2
  rw [Function.update_of_ne h1, Function.update_of_ne h0]
theorem V3_off (d : Dev nD) : ∀ b ∈ Sall \ MlpRegion.Sreg, V2 m d b = V3 m d b := by
  intro b hb
  have hb' := (Finset.mem_sdiff.mp hb).2
  have h8 : b ≠ MlpRegion.v8' := fun e => hb' (by rw [e]; decide)
  show V2 m d b = Function.update (V2 m d) MlpRegion.v8' _ b
  rw [Function.update_of_ne h8]

omit [FloatOps F] in
theorem wbelow_after {d : Dev nD} {W W' : Waits sig (HIx 1)} (hW : (K (F := F)).WBelow (SparseCore.T d) W 8) (h : ∀ p ∈ W', p ∈ W ∨ p.2 = none) :
    (K (F := F)).WBelow (SparseCore.T d) W' 8 := fun p hp => by
  rcases h p hp with hp | hp
  · exact hW p hp
  · rw [hp]; exact (Nat.le_of_eq ((K (F := F)).lev_none _)).trans (Nat.zero_le _)

omit [FloatOps F] in
theorem pair_sub (x y : Ref sig .tc) (hx : x.isScoped = false) (hy : y.isScoped = false) :
    ({(Proc.devRef .tc x : DevRef τ sig), (Proc.devRef .tc y : DevRef τ sig)} : Finset (DevRef τ sig)) ⊆ Sall :=
  Finset.insert_subset_iff.mpr ⟨Glue.mem_Sall x hx, Finset.singleton_subset_iff.mpr (Glue.mem_Sall y hy)⟩

/-! ## @main -/

theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, ⟨Hcg, Hti⟩⟩
  -- the seven host operations on the weights
  iapply (wp_hlo_within 𝒱 (SparseCore.T d) none Set.univ (op := op0 (F := F)) (S := Sall) (pair_sub main_arg4 main_v0 rfl rfl) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := Sall) (pair_sub main_arg4 main_v1 rfl rfl) (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := Sall) (pair_sub main_arg5 main_v2 rfl rfl) (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := Sall) (pair_sub main_arg7 main_v3 rfl rfl) (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := Sall) (pair_sub main_arg9 main_v4 rfl rfl) (V := (op3 (F := F)).result ((op2 (F := F)).result ((op1 (F := F)).result ((op0 (F := F)).result (V0 m d)))))) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := Sall) (pair_sub main_arg11 main_v5 rfl rfl) (V := (op4 (F := F)).result ((op3 (F := F)).result ((op2 (F := F)).result ((op1 (F := F)).result ((op0 (F := F)).result (V0 m d))))))) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := Sall) (pair_sub main_arg13 main_v6 rfl rfl) (V := (op5 (F := F)).result ((op4 (F := F)).result ((op3 (F := F)).result ((op2 (F := F)).result ((op1 (F := F)).result ((op0 (F := F)).result (V0 m d)))))))) $$ [Hb Hheld]
  · isplitl [Hb]; · iexact Hb
    iexact Hheld
  iintro ⟨Hb, Hheld⟩
  rw [wp_ret]; imodintro
  ihave Hheld := (Entails.of_eq (show (held (SparseCore.T d) Sall ((op6 (F := F)).result ((op5 (F := F)).result ((op4 (F := F)).result ((op3 (F := F)).result ((op2 (F := F)).result ((op1 (F := F)).result ((op0 (F := F)).result (V0 m d)))))))) : sProp 𝕄) = held (SparseCore.T d) Sall (V1 m d) from rfl)) $$ Hheld
  -- the SparseCore call: the six arrays it moves out of @main's, each split among the tasks
  ihave Hh := (Entails.of_eq (held_sub_split (SparseCore.T d) T6_sub (V1 m d))) $$ Hheld
  icases Hh with ⟨H6, Hrest⟩
  ihave H6' := (Entails.of_eq (held_T6 (F := F) d (V1 m d))) $$ H6
  rw [Glue.V1_keep m d main_arg0 (by decide), Glue.V1_keep m d main_arg1 (by decide), Glue.V1_keep m d main_arg2 (by decide),
    Glue.V1_keep m d main_arg3 (by decide), Glue.V1_keep m d main_v7_0 (by decide), Glue.V1_keep m d main_v7_1 (by decide)]
  icases H6' with ⟨Huid, Hiid, Hut, Hit, Hou, Hoi⟩
  ihave Huid' := (read_split (F := F) (uidLoc d) _) $$ Huid
  icases Huid' with ⟨HuidR, Huid⟩
  ihave Hiid' := (read_split (F := F) (iidLoc d) _) $$ Hiid
  icases Hiid' with ⟨HiidR, Hiid⟩
  ihave Hut' := (read_split (F := F) (utLoc d) _) $$ Hut
  icases Hut' with ⟨HutR, Hut⟩
  ihave Hit' := (read_split (F := F) (itLoc d) _) $$ Hit
  icases Hit' with ⟨HitR, Hit⟩
  ihave Hou' := (Entails.of_eq (ou_rows' (F := F) d _)) $$ Hou
  icases Hou' with ⟨Hou1, Hou2⟩
  ihave Hoi' := (Entails.of_eq (oi_rows' (F := F) d _)) $$ Hoi
  icases Hoi' with ⟨Hoi1, Hoi2⟩
  iapply ((K (F := F)).wp_run (D (F := F)) 𝒱 (EH := EH) (P := P m) κ d 0) $$ [Hst Huid Hiid Hut Hit Hou1 Hou2 Hoi1 Hoi2 HuidR HiidR HutR HitR Hrest Hb Hcg Hti]
  isplitr; · iexact Hctx
  isplitl [Hst]; · iexact Hst
  isplitl [Huid Hiid Hut Hit Hou1 Hou2 Hoi1 Hoi2]
  · rw [st0_eq]
    isplitl [Huid]; · iexact Huid
    isplitl [Hiid]; · iexact Hiid
    isplitl [Hut]; · iexact Hut
    isplitl [Hit]; · iexact Hit
    isplitl [Hou1]; · iexact Hou1
    isplitl [Hou2]; · iexact Hou2
    isplitl [Hoi1]; · iexact Hoi1
    iexact Hoi2
  iintro ⟨Hst, Hdn⟩
  ihave Hdn' := (Entails.of_eq (dn0_eq m d)) $$ Hdn
  icases Hdn' with ⟨Huid, Hiid, Hut, Hit, Hou1, Hou2, Hoi1, Hoi2⟩
  ihave Huid := (read_join (F := F) (uidLoc d) _) $$ [HuidR Huid]
  · isplitl [HuidR]; · iexact HuidR
    iexact Huid
  ihave Hiid := (read_join (F := F) (iidLoc d) _) $$ [HiidR Hiid]
  · isplitl [HiidR]; · iexact HiidR
    iexact Hiid
  ihave Hut := (read_join (F := F) (utLoc d) _) $$ [HutR Hut]
  · isplitl [HutR]; · iexact HutR
    iexact Hut
  ihave Hit := (read_join (F := F) (itLoc d) _) $$ [HitR Hit]
  · isplitl [HitR]; · iexact HitR
    iexact Hit
  ihave Hou := (Entails.of_eq (ou_rows' (F := F) d (Gu m d)).symm) $$ [Hou1 Hou2]
  · isplitl [Hou1]; · iexact Hou1
    iexact Hou2
  ihave Hoi := (Entails.of_eq (oi_rows' (F := F) d (Gi m d)).symm) $$ [Hoi1 Hoi2]
  · isplitl [Hoi1]; · iexact Hoi1
    iexact Hoi2
  ihave H6 := (Entails.of_eq (held_T6 (F := F) d (V2 m d)).symm) $$ [Huid Hiid Hut Hit Hou Hoi]
  · rw [V2_arg m d main_arg0 (by decide) (by decide) (by decide), V2_arg m d main_arg1 (by decide) (by decide) (by decide),
      V2_arg m d main_arg2 (by decide) (by decide) (by decide), V2_arg m d main_arg3 (by decide) (by decide) (by decide), V2_ou, V2_oi]
    isplitl [Huid]; · iexact Huid
    isplitl [Hiid]; · iexact Hiid
    isplitl [Hut]; · iexact Hut
    isplitl [Hit]; · iexact Hit
    isplitl [Hou]; · iexact Hou
    iexact Hoi
  ihave Hheld := (Entails.of_eq (held_sub_split (SparseCore.T d) T6_sub (V2 m d)).symm) $$ [H6 Hrest]
  · isplitl [H6]; · iexact H6
    iapply (Entails.of_eq (held_congr (SparseCore.T d) (V2_off m d))); iexact Hrest
  -- the TensorCore region, on the fourteen arrays its windows move
  ihave Hh := (Entails.of_eq (held_sub_split (SparseCore.T d) Sreg_sub (V2 m d))) $$ Hheld
  icases Hh with ⟨Hreg, Hrest⟩
  unfold SparseCore.Cfg.tcSt
  rw [show (K (F := F)).Otc d ((0 : Fin 1).val + 1) = 0 from (K (F := F)).Otc_end d (le_refl _), show (K (F := F)).Otc d 1 = 0 from (K (F := F)).Otc_end d (le_refl _)]
  icases Hst with ⟨⟨%W1, %hW1, HO⟩, Hat, Hrd, Hrs, Htoks⟩
  ihave Hlev := ((K (F := F)).ctx_levAts (EH := EH) (P := P m) κ) $$ Hctx
  iapply (MlpRegion.mlp_call (F := F) (V2 m d) W1 d) $$ [Hlev Hb Hreg HO Hcg Hti Hat Hrd Hrs Htoks Hrest]
  isplitl [Hlev]; · iexact Hlev
  isplitl [Hb]; · iexact Hb
  isplitl [Hreg]; · iexact Hreg
  isplitl [HO]; · iexact HO
  isplitl [Hcg]; · iexact Hcg
  isplitl [Hti]; · iexact Hti
  iintro ⟨Hb, Hreg, %W2, %hW2, HO⟩
  ihave Hheld := (Entails.of_eq (held_sub_split (SparseCore.T d) Sreg_sub (V3 m d)).symm) $$ [Hreg Hrest]
  · isplitl [Hreg]; · iexact Hreg
    iapply (Entails.of_eq (held_congr (SparseCore.T d) (V3_off m d))); iexact Hrest
  -- the last reshape
  iapply (wp_hlo_within 𝒱 (SparseCore.T d) none Set.univ (op := op9 (F := F)) (S := Sall) (pair_sub main_v8 main_v9 rfl rfl) (V := V3 m d)) $$ [Hb Hheld]
  · isplitl [Hb]; · iexact Hb
    iexact Hheld
  iintro ⟨Hb, Hheld⟩
  rw [wp_ret]; imodintro
  imodintro
  isplitr [Hheld]
  · isplitl [HO]
    · iexists W2; isplitr
      · ipureintro; exact wbelow_after hW1 hW2
      · iexact HO
    isplitl [Hat]; · iexact Hat
    isplitl [Hrd]; · iexact Hrd
    isplitl [Hrs]; · iexact Hrs
    iexact Htoks
  · iexact Hheld

end Cert.KernelIdeal.Launch

end
-- ==== Proof.IdealRun.lean ====
/-
  The kernel program's run: by the SparseCore launch theorem, from a memory whose two index arrays are in range, every
  weakly fair execution of the TensorCore's @main and the SparseCores' subcores terminates, nothing faulting, with each
  of @main's arrays at the value the stretches of @main leave.
-/
import proofs.«207198_g34918084116659_cont_8to1_b_1870_22_alg».proof.Proof.IdealMain

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held)

variable (m : (ℓ : Loc nD τ sig) → Buf (Elt F) ℓ) (ρ : Dev nD → PrngReg)

variable [FloatOps F]

/-- What the final memory holds: each of @main's arrays at its final value. -/
def fq (d : Dev nD) (s' : Phys nD τ sig (Elt F)) : Prop := ∀ b ∈ Sall, s'.mem.mem (d, b) = V4 m d b

theorem hfin (d : Dev nD) (s' : Phys nD τ sig (Elt F)) : iprop(FIN m d ∗ SI s') ⊢ (⌜fq m d s'⌝ : sProp 𝕄) := by
  show iprop((bigSep Sall fun b => (((d, b) : Loc nD τ sig) ↦{fullShare} V4 m d b : sProp 𝕄)) ∗ SI s') ⊢ _
  iintro ⟨H, HSI⟩
  ihave %h := (SI_pointsTo_bufs_agree (qs := fun _ => fullShare) Sall) $$ [HSI H]
  · isplitl [HSI]; · iexact HSI
    iexact H
  ipureintro
  exact h

theorem run_main [∀ e, Nonempty (Elt F e)] (hfu : ∀ d j, (m (uidLoc d) j).toNat < 100000) (hfi : ∀ d j, (m (iidLoc d) j).toNat < 100000) :
    θ_run (Cert.KernelIdeal.defs (F := F)) (Cert.KernelIdeal.threads (F := F)) ⟨m, fun _ => 0, ρ⟩
      (fun r => ∀ d : Dev nD, ∀ b ∈ Sall, r.2.mem (d, b) = V4 m d b) :=
  SparseCore.Cfg.θ_run_sc (K := K (F := F)) (D := D (F := F)) (𝒱 := 𝒱) (EH := EH) (P := P m) facts v₀
    (fun q hq => match q with | 0 => nomatch hq)
    (fun q _ => match q with | 0 => tileObl m facts hfu hfi)
    (fun q _ => match q with | 0 => SparseCore.Cfg.VecSplit.of_plain (vecSplit m))
    m ρ main (fun d => GG (F := F) d) (FIN m) (u₀ (F := F)) (sep_elim_left.trans (hu₀ m)) (hmain m ρ) (fq m) (hfin m) _ (fun _ h => h)

end Cert.KernelIdeal.Launch

end
-- ==== Proof.BitsCommon.lean ====
/-
  The word-level kernel program as the SparseCore launch theorem sees it: its call table, body table and variants, the
  resource algebra of the proof (the launch handshakes' rounds, the TensorCore pipeline's staging cells' rounds, and the
  counters of local transfers), and the locations of the arrays the two kernels move.
-/
import proofs.«207198_g34918084116659_cont_8to1_b_1870_22_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207198_g34918084116659_cont_8to1_b_1870_22_alg».proof.Proof.Gen.Kernel
import proofs.«207198_g34918084116659_cont_8to1_b_1870_22_alg».proof.Proof.Gen.Kernel.Skeleton
import proofs.«207198_g34918084116659_cont_8to1_b_1870_22_alg».proof.Proof.Gen.Kernel.Launch
import proofs.«207198_g34918084116659_cont_8to1_b_1870_22_alg».proof.Proof.Gen.Kernel.Points

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipeline's rounds library: the left factor of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

abbrev uidLoc (d : Dev nD) : Loc nD τ sig := (SparseCore.T d).loc main_arg0
abbrev iidLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev ouLoc (d : Dev nD) : Loc nD τ sig := (SparseCore.T d).loc main_v7_0
abbrev oiLoc (d : Dev nD) : Loc nD τ sig := (SparseCore.T d).loc main_v7_1

end Cert.Kernel.Launch

end
-- ==== Proof.BitsTileDefs.lean ====
/-
  One vector subcore's task of the gather kernel: the memrefs it names. Its share of the work is rows
  [512·w, 512·w + 512) of the two gathered arrays, w = 2·s + c for subcore s of SparseCore c, in two halves of 256 rows.
-/
import proofs.«207198_g34918084116659_cont_8to1_b_1870_22_alg».proof.Proof.BitsCommon

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The kernel's memrefs, spelt as the body table passes them -/

abbrev uidW : Memref Cert.Kernel.sig Kind.scVector Space.hbm Cert.Kernel.S16384 EltTy.i32 := Memref.whole Cert.Kernel.main_arg0_scv
abbrev iidW : Memref Cert.Kernel.sig Kind.scVector Space.hbm Cert.Kernel.S16384 EltTy.i32 := Memref.whole Cert.Kernel.main_arg1_scv
abbrev utW : Memref Cert.Kernel.sig Kind.scVector Space.hbm Cert.Kernel.S100000x128 EltTy.f32 := Memref.whole Cert.Kernel.main_arg2_scv
abbrev itW : Memref Cert.Kernel.sig Kind.scVector Space.hbm Cert.Kernel.S100000x128 EltTy.f32 := Memref.whole Cert.Kernel.main_arg3_scv
abbrev ouW : Memref Cert.Kernel.sig Kind.scVector Space.hbm Cert.Kernel.S16384x128 EltTy.f32 := Memref.whole Cert.Kernel.main_v7_0_scv
abbrev oiW : Memref Cert.Kernel.sig Kind.scVector Space.hbm Cert.Kernel.S16384x128 EltTy.f32 := Memref.whole Cert.Kernel.main_v7_1_scv
abbrev sI0 : Memref Cert.Kernel.sig Kind.scVector Space.vmem Cert.Kernel.S256 EltTy.i32 := Memref.whole Cert.Kernel.cc0_scratch0
abbrev sI1 : Memref Cert.Kernel.sig Kind.scVector Space.vmem Cert.Kernel.S256 EltTy.i32 := Memref.whole Cert.Kernel.cc0_scratch1
abbrev sI2 : Memref Cert.Kernel.sig Kind.scVector Space.vmem Cert.Kernel.S256 EltTy.i32 := Memref.whole Cert.Kernel.cc0_scratch2
abbrev sI3 : Memref Cert.Kernel.sig Kind.scVector Space.vmem Cert.Kernel.S256 EltTy.i32 := Memref.whole Cert.Kernel.cc0_scratch3
abbrev sB0 : Memref Cert.Kernel.sig Kind.scVector Space.vmem Cert.Kernel.S256x128 EltTy.f32 := Memref.whole Cert.Kernel.cc0_scratch4
abbrev sB1 : Memref Cert.Kernel.sig Kind.scVector Space.vmem Cert.Kernel.S256x128 EltTy.f32 := Memref.whole Cert.Kernel.cc0_scratch5
abbrev sB2 : Memref Cert.Kernel.sig Kind.scVector Space.vmem Cert.Kernel.S256x128 EltTy.f32 := Memref.whole Cert.Kernel.cc0_scratch6

abbrev cV (L : grid0.Coords) : Fin τ.nSC := (L 0).castLE hcore0
abbrev jV (L : grid0.Coords) : Fin τ.nSub := (L 1).castLE hsub0

/-- The four slices of the index arrays and the four of the result arrays a task names. -/
abbrev uid1 (L : grid0.Coords) : Memref sig .scVector .hbm S256 .i32 := uidW.slice (Rect.unit (s := S16384) (k0_off1 L) S256.size (k0_off1_inb L)) (fun _ => rfl)
abbrev uid2 (L : grid0.Coords) : Memref sig .scVector .hbm S256 .i32 := uidW.slice (Rect.unit (s := S16384) (k0_off2 L) S256.size (k0_off2_inb L)) (fun _ => rfl)
abbrev iid1 (L : grid0.Coords) : Memref sig .scVector .hbm S256 .i32 := iidW.slice (Rect.unit (s := S16384) (k0_off1 L) S256.size (k0_off1_inb L)) (fun _ => rfl)
abbrev iid2 (L : grid0.Coords) : Memref sig .scVector .hbm S256 .i32 := iidW.slice (Rect.unit (s := S16384) (k0_off2 L) S256.size (k0_off2_inb L)) (fun _ => rfl)
abbrev ou1 (L : grid0.Coords) : Memref sig .scVector .hbm S256x128 .f32 := ouW.slice (Rect.unit (s := S16384x128) (k0_off3 L) S256x128.size (k0_off3_inb L)) (fun _ => rfl)
abbrev ou2 (L : grid0.Coords) : Memref sig .scVector .hbm S256x128 .f32 := ouW.slice (Rect.unit (s := S16384x128) (k0_off4 L) S256x128.size (k0_off4_inb L)) (fun _ => rfl)
abbrev oi1 (L : grid0.Coords) : Memref sig .scVector .hbm S256x128 .f32 := oiW.slice (Rect.unit (s := S16384x128) (k0_off3 L) S256x128.size (k0_off3_inb L)) (fun _ => rfl)
abbrev oi2 (L : grid0.Coords) : Memref sig .scVector .hbm S256x128 .f32 := oiW.slice (Rect.unit (s := S16384x128) (k0_off4 L) S256x128.size (k0_off4_inb L)) (fun _ => rfl)
abbrev utS : Memref sig .scVector .hbm S100000x128 .f32 := utW.slice (Rect.unit (s := S100000x128) ![0, 0] S100000x128.size inb_S100000x128_S100000x128_0_0) (fun _ => rfl)
abbrev itS : Memref sig .scVector .hbm S100000x128 .f32 := itW.slice (Rect.unit (s := S100000x128) ![0, 0] S100000x128.size inb_S100000x128_S100000x128_0_0) (fun _ => rfl)

abbrev thr (d : Dev nD) (L : grid0.Coords) : Thread nD τ := V d (cV L) (jV L)

end Cert.Kernel.Launch

end
-- ==== Proof.BitsTileOwn.lean ====
/-
  What a vector subcore holds of its own while it runs a task: its seven scratch buffers and its ten DMA semaphores,
  listed out of the scoped storage the launch hands it; and the task's share of the arrays, spelt as the task's memrefs
  address them.
-/
import proofs.«207198_g34918084116659_cont_8to1_b_1870_22_alg».proof.Proof.BitsTileDefs

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Own

variable (d : Dev nD) (L : grid0.Coords)

abbrev tileSemL : List (SemLoc sig) := [.dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scratch15.sem, .dma cc0_scratch16.sem]
abbrev tileRefL : List (Ref sig .scVector) := [cc0_scratch0, cc0_scratch1, cc0_scratch2, cc0_scratch3, cc0_scratch4, cc0_scratch5, cc0_scratch6]

omit [FloatOps F] in
/-- The task's ten DMA semaphores at zero, and the subcore's other scoped semaphores. -/
theorem ownSems0_tile :
    (ownSems0 (thr d L) : sProp 𝕄)
      = iprop((semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0)
          ∗ bigSep (ownCells (thr d L) \ (tileSemL.map (Prod.mk (thr d L))).toFinset) fun g => semVal g 0) := by
  unfold SparseCore.Cfg.ownSems0
  have hsub : (tileSemL.map (Prod.mk (thr d L))).toFinset ⊆ ownCells (sig := sig) (thr d L) := by
    intro g hg
    obtain ⟨sm, hsm, rfl⟩ := List.mem_map.mp (List.mem_toFinset.mp hg)
    simp only [List.mem_cons, List.not_mem_nil, _root_.or_false] at hsm
    rcases hsm with rfl | rfl | rfl | rfl | rfl | rfl | rfl | rfl | rfl | rfl <;> exact mem_ownCells.mpr ⟨rfl, by show (SemLoc.dma _ : SemLoc sig).isScoped Kind.scVector = true; decide⟩
  have hnd : (tileSemL.map (Prod.mk (thr d L))).Nodup := List.Nodup.map (Prod.mk_right_injective _) (show (tileSemL : List (SemLoc sig)).Nodup by decide)
  rw [SparseCore.bigSep_sdiff_split' hsub, bigSep_eq_bigSepL _ hnd]
  rfl

omit [FloatOps F] in
/-- The task's seven scratch buffers, each at some contents, and the subcore's other buffers. -/
theorem ownBufs_tile :
    (ownBufs (thr d L) : sProp 𝕄)
      = iprop(((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f))
          ∗ bigSep (ownRefs (τ := τ) (.scVector (cV L) (jV L)) \ (tileRefL.map (Proc.scVector (cV L) (jV L)).devRef).toFinset)
              fun b => iprop(∃ f, ((d, b) : Loc nD τ sig) ↦{fullShare} f)) := by
  unfold SparseCore.Cfg.ownBufs
  have hsub : (tileRefL.map (Proc.scVector (cV L) (jV L)).devRef).toFinset ⊆ ownRefs (τ := τ) (sig := sig) (.scVector (cV L) (jV L)) := by
    intro b hb
    obtain ⟨r, hr, rfl⟩ := List.mem_map.mp (List.mem_toFinset.mp hb)
    simp only [List.mem_cons, List.not_mem_nil, _root_.or_false] at hr
    rcases hr with rfl | rfl | rfl | rfl | rfl | rfl | rfl <;> exact SparseCore.Cfg.mem_ownRefs_of_owner rfl
  have hnd : (tileRefL.map (Proc.scVector (cV L) (jV L)).devRef).Nodup := List.Nodup.map (Proc.devRef_injective _) (show (tileRefL : List (Ref sig .scVector)).Nodup by decide)
  refine (SparseCore.bigSep_sdiff_split' hsub).trans ?_
  rw [bigSep_eq_bigSepL _ hnd]
  rfl

end Own

end Cert.Kernel.Launch

end
-- ==== Proof.BitsGathered.lean ====
/-
  The two gathered arrays, as functions of the launch memory: the result arrays of the gather kernel once every
  task has run.
-/
import proofs.«207198_g34918084116659_cont_8to1_b_1870_22_alg».proof.Proof.BitsCommon
import proofs.«207198_g34918084116659_cont_8to1_b_1870_22_alg».proof.Proof.GatherSpec

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The gathered arrays, whole. -/
abbrev Gu (d : Dev nD) : Buf (Elt F) (ouLoc d) := Cert.GatherSpec.gath (m (utLoc d)) (m (uidLoc d))
abbrev Gi (d : Dev nD) : Buf (Elt F) (oiLoc d) := Cert.GatherSpec.gath (m (itLoc d)) (m (iidLoc d))

end Cert.Kernel.Launch

end
-- ==== Proof.BitsTileValue.lean ====
/-
  What one task of the gather kernel leaves in its four result blocks, as values.

  A block of 256 rows of a result array is written from a staging buffer that an indirect transfer filled: row `k` of
  the staging buffer is the table's row named by the `k`-th word of a 256-word slice of an index array. The slice of
  the index array and the block of the result array start at the same row, so the block's row `k` is the table's row
  named by the index word of that very row: the block reads as the gathered array does. A buffer written whole and
  unmasked holds the payload, whatever it held before and however many earlier whole writes the last one covers.
-/
import proofs.«207198_g34918084116659_cont_8to1_b_1870_22_alg».proof.Proof.BitsTileDefs
import proofs.«207198_g34918084116659_cont_8to1_b_1870_22_alg».proof.Proof.GatherSpec

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A view written whole -/

/-- The view's elements after `X` is written through all of it, at any prior contents, are the points-to at any
    contents that read as `X` through the view. -/
theorem pts_block (c : Thread nD τ) {sp : Space} {s : Shape} {e : EltTy} (v : View sig c.2.kind sp s e)
    (q : PosShare TreeShare) (fd G : Buf (Elt F) (v.loc c)) (X : s.Idx → Elt F e) (h : ∀ y, v.read (Elt F) G y = X y) :
    (v.loc c ↦[v.set]{q} v.writes (Elt F) fd [⟨Rect.whole s, X⟩] : sProp 𝕄) = v.loc c ↦[v.set]{q} G :=
  pointsTo_congr fun i hi => by
    obtain ⟨x, -, rfl⟩ := Finset.mem_map.mp hi
    have e1 : v.read (Elt F) (v.writes (Elt F) fd [⟨Rect.whole s, X⟩]) x = v.read (Elt F) G x := by
      have e2 := View.read_writes_cons_emb v fd (Rect.whole s) X [] x
      rw [Rect.emb_whole_apply] at e2
      rw [e2, h]
    rw [View.read_apply, View.read_apply] at e1
    exact eq_of_heq ((cast_heq _ _).symm.trans ((heq_of_eq e1).trans (cast_heq _ _)))

/-! ## The gathered rows -/

/-- The one coordinate of the `k`-th index of a vector in row-major order is `k`. -/
theorem rowMajor_symm_val {n : ℕ} (k : Fin (⟨1, ![n]⟩ : Shape).numel) :
    (((⟨1, ![n]⟩ : Shape).rowMajor.symm k) 0).val = k.val := by
  have := Shape.rowMajor_val_one ((⟨1, ![n]⟩ : Shape).rowMajor.symm k)
  rw [Equiv.apply_symm_apply] at this
  exact this.symm

/-- The gathered array at an index of a 256-row block starting at row `offO 0` is the table at the row the block's
    own slice of the index array names: the slice starts at the same row. -/
theorem gath_block (tab : S100000x128.Idx → Elt F .f32) (idx : S16384.Idx → Elt F .i32)
    (hidx : ∀ j, (idx j).toNat < 100000) (offI : Fin S16384.rank → Nat) (offO : Fin S16384x128.rank → Nat)
    (h0 : offO 0 = offI 0) (h1 : offO 1 = 0) (inbI : ∀ a, offI a + S256.size a ≤ S16384.size a)
    (inbO : ∀ a, offO a + S256x128.size a ≤ S16384x128.size a)
    (vec : S256.Idx → Elt F .i32) (hvec : ∀ x, vec x = idx ((Rect.unit (s := S16384) offI S256.size inbI).emb x))
    (hn : S256.numel = S256x128.size gathers_S100000x128_S256x128.axis')
    (hin : ∀ x, (vec x).toNat < S100000x128.size gathers_S100000x128_S256x128.axis) (y : S256x128.Idx) :
    Cert.GatherSpec.gath tab idx ((Rect.unit (s := S16384x128) offO S256x128.size inbO).emb y)
      = tab (gathers_S100000x128_S256x128.idx (SparseCore.rows vec hn hin) y) := by
  unfold Cert.GatherSpec.gath
  refine congrArg tab (funext fun a => Fin.ext ?_)
  match a with
  | ⟨0, _⟩ =>
    have e1 := congrArg Fin.val (Shape.Gathers.idx_axis gathers_S100000x128_S256x128 (SparseCore.rows vec hn hin) y)
    refine Eq.trans ?_ e1.symm
    show (idx _).toNat % 100000 = (vec _).toNat
    rw [hvec, Nat.mod_eq_of_lt (hidx _)]
    refine congrArg (fun j => (idx j).toNat) (funext fun b => Fin.ext ?_)
    match b with
    | ⟨0, _⟩ =>
      have e3 : ((S256.rowMajor.symm ((y gathers_S100000x128_S256x128.axis').cast hn.symm)) 0).val = (y 0).val :=
        rowMajor_symm_val (n := 256) _
      show offO 0 + 1 * (y 0).val = offI 0 + 1 * _
      rw [h0]
      exact congrArg (fun t => offI 0 + 1 * t) e3.symm
  | ⟨1, _⟩ =>
    have e1 := Shape.Gathers.idx_of_ne gathers_S100000x128_S256x128 (SparseCore.rows vec hn hin) y ⟨1, by decide⟩ (by decide)
    refine Eq.trans ?_ e1.symm
    show offO 1 + 1 * (y 1).val = (y 1).val
    rw [h1, Nat.zero_add, Nat.one_mul]

/-! ## The four blocks -/

/-- The index slice a staging list holds after it was written whole is the slice of the index array itself. -/
theorem vecA (d : Dev nD) (L : grid0.Coords) (fu : Buf (Elt F) (uidLoc d)) (s0 : Buf (Elt F) ((thr d L).loc cc0_scratch0))
    (x : S256.Idx) :
    sI0.view.read (Elt F) (sI0.view.write (Elt F) s0 (ReadAs.same.apply ((uid1 L).view.read (Elt F) fu)) Finset.univ) x
      = fu ((Rect.unit (s := S16384) (k0_off1 L) S256.size (k0_off1_inb L)).emb x) := by
  rw [View.write_whole_univ, View.read_whole]
  rfl

theorem vecB (d : Dev nD) (L : grid0.Coords) (fu : Buf (Elt F) (uidLoc d)) (s1 : Buf (Elt F) ((thr d L).loc cc0_scratch1))
    (x : S256.Idx) :
    sI1.view.read (Elt F) (sI1.view.write (Elt F) s1 (ReadAs.same.apply ((uid2 L).view.read (Elt F) fu)) Finset.univ) x
      = fu ((Rect.unit (s := S16384) (k0_off2 L) S256.size (k0_off2_inb L)).emb x) := by
  rw [View.write_whole_univ, View.read_whole]
  rfl

theorem vecC (d : Dev nD) (L : grid0.Coords) (fi : Buf (Elt F) (iidLoc d)) (s2 : Buf (Elt F) ((thr d L).loc cc0_scratch2))
    (x : S256.Idx) :
    sI2.view.read (Elt F) (sI2.view.write (Elt F) s2 (ReadAs.same.apply ((iid1 L).view.read (Elt F) fi)) Finset.univ) x
      = fi ((Rect.unit (s := S16384) (k0_off1 L) S256.size (k0_off1_inb L)).emb x) := by
  rw [View.write_whole_univ, View.read_whole]
  rfl

theorem vecD (d : Dev nD) (L : grid0.Coords) (fi : Buf (Elt F) (iidLoc d)) (s3 : Buf (Elt F) ((thr d L).loc cc0_scratch3))
    (x : S256.Idx) :
    sI3.view.read (Elt F) (sI3.view.write (Elt F) s3 (ReadAs.same.apply ((iid2 L).view.read (Elt F) fi)) Finset.univ) x
      = fi ((Rect.unit (s := S16384) (k0_off2 L) S256.size (k0_off2_inb L)).emb x) := by
  rw [View.write_whole_univ, View.read_whole]
  rfl

/-- The first block of user rows reads as the gathered user array. -/
theorem payA (d : Dev nD) (L : grid0.Coords) (fu : Buf (Elt F) (uidLoc d)) (fut : Buf (Elt F) (utLoc d))
    (s0 : Buf (Elt F) ((thr d L).loc cc0_scratch0)) (b0 : Buf (Elt F) ((thr d L).loc cc0_scratch4))
    (hidx : ∀ j, (fu j).toNat < 100000)
    (hn : S256.numel = S256x128.size gathers_S100000x128_S256x128.axis')
    (hin : ∀ x, ((sI0.view.read (Elt F) (sI0.view.write (Elt F) s0 (ReadAs.same.apply ((uid1 L).view.read (Elt F) fu)) Finset.univ)) x).toNat < S100000x128.size gathers_S100000x128_S256x128.axis) (y : S256x128.Idx) :
    (ou1 L).view.read (Elt F) (Cert.GatherSpec.gath fut fu) y
      = ReadAs.same.apply (sB0.view.read (Elt F) (sB0.view.writes (Elt F) b0
          [⟨Rect.whole cc0_scratch4.ty.shape, SparseCore.gatherPayload gathers_S100000x128_S256x128 (utS.view.read (Elt F) fut)
            (SparseCore.rows (sI0.view.read (Elt F) (sI0.view.write (Elt F) s0 (ReadAs.same.apply ((uid1 L).view.read (Elt F) fu)) Finset.univ)) hn hin)⟩])) y := by
  have eW := Memref.write_access_whole_univ (Elt F) cc0_scratch4 b0
    (SparseCore.gatherPayload gathers_S100000x128_S256x128 (utS.view.read (Elt F) fut)
            (SparseCore.rows (sI0.view.read (Elt F) (sI0.view.write (Elt F) s0 (ReadAs.same.apply ((uid1 L).view.read (Elt F) fu)) Finset.univ)) hn hin))
  have eT : utS.view.read (Elt F) fut = fut :=
    Memref.read_access_unit_zero (Elt F) main_arg2_scv (funext fun a => match a with | ⟨0, _⟩ => rfl | ⟨1, _⟩ => rfl) _ fut
  refine Eq.trans ?_ (congrFun (congrArg (sB0.view.read (Elt F)) eW.symm) y)
  show Cert.GatherSpec.gath fut fu ((Rect.unit (s := S16384x128) (k0_off3 L) S256x128.size (k0_off3_inb L)).emb y)
    = (utS.view.read (Elt F) fut) (gathers_S100000x128_S256x128.idx _ y)
  rw [eT]
  exact gath_block fut fu hidx (k0_off1 L) (k0_off3 L) (by rw [k0_off3_eq, k0_off1_eq]; rfl) (by rw [k0_off3_eq]; rfl)
    (k0_off1_inb L) (k0_off3_inb L) _ (vecA d L fu s0) hn hin y

/-- The second block of user rows reads as the gathered user array. -/
theorem payB (d : Dev nD) (L : grid0.Coords) (fu : Buf (Elt F) (uidLoc d)) (fut : Buf (Elt F) (utLoc d))
    (s1 : Buf (Elt F) ((thr d L).loc cc0_scratch1)) (b1 : Buf (Elt F) ((thr d L).loc cc0_scratch5))
    (hidx : ∀ j, (fu j).toNat < 100000)
    (hn : S256.numel = S256x128.size gathers_S100000x128_S256x128.axis')
    (hin : ∀ x, ((sI1.view.read (Elt F) (sI1.view.write (Elt F) s1 (ReadAs.same.apply ((uid2 L).view.read (Elt F) fu)) Finset.univ)) x).toNat < S100000x128.size gathers_S100000x128_S256x128.axis) (y : S256x128.Idx) :
    (ou2 L).view.read (Elt F) (Cert.GatherSpec.gath fut fu) y
      = ReadAs.same.apply (sB1.view.read (Elt F) (sB1.view.writes (Elt F) b1
          [⟨Rect.whole cc0_scratch5.ty.shape, SparseCore.gatherPayload gathers_S100000x128_S256x128 (utS.view.read (Elt F) fut)
            (SparseCore.rows (sI1.view.read (Elt F) (sI1.view.write (Elt F) s1 (ReadAs.same.apply ((uid2 L).view.read (Elt F) fu)) Finset.univ)) hn hin)⟩])) y := by
  have eW := Memref.write_access_whole_univ (Elt F) cc0_scratch5 b1
    (SparseCore.gatherPayload gathers_S100000x128_S256x128 (utS.view.read (Elt F) fut)
            (SparseCore.rows (sI1.view.read (Elt F) (sI1.view.write (Elt F) s1 (ReadAs.same.apply ((uid2 L).view.read (Elt F) fu)) Finset.univ)) hn hin))
  have eT : utS.view.read (Elt F) fut = fut :=
    Memref.read_access_unit_zero (Elt F) main_arg2_scv (funext fun a => match a with | ⟨0, _⟩ => rfl | ⟨1, _⟩ => rfl) _ fut
  refine Eq.trans ?_ (congrFun (congrArg (sB1.view.read (Elt F)) eW.symm) y)
  show Cert.GatherSpec.gath fut fu ((Rect.unit (s := S16384x128) (k0_off4 L) S256x128.size (k0_off4_inb L)).emb y)
    = (utS.view.read (Elt F) fut) (gathers_S100000x128_S256x128.idx _ y)
  rw [eT]
  exact gath_block fut fu hidx (k0_off2 L) (k0_off4 L) (by rw [k0_off4_eq, k0_off2_eq]; rfl) (by rw [k0_off4_eq]; rfl)
    (k0_off2_inb L) (k0_off4_inb L) _ (vecB d L fu s1) hn hin y

/-- The first block of item rows reads as the gathered item array. -/
theorem payC (d : Dev nD) (L : grid0.Coords) (fi : Buf (Elt F) (iidLoc d)) (fit : Buf (Elt F) (itLoc d))
    (s2 : Buf (Elt F) ((thr d L).loc cc0_scratch2)) (b2 : Buf (Elt F) ((thr d L).loc cc0_scratch6))
    (hidx : ∀ j, (fi j).toNat < 100000)
    (hn : S256.numel = S256x128.size gathers_S100000x128_S256x128.axis')
    (hin : ∀ x, ((sI2.view.read (Elt F) (sI2.view.write (Elt F) s2 (ReadAs.same.apply ((iid1 L).view.read (Elt F) fi)) Finset.univ)) x).toNat < S100000x128.size gathers_S100000x128_S256x128.axis) (y : S256x128.Idx) :
    (oi1 L).view.read (Elt F) (Cert.GatherSpec.gath fit fi) y
      = ReadAs.same.apply (sB2.view.read (Elt F) (sB2.view.writes (Elt F) b2
          [⟨Rect.whole cc0_scratch6.ty.shape, SparseCore.gatherPayload gathers_S100000x128_S256x128 (itS.view.read (Elt F) fit)
            (SparseCore.rows (sI2.view.read (Elt F) (sI2.view.write (Elt F) s2 (ReadAs.same.apply ((iid1 L).view.read (Elt F) fi)) Finset.univ)) hn hin)⟩])) y := by
  have eW := Memref.write_access_whole_univ (Elt F) cc0_scratch6 b2
    (SparseCore.gatherPayload gathers_S100000x128_S256x128 (itS.view.read (Elt F) fit)
            (SparseCore.rows (sI2.view.read (Elt F) (sI2.view.write (Elt F) s2 (ReadAs.same.apply ((iid1 L).view.read (Elt F) fi)) Finset.univ)) hn hin))
  have eT : itS.view.read (Elt F) fit = fit :=
    Memref.read_access_unit_zero (Elt F) main_arg3_scv (funext fun a => match a with | ⟨0, _⟩ => rfl | ⟨1, _⟩ => rfl) _ fit
  refine Eq.trans ?_ (congrFun (congrArg (sB2.view.read (Elt F)) eW.symm) y)
  show Cert.GatherSpec.gath fit fi ((Rect.unit (s := S16384x128) (k0_off3 L) S256x128.size (k0_off3_inb L)).emb y)
    = (itS.view.read (Elt F) fit) (gathers_S100000x128_S256x128.idx _ y)
  rw [eT]
  exact gath_block fit fi hidx (k0_off1 L) (k0_off3 L) (by rw [k0_off3_eq, k0_off1_eq]; rfl) (by rw [k0_off3_eq]; rfl)
    (k0_off1_inb L) (k0_off3_inb L) _ (vecC d L fi s2) hn hin y

/-- The second block of item rows reads as the gathered item array; its staging buffer was written whole twice, and the later write covers the earlier. -/
theorem payD (d : Dev nD) (L : grid0.Coords) (fi : Buf (Elt F) (iidLoc d)) (fit : Buf (Elt F) (itLoc d))
    (s3 : Buf (Elt F) ((thr d L).loc cc0_scratch3)) (b0 : Buf (Elt F) ((thr d L).loc cc0_scratch4))
    (Y : S256x128.Idx → Elt F .f32)
    (hidx : ∀ j, (fi j).toNat < 100000)
    (hn : S256.numel = S256x128.size gathers_S100000x128_S256x128.axis')
    (hin : ∀ x, ((sI3.view.read (Elt F) (sI3.view.write (Elt F) s3 (ReadAs.same.apply ((iid2 L).view.read (Elt F) fi)) Finset.univ)) x).toNat < S100000x128.size gathers_S100000x128_S256x128.axis) (y : S256x128.Idx) :
    (oi2 L).view.read (Elt F) (Cert.GatherSpec.gath fit fi) y
      = ReadAs.same.apply (sB0.view.read (Elt F) (sB0.view.writes (Elt F) b0
          [⟨Rect.whole cc0_scratch4.ty.shape, SparseCore.gatherPayload gathers_S100000x128_S256x128 (itS.view.read (Elt F) fit)
            (SparseCore.rows (sI3.view.read (Elt F) (sI3.view.write (Elt F) s3 (ReadAs.same.apply ((iid2 L).view.read (Elt F) fi)) Finset.univ)) hn hin)⟩, ⟨Rect.whole cc0_scratch4.ty.shape, Y⟩])) y := by
  have eW := Memref.write_access_whole_univ (Elt F) cc0_scratch4 (sB0.view.writes (Elt F) b0 [⟨Rect.whole cc0_scratch4.ty.shape, Y⟩])
    (SparseCore.gatherPayload gathers_S100000x128_S256x128 (itS.view.read (Elt F) fit)
            (SparseCore.rows (sI3.view.read (Elt F) (sI3.view.write (Elt F) s3 (ReadAs.same.apply ((iid2 L).view.read (Elt F) fi)) Finset.univ)) hn hin))
  have eT : itS.view.read (Elt F) fit = fit :=
    Memref.read_access_unit_zero (Elt F) main_arg3_scv (funext fun a => match a with | ⟨0, _⟩ => rfl | ⟨1, _⟩ => rfl) _ fit
  refine Eq.trans ?_ (congrFun (congrArg (sB0.view.read (Elt F)) eW.symm) y)
  show Cert.GatherSpec.gath fit fi ((Rect.unit (s := S16384x128) (k0_off4 L) S256x128.size (k0_off4_inb L)).emb y)
    = (itS.view.read (Elt F) fit) (gathers_S100000x128_S256x128.idx _ y)
  rw [eT]
  exact gath_block fit fi hidx (k0_off2 L) (k0_off4 L) (by rw [k0_off4_eq, k0_off2_eq]; rfl) (by rw [k0_off4_eq]; rfl)
    (k0_off2_inb L) (k0_off4_inb L) _ (vecD d L fi s3) hn hin y

end Cert.Kernel.Launch

end
-- ==== Proof.BitsTile.lean ====
/-
  One vector subcore's task of the gather kernel, run: from a read share of the two index arrays and the two tables
  and its own 512 rows of the two result arrays (two halves of 256 rows each), to the same with its rows of the results
  holding the gathered table rows. Every copy completes on a semaphore of its own before the next copy on that
  semaphore is issued; the offsets each gather reads are words of an index array, in range by hypothesis.
-/
import proofs.«207198_g34918084116659_cont_8to1_b_1870_22_alg».proof.Proof.BitsTileOwn
import proofs.«207198_g34918084116659_cont_8to1_b_1870_22_alg».proof.Proof.BitsGathered
import proofs.«207198_g34918084116659_cont_8to1_b_1870_22_alg».proof.Proof.BitsTileValue
import Idealize.ShloMosaic.Lib.Pipeline.Value

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- What a task is handed: a read share `q` of the index arrays and the tables, its rows of the results. -/
def tileGo (q : PosShare TreeShare) (d : Dev nD) (L : grid0.Coords) : sProp 𝕄 :=
  iprop((uidLoc d ↦{q} m (uidLoc d)) ∗ (iidLoc d ↦{q} m (iidLoc d)) ∗ (utLoc d ↦{q} m (utLoc d)) ∗ (itLoc d ↦{q} m (itLoc d))
    ∗ (ouLoc d ↦[(ou1 L).view.set]{fullShare} m (ouLoc d)) ∗ (ouLoc d ↦[(ou2 L).view.set]{fullShare} m (ouLoc d))
    ∗ (oiLoc d ↦[(oi1 L).view.set]{fullShare} m (oiLoc d)) ∗ (oiLoc d ↦[(oi2 L).view.set]{fullShare} m (oiLoc d)))
/-- What it hands back: the same, its rows of the results at the gathered arrays. -/
def tileTd (q : PosShare TreeShare) (d : Dev nD) (L : grid0.Coords) : sProp 𝕄 :=
  iprop((uidLoc d ↦{q} m (uidLoc d)) ∗ (iidLoc d ↦{q} m (iidLoc d)) ∗ (utLoc d ↦{q} m (utLoc d)) ∗ (itLoc d ↦{q} m (itLoc d))
    ∗ (ouLoc d ↦[(ou1 L).view.set]{fullShare} Gu m d) ∗ (ouLoc d ↦[(ou2 L).view.set]{fullShare} Gu m d)
    ∗ (oiLoc d ↦[(oi1 L).view.set]{fullShare} Gi m d) ∗ (oiLoc d ↦[(oi2 L).view.set]{fullShare} Gi m d))

instance tileGo_storable (q : PosShare TreeShare) : BI.Storable (upEmb : UEmb _ 𝕄) (tileGo m q d L) := by unfold tileGo; infer_instance
instance tileTd_storable (q : PosShare TreeShare) : BI.Storable (upEmb : UEmb _ 𝕄) (tileTd m q d L) := by unfold tileTd; infer_instance

/-! ### The arrays as the task's memrefs address them -/

omit [FloatOps F] in
theorem utS_set : (utS).view.set = (Finset.univ : Finset (Idx (utLoc d))) := by
  show ((View.whole main_arg2_scv).slice (Rect.unit (s := S100000x128) ![0, 0] S100000x128.size inb_S100000x128_S100000x128_0_0)).set = _
  rw [View.set_slice_whole]
  exact Finset.eq_univ_iff_forall.mpr fun y => View.mem_set_unit_zero (by funext a; fin_cases a <;> rfl) _ y
omit [FloatOps F] in
theorem itS_set : (itS).view.set = (Finset.univ : Finset (Idx (itLoc d))) := by
  show ((View.whole main_arg3_scv).slice (Rect.unit (s := S100000x128) ![0, 0] S100000x128.size inb_S100000x128_S100000x128_0_0)).set = _
  rw [View.set_slice_whole]
  exact Finset.eq_univ_iff_forall.mpr fun y => View.mem_set_unit_zero (by funext a; fin_cases a <;> rfl) _ y

omit [FloatOps F] in
theorem pts_u1 (q : PosShare TreeShare) (f : Buf (Elt F) (uidLoc d)) :
    ((uid1 L).view.loc (thr d L) ↦[(uid1 L).view.set]{q} f : sProp 𝕄) = uidLoc d ↦[(uid1 L).view.set]{q} f := rfl
omit [FloatOps F] in
theorem pts_u2 (q : PosShare TreeShare) (f : Buf (Elt F) (uidLoc d)) :
    ((uid2 L).view.loc (thr d L) ↦[(uid2 L).view.set]{q} f : sProp 𝕄) = uidLoc d ↦[(uid2 L).view.set]{q} f := rfl
omit [FloatOps F] in
theorem pts_i1 (q : PosShare TreeShare) (f : Buf (Elt F) (iidLoc d)) :
    ((iid1 L).view.loc (thr d L) ↦[(iid1 L).view.set]{q} f : sProp 𝕄) = iidLoc d ↦[(iid1 L).view.set]{q} f := rfl
omit [FloatOps F] in
theorem pts_i2 (q : PosShare TreeShare) (f : Buf (Elt F) (iidLoc d)) :
    ((iid2 L).view.loc (thr d L) ↦[(iid2 L).view.set]{q} f : sProp 𝕄) = iidLoc d ↦[(iid2 L).view.set]{q} f := rfl
omit [FloatOps F] in
theorem pts_ut (q : PosShare TreeShare) (f : Buf (Elt F) (utLoc d)) :
    ((utS).view.loc (thr d L) ↦[(utS).view.set]{q} f : sProp 𝕄) = utLoc d ↦{q} f := by rw [utS_set d]
omit [FloatOps F] in
theorem pts_it (q : PosShare TreeShare) (f : Buf (Elt F) (itLoc d)) :
    ((itS).view.loc (thr d L) ↦[(itS).view.set]{q} f : sProp 𝕄) = itLoc d ↦{q} f := by rw [itS_set d]
omit [FloatOps F] in
theorem pts_ou1 (f : Buf (Elt F) (ouLoc d)) :
    ((ou1 L).view.loc (thr d L) ↦[(ou1 L).view.set]{fullShare} f : sProp 𝕄) = ouLoc d ↦[(ou1 L).view.set]{fullShare} f := rfl
omit [FloatOps F] in
theorem pts_ou2 (f : Buf (Elt F) (ouLoc d)) :
    ((ou2 L).view.loc (thr d L) ↦[(ou2 L).view.set]{fullShare} f : sProp 𝕄) = ouLoc d ↦[(ou2 L).view.set]{fullShare} f := rfl
omit [FloatOps F] in
theorem pts_oi1 (f : Buf (Elt F) (oiLoc d)) :
    ((oi1 L).view.loc (thr d L) ↦[(oi1 L).view.set]{fullShare} f : sProp 𝕄) = oiLoc d ↦[(oi1 L).view.set]{fullShare} f := rfl
omit [FloatOps F] in
theorem pts_oi2 (f : Buf (Elt F) (oiLoc d)) :
    ((oi2 L).view.loc (thr d L) ↦[(oi2 L).view.set]{fullShare} f : sProp 𝕄) = oiLoc d ↦[(oi2 L).view.set]{fullShare} f := rfl
omit [FloatOps F] in
theorem pts_own (b : Ref sig .scVector) (f : Buf (Elt F) ((thr d L).loc b)) :
    ((Memref.whole b).view.loc (thr d L) ↦{fullShare} f : sProp 𝕄) = (thr d L).loc b ↦{fullShare} f := rfl

omit [FloatOps F] in
theorem waits_insert {W W' : Waits sig (HIx 1)} {x : SemLoc sig × HIx 1} (hx : x.2 = none) (h : ∀ p ∈ W', p ∈ W ∨ p.2 = none) :
    ∀ p ∈ insert x W', p ∈ W ∨ p.2 = none := by
  intro p hp
  rcases Finset.mem_insert.mp hp with rfl | hp
  · exact .inr hx
  · exact h p hp

/-- The task on vector subcore `(L 0, L 1)` of device `d`. -/
theorem tile_body (hF : (K (F := F)).Facts) (q : PosShare TreeShare) (O : CellTallies nD τ sig (HIx 1)) (W : Waits sig (HIx 1)) (hO : ∀ g, O g none = 0)
    (hfu : ∀ j, (m (uidLoc d) j).toNat < 100000) (hfi : ∀ j, (m (iidLoc d) j).toNat < 100000) :
    iprop((levAts (K (F := F)).L (K (F := F)).lev : sProp 𝕄) ∗ emp ∗ tileGo m q d L
        ∗ scopedBufs (thr d L) ∗ scopedSems0 (thr d L) ∗ owes (thr d L) O W)
      ⊢ wp frame (wpE (defs₀ (F := F)) 𝒱₀ (thr d L) none) Set.univ
          (cc0__gather_body L uidW (Memref.isWhole_whole _) iidW (Memref.isWhole_whole _) utW (Memref.isWhole_whole _) itW (Memref.isWhole_whole _)
            ouW (Memref.isWhole_whole _) oiW (Memref.isWhole_whole _) sI0 (Memref.isWhole_whole _) sI1 (Memref.isWhole_whole _)
            sI2 (Memref.isWhole_whole _) sI3 (Memref.isWhole_whole _) sB0 (Memref.isWhole_whole _) sB1 (Memref.isWhole_whole _) sB2 (Memref.isWhole_whole _)
            cc0_scratch7 cc0_scratch8 cc0_scratch9 cc0_scratch10 cc0_scratch11 cc0_scratch12 cc0_scratch13 cc0_scratch14 cc0_scratch15 cc0_scratch16)
          fun _ => iprop(tileTd m q d L ∗ scopedBufs (thr d L) ∗ scopedSems0 (thr d L)
            ∗ ∃ W', ⌜∀ p ∈ W', p ∈ W ∨ p.2 = none⌝ ∗ owes (thr d L) O W') := by
  rw [cc0__gather_body_eq_skeleton]; unfold cc0__gather_body_skel
  rw [k0_part1_eq_skeleton]; unfold k0_part1_skel
  rw [(K (F := F)).scopedBufs_V hF d (cV L) (jV L), SparseCore.Cfg.scopedSems0_V (Val := Elt F) d (cV L) (jV L), ownSems0_tile, ownBufs_tile]
  unfold tileGo tileTd
  iintro ⟨#Hlv, -, ⟨Hu, Hi, Hut, Hit, Hou1, Hou2, Hoi1, Hoi2⟩, ⟨⟨⟨%s0, Hs0⟩, ⟨%s1, Hs1⟩, ⟨%s2, Hs2⟩, ⟨%s3, Hs3⟩, ⟨%b0, Hb0⟩, ⟨%b1, Hb1⟩, ⟨%b2, Hb2⟩⟩, Hbufs⟩,
    ⟨⟨Hm7, Hm8, Hm9, Hm10, Hm11, Hm12, Hm13, Hm14, Hm15, Hm16⟩, Hsems⟩, HO⟩
  ihave Hmw := ((K (F := F)).mayWaits_none (thr := thr d L) hO) $$ Hlv
  -- each read share in two halves, one per copy that reads the array at a time; the index arrays' halves cut to the slices
  ihave Hu' := (pointsTo_share (PosShare.mem_left_op_right q)).1 $$ Hu
  icases Hu' with ⟨HuL, HuR⟩
  ihave HuL' := (pointsTo_split_subset (Finset.subset_univ (uid1 L).view.set)).1 $$ HuL
  icases HuL' with ⟨Hu1, Hu1r⟩
  ihave HuR' := (pointsTo_split_subset (Finset.subset_univ (uid2 L).view.set)).1 $$ HuR
  icases HuR' with ⟨Hu2, Hu2r⟩
  ihave Hi' := (pointsTo_share (PosShare.mem_left_op_right q)).1 $$ Hi
  icases Hi' with ⟨HiL, HiR⟩
  ihave HiL' := (pointsTo_split_subset (Finset.subset_univ (iid1 L).view.set)).1 $$ HiL
  icases HiL' with ⟨Hi1, Hi1r⟩
  ihave HiR' := (pointsTo_split_subset (Finset.subset_univ (iid2 L).view.set)).1 $$ HiR
  icases HiR' with ⟨Hi2, Hi2r⟩
  ihave Hut' := (pointsTo_share (PosShare.mem_left_op_right q)).1 $$ Hut
  icases Hut' with ⟨Hut1, Hut2⟩
  ihave Hit' := (pointsTo_share (PosShare.mem_left_op_right q)).1 $$ Hit
  icases Hit' with ⟨Hit1, Hit2⟩
  ihave Hu1 := (Entails.of_eq (pts_u1 (F := F) d L _ _).symm) $$ Hu1
  ihave Hu2 := (Entails.of_eq (pts_u2 (F := F) d L _ _).symm) $$ Hu2
  ihave Hi1 := (Entails.of_eq (pts_i1 (F := F) d L _ _).symm) $$ Hi1
  ihave Hi2 := (Entails.of_eq (pts_i2 (F := F) d L _ _).symm) $$ Hi2
  ihave Hut1 := (Entails.of_eq (pts_ut (F := F) d L _ _).symm) $$ Hut1
  ihave Hut2 := (Entails.of_eq (pts_ut (F := F) d L _ _).symm) $$ Hut2
  ihave Hit1 := (Entails.of_eq (pts_it (F := F) d L _ _).symm) $$ Hit1
  ihave Hit2 := (Entails.of_eq (pts_it (F := F) d L _ _).symm) $$ Hit2
  ihave Hou1 := (Entails.of_eq (pts_ou1 (F := F) d L _).symm) $$ Hou1
  ihave Hou2 := (Entails.of_eq (pts_ou2 (F := F) d L _).symm) $$ Hou2
  ihave Hoi1 := (Entails.of_eq (pts_oi1 (F := F) d L _).symm) $$ Hoi1
  ihave Hoi2 := (Entails.of_eq (pts_oi2 (F := F) d L _).symm) $$ Hoi2
  ihave Hs0 := (Entails.of_eq (pts_own (F := F) d L cc0_scratch0 _).symm) $$ Hs0
  ihave Hs1 := (Entails.of_eq (pts_own (F := F) d L cc0_scratch1 _).symm) $$ Hs1
  ihave Hs2 := (Entails.of_eq (pts_own (F := F) d L cc0_scratch2 _).symm) $$ Hs2
  ihave Hs3 := (Entails.of_eq (pts_own (F := F) d L cc0_scratch3 _).symm) $$ Hs3
  ihave Hb0 := (Entails.of_eq (pts_own (F := F) d L cc0_scratch4 _).symm) $$ Hb0
  ihave Hb1 := (Entails.of_eq (pts_own (F := F) d L cc0_scratch5 _).symm) $$ Hb1
  ihave Hb2 := (Entails.of_eq (pts_own (F := F) d L cc0_scratch6 _).symm) $$ Hb2
  -- the offsets of each gather are words of an index array, whatever its staging list held before
  have hinA : ∀ (g : Buf (Elt F) ((thr d L).loc cc0_scratch0)) (x : S256.Idx),
      ((sI0).view.read (Elt F) ((sI0).view.write (Elt F) g (ReadAs.same.apply ((uid1 L).view.read (Elt F) (m (uidLoc d)))) Finset.univ) x).toNat
        < S100000x128.size (gathers_S100000x128_S256x128).axis := by
    intro g x
    rw [View.write_whole_univ, View.read_whole]
    exact hfu _
  have hinB : ∀ (g : Buf (Elt F) ((thr d L).loc cc0_scratch1)) (x : S256.Idx),
      ((sI1).view.read (Elt F) ((sI1).view.write (Elt F) g (ReadAs.same.apply ((uid2 L).view.read (Elt F) (m (uidLoc d)))) Finset.univ) x).toNat
        < S100000x128.size (gathers_S100000x128_S256x128).axis := by
    intro g x
    rw [View.write_whole_univ, View.read_whole]
    exact hfu _
  have hinC : ∀ (g : Buf (Elt F) ((thr d L).loc cc0_scratch2)) (x : S256.Idx),
      ((sI2).view.read (Elt F) ((sI2).view.write (Elt F) g (ReadAs.same.apply ((iid1 L).view.read (Elt F) (m (iidLoc d)))) Finset.univ) x).toNat
        < S100000x128.size (gathers_S100000x128_S256x128).axis := by
    intro g x
    rw [View.write_whole_univ, View.read_whole]
    exact hfi _
  have hinD : ∀ (g : Buf (Elt F) ((thr d L).loc cc0_scratch3)) (x : S256.Idx),
      ((sI3).view.read (Elt F) ((sI3).view.write (Elt F) g (ReadAs.same.apply ((iid2 L).view.read (Elt F) (m (iidLoc d)))) Finset.univ) x).toNat
        < S100000x128.size (gathers_S100000x128_S256x128).axis := by
    intro g x
    rw [View.write_whole_univ, View.read_whole]
    exact hfi _
  sl_exec
  sl_step
  isplitl [Hu1r Hu2r Hi1r Hi2r Hut1 Hut2 Hit1 Hit2 Hou1 Hou2 Hoi1 Hoi2]
  · isplitl [Hu1r Hu2r]
    · iapply (pointsTo_share (PosShare.mem_left_op_right q)).2
      isplitl [Hu1r]
      · iexact Hu1r
      · iexact Hu2r
    isplitl [Hi1r Hi2r]
    · iapply (pointsTo_share (PosShare.mem_left_op_right q)).2
      isplitl [Hi1r]
      · iexact Hi1r
      · iexact Hi2r
    isplitl [Hut1 Hut2]
    · iapply (pointsTo_share (PosShare.mem_left_op_right q)).2
      isplitl [Hut1]
      · iapply (Entails.of_eq (pts_ut (F := F) d L _ _)); iexact Hut1
      · iapply (Entails.of_eq (pts_ut (F := F) d L _ _)); iexact Hut2
    isplitl [Hit1 Hit2]
    · iapply (pointsTo_share (PosShare.mem_left_op_right q)).2
      isplitl [Hit1]
      · iapply (Entails.of_eq (pts_it (F := F) d L _ _)); iexact Hit1
      · iapply (Entails.of_eq (pts_it (F := F) d L _ _)); iexact Hit2
    isplitl [Hou1]
    · iapply (Entails.of_eq (pts_ou1 (F := F) d L _))
      iapply (Entails.of_eq (pts_block (F := F) (thr d L) (ou1 L).view fullShare (m (ouLoc d)) (Gu m d) _
        (fun y => payA (F := F) d L (m (uidLoc d)) (m (utLoc d)) s0 b0 hfu rfl (hinA s0) y)))
      iexact Hou1
    isplitl [Hou2]
    · iapply (Entails.of_eq (pts_ou2 (F := F) d L _))
      iapply (Entails.of_eq (pts_block (F := F) (thr d L) (ou2 L).view fullShare (m (ouLoc d)) (Gu m d) _
        (fun y => payB (F := F) d L (m (uidLoc d)) (m (utLoc d)) s1 b1 hfu rfl (hinB s1) y)))
      iexact Hou2
    isplitl [Hoi1]
    · iapply (Entails.of_eq (pts_oi1 (F := F) d L _))
      iapply (Entails.of_eq (pts_block (F := F) (thr d L) (oi1 L).view fullShare (m (oiLoc d)) (Gi m d) _
        (fun y => payC (F := F) d L (m (iidLoc d)) (m (itLoc d)) s2 b2 hfi rfl (hinC s2) y)))
      iexact Hoi1
    · iapply (Entails.of_eq (pts_oi2 (F := F) d L _))
      iapply (Entails.of_eq (pts_block (F := F) (thr d L) (oi2 L).view fullShare (m (oiLoc d)) (Gi m d) _
        (fun y => payD (F := F) d L (m (iidLoc d)) (m (itLoc d)) s3 b0 _ hfi rfl (hinD s3) y)))
      iexact Hoi2
  isplitl [Hs0 Hs1 Hs2 Hs3 Hb0 Hb1 Hb2 Hbufs]
  · isplitr [Hbufs]
    · isplitl [Hs0]; · iexists _; iapply (Entails.of_eq (pts_own (F := F) d L cc0_scratch0 _)); iexact Hs0
      isplitl [Hs1]; · iexists _; iapply (Entails.of_eq (pts_own (F := F) d L cc0_scratch1 _)); iexact Hs1
      isplitl [Hs2]; · iexists _; iapply (Entails.of_eq (pts_own (F := F) d L cc0_scratch2 _)); iexact Hs2
      isplitl [Hs3]; · iexists _; iapply (Entails.of_eq (pts_own (F := F) d L cc0_scratch3 _)); iexact Hs3
      isplitl [Hb0]; · iexists _; iapply (Entails.of_eq (pts_own (F := F) d L cc0_scratch4 _)); iexact Hb0
      isplitl [Hb1]; · iexists _; iapply (Entails.of_eq (pts_own (F := F) d L cc0_scratch5 _)); iexact Hb1
      iexists _; iapply (Entails.of_eq (pts_own (F := F) d L cc0_scratch6 _)); iexact Hb2
    · iexact Hbufs
  isplitl [Hm7 Hm8 Hm9 Hm10 Hm11 Hm12 Hm13 Hm14 Hm15 Hm16 Hsems]
  · isplitr [Hsems]
    · isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      iexact Hm16
    · iexact Hsems
  iexists _; isplitr
  rotate_left
  · iexact HO
  · ipureintro
    iterate 12 (refine waits_insert ?_ ?_; · rfl)
    exact fun p hp => .inl hp

end Tile

end Cert.Kernel.Launch

end
-- ==== Proof.BitsCoords.lean ====
/-
  A vector subcore's grid coordinates, and the read share each subcore is dealt of an array every subcore reads.
-/
import proofs.«207198_g34918084116659_cont_8to1_b_1870_22_alg».proof.Proof.BitsTileDefs

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of subcore `i` of SparseCore `c`: the `i`-th of sixteen tokens of the `c`-th of two tokens of the full share. -/
abbrev qT (c : Fin 2) (i : Fin 16) : PosShare TreeShare := Transfers.shareTok (Transfers.shareTok fullShare 2 c) 16 i

end Cert.Kernel.Launch

end
-- ==== Proof.BitsMlpBody.lean ====
/-
  The multilayer-perceptron kernel's body on whole staging buffers: what it leaves in the output's staging buffer,
  as the canonical contents of its one store over the two payloads of the inputs' loaded contents, and the
  triple of the body from the fourteen buffers held whole.
-/
import proofs.«207198_g34918084116659_cont_8to1_b_1870_22_alg».proof.Proof.BitsCommon
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.MlpRegion

open Cert.Kernel Cert.Kernel.Gen Cert.Kernel.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: every load and the one store are of a whole buffer -/

abbrev rA : Rect S4096x128 := Rect.unit (s := S4096x128) ![0, 0] S4096x128.size inb_S4096x128_S4096x128_0_0
abbrev rW1 : Rect S128x64 := Rect.unit (s := S128x64) ![0, 0] S128x64.size inb_S128x64_S128x64_0_0
abbrev rB1 : Rect S1x64 := Rect.unit (s := S1x64) ![0, 0] S1x64.size inb_S1x64_S1x64_0_0
abbrev rW2 : Rect S64x64 := Rect.unit (s := S64x64) ![0, 0] S64x64.size inb_S64x64_S64x64_0_0
abbrev rW3 : Rect S64x32 := Rect.unit (s := S64x32) ![0, 0] S64x32.size inb_S64x32_S64x32_0_0
abbrev rB3 : Rect S1x32 := Rect.unit (s := S1x32) ![0, 0] S1x32.size inb_S1x32_S1x32_0_0
abbrev rW4 : Rect S32x16 := Rect.unit (s := S32x16) ![0, 0] S32x16.size inb_S32x16_S32x16_0_0
abbrev rB4 : Rect S1x16 := Rect.unit (s := S1x16) ![0, 0] S1x16.size inb_S1x16_S1x16_0_0
abbrev rW5 : Rect S16x1 := Rect.unit (s := S16x1) ![0, 0] S16x1.size inb_S16x1_S16x1_0_0
abbrev rB5 : Rect S1x1 := Rect.unit (s := S1x1) ![0, 0] S1x1.size inb_S1x1_S1x1_0_0
abbrev rO : Rect S4096 := Rect.unit (s := S4096) ![0] S4096.size inb_S4096_S4096_0

/-- The output's staging buffer after the body, from the thirteen inputs' buffers: its one store as a piece. -/
def out13 (x0 x1 : Vec F S4096x128 .f32) (x2 x3 : Vec F S128x64 .f32) (x4 : Vec F S1x64 .f32) (x5 : Vec F S64x64 .f32)
    (x6 : Vec F S1x64 .f32) (x7 : Vec F S64x32 .f32) (x8 : Vec F S1x32 .f32) (x9 : Vec F S32x16 .f32) (x10 : Vec F S1x16 .f32)
    (x11 : Vec F S16x1 .f32) (x12 : Vec F S1x1 .f32) : Vec F S4096 .f32 :=
  View.canon [⟨rO, k1_pay1 (k1_pay2 (View.ld x0 rA) (View.ld x2 rW1) (View.ld x1 rA) (View.ld x3 rW1) (View.ld x4 rB1) (View.ld x5 rW2) (View.ld x6 rB1))
    (View.ld x7 rW3) (View.ld x8 rB3) (View.ld x9 rW4) (View.ld x10 rB4) (View.ld x11 rW5) (View.ld x12 rB5)⟩]

/-- The store tiles the buffer, so it covers it. -/
theorem cover13 (p0 : Vec F S4096 .f32) (y : S4096.Idx) :
    ∃ pc ∈ ([⟨rO, p0⟩] : List (View.Piece (Elt F) S4096 .f32)), y ∈ pc.1.set :=
  View.cover_of_tiled [⟨rO, p0⟩] S4096.size (by rfl) y

set_option maxHeartbeats 1000000 in
/-- The body on whole staging memrefs, the inputs' at contents `x0 … x12` and the output's at anything, runs to the
    continuation holding the inputs' as they were and the output's at `out13` of them. -/
theorem sound_kernel (c : Dev nD) (E : Set ℕ) (i : grid1.Coords)
    (a0 : Memref sig .tc .vmem S4096x128 .f32) (h0 : a0.IsWhole) (a1 : Memref sig .tc .vmem S4096x128 .f32) (h1 : a1.IsWhole)
    (a2 : Memref sig .tc .vmem S128x64 .f32) (h2 : a2.IsWhole) (a3 : Memref sig .tc .vmem S128x64 .f32) (h3 : a3.IsWhole)
    (a4 : Memref sig .tc .vmem S1x64 .f32) (h4 : a4.IsWhole) (a5 : Memref sig .tc .vmem S64x64 .f32) (h5 : a5.IsWhole)
    (a6 : Memref sig .tc .vmem S1x64 .f32) (h6 : a6.IsWhole) (a7 : Memref sig .tc .vmem S64x32 .f32) (h7 : a7.IsWhole)
    (a8 : Memref sig .tc .vmem S1x32 .f32) (h8 : a8.IsWhole) (a9 : Memref sig .tc .vmem S32x16 .f32) (h9 : a9.IsWhole)
    (a10 : Memref sig .tc .vmem S1x16 .f32) (h10 : a10.IsWhole) (a11 : Memref sig .tc .vmem S16x1 .f32) (h11 : a11.IsWhole)
    (a12 : Memref sig .tc .vmem S1x1 .f32) (h12 : a12.IsWhole) (a13 : Memref sig .tc .vmem S4096 .f32) (h13 : a13.IsWhole)
    (x0 x1 : Vec F S4096x128 .f32) (x2 x3 : Vec F S128x64 .f32) (x4 : Vec F S1x64 .f32) (x5 : Vec F S64x64 .f32)
    (x6 : Vec F S1x64 .f32) (x7 : Vec F S64x32 .f32) (x8 : Vec F S1x32 .f32) (x9 : Vec F S32x16 .f32) (x10 : Vec F S1x16 .f32)
    (x11 : Vec F S16x1 .f32) (x12 : Vec F S1x1 .f32) (Kk : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ owns (c : Thread nD τ) a9 fullShare x9 ∗ owns (c : Thread nD τ) a10 fullShare x10 ∗ owns (c : Thread nD τ) a11 fullShare x11
        ∗ owns (c : Thread nD τ) a12 fullShare x12 ∗ (∃ d, owns (c : Thread nD τ) a13 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare x9 ∗ owns (c : Thread nD τ) a10 fullShare x10 ∗ owns (c : Thread nD τ) a11 fullShare x11
            ∗ owns (c : Thread nD τ) a12 fullShare x12
            ∗ owns (c : Thread nD τ) a13 fullShare (out13 x0 x1 x2 x3 x4 x5 x6 x7 x8 x9 x10 x11 x12)) -∗ Kk ⟨⟩))
      ⊢ wp frame (wpE (defs₀ (F := F)) Variants.none c none) E
          (cc1__mlp_body i a0 h0 a1 h1 a2 h2 a3 h3 a4 h4 a5 h5 a6 h6 a7 h7 a8 h8 a9 h9 a10 h10 a11 h11 a12 h12 a13 h13) Kk := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover13 _)

end Cert.Kernel.MlpRegion

end
-- ==== Proof.BitsMlpDefs.lean ====
/-
  The multilayer-perceptron kernel region's vocabulary: the arrays its windows move, and its result as one function
  of those arrays — row by row, the body's result on the block of rows that holds the row.
-/
import proofs.«207198_g34918084116659_cont_8to1_b_1870_22_alg».proof.Proof.BitsMlpBody
import Idealize.ShloMosaic.Lib.ValueIdx

set_option maxRecDepth 16384

noncomputable section

namespace Cert.Kernel.MlpRegion

open Cert.Kernel Cert.Kernel.Gen Cert.Kernel.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

/-- The prefetched tables' admissible contents: no table. -/
abbrev adm : (p : Fin 1) → (pcfgs (F := F) p).Adm := fun p => (cfgs p).toPCfg_adm

/-- The fourteen arrays the region's windows move. -/
def Sreg : Finset (DevRef τ sig) :=
  {Proc.devRef .tc main_v7_0, Proc.devRef .tc main_v7_1, Proc.devRef .tc main_v0, Proc.devRef .tc main_v1, Proc.devRef .tc main_v2,
   Proc.devRef .tc main_arg6, Proc.devRef .tc main_v3, Proc.devRef .tc main_arg8, Proc.devRef .tc main_v4, Proc.devRef .tc main_arg10,
   Proc.devRef .tc main_v5, Proc.devRef .tc main_arg12, Proc.devRef .tc main_v6, Proc.devRef .tc main_v8}

/-- The output array. -/
abbrev v8' : DevRef τ sig := Proc.devRef .tc main_v8

/-- The windows' arrays are pairwise distinct buffers. -/
theorem arrDev_inj : Function.Injective fun w : Fin 14 => (Proc.devRef .tc (Pipeline.arrRef spec1 w) : DevRef τ sig) := by decide

/-- The fourteen arrays are the windows' arrays. -/
theorem Sreg_eq : Sreg = Finset.univ.map ⟨fun w : Fin 14 => (Proc.devRef .tc (Pipeline.arrRef spec1 w) : DevRef τ sig), arrDev_inj⟩ := by decide

/-! ## The region's result as one function of the arrays -/

/-- The grid point whose output block holds row `j`, and the row's place in the block. -/
def tOf (j : S16384.Idx) : Fin cfg1.N := ⟨(j 0).val / 4096, by have h : (j 0).val < 16384 := (j 0).isLt; show (j 0).val / 4096 < 4; omega⟩
def rOf (j : S16384.Idx) : Fin 4096 := ⟨(j 0).val % 4096, Nat.mod_lt _ (by decide)⟩

/-- The body's result on block `t` of the two gathered arrays and the eleven weight arrays. -/
def mlpRow (u i : Vec F S16384x128 .f32) (w1a w1b : Vec F S128x64 .f32) (b1 : Vec F S1x64 .f32) (w2 : Vec F S64x64 .f32)
    (b2 : Vec F S1x64 .f32) (w3 : Vec F S64x32 .f32) (b3 : Vec F S1x32 .f32) (w4 : Vec F S32x16 .f32) (b4 : Vec F S1x16 .f32)
    (w5 : Vec F S16x1 .f32) (b5 : Vec F S1x1 .f32) (t : Fin cfg1.N) : Vec F S4096 .f32 :=
  out13 (((cfg1.win 0).blk t).view.read (Elt F) u) (((cfg1.win 1).blk t).view.read (Elt F) i) w1a w1b b1 w2 b2 w3 b3 w4 b4 w5 b5

/-- Row `j` of the result: with `t = j / 4096` the grid point whose block holds the row and `r = j % 4096` the row's place in
    it, the body's result on block `t`, at `r`. -/
def mlpOut (u i : Vec F S16384x128 .f32) (w1a w1b : Vec F S128x64 .f32) (b1 : Vec F S1x64 .f32) (w2 : Vec F S64x64 .f32)
    (b2 : Vec F S1x64 .f32) (w3 : Vec F S64x32 .f32) (b3 : Vec F S1x32 .f32) (w4 : Vec F S32x16 .f32) (b4 : Vec F S1x16 .f32)
    (w5 : Vec F S16x1 .f32) (b5 : Vec F S1x1 .f32) : Vec F S16384 .f32 := fun j =>
  mlpRow u i w1a w1b b1 w2 b2 w3 b3 w4 b4 w5 b5 (tOf j) (ix1 (rOf j))

/-- The result at a row that sits at place `y` of block `t`. -/
theorem mlpOut_at (u i : Vec F S16384x128 .f32) (w1a w1b : Vec F S128x64 .f32) (b1 : Vec F S1x64 .f32) (w2 : Vec F S64x64 .f32)
    (b2 : Vec F S1x64 .f32) (w3 : Vec F S64x32 .f32) (b3 : Vec F S1x32 .f32) (w4 : Vec F S32x16 .f32) (b4 : Vec F S1x16 .f32)
    (w5 : Vec F S16x1 .f32) (b5 : Vec F S1x1 .f32) (t : Fin cfg1.N) (j : S16384.Idx) (y : S4096.Idx) (h : (j 0).val = 4096 * t.val + (y 0).val) :
    mlpOut u i w1a w1b b1 w2 b2 w3 b3 w4 b4 w5 b5 j = mlpRow u i w1a w1b b1 w2 b2 w3 b3 w4 b4 w5 b5 t y := by
  have hy0 : (y 0).val < 4096 := (y 0).isLt
  have ht : tOf j = t := Fin.ext (by show (j 0).val / 4096 = t.val; omega)
  have hy : ix1 (rOf j) = y := by
    funext a
    match a with
    | ⟨0, _⟩ => exact Fin.ext (by show (j 0).val % 4096 = (y 0).val; omega)
  show mlpRow u i w1a w1b b1 w2 b2 w3 b3 w4 b4 w5 b5 (tOf j) (ix1 (rOf j)) = _
  rw [ht, hy]

variable (Vv : Valuation τ sig (Elt F)) (W : Waits sig (HIx 1))

/-- The region's result at the entry valuation. -/
abbrev mlpOutV : Vec F S16384 .f32 :=
  mlpOut (Vv (Proc.devRef .tc main_v7_0)) (Vv (Proc.devRef .tc main_v7_1)) (Vv (Proc.devRef .tc main_v0)) (Vv (Proc.devRef .tc main_v1))
    (Vv (Proc.devRef .tc main_v2)) (Vv (Proc.devRef .tc main_arg6)) (Vv (Proc.devRef .tc main_v3)) (Vv (Proc.devRef .tc main_arg8))
    (Vv (Proc.devRef .tc main_v4)) (Vv (Proc.devRef .tc main_arg10)) (Vv (Proc.devRef .tc main_v5)) (Vv (Proc.devRef .tc main_arg12))
    (Vv (Proc.devRef .tc main_v6))

/-- The valuation the region leaves: the output array at the result, every other array as it was. -/
abbrev Vout : Valuation τ sig (Elt F) := Function.update Vv v8' (mlpOutV Vv)

end Cert.Kernel.MlpRegion

end
-- ==== Proof.BitsLaunchA.lean ====
/-
  The launch of the gather kernel's tasks: what the one SparseCore call takes for each SparseCore (its sixteen tasks'
  shares) and brings back, the task's obligation, and the launch element of the proof's ghost state (the handshakes'
  rounds; the pipeline's staging cells' rounds, funded for the TensorCore region; the transfers' counters).
-/
import proofs.«207198_g34918084116659_cont_8to1_b_1870_22_alg».proof.Proof.BitsTile
import proofs.«207198_g34918084116659_cont_8to1_b_1870_22_alg».proof.Proof.BitsCoords
import proofs.«207198_g34918084116659_cont_8to1_b_1870_22_alg».proof.Proof.BitsMlpDefs

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The grid point and the read share of task `i` of SparseCore `c` of the call. -/
abbrev LV (c : Fin ((K (F := F)).nCore 0)) (i : Fin ((K (F := F)).nSub 0)) : grid0.Coords := coordsV c i
abbrev qV (c : Fin ((K (F := F)).nCore 0)) (i : Fin ((K (F := F)).nSub 0)) : PosShare TreeShare := qT c i

/-- The one call takes, per SparseCore, its sixteen tasks' shares, and brings them back with the results' rows gathered. -/
def P : (K (F := F)).Pay (nD := nD) (Val := Elt F) (Name := ℕ) (U := UU) where
  st := fun q d c => match q with | 0 => bigSep Finset.univ fun i : Fin ((K (F := F)).nSub 0) => tileGo m (qV c i) d (LV c i)
  dn := fun q d c => match q with | 0 => bigSep Finset.univ fun i : Fin ((K (F := F)).nSub 0) => tileTd m (qV c i) d (LV c i)
  go := fun q d c i => match q with | 0 => tileGo m (qV c i) d (LV c i)
  td := fun q d c i => match q with | 0 => tileTd m (qV c i) d (LV c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tileGo m (qV c i) d (LV c i)))
  dn q d c := match q with
    | 0 => (inferInstance : BI.Storable (upEmb : UEmb _ 𝕄) (bigSep Finset.univ fun i : Fin ((K (F := F)).nSub 0) => tileTd m (qV c i) d (LV c i)))
  go q d c i := match q with
    | 0 => (inferInstance : BI.Storable (upEmb : UEmb _ 𝕄) (tileGo m (qV c i) d (LV c i)))
  td q d c i := match q with
    | 0 => (inferInstance : BI.Storable (upEmb : UEmb _ 𝕄) (tileTd m (qV c i) d (LV c i)))

/-! ## The launch theorem's obligations -/

theorem defs₀_vector (c : Fin τ.nSC) (s : Fin τ.nSub) :
    defs₀ (F := F) (.scVector c s) 0 ()
      = SparseCore.onTile hcore0 hsub0 (fun c s => cc0__gather_body (coordsV c s)
          uidW (Memref.isWhole_whole _) iidW (Memref.isWhole_whole _) utW (Memref.isWhole_whole _) itW (Memref.isWhole_whole _)
          ouW (Memref.isWhole_whole _) oiW (Memref.isWhole_whole _) sI0 (Memref.isWhole_whole _) sI1 (Memref.isWhole_whole _)
          sI2 (Memref.isWhole_whole _) sI3 (Memref.isWhole_whole _) sB0 (Memref.isWhole_whole _) sB1 (Memref.isWhole_whole _) sB2 (Memref.isWhole_whole _)
          cc0_scratch7 cc0_scratch8 cc0_scratch9 cc0_scratch10 cc0_scratch11 cc0_scratch12 cc0_scratch13 cc0_scratch14 cc0_scratch15 cc0_scratch16) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hfu : ∀ d j, (m (uidLoc d) j).toNat < 100000) (hfi : ∀ d j, (m (iidLoc d) j).toNat < 100000) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (qV c i) O W hO (hfu d) (hfi d)).trans (wp_mono frame _ _ fun _ => obl_post)

theorem vecSplit : (K (F := F)).VecSplit' (P m) 0 := by
  intro d c
  show (bigSep Finset.univ fun i : Fin ((K (F := F)).nSub 0) => tileGo m (qV c i) d (LV c i)) ⊢ |={Set.univ}=> iprop(
      (bigSep Finset.univ fun i : Fin ((K (F := F)).nSub 0) => tileGo m (qV c i) d (LV c i))
      ∗ ((bigSep Finset.univ fun i : Fin ((K (F := F)).nSub 0) => tileTd m (qV c i) d (LV c i))
          -∗ bigSep Finset.univ fun i : Fin ((K (F := F)).nSub 0) => tileTd m (qV c i) d (LV c i)))
  iintro H; imodintro
  isplitl [H]; · iexact H
  iintro H; iexact H

/-! ## The launch element -/

/-- The pipeline's staging cells are pairwise distinct. -/
theorem pinj : Function.Injective (Pipeline.cellOf (nD := nD) (τ := τ) (Pipeline.pin (pcfgs (F := F)) (MlpRegion.adm (F := F)))) := cellOf_inj

/-- What @main's proof starts from beyond the launch's deal: the staging cells' ghost state and duty tokens. -/
abbrev GG (d : Dev nD) : sProp 𝕄 :=
  iprop(Pipeline.cellsGhost (Pipeline.pin (pcfgs (F := F)) (MlpRegion.adm (F := F))) EP 0 d
    ∗ Pipeline.toksInit (Pipeline.pin (pcfgs (F := F)) (MlpRegion.adm (F := F))) EP 0 d)

def u₀ : UU :=
  (initOf (K (F := F)).hsCells (K (F := F)).hsToks,
    (initOf (Pipeline.cells (Pipeline.pin (pcfgs (F := F)) (MlpRegion.adm (F := F))) pinj)
      (Pipeline.launchToks (Pipeline.pin (pcfgs (F := F)) (MlpRegion.adm (F := F))) pinj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (Entails.of_eq (show (BI.own (((Emb.inl : Emb UP (UP × Counters)).trans (embR : Emb (UP × Counters) 𝕄))
      (initOf (Pipeline.cells (Pipeline.pin (pcfgs (F := F)) (MlpRegion.adm (F := F))) pinj)
        (Pipeline.launchToks (Pipeline.pin (pcfgs (F := F)) (MlpRegion.adm (F := F))) pinj))) : sProp 𝕄)
      = BI.own (EP (initOf (Pipeline.cells (Pipeline.pin (pcfgs (F := F)) (MlpRegion.adm (F := F))) pinj)
        (Pipeline.launchToks (Pipeline.pin (pcfgs (F := F)) (MlpRegion.adm (F := F))) pinj))) from rfl)) $$ HP
  imod (Pipeline.fund_ghost (Pipeline.pin (pcfgs (F := F)) (MlpRegion.adm (F := F))) EP pinj) $$ HP' with ⟨Hg, Ht⟩
  imodintro
  isplitl [HH]; · iexact HH
  isplitl [Hg Ht]
  · rw [bigSep_sep']
    isplitl [Hg]
    · iapply (Entails.of_eq (show (bigSep Finset.univ fun c : Dev nD => bigSep Finset.univ fun p : Fin 1 => Pipeline.cellsGhost (Pipeline.pin (pcfgs (F := F)) (MlpRegion.adm (F := F))) EP p c)
          = (bigSep Finset.univ fun d : Dev nD => (Pipeline.cellsGhost (Pipeline.pin (pcfgs (F := F)) (MlpRegion.adm (F := F))) EP 0 d : sProp 𝕄))
          from bigSep_congr fun d _ => bigSep_univ_of_subsingleton (0 : Fin 1)))
      iexact Hg
    · iapply (Entails.of_eq (show (bigSep Finset.univ fun c : Dev nD => bigSep Finset.univ fun p : Fin 1 => (Pipeline.toksInit (Pipeline.pin (pcfgs (F := F)) (MlpRegion.adm (F := F))) EP p c : sProp 𝕄))
          = (bigSep Finset.univ fun d : Dev nD => (Pipeline.toksInit (Pipeline.pin (pcfgs (F := F)) (MlpRegion.adm (F := F))) EP 0 d : sProp 𝕄))
          from bigSep_congr fun d _ => bigSep_univ_of_subsingleton (0 : Fin 1)))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Launch

end
-- ==== Proof.BitsSplit.lean ====
/-
  The arrays the launch hands over whole, shared out among the 2 × 16 vector subcores.

  Each of the four input arrays is read by every subcore: its full share is cut into two read tokens, one per
  SparseCore, and each of those into sixteen, one per subcore; the remainders are kept aside and everything joins back
  to the full share. Each of the two result arrays is cut by rows instead: subcore `i` of SparseCore `c` owns the two
  blocks of 256 rows starting at row `1024 i + 512 c` and 256 rows later. These 64 blocks are pairwise disjoint and
  cover the 16384 rows: row `r` lies in the block of `i = r / 1024`, `c = (r / 512) mod 2`, half `(r / 256) mod 2`.
-/
import proofs.«207198_g34918084116659_cont_8to1_b_1870_22_alg».proof.Proof.BitsCoords
import Idealize.ShloMosaic.Lib.Transfers
import Idealize.ShloMosaic.Lib.ValueIdx

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## Read shares -/

/-- What is kept aside when an array's full share is cut into the 32 read tokens. -/
def readRem (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- The sixteen remainders and the 32 tokens, regrouped: one equation used in both directions. -/
theorem toks_regroup (ℓ : Loc nD τ sig) (f : Buf (Elt F) ℓ) :
    (bigSep Finset.univ fun c : Fin 2 =>
        iprop((ℓ ↦{Transfers.shareDrop (Transfers.shareTok fullShare 2 c) 16} f)
          ∗ bigSep Finset.univ fun i : Fin 16 => ℓ ↦{Transfers.shareTok (Transfers.shareTok fullShare 2 c) 16 i} f) : sProp 𝕄)
      = iprop((bigSep Finset.univ fun c : Fin 2 => ℓ ↦{Transfers.shareDrop (Transfers.shareTok fullShare 2 c) 16} f)
          ∗ bigSep Finset.univ fun c : Fin 2 => bigSep Finset.univ fun i : Fin 16 => ℓ ↦{qT c i} f) :=
  bigSep_sep _ _ _

/-- The full share is the remainders and one read token per subcore; -/
theorem read_split (ℓ : Loc nD τ sig) (f : Buf (Elt F) ℓ) :
    (ℓ ↦{fullShare} f : sProp 𝕄)
      ⊢ iprop(readRem ℓ f ∗ bigSep Finset.univ fun c : Fin 2 => bigSep Finset.univ fun i : Fin 16 => ℓ ↦{qT c i} f) := by
  have h1 : (iprop((ℓ ↦{Transfers.shareDrop fullShare 2} f)
          ∗ bigSep Finset.univ fun c : Fin 2 =>
              iprop((ℓ ↦{Transfers.shareDrop (Transfers.shareTok fullShare 2 c) 16} f)
                ∗ bigSep Finset.univ fun i : Fin 16 => ℓ ↦{Transfers.shareTok (Transfers.shareTok fullShare 2 c) 16 i} f)) : sProp 𝕄)
      ⊢ iprop(readRem ℓ f ∗ bigSep Finset.univ fun c : Fin 2 => bigSep Finset.univ fun i : Fin 16 => ℓ ↦{qT c i} f) := by
    rw [toks_regroup]
    unfold readRem
    iintro ⟨Hd, Hr, Ht⟩
    isplitl [Hd Hr]
    · isplitl [Hd] <;> iassumption
    · iexact Ht
  exact (Transfers.pointsTo_toks_split fullShare 2).trans
    ((sep_mono_r (bigSep_mono fun c _ => Transfers.pointsTo_toks_split (Transfers.shareTok fullShare 2 c) 16)).trans h1)

/-- and they join back to it. -/
theorem read_join (ℓ : Loc nD τ sig) (f : Buf (Elt F) ℓ) :
    iprop(readRem ℓ f ∗ bigSep Finset.univ fun c : Fin 2 => bigSep Finset.univ fun i : Fin 16 => ℓ ↦{qT c i} f)
      ⊢ (ℓ ↦{fullShare} f : sProp 𝕄) := by
  have h1 : iprop(readRem ℓ f ∗ bigSep Finset.univ fun c : Fin 2 => bigSep Finset.univ fun i : Fin 16 => ℓ ↦{qT c i} f)
      ⊢ (iprop((ℓ ↦{Transfers.shareDrop fullShare 2} f)
          ∗ bigSep Finset.univ fun c : Fin 2 =>
              iprop((ℓ ↦{Transfers.shareDrop (Transfers.shareTok fullShare 2 c) 16} f)
                ∗ bigSep Finset.univ fun i : Fin 16 => ℓ ↦{Transfers.shareTok (Transfers.shareTok fullShare 2 c) 16 i} f)) : sProp 𝕄) := by
    rw [toks_regroup]
    unfold readRem
    iintro ⟨⟨Hd, Hr⟩, Ht⟩
    isplitl [Hd]
    · iexact Hd
    · isplitl [Hr] <;> iassumption
  exact h1.trans ((sep_mono_r (bigSep_mono fun c _ => Transfers.pointsTo_toks_join (Transfers.shareTok fullShare 2 c) 16)).trans
    (Transfers.pointsTo_toks_join fullShare 2))

/-! ## The rows of a result array -/

theorem off3_0 (L : grid0.Coords) : k0_off3 L 0 = 1024 * (L 1).val + 512 * (L 0).val := by rw [k0_off3_eq]; rfl
theorem off3_1 (L : grid0.Coords) : k0_off3 L 1 = 0 := by rw [k0_off3_eq]; rfl
theorem off4_0 (L : grid0.Coords) : k0_off4 L 0 = 1024 * (L 1).val + 512 * (L 0).val + 256 := by rw [k0_off4_eq]; rfl
theorem off4_1 (L : grid0.Coords) : k0_off4 L 1 = 0 := by rw [k0_off4_eq]; rfl

/-- The two blocks of rows of a task, as rectangles of the array's shape. -/
abbrev R1 (L : grid0.Coords) : Rect S16384x128 := Rect.unit (s := S16384x128) (k0_off3 L) S256x128.size (k0_off3_inb L)
abbrev R2 (L : grid0.Coords) : Rect S16384x128 := Rect.unit (s := S16384x128) (k0_off4 L) S256x128.size (k0_off4_inb L)

/-- A block holds the indices whose row lies in its 256 rows. -/
theorem mem_R1 (L : grid0.Coords) (j : S16384x128.Idx) :
    j ∈ (R1 L).set ↔ 1024 * (L 1).val + 512 * (L 0).val ≤ (j 0).val ∧ (j 0).val < 1024 * (L 1).val + 512 * (L 0).val + 256 := by
  rw [Rect.mem_set_unit]
  constructor
  · intro H
    have h : k0_off3 L 0 ≤ (j 0).val ∧ (j 0).val < k0_off3 L 0 + 256 := H 0
    rw [off3_0] at h
    exact h
  · intro h a
    match a with
    | ⟨0, _⟩ =>
      show k0_off3 L 0 ≤ (j 0).val ∧ (j 0).val < k0_off3 L 0 + 256
      rw [off3_0]; exact h
    | ⟨1, _⟩ =>
      show k0_off3 L 1 ≤ (j 1).val ∧ (j 1).val < k0_off3 L 1 + 128
      rw [off3_1]; exact ⟨Nat.zero_le _, by have := idx2_lt1 j; omega⟩

theorem mem_R2 (L : grid0.Coords) (j : S16384x128.Idx) :
    j ∈ (R2 L).set ↔ 1024 * (L 1).val + 512 * (L 0).val + 256 ≤ (j 0).val
      ∧ (j 0).val < 1024 * (L 1).val + 512 * (L 0).val + 256 + 256 := by
  rw [Rect.mem_set_unit]
  constructor
  · intro H
    have h : k0_off4 L 0 ≤ (j 0).val ∧ (j 0).val < k0_off4 L 0 + 256 := H 0
    rw [off4_0] at h
    exact h
  · intro h a
    match a with
    | ⟨0, _⟩ =>
      show k0_off4 L 0 ≤ (j 0).val ∧ (j 0).val < k0_off4 L 0 + 256
      rw [off4_0]; exact h
    | ⟨1, _⟩ =>
      show k0_off4 L 1 ≤ (j 1).val ∧ (j 1).val < k0_off4 L 1 + 128
      rw [off4_1]; exact ⟨Nat.zero_le _, by have := idx2_lt1 j; omega⟩

/-- The first row of block `(c, i, h)`. -/
def base (p : Fin 2 × Fin 16 × Fin 2) : ℕ := 1024 * p.2.1.val + 512 * p.1.val + 256 * p.2.2.val

/-- Block `(c, i, h)`: half `h` of the rows of subcore `i` of SparseCore `c`. -/
def tset (p : Fin 2 × Fin 16 × Fin 2) : Finset S16384x128.Idx :=
  if p.2.2 = 0 then (R1 (coordsV p.1 p.2.1)).set else (R2 (coordsV p.1 p.2.1)).set

theorem mem_tset (p : Fin 2 × Fin 16 × Fin 2) (j : S16384x128.Idx) :
    j ∈ tset p ↔ base p ≤ (j 0).val ∧ (j 0).val < base p + 256 := by
  obtain ⟨c, i, h⟩ := p
  unfold tset base
  by_cases hh : h = 0
  · subst hh
    rw [if_pos rfl, mem_R1]
    show 1024 * i.val + 512 * c.val ≤ _ ∧ _ < 1024 * i.val + 512 * c.val + 256 ↔ _
    simp only [Fin.val_zero, Nat.mul_zero, Nat.add_zero]
  · have h1 : h.val = 1 := by
      have := h.isLt
      have : h.val ≠ 0 := fun e => hh (Fin.ext e)
      omega
    rw [if_neg hh, mem_R2]
    show 1024 * i.val + 512 * c.val + 256 ≤ _ ∧ _ < 1024 * i.val + 512 * c.val + 256 + 256 ↔ _
    simp only [h1, Nat.mul_one]

theorem tset_disjoint : ∀ p ∈ (Finset.univ : Finset (Fin 2 × Fin 16 × Fin 2)), ∀ p' ∈ (Finset.univ : Finset (Fin 2 × Fin 16 × Fin 2)),
    p ≠ p' → Disjoint (tset p) (tset p') := by
  intro p _ p' _ hne
  refine Finset.disjoint_left.2 fun j hj hj' => hne ?_
  rw [mem_tset] at hj hj'
  obtain ⟨c, i, h⟩ := p
  obtain ⟨c', i', h'⟩ := p'
  unfold base at hj hj'
  have := c.isLt; have := c'.isLt; have := h.isLt; have := h'.isLt
  simp only at hj hj'
  exact Prod.ext (Fin.ext (by show c.val = c'.val; omega))
    (Prod.ext (Fin.ext (by show i.val = i'.val; omega)) (Fin.ext (by show h.val = h'.val; omega)))

theorem tset_cover : (Finset.univ : Finset (Fin 2 × Fin 16 × Fin 2)).biUnion tset = Finset.univ := by
  refine Finset.eq_univ_iff_forall.2 fun j => Finset.mem_biUnion.2 ?_
  have hr := idx2_lt0 j
  refine ⟨(⟨(j 0).val / 512 % 2, Nat.mod_lt _ (by decide)⟩, ⟨(j 0).val / 1024, by omega⟩,
    ⟨(j 0).val / 256 % 2, Nat.mod_lt _ (by decide)⟩), Finset.mem_univ _, (mem_tset _ j).2 ?_⟩
  unfold base
  simp only
  constructor <;> omega

/-- A task's two blocks of a result array, as element sets of the array. -/
theorem ou1_set (L : grid0.Coords) : (ou1 L).view.set = (R1 L).set := View.set_slice_whole _ _
theorem ou2_set (L : grid0.Coords) : (ou2 L).view.set = (R2 L).set := View.set_slice_whole _ _
theorem oi1_set (L : grid0.Coords) : (oi1 L).view.set = (R1 L).set := View.set_slice_whole _ _
theorem oi2_set (L : grid0.Coords) : (oi2 L).view.set = (R2 L).set := View.set_slice_whole _ _

/-- The gathered user array, whole, is its 64 blocks of rows. -/
theorem ou_rows (d : Dev nD) (f : Buf (Elt F) (ouLoc d)) :
    (ouLoc d ↦{fullShare} f : sProp 𝕄)
      = bigSep Finset.univ fun c : Fin 2 => bigSep Finset.univ fun i : Fin 16 =>
          iprop((ouLoc d ↦[(ou1 (coordsV c i)).view.set]{fullShare} f) ∗ ouLoc d ↦[(ou2 (coordsV c i)).view.set]{fullShare} f) := by
  have e : (ouLoc d ↦{fullShare} f : sProp 𝕄) = bigSep Finset.univ fun p => ouLoc d ↦[tset p]{fullShare} f := by
    rw [← pointsTo_biUnion Finset.univ (ℓ := ouLoc d) tset tset_disjoint, tset_cover]; try rfl
  rw [e, bigSep_univ_prod]
  refine bigSep_congr fun c _ => ?_
  rw [bigSep_univ_prod]
  refine bigSep_congr fun i _ => ?_
  rw [bigSep_univ_two, ou1_set, ou2_set]
  rfl

/-- The gathered item array likewise. -/
theorem oi_rows (d : Dev nD) (f : Buf (Elt F) (oiLoc d)) :
    (oiLoc d ↦{fullShare} f : sProp 𝕄)
      = bigSep Finset.univ fun c : Fin 2 => bigSep Finset.univ fun i : Fin 16 =>
          iprop((oiLoc d ↦[(oi1 (coordsV c i)).view.set]{fullShare} f) ∗ oiLoc d ↦[(oi2 (coordsV c i)).view.set]{fullShare} f) := by
  have e : (oiLoc d ↦{fullShare} f : sProp 𝕄) = bigSep Finset.univ fun p => oiLoc d ↦[tset p]{fullShare} f := by
    rw [← pointsTo_biUnion Finset.univ (ℓ := oiLoc d) tset tset_disjoint, tset_cover]; try rfl
  rw [e, bigSep_univ_prod]
  refine bigSep_congr fun c _ => ?_
  rw [bigSep_univ_prod]
  refine bigSep_congr fun i _ => ?_
  rw [bigSep_univ_two, oi1_set, oi2_set]
  rfl

end Cert.Kernel.Launch

end
-- ==== Proof.BitsMainDefs.lean ====
/-
  @main of the kernel program on the TensorCore, as values: the host operations before and after the two kernel
  calls, and the valuation of @main's arrays after each stretch — the launch contents, then the seven slices and reshapes
  of the weights, then the two gathered arrays, then the multilayer perceptron's result, then its reshape to a column.
-/
import proofs.«207198_g34918084116659_cont_8to1_b_1870_22_alg».proof.Proof.BitsGathered
import proofs.«207198_g34918084116659_cont_8to1_b_1870_22_alg».proof.Proof.BitsMlpDefs

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sub_split held_congr held_sdiff_result wp_hlo_within)

variable (m : (ℓ : Loc nD τ sig) → Buf (Elt F) ℓ)

variable [FloatOps F]

/-! ## The host operations -/

abbrev op0 : HloOp τ sig (Elt F) := StableHlo.unary main_arg4 main_v0 ((extractStridedSlice S128x64 ![0, 0] · slices_S256x64_S128x64_0_0) : (⟨S256x64, .f32⟩ : BufTy).Contents (Elt F) → (⟨S128x64, .f32⟩ : BufTy).Contents (Elt F))
abbrev op1 : HloOp τ sig (Elt F) := StableHlo.unary main_arg4 main_v1 ((extractStridedSlice S128x64 ![128, 0] · slices_S256x64_S128x64_128_0) : (⟨S256x64, .f32⟩ : BufTy).Contents (Elt F) → (⟨S128x64, .f32⟩ : BufTy).Contents (Elt F))
abbrev op2 : HloOp τ sig (Elt F) := StableHlo.reshape main_arg5 main_v2 rfl shapeCasts_S64_S1x64
abbrev op3 : HloOp τ sig (Elt F) := StableHlo.reshape main_arg7 main_v3 rfl shapeCasts_S64_S1x64
abbrev op4 : HloOp τ sig (Elt F) := StableHlo.reshape main_arg9 main_v4 rfl shapeCasts_S32_S1x32
abbrev op5 : HloOp τ sig (Elt F) := StableHlo.reshape main_arg11 main_v5 rfl shapeCasts_S16_S1x16
abbrev op6 : HloOp τ sig (Elt F) := StableHlo.reshape main_arg13 main_v6 rfl shapeCasts_S1_S1x1
abbrev op9 : HloOp τ sig (Elt F) := StableHlo.reshape main_v8 main_v9 rfl shapeCasts_S16384_S16384x1

/-! ## @main's arrays -/

/-- The TensorCore's unscoped buffers: @main's arrays. -/
def Sall : Finset (DevRef τ sig) :=
  (Finset.univ.filter fun b : Ref sig .tc => ¬ b.isScoped).map ⟨Proc.devRef .tc, Proc.devRef_injective _⟩

abbrev ou' : DevRef τ sig := Proc.devRef .tc (main_v7_0 : Ref sig .tc)
abbrev oi' : DevRef τ sig := Proc.devRef .tc (main_v7_1 : Ref sig .tc)

/-- The launch contents; -/
def V0 (d : Dev nD) : Valuation τ sig (Elt F) := fun b => m (d, b)
/-- after the seven host operations on the weights; -/
def V1 (d : Dev nD) : Valuation τ sig (Elt F) :=
  (op6 (F := F)).result ((op5 (F := F)).result ((op4 (F := F)).result ((op3 (F := F)).result ((op2 (F := F)).result
    ((op1 (F := F)).result ((op0 (F := F)).result (V0 m d)))))))
/-- after the gather kernel: its two results at the gathered arrays; -/
def V2 (d : Dev nD) : Valuation τ sig (Elt F) := Function.update (Function.update (V1 m d) ou' (Gu m d)) oi' (Gi m d)
/-- after the multilayer-perceptron region: its result array; -/
def V3 (d : Dev nD) : Valuation τ sig (Elt F) := MlpRegion.Vout (V2 m d)
/-- after the last reshape. -/
def V4 (d : Dev nD) : Valuation τ sig (Elt F) := (op9 (F := F)).result (V3 m d)

end Cert.Kernel.Launch

end
-- ==== Proof.BitsMlpRegion.lean ====
/-
  The multilayer-perceptron kernel region's proof data and body obligation: the arrays at the entry valuation, every input
  window's staging buffer at its block, the output's at the body's result of the blocks.
-/
import proofs.«207198_g34918084116659_cont_8to1_b_1870_22_alg».proof.Proof.BitsMlpDefs

set_option maxRecDepth 16384

noncomputable section

namespace Cert.Kernel.MlpRegion

open Cert.Kernel Cert.Kernel.Gen Cert.Kernel.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vv : Valuation τ sig (Elt F)) (W : Waits sig (HIx 1))

/-! ## The pipeline's proof data -/

/-- The valuation read at a TensorCore reference of core `c`. -/
abbrev VV (c : Dev nD) (b : Ref sig .tc) : Buf (Elt F) ((c : Thread nD τ).loc b) := Vv (Proc.devRef .tc b)

/-- Window `w`'s block at point `t`, read off its array at the entry valuation. -/
def iblk (c : Dev nD) (w : Fin cfg1.W) (t : Fin cfg1.N) : ((cfg1.win w).xblock (cfg1.grid.coords t)).Idx → Elt F (cfg1.win w).elt :=
  ((cfg1.win w).blk t).view.read (Elt F) (VV Vv c (Pipeline.arrRef spec1 w))

/-- The pairs the TensorCore's waits may have recorded: those recorded before the region, and any at the kernels' own index. -/
def recd : Set (SemLoc sig × HIx 1) := {p | p ∈ W ∨ p.2 = none}

/-- The proof data on core `c`: the arrays at the entry valuation; after the body at point `t` each input's buffer at its
    block and the output's at the body's result of the blocks; the invariant the scoped buffers no window stages; nothing
    owed; full shares. -/
def dats (_ : Fin 1) (c : Dev nD) : Dat τ (Elt F) (HIx 1) ℕ UU ℕ cfg1 c where
  A w := VV Vv c (Pipeline.arrRef spec1 w)
  after w t := match w with
    | ⟨0, _⟩ => iblk Vv c 0 t
    | ⟨1, _⟩ => iblk Vv c 1 t
    | ⟨2, _⟩ => iblk Vv c 2 t
    | ⟨3, _⟩ => iblk Vv c 3 t
    | ⟨4, _⟩ => iblk Vv c 4 t
    | ⟨5, _⟩ => iblk Vv c 5 t
    | ⟨6, _⟩ => iblk Vv c 6 t
    | ⟨7, _⟩ => iblk Vv c 7 t
    | ⟨8, _⟩ => iblk Vv c 8 t
    | ⟨9, _⟩ => iblk Vv c 9 t
    | ⟨10, _⟩ => iblk Vv c 10 t
    | ⟨11, _⟩ => iblk Vv c 11 t
    | ⟨12, _⟩ => iblk Vv c 12 t
    | ⟨13, _⟩ => out13 (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t)
  Φ _ := Pipeline.scopedRest (Ix := HIx 1) (Name := ℕ) (U := UU) (Lvl := ℕ) (Val := Elt F) spec1 c
  q _ := fullShare
  owed _ := 0
  recorded _ := recd W

theorem A_eq (c : Dev nD) (w : Fin cfg1.W) : (dats Vv W 0 c).A w = VV Vv c (Pipeline.arrRef spec1 w) := by
  dsimp only [dats]

theorem after1_0 (c : Dev nD) (t : Fin cfg1.N) : (dats Vv W 0 c).after 0 t = iblk Vv c 0 t := by dsimp only [dats]
theorem after1_1 (c : Dev nD) (t : Fin cfg1.N) : (dats Vv W 0 c).after 1 t = iblk Vv c 1 t := by dsimp only [dats]
theorem after1_2 (c : Dev nD) (t : Fin cfg1.N) : (dats Vv W 0 c).after 2 t = iblk Vv c 2 t := by dsimp only [dats]
theorem after1_3 (c : Dev nD) (t : Fin cfg1.N) : (dats Vv W 0 c).after 3 t = iblk Vv c 3 t := by dsimp only [dats]
theorem after1_4 (c : Dev nD) (t : Fin cfg1.N) : (dats Vv W 0 c).after 4 t = iblk Vv c 4 t := by dsimp only [dats]
theorem after1_5 (c : Dev nD) (t : Fin cfg1.N) : (dats Vv W 0 c).after 5 t = iblk Vv c 5 t := by dsimp only [dats]
theorem after1_6 (c : Dev nD) (t : Fin cfg1.N) : (dats Vv W 0 c).after 6 t = iblk Vv c 6 t := by dsimp only [dats]
theorem after1_7 (c : Dev nD) (t : Fin cfg1.N) : (dats Vv W 0 c).after 7 t = iblk Vv c 7 t := by dsimp only [dats]
theorem after1_8 (c : Dev nD) (t : Fin cfg1.N) : (dats Vv W 0 c).after 8 t = iblk Vv c 8 t := by dsimp only [dats]
theorem after1_9 (c : Dev nD) (t : Fin cfg1.N) : (dats Vv W 0 c).after 9 t = iblk Vv c 9 t := by dsimp only [dats]
theorem after1_10 (c : Dev nD) (t : Fin cfg1.N) : (dats Vv W 0 c).after 10 t = iblk Vv c 10 t := by dsimp only [dats]
theorem after1_11 (c : Dev nD) (t : Fin cfg1.N) : (dats Vv W 0 c).after 11 t = iblk Vv c 11 t := by dsimp only [dats]
theorem after1_12 (c : Dev nD) (t : Fin cfg1.N) : (dats Vv W 0 c).after 12 t = iblk Vv c 12 t := by dsimp only [dats]
theorem after1_13 (c : Dev nD) (t : Fin cfg1.N) : (dats Vv W 0 c).after 13 t = out13 (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t) := by dsimp only [dats]

/-- Input window 0's current staging buffer holds its block at every point, fetched there or not. -/
theorem before1_0 (c : Dev nD) (t : Fin cfg1.N) (d) : (dats Vv W 0 c).before 0 t d = iblk Vv c 0 t :=
  ((dats Vv W 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
/-- Input window 1's current staging buffer holds its block at every point, fetched there or not. -/
theorem before1_1 (c : Dev nD) (t : Fin cfg1.N) (d) : (dats Vv W 0 c).before 1 t d = iblk Vv c 1 t :=
  ((dats Vv W 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
/-- Input window 2's current staging buffer holds its block at every point, fetched there or not. -/
theorem before1_2 (c : Dev nD) (t : Fin cfg1.N) (d) : (dats Vv W 0 c).before 2 t d = iblk Vv c 2 t :=
  ((dats Vv W 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
/-- Input window 3's current staging buffer holds its block at every point, fetched there or not. -/
theorem before1_3 (c : Dev nD) (t : Fin cfg1.N) (d) : (dats Vv W 0 c).before 3 t d = iblk Vv c 3 t :=
  ((dats Vv W 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
/-- Input window 4's current staging buffer holds its block at every point, fetched there or not. -/
theorem before1_4 (c : Dev nD) (t : Fin cfg1.N) (d) : (dats Vv W 0 c).before 4 t d = iblk Vv c 4 t :=
  ((dats Vv W 0 c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
/-- Input window 5's current staging buffer holds its block at every point, fetched there or not. -/
theorem before1_5 (c : Dev nD) (t : Fin cfg1.N) (d) : (dats Vv W 0 c).before 5 t d = iblk Vv c 5 t :=
  ((dats Vv W 0 c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
/-- Input window 6's current staging buffer holds its block at every point, fetched there or not. -/
theorem before1_6 (c : Dev nD) (t : Fin cfg1.N) (d) : (dats Vv W 0 c).before 6 t d = iblk Vv c 6 t :=
  ((dats Vv W 0 c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
/-- Input window 7's current staging buffer holds its block at every point, fetched there or not. -/
theorem before1_7 (c : Dev nD) (t : Fin cfg1.N) (d) : (dats Vv W 0 c).before 7 t d = iblk Vv c 7 t :=
  ((dats Vv W 0 c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
/-- Input window 8's current staging buffer holds its block at every point, fetched there or not. -/
theorem before1_8 (c : Dev nD) (t : Fin cfg1.N) (d) : (dats Vv W 0 c).before 8 t d = iblk Vv c 8 t :=
  ((dats Vv W 0 c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)
/-- Input window 9's current staging buffer holds its block at every point, fetched there or not. -/
theorem before1_9 (c : Dev nD) (t : Fin cfg1.N) (d) : (dats Vv W 0 c).before 9 t d = iblk Vv c 9 t :=
  ((dats Vv W 0 c).before_in_eq_fetched 9 rfl (fun _ => rfl) (fun _ _ _ => rfl) (fun t => by rw [after1_9]; unfold Dat.blockOf iblk; rw [A_eq]; try rfl) t d).trans
    (by unfold Dat.fetched Dat.blockOf iblk; rw [A_eq]; try rfl)
/-- Input window 10's current staging buffer holds its block at every point, fetched there or not. -/
theorem before1_10 (c : Dev nD) (t : Fin cfg1.N) (d) : (dats Vv W 0 c).before 10 t d = iblk Vv c 10 t :=
  ((dats Vv W 0 c).before_in_eq_fetched 10 rfl (fun _ => rfl) (fun _ _ _ => rfl) (fun t => by rw [after1_10]; unfold Dat.blockOf iblk; rw [A_eq]; try rfl) t d).trans
    (by unfold Dat.fetched Dat.blockOf iblk; rw [A_eq]; try rfl)
/-- Input window 11's current staging buffer holds its block at every point, fetched there or not. -/
theorem before1_11 (c : Dev nD) (t : Fin cfg1.N) (d) : (dats Vv W 0 c).before 11 t d = iblk Vv c 11 t :=
  ((dats Vv W 0 c).before_in_eq_fetched 11 rfl (fun _ => rfl) (fun _ _ _ => rfl) (fun t => by rw [after1_11]; unfold Dat.blockOf iblk; rw [A_eq]; try rfl) t d).trans
    (by unfold Dat.fetched Dat.blockOf iblk; rw [A_eq]; try rfl)
/-- Input window 12's current staging buffer holds its block at every point, fetched there or not. -/
theorem before1_12 (c : Dev nD) (t : Fin cfg1.N) (d) : (dats Vv W 0 c).before 12 t d = iblk Vv c 12 t :=
  ((dats Vv W 0 c).before_in_eq_fetched 12 rfl (fun _ => rfl) (fun _ _ _ => rfl) (fun t => by rw [after1_12]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats Vv W 0 c).Φ t.castSucc ∗ (dats Vv W 0 c).owesAt none t.castSucc
    ∗ (∃ d, owns (c : Thread nD τ) (st1_0 t) fullShare ((dats Vv W 0 c).before 0 t d))
    ∗ (∃ d, owns (c : Thread nD τ) (st1_1 t) fullShare ((dats Vv W 0 c).before 1 t d))
    ∗ (∃ d, owns (c : Thread nD τ) (st1_2 t) fullShare ((dats Vv W 0 c).before 2 t d))
    ∗ (∃ d, owns (c : Thread nD τ) (st1_3 t) fullShare ((dats Vv W 0 c).before 3 t d))
    ∗ (∃ d, owns (c : Thread nD τ) (st1_4 t) fullShare ((dats Vv W 0 c).before 4 t d))
    ∗ (∃ d, owns (c : Thread nD τ) (st1_5 t) fullShare ((dats Vv W 0 c).before 5 t d))
    ∗ (∃ d, owns (c : Thread nD τ) (st1_6 t) fullShare ((dats Vv W 0 c).before 6 t d))
    ∗ (∃ d, owns (c : Thread nD τ) (st1_7 t) fullShare ((dats Vv W 0 c).before 7 t d))
    ∗ (∃ d, owns (c : Thread nD τ) (st1_8 t) fullShare ((dats Vv W 0 c).before 8 t d))
    ∗ (∃ d, owns (c : Thread nD τ) (st1_9 t) fullShare ((dats Vv W 0 c).before 9 t d))
    ∗ (∃ d, owns (c : Thread nD τ) (st1_10 t) fullShare ((dats Vv W 0 c).before 10 t d))
    ∗ (∃ d, owns (c : Thread nD τ) (st1_11 t) fullShare ((dats Vv W 0 c).before 11 t d))
    ∗ (∃ d, owns (c : Thread nD τ) (st1_12 t) fullShare ((dats Vv W 0 c).before 12 t d))
    ∗ (∃ d, owns (c : Thread nD τ) (st1_13 t) fullShare ((dats Vv W 0 c).before 13 t d)))

/-- and what it returns. -/
def bodyPost (c : Dev nD) (t : Fin cfg1.N) : sProp 𝕄 :=
  iprop((dats Vv W 0 c).Φ t.succ ∗ (dats Vv W 0 c).owesAt none t.succ
    ∗ owns (c : Thread nD τ) (st1_0 t) fullShare ((dats Vv W 0 c).after 0 t)
    ∗ owns (c : Thread nD τ) (st1_1 t) fullShare ((dats Vv W 0 c).after 1 t)
    ∗ owns (c : Thread nD τ) (st1_2 t) fullShare ((dats Vv W 0 c).after 2 t)
    ∗ owns (c : Thread nD τ) (st1_3 t) fullShare ((dats Vv W 0 c).after 3 t)
    ∗ owns (c : Thread nD τ) (st1_4 t) fullShare ((dats Vv W 0 c).after 4 t)
    ∗ owns (c : Thread nD τ) (st1_5 t) fullShare ((dats Vv W 0 c).after 5 t)
    ∗ owns (c : Thread nD τ) (st1_6 t) fullShare ((dats Vv W 0 c).after 6 t)
    ∗ owns (c : Thread nD τ) (st1_7 t) fullShare ((dats Vv W 0 c).after 7 t)
    ∗ owns (c : Thread nD τ) (st1_8 t) fullShare ((dats Vv W 0 c).after 8 t)
    ∗ owns (c : Thread nD τ) (st1_9 t) fullShare ((dats Vv W 0 c).after 9 t)
    ∗ owns (c : Thread nD τ) (st1_10 t) fullShare ((dats Vv W 0 c).after 10 t)
    ∗ owns (c : Thread nD τ) (st1_11 t) fullShare ((dats Vv W 0 c).after 11 t)
    ∗ owns (c : Thread nD τ) (st1_12 t) fullShare ((dats Vv W 0 c).after 12 t)
    ∗ owns (c : Thread nD τ) (st1_13 t) fullShare ((dats Vv W 0 c).after 13 t))

/-- The body at any point: the inputs' memrefs hold their blocks, so the body's triple applies; the invariant and the core's
    `owes` pass through unread. -/
theorem sound_body (c : Dev nD) (t : Fin cfg1.N) :
    bodyPre Vv W c t ⊢ wp frame (wpE (defs₀ (F := F)) Variants.none c none) Set.univ (bodyAt1 t) (fun _ => bodyPost Vv W c t) := by
  unfold bodyPre bodyPost bodyAt1
  simp only [before1_0, before1_1, before1_2, before1_3, before1_4, before1_5, before1_6, before1_7, before1_8, before1_9, before1_10, before1_11, before1_12]
  rw [show (dats Vv W 0 c).Φ t.succ = (dats Vv W 0 c).Φ t.castSucc from rfl,
    show (dats Vv W 0 c).owesAt none t.succ = (dats Vv W 0 c).owesAt none t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk Vv c 0 t) (iblk Vv c 1 t) (iblk Vv c 2 t) (iblk Vv c 3 t) (iblk Vv c 4 t) (iblk Vv c 5 t) (iblk Vv c 6 t) (iblk Vv c 7 t) (iblk Vv c 8 t) (iblk Vv c 9 t) (iblk Vv c 10 t) (iblk Vv c 11 t) (iblk Vv c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) Vv W 0 c) (defs₀ (F := F)) Variants.none (none : HIx 1) Set.univ := fun t => by
  rw [bigSep_W1, bigSep_W1]
  exact sound_body Vv W c t

end Cert.Kernel.MlpRegion

end
-- ==== Proof.BitsMlpReg.lean ====
/-
  The multilayer-perceptron kernel region's record: the arrays after the region, and the region as the library's launch
  theorem for a list of segments takes it.
-/
import proofs.«207198_g34918084116659_cont_8to1_b_1870_22_alg».proof.Proof.BitsMlpRegion

set_option maxRecDepth 16384

noncomputable section

namespace Cert.Kernel.MlpRegion

open Cert.Kernel Cert.Kernel.Gen Cert.Kernel.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vv : Valuation τ sig (Elt F)) (W : Waits sig (HIx 1))

/-! ## The arrays after the region -/

/-- The output window's block index at point `t` is `t`. -/
theorem idx13 : ∀ t : Fin cfg1.N, win1_13.index t (0 : Fin 1) = t.val :=
  (by decide +kernel : ∀ t : Fin grid1.N, win1_13.index t (0 : Fin 1) = t.val)

/-- Place `y` of the output's block at point `t` is row `4096 t + y` of the array. -/
theorem emb13 (t : Fin cfg1.N) (y : S4096.Idx) : ((((cfg1.win 13).blk t).view.emb y) 0).val = 4096 * t.val + (y 0).val := by
  have h : ((((cfg1.win 13).blk t).view.emb y) 0).val = win1_13.index t (0 : Fin 1) * 4096 + 1 * (y 0).val := rfl
  rw [idx13] at h
  omega

/-- An index of the output array is in point `t`'s block iff its coordinate is in the block's range. -/
theorem mem_blk13 (t : Fin cfg1.N) (i : S16384.Idx) :
    i ∈ ((cfg1.win 13).blk t).view.set ↔ ∀ a : Fin 1, win1_13.index t a * S4096.size a ≤ (i a).val ∧ (i a).val < win1_13.index t a * S4096.size a + S4096.size a := by
  show i ∈ ((View.whole main_v8).slice (win1_13.rect t)).set ↔ _
  rw [View.set_slice_whole, Rect.mem_set_unit]
  exact Iff.rfl

/-- The output's blocks cover its array. -/
theorem cover_arr13 (i : S16384.Idx) : ∃ t : Fin cfg1.N, (cfg1.win 13).flush t = true ∧ i ∈ ((cfg1.win 13).blk t).view.set := by
  refine ⟨tOf i, flush1_13 _, ?_⟩
  rw [mem_blk13]
  intro a
  match a with
  | ⟨0, _⟩ =>
    show win1_13.index (tOf i) (0 : Fin 1) * 4096 ≤ (i 0).val ∧ (i 0).val < win1_13.index (tOf i) (0 : Fin 1) * 4096 + 4096
    rw [idx13]
    show (i 0).val / 4096 * 4096 ≤ (i 0).val ∧ (i 0).val < (i 0).val / 4096 * 4096 + 4096
    omega

/-- Window 2's block at every point is its whole array. -/
theorem iblk_2 (c : Dev nD) (t : Fin cfg1.N) : iblk Vv c 2 t = Vv (Proc.devRef .tc main_v0) := by
  funext y
  have e : ((cfg1.win 2).blk t).view.emb y = y := by
    funext a; apply Fin.ext
    match a with
    | ⟨0, _⟩ => show win1_2.index t (0 : Fin 2) * 128 + 1 * (y 0).val = (y 0).val; rw [show win1_2.index t (0 : Fin 2) = 0 from rfl]; omega
    | ⟨1, _⟩ => show win1_2.index t (1 : Fin 2) * 64 + 1 * (y 1).val = (y 1).val; rw [show win1_2.index t (1 : Fin 2) = 0 from rfl]; omega
  show VV Vv c (Pipeline.arrRef spec1 2) (((cfg1.win 2).blk t).view.emb y) = Vv (Proc.devRef .tc main_v0) y
  rw [e]
/-- Window 3's block at every point is its whole array. -/
theorem iblk_3 (c : Dev nD) (t : Fin cfg1.N) : iblk Vv c 3 t = Vv (Proc.devRef .tc main_v1) := by
  funext y
  have e : ((cfg1.win 3).blk t).view.emb y = y := by
    funext a; apply Fin.ext
    match a with
    | ⟨0, _⟩ => show win1_3.index t (0 : Fin 2) * 128 + 1 * (y 0).val = (y 0).val; rw [show win1_3.index t (0 : Fin 2) = 0 from rfl]; omega
    | ⟨1, _⟩ => show win1_3.index t (1 : Fin 2) * 64 + 1 * (y 1).val = (y 1).val; rw [show win1_3.index t (1 : Fin 2) = 0 from rfl]; omega
  show VV Vv c (Pipeline.arrRef spec1 3) (((cfg1.win 3).blk t).view.emb y) = Vv (Proc.devRef .tc main_v1) y
  rw [e]
/-- Window 4's block at every point is its whole array. -/
theorem iblk_4 (c : Dev nD) (t : Fin cfg1.N) : iblk Vv c 4 t = Vv (Proc.devRef .tc main_v2) := by
  funext y
  have e : ((cfg1.win 4).blk t).view.emb y = y := by
    funext a; apply Fin.ext
    match a with
    | ⟨0, _⟩ => show win1_4.index t (0 : Fin 2) * 1 + 1 * (y 0).val = (y 0).val; rw [show win1_4.index t (0 : Fin 2) = 0 from rfl]; omega
    | ⟨1, _⟩ => show win1_4.index t (1 : Fin 2) * 64 + 1 * (y 1).val = (y 1).val; rw [show win1_4.index t (1 : Fin 2) = 0 from rfl]; omega
  show VV Vv c (Pipeline.arrRef spec1 4) (((cfg1.win 4).blk t).view.emb y) = Vv (Proc.devRef .tc main_v2) y
  rw [e]
/-- Window 5's block at every point is its whole array. -/
theorem iblk_5 (c : Dev nD) (t : Fin cfg1.N) : iblk Vv c 5 t = Vv (Proc.devRef .tc main_arg6) := by
  funext y
  have e : ((cfg1.win 5).blk t).view.emb y = y := by
    funext a; apply Fin.ext
    match a with
    | ⟨0, _⟩ => show win1_5.index t (0 : Fin 2) * 64 + 1 * (y 0).val = (y 0).val; rw [show win1_5.index t (0 : Fin 2) = 0 from rfl]; omega
    | ⟨1, _⟩ => show win1_5.index t (1 : Fin 2) * 64 + 1 * (y 1).val = (y 1).val; rw [show win1_5.index t (1 : Fin 2) = 0 from rfl]; omega
  show VV Vv c (Pipeline.arrRef spec1 5) (((cfg1.win 5).blk t).view.emb y) = Vv (Proc.devRef .tc main_arg6) y
  rw [e]
/-- Window 6's block at every point is its whole array. -/
theorem iblk_6 (c : Dev nD) (t : Fin cfg1.N) : iblk Vv c 6 t = Vv (Proc.devRef .tc main_v3) := by
  funext y
  have e : ((cfg1.win 6).blk t).view.emb y = y := by
    funext a; apply Fin.ext
    match a with
    | ⟨0, _⟩ => show win1_6.index t (0 : Fin 2) * 1 + 1 * (y 0).val = (y 0).val; rw [show win1_6.index t (0 : Fin 2) = 0 from rfl]; omega
    | ⟨1, _⟩ => show win1_6.index t (1 : Fin 2) * 64 + 1 * (y 1).val = (y 1).val; rw [show win1_6.index t (1 : Fin 2) = 0 from rfl]; omega
  show VV Vv c (Pipeline.arrRef spec1 6) (((cfg1.win 6).blk t).view.emb y) = Vv (Proc.devRef .tc main_v3) y
  rw [e]
/-- Window 7's block at every point is its whole array. -/
theorem iblk_7 (c : Dev nD) (t : Fin cfg1.N) : iblk Vv c 7 t = Vv (Proc.devRef .tc main_arg8) := by
  funext y
  have e : ((cfg1.win 7).blk t).view.emb y = y := by
    funext a; apply Fin.ext
    match a with
    | ⟨0, _⟩ => show win1_7.index t (0 : Fin 2) * 64 + 1 * (y 0).val = (y 0).val; rw [show win1_7.index t (0 : Fin 2) = 0 from rfl]; omega
    | ⟨1, _⟩ => show win1_7.index t (1 : Fin 2) * 32 + 1 * (y 1).val = (y 1).val; rw [show win1_7.index t (1 : Fin 2) = 0 from rfl]; omega
  show VV Vv c (Pipeline.arrRef spec1 7) (((cfg1.win 7).blk t).view.emb y) = Vv (Proc.devRef .tc main_arg8) y
  rw [e]
/-- Window 8's block at every point is its whole array. -/
theorem iblk_8 (c : Dev nD) (t : Fin cfg1.N) : iblk Vv c 8 t = Vv (Proc.devRef .tc main_v4) := by
  funext y
  have e : ((cfg1.win 8).blk t).view.emb y = y := by
    funext a; apply Fin.ext
    match a with
    | ⟨0, _⟩ => show win1_8.index t (0 : Fin 2) * 1 + 1 * (y 0).val = (y 0).val; rw [show win1_8.index t (0 : Fin 2) = 0 from rfl]; omega
    | ⟨1, _⟩ => show win1_8.index t (1 : Fin 2) * 32 + 1 * (y 1).val = (y 1).val; rw [show win1_8.index t (1 : Fin 2) = 0 from rfl]; omega
  show VV Vv c (Pipeline.arrRef spec1 8) (((cfg1.win 8).blk t).view.emb y) = Vv (Proc.devRef .tc main_v4) y
  rw [e]
/-- Window 9's block at every point is its whole array. -/
theorem iblk_9 (c : Dev nD) (t : Fin cfg1.N) : iblk Vv c 9 t = Vv (Proc.devRef .tc main_arg10) := by
  funext y
  have e : ((cfg1.win 9).blk t).view.emb y = y := by
    funext a; apply Fin.ext
    match a with
    | ⟨0, _⟩ => show win1_9.index t (0 : Fin 2) * 32 + 1 * (y 0).val = (y 0).val; rw [show win1_9.index t (0 : Fin 2) = 0 from rfl]; omega
    | ⟨1, _⟩ => show win1_9.index t (1 : Fin 2) * 16 + 1 * (y 1).val = (y 1).val; rw [show win1_9.index t (1 : Fin 2) = 0 from rfl]; omega
  show VV Vv c (Pipeline.arrRef spec1 9) (((cfg1.win 9).blk t).view.emb y) = Vv (Proc.devRef .tc main_arg10) y
  rw [e]
/-- Window 10's block at every point is its whole array. -/
theorem iblk_10 (c : Dev nD) (t : Fin cfg1.N) : iblk Vv c 10 t = Vv (Proc.devRef .tc main_v5) := by
  funext y
  have e : ((cfg1.win 10).blk t).view.emb y = y := by
    funext a; apply Fin.ext
    match a with
    | ⟨0, _⟩ => show win1_10.index t (0 : Fin 2) * 1 + 1 * (y 0).val = (y 0).val; rw [show win1_10.index t (0 : Fin 2) = 0 from rfl]; omega
    | ⟨1, _⟩ => show win1_10.index t (1 : Fin 2) * 16 + 1 * (y 1).val = (y 1).val; rw [show win1_10.index t (1 : Fin 2) = 0 from rfl]; omega
  show VV Vv c (Pipeline.arrRef spec1 10) (((cfg1.win 10).blk t).view.emb y) = Vv (Proc.devRef .tc main_v5) y
  rw [e]
/-- Window 11's block at every point is its whole array. -/
theorem iblk_11 (c : Dev nD) (t : Fin cfg1.N) : iblk Vv c 11 t = Vv (Proc.devRef .tc main_arg12) := by
  funext y
  have e : ((cfg1.win 11).blk t).view.emb y = y := by
    funext a; apply Fin.ext
    match a with
    | ⟨0, _⟩ => show win1_11.index t (0 : Fin 2) * 16 + 1 * (y 0).val = (y 0).val; rw [show win1_11.index t (0 : Fin 2) = 0 from rfl]; omega
    | ⟨1, _⟩ => show win1_11.index t (1 : Fin 2) * 1 + 1 * (y 1).val = (y 1).val; rw [show win1_11.index t (1 : Fin 2) = 0 from rfl]; omega
  show VV Vv c (Pipeline.arrRef spec1 11) (((cfg1.win 11).blk t).view.emb y) = Vv (Proc.devRef .tc main_arg12) y
  rw [e]
/-- Window 12's block at every point is its whole array. -/
theorem iblk_12 (c : Dev nD) (t : Fin cfg1.N) : iblk Vv c 12 t = Vv (Proc.devRef .tc main_v6) := by
  funext y
  have e : ((cfg1.win 12).blk t).view.emb y = y := by
    funext a; apply Fin.ext
    match a with
    | ⟨0, _⟩ => show win1_12.index t (0 : Fin 2) * 1 + 1 * (y 0).val = (y 0).val; rw [show win1_12.index t (0 : Fin 2) = 0 from rfl]; omega
    | ⟨1, _⟩ => show win1_12.index t (1 : Fin 2) * 1 + 1 * (y 1).val = (y 1).val; rw [show win1_12.index t (1 : Fin 2) = 0 from rfl]; omega
  show VV Vv c (Pipeline.arrRef spec1 12) (((cfg1.win 12).blk t).view.emb y) = Vv (Proc.devRef .tc main_v6) y
  rw [e]

/-- What point `t` writes back is block `t` of the region's result. -/
theorem flushed13_eq (c : Dev nD) (t : Fin cfg1.N) :
    (dats Vv W 0 c).flushed 13 t = ((cfg1.win 13).blk t).view.read (Elt F) (mlpOutV Vv) := by
  show (cfg1.win 13).cut (grid1.coords t) ((dats Vv W 0 c).after 13 t) = _
  rw [after1_13]
  simp only [iblk_2, iblk_3, iblk_4, iblk_5, iblk_6, iblk_7, iblk_8, iblk_9, iblk_10, iblk_11, iblk_12]
  funext y
  have key := mlpOut_at (Vv (Proc.devRef .tc main_v7_0)) (Vv (Proc.devRef .tc main_v7_1)) (Vv (Proc.devRef .tc main_v0)) (Vv (Proc.devRef .tc main_v1)) (Vv (Proc.devRef .tc main_v2)) (Vv (Proc.devRef .tc main_arg6)) (Vv (Proc.devRef .tc main_v3)) (Vv (Proc.devRef .tc main_arg8)) (Vv (Proc.devRef .tc main_v4)) (Vv (Proc.devRef .tc main_arg10)) (Vv (Proc.devRef .tc main_v5)) (Vv (Proc.devRef .tc main_arg12)) (Vv (Proc.devRef .tc main_v6)) t (((cfg1.win 13).blk t).view.emb y) y (emb13 t y)
  rw [View.read_apply]
  unfold mlpOutV
  rw [key]
  rw [cast_eq]
  rfl

/-- The output array after the region is the region's result. -/
theorem arrAt13 (c : Dev nD) : (dats Vv W 0 c).arrAt 13 cfg1.N = mlpOutV Vv :=
  (dats Vv W 0 c).arrAt_eq_of_cover 13 (mlpOutV Vv) (fun t _ => flushed13_eq Vv W c t) cover_arr13

/-- The final valuation at the output array, and elsewhere. -/
theorem Vout_v8 : Vout Vv v8' = mlpOutV Vv := Function.update_self v8' (mlpOutV Vv) Vv
theorem Vout_of_ne (b : DevRef τ sig) (h : b ≠ v8') : Vout Vv b = Vv b := Function.update_of_ne h (mlpOutV Vv) Vv

/-- Every array after the region is the final valuation's. -/
theorem arrAt_final (c : Dev nD) (w : Fin cfg1.W) : (dats Vv W 0 c).arrAt w cfg1.N = VV (Vout Vv) c (Pipeline.arrRef spec1 w) := by
  match w with
  | ⟨0, _⟩ => exact ((dats Vv W 0 c).arrAt_in 0 rfl _).trans ((A_eq Vv W c 0).trans (Vout_of_ne Vv (Proc.devRef .tc main_v7_0) (by decide)).symm)
  | ⟨1, _⟩ => exact ((dats Vv W 0 c).arrAt_in 1 rfl _).trans ((A_eq Vv W c 1).trans (Vout_of_ne Vv (Proc.devRef .tc main_v7_1) (by decide)).symm)
  | ⟨2, _⟩ => exact ((dats Vv W 0 c).arrAt_in 2 rfl _).trans ((A_eq Vv W c 2).trans (Vout_of_ne Vv (Proc.devRef .tc main_v0) (by decide)).symm)
  | ⟨3, _⟩ => exact ((dats Vv W 0 c).arrAt_in 3 rfl _).trans ((A_eq Vv W c 3).trans (Vout_of_ne Vv (Proc.devRef .tc main_v1) (by decide)).symm)
  | ⟨4, _⟩ => exact ((dats Vv W 0 c).arrAt_in 4 rfl _).trans ((A_eq Vv W c 4).trans (Vout_of_ne Vv (Proc.devRef .tc main_v2) (by decide)).symm)
  | ⟨5, _⟩ => exact ((dats Vv W 0 c).arrAt_in 5 rfl _).trans ((A_eq Vv W c 5).trans (Vout_of_ne Vv (Proc.devRef .tc main_arg6) (by decide)).symm)
  | ⟨6, _⟩ => exact ((dats Vv W 0 c).arrAt_in 6 rfl _).trans ((A_eq Vv W c 6).trans (Vout_of_ne Vv (Proc.devRef .tc main_v3) (by decide)).symm)
  | ⟨7, _⟩ => exact ((dats Vv W 0 c).arrAt_in 7 rfl _).trans ((A_eq Vv W c 7).trans (Vout_of_ne Vv (Proc.devRef .tc main_arg8) (by decide)).symm)
  | ⟨8, _⟩ => exact ((dats Vv W 0 c).arrAt_in 8 rfl _).trans ((A_eq Vv W c 8).trans (Vout_of_ne Vv (Proc.devRef .tc main_v4) (by decide)).symm)
  | ⟨9, _⟩ => exact ((dats Vv W 0 c).arrAt_in 9 rfl _).trans ((A_eq Vv W c 9).trans (Vout_of_ne Vv (Proc.devRef .tc main_arg10) (by decide)).symm)
  | ⟨10, _⟩ => exact ((dats Vv W 0 c).arrAt_in 10 rfl _).trans ((A_eq Vv W c 10).trans (Vout_of_ne Vv (Proc.devRef .tc main_v5) (by decide)).symm)
  | ⟨11, _⟩ => exact ((dats Vv W 0 c).arrAt_in 11 rfl _).trans ((A_eq Vv W c 11).trans (Vout_of_ne Vv (Proc.devRef .tc main_arg12) (by decide)).symm)
  | ⟨12, _⟩ => exact ((dats Vv W 0 c).arrAt_in 12 rfl _).trans ((A_eq Vv W c 12).trans (Vout_of_ne Vv (Proc.devRef .tc main_v6) (by decide)).symm)
  | ⟨13, _⟩ => exact (arrAt13 Vv W c).trans (Vout_v8 Vv).symm

/-- The fourteen arrays held at a valuation are the windows' arrays at it, one by one. -/
theorem held_arrays (c : Dev nD) (V' : Valuation τ sig (Elt F)) :
    (StableHlo.held (c : Thread nD τ) Sreg V' : sProp 𝕄)
      = bigSep Finset.univ fun w : Fin 14 => (((c : Thread nD τ).loc (Pipeline.arrRef spec1 w)) ↦{fullShare} VV V' c (Pipeline.arrRef spec1 w) : sProp 𝕄) := by
  unfold StableHlo.held
  rw [Sreg_eq, bigSep_map]
  rfl

set_option backward.isDefEq.respectTransparency.types false in
/-- The proof data's arrays after `n` points, when they are a valuation's, are the fourteen arrays held at it. -/
theorem arrays_held (c : Dev nD) (n : Nat) (V' : Valuation τ sig (Elt F))
    (h : ∀ w, (dats Vv W 0 c).arrAt w n = VV V' c (Pipeline.arrRef spec1 w)) :
    ((dats Vv W 0 c).arrays ((dats Vv W 0 c).arrAt · n) : sProp 𝕄) = StableHlo.held (c : Thread nD τ) Sreg V' := by
  rw [held_arrays, Pipeline.arrays_eq (Pipeline.pin (pcfgs (F := F)) adm) (dats Vv W) 0 c launch1.arr_whole ((dats Vv W 0 c).share_full fun _ => rfl)]
  exact bigSep_congr fun w _ => by rw [h w]

/-! ## The region -/

set_option backward.isDefEq.respectTransparency.types false in
/-- THE REGION: the launch's layout, no semaphore of the kernel's own, the body obligation; entered from the fourteen
    arrays held at the entry valuation and the core owing nothing, left with them at the final valuation. -/
def reg : Pipeline.RegionSeg (pcfgs (F := F)) adm (dats Vv W) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation Vv W c).loose
  hwaits := Pipeline.hwaits_of_owed_zero _ _ _ _ _ _ 0 fun _ _ => rfl
  pre c := iprop(StableHlo.held (c : Thread nD τ) Sreg Vv ∗ owes (c : Thread nD τ) (0 : CellTallies nD τ sig (HIx 1)) W)
  post c := iprop(StableHlo.held (c : Thread nD τ) Sreg (Vout Vv)
    ∗ ∃ W', ⌜∀ p ∈ W', p ∈ W ∨ p.2 = none⌝ ∗ owes (c : Thread nD τ) (0 : CellTallies nD τ sig (HIx 1)) W')
  X _ := iprop(emp)
  Y _ := iprop(emp)
  Z _ := iprop(emp)
  hentry c := by
    rw [← arrays_held Vv W c 0 Vv (fun w => A_eq Vv W c w)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl (Finset.mem_coe.mp hp))
      iexact HO
    isplitr <;> iempintro
  hin c := by
    rw [show (dats Vv W 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (dats Vv W 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    rw [arrays_held Vv W c cfg1.N (Vout Vv) (arrAt_final Vv W c)]
    iintro ⟨Ha, HO, -, -⟩
    imodintro
    isplitl [Ha]; · iexact Ha
    unfold Pipeline.Dat.owesAt Pipeline.owesWithin
    icases HO with ⟨%W', %hW', HO⟩
    iexists W'; isplitr
    · ipureintro
      intro p hp
      rcases hW' (Finset.mem_coe.mpr hp) with h | ⟨w, s, rfl⟩
      · exact h
      · exact Or.inr rfl
    iexact HO

/-! ## The step -/

/-- The region's call, lifted to the extended signature, is the call of the lifted label. -/
theorem lift_eq : (SparseCore.liftProg (Q := 1) (Prog.lift (.customCall (Pipeline.entry 0) ())) : Prog (TpuEff nD τ sig (Elt F) (SparseCore.Sig (ΛP (F := F)) 1) .tc) PUnit)
    = Prog.lift (.customCall (SparseCore.inner (Pipeline.entry 0)) ()) := rfl

/-- A proof about the region's call under the program's body table is one under the extended table. -/
theorem lift_call (d : Dev nD) {Φ : PUnit → sProp 𝕄} :
    wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ
          (Prog.lift (.customCall (SparseCore.inner (Pipeline.entry 0)) ())) Φ := by
  have h := (K (F := F)).wp_liftProg (nD := nD) (Name := ℕ) (U := UU) (D (F := F)) 𝒱 (SparseCore.T d) Set.univ none (Prog.lift (.customCall (Pipeline.entry 0) ())) Φ
  rw [lift_eq] at h
  exact h

end Cert.Kernel.MlpRegion

end
-- ==== Proof.BitsMlpCall.lean ====
/-
  The multilayer-perceptron kernel region's step of the program's main function on the TensorCore, inside the launch of
  the whole family of threads: the region's call under the extended body table, run by the library's rule for a region.
-/
import proofs.«207198_g34918084116659_cont_8to1_b_1870_22_alg».proof.Proof.BitsMlpReg

set_option maxRecDepth 16384

noncomputable section

namespace Cert.Kernel.MlpRegion

open Cert.Kernel Cert.Kernel.Gen Cert.Kernel.Launch

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vv : Valuation τ sig (Elt F)) (W : Waits sig (HIx 1))

set_option backward.isDefEq.respectTransparency.types false in
/-- THE REGION'S STEP on the TensorCore, inside the program's main function under the extended body table: from the level
    facts, the region boundary, the fourteen arrays held at a valuation, the core owing nothing and the pipeline's
    staging cells' ghost state, the region's call runs to the boundary, the arrays at the final valuation and the core
    owing nothing, its recorded pairs the earlier ones or at the kernels' own index. -/
theorem mlp_call (d : Dev nD) {Φ : PUnit → sProp 𝕄} :
    iprop(levAts (K (F := F)).L (K (F := F)).lev ∗ boundary (SparseCore.T d) ∗ StableHlo.held (SparseCore.T d) Sreg Vv
          ∗ owes (SparseCore.T d) (0 : CellTallies nD τ sig (HIx 1)) W
          ∗ Pipeline.cellsGhost (Pipeline.pin (pcfgs (F := F)) (adm (F := F))) EP 0 d ∗ Pipeline.toksInit (Pipeline.pin (pcfgs (F := F)) (adm (F := F))) EP 0 d
          ∗ (iprop(boundary (SparseCore.T d) ∗ StableHlo.held (SparseCore.T d) Sreg (Vout Vv)
              ∗ ∃ W', ⌜∀ p ∈ W', p ∈ W ∨ p.2 = none⌝ ∗ owes (SparseCore.T d) (0 : CellTallies nD τ sig (HIx 1)) W') -∗ Φ ⟨⟩))
      ⊢ wp frame (wpE ((K (F := F)).defs (D (F := F))) 𝒱 (SparseCore.T d) none) Set.univ
          (Prog.lift (.customCall (SparseCore.inner (Pipeline.entry 0)) ())) Φ := by
  have h2 := Pipeline.RegionSeg.wp (pcfgs (F := F)) adm (dats Vv W) (none : HIx 1) cellOf_inj EP defs₀ 𝒱₀ (K (F := F)).L (K (F := F)).lev
    (reg Vv W) d none (fun u hu => by cases hu) (α := PUnit.{1}) (fun _ => Prog.ret PUnit.unit) Φ
  have hpre : (reg Vv W).pre d = iprop(StableHlo.held (SparseCore.T d) Sreg Vv ∗ owes (SparseCore.T d) (0 : CellTallies nD τ sig (HIx 1)) W) := rfl
  have hpost : (reg Vv W).post d = iprop(StableHlo.held (SparseCore.T d) Sreg (Vout Vv)
      ∗ ∃ W', ⌜∀ p ∈ W', p ∈ W ∨ p.2 = none⌝ ∗ owes (SparseCore.T d) (0 : CellTallies nD τ sig (HIx 1)) W') := rfl
  rw [hpre, hpost] at h2
  refine BIBase.Entails.trans ?_ (lift_call d)
  refine BIBase.Entails.trans ?_ h2
  iintro ⟨#Hlev, Hb, Hh, Ho, Hg, Ht, Hk⟩
  isplitl [Hk]
  · iintro ⟨Hb, Hh, HO⟩
    rw [wp_ret]; imodintro
    iapply Hk
    isplitl [Hb]; · iexact Hb
    isplitl [Hh]; · iexact Hh
    iexact HO
  isplitl [Hb]; · iexact Hb
  isplitl [Hh Ho]
  · isplitl [Hh] <;> iassumption
  isplitr; · iexact Hlev
  isplitl [Hg] <;> iassumption

end Cert.Kernel.MlpRegion

end
-- ==== Proof.BitsGlueFrame.lean ====
import proofs.«207198_g34918084116659_cont_8to1_b_1870_22_alg».proof.Proof.BitsMainDefs
import proofs.«207198_g34918084116659_cont_8to1_b_1870_22_alg».proof.Proof.PreDecode

/-! The kernel program's run, read at @main's arguments.

The program's host operations and its two kernels write eleven arrays, none of them an argument: an argument's
contents after the run are its launch contents. With the precondition read back into the index ranges the run
needs, this is the program's frame. -/

noncomputable section

namespace Cert.Kernel.Glue

open Cert.Kernel Cert.Kernel.Gen Cert.Kernel.Launch
open Idealize.ShloMosaic Idealize.SL.Sem Idealize.ShloMosaic.StableHlo

variable {F : FTy → Type} [FloatOps F]

/-- The arrays the host operations and the two kernels write. -/
abbrev Wr : List (Ref sig .tc) :=
  [main_v0, main_v1, main_v2, main_v3, main_v4, main_v5, main_v6, main_v7_0, main_v7_1, main_v8, main_v9]

/-- An array none of them writes ends at its launch contents. -/
theorem V4_keep (m : (ℓ : Loc nD τ sig) → Buf (Elt F) ℓ) (d : Dev nD) (r : Ref sig .tc) (h : r ∉ Wr) :
    V4 m d (Proc.devRef .tc r) = m (d, Proc.devRef .tc r) := by
  have ne : ∀ y, y ∈ Wr → r ≠ y := fun y hy e => h (e ▸ hy)
  calc V4 m d (Proc.devRef .tc r) = V3 m d (Proc.devRef .tc r) :=
        reshape_result_ne _ _ _ _ _ _ _ (ne main_v9 (by decide))
    _ = V2 m d (Proc.devRef .tc r) := Function.update_of_ne (devRef_ne_of_ne (ne main_v8 (by decide))) _ _
    _ = V1 m d (Proc.devRef .tc r) := by
        unfold V2
        rw [Function.update_of_ne (devRef_ne_of_ne (ne main_v7_1 (by decide))),
          Function.update_of_ne (devRef_ne_of_ne (ne main_v7_0 (by decide)))]
    _ = V0 m d (Proc.devRef .tc r) := by
        unfold V1
        rw [reshape_result_ne _ _ _ _ _ _ _ (ne main_v6 (by decide)), reshape_result_ne _ _ _ _ _ _ _ (ne main_v5 (by decide)),
          reshape_result_ne _ _ _ _ _ _ _ (ne main_v4 (by decide)), reshape_result_ne _ _ _ _ _ _ _ (ne main_v3 (by decide)),
          reshape_result_ne _ _ _ _ _ _ _ (ne main_v2 (by decide)), unary_result_ne _ _ _ _ _ _ (ne main_v1 (by decide)),
          unary_result_ne _ _ _ _ _ _ (ne main_v0 (by decide))]
    _ = m (d, Proc.devRef .tc r) := rfl

/-- An array the seven host operations on the weights do not write is, after them, at its launch contents. -/
theorem V1_keep (m : (ℓ : Loc nD τ sig) → Buf (Elt F) ℓ) (d : Dev nD) (r : Ref sig .tc)
    (h : r ∉ ([main_v0, main_v1, main_v2, main_v3, main_v4, main_v5, main_v6] : List (Ref sig .tc))) :
    V1 m d (Proc.devRef .tc r) = m (d, Proc.devRef .tc r) := by
  have ne : ∀ y, y ∈ ([main_v0, main_v1, main_v2, main_v3, main_v4, main_v5, main_v6] : List (Ref sig .tc)) → r ≠ y :=
    fun y hy e => h (e ▸ hy)
  unfold V1
  rw [reshape_result_ne _ _ _ _ _ _ _ (ne main_v6 (by decide)), reshape_result_ne _ _ _ _ _ _ _ (ne main_v5 (by decide)),
    reshape_result_ne _ _ _ _ _ _ _ (ne main_v4 (by decide)), reshape_result_ne _ _ _ _ _ _ _ (ne main_v3 (by decide)),
    reshape_result_ne _ _ _ _ _ _ _ (ne main_v2 (by decide)), unary_result_ne _ _ _ _ _ _ (ne main_v1 (by decide)),
    unary_result_ne _ _ _ _ _ _ (ne main_v0 (by decide))]
  rfl

/-- An unscoped TensorCore buffer is one of @main's arrays. -/
theorem mem_Sall (r : Ref sig .tc) (h : r.isScoped = false) : (Proc.devRef .tc r : DevRef τ sig) ∈ Sall :=
  Finset.mem_map_of_mem _ (Finset.mem_filter.mpr ⟨Finset.mem_univ _, by rw [h]; decide⟩)

/-- The run's statement: from a memory whose index arrays are in range, every weakly fair execution terminates with
    each of @main's arrays at the value the stretches of @main leave. -/
def RunsTo (F : FTy → Type) [FloatOps F] : Prop :=
  ∀ (m : (ℓ : Loc nD τ sig) → Buf (Elt F) ℓ) (ρ : Dev nD → PrngReg),
    (∀ d j, (m (uidLoc d) j).toNat < 100000) → (∀ d j, (m (iidLoc d) j).toNat < 100000) →
    θ_run (Cert.Kernel.defs (F := F)) (Cert.Kernel.threads (F := F)) ⟨m, fun _ => 0, ρ⟩
      (fun r => ∀ d : Dev nD, ∀ b ∈ Sall, r.2.mem (d, b) = V4 m d b)

/-- The precondition, at any float values: the input-domain predicate of the arguments is all ones. -/
def PreAt [Cert.Pre_input_domain.Facts] (m : (ℓ : Loc nD τ sig) → Buf (Elt F) ℓ) : Prop :=
  ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = (fun _ => 1#1)

/-- Under the precondition both index arrays are in range. -/
theorem ranges [Cert.Pre_input_domain.Facts] (m : (ℓ : Loc nD τ sig) → Buf (Elt F) ℓ) (hpre : PreAt m) :
    (∀ d j, (m (uidLoc d) j).toNat < 100000) ∧ (∀ d j, (m (iidLoc d) j).toNat < 100000) :=
  ⟨fun d => (Cert.PreDecode.idx_in_range _ _ _ _ _ _ _ _ _ _ _ _ _ _ (hpre d)).1,
    fun d => (Cert.PreDecode.idx_in_range _ _ _ _ _ _ _ _ _ _ _ _ _ _ (hpre d)).2⟩

/-- THE FRAME: under the precondition the program runs and every argument ends unchanged. -/
theorem frame [Cert.Pre_input_domain.Facts] (hrun : RunsTo F) (m : (ℓ : Loc nD τ sig) → Buf (Elt F) ℓ) (g : Dev nD → PrngReg)
    (hpre : PreAt m) :
    θ_run (Cert.Kernel.defs (F := F)) (Cert.Kernel.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c => ⟨(h c _ (mem_Sall main_arg0 rfl)).trans (V4_keep m c main_arg0 (by decide)),
      (h c _ (mem_Sall main_arg1 rfl)).trans (V4_keep m c main_arg1 (by decide)),
      (h c _ (mem_Sall main_arg2 rfl)).trans (V4_keep m c main_arg2 (by decide)),
      (h c _ (mem_Sall main_arg3 rfl)).trans (V4_keep m c main_arg3 (by decide)),
      (h c _ (mem_Sall main_arg4 rfl)).trans (V4_keep m c main_arg4 (by decide)),
      (h c _ (mem_Sall main_arg5 rfl)).trans (V4_keep m c main_arg5 (by decide)),
      (h c _ (mem_Sall main_arg6 rfl)).trans (V4_keep m c main_arg6 (by decide)),
      (h c _ (mem_Sall main_arg7 rfl)).trans (V4_keep m c main_arg7 (by decide)),
      (h c _ (mem_Sall main_arg8 rfl)).trans (V4_keep m c main_arg8 (by decide)),
      (h c _ (mem_Sall main_arg9 rfl)).trans (V4_keep m c main_arg9 (by decide)),
      (h c _ (mem_Sall main_arg10 rfl)).trans (V4_keep m c main_arg10 (by decide)),
      (h c _ (mem_Sall main_arg11 rfl)).trans (V4_keep m c main_arg11 (by decide)),
      (h c _ (mem_Sall main_arg12 rfl)).trans (V4_keep m c main_arg12 (by decide)),
      (h c _ (mem_Sall main_arg13 rfl)).trans (V4_keep m c main_arg13 (by decide))⟩)
    (hrun m g (ranges m hpre).1 (ranges m hpre).2)

end Cert.Kernel.Glue

end
-- ==== Proof.BitsMain.lean ====
/-
  @main of the kernel program on the TensorCore, run: seven host operations slice and reshape the weights; the
  SparseCore call gathers the table rows, every task at its read share of the inputs and its own rows of the results;
  the TensorCore region computes the multilayer perceptron block by block; a last host operation reshapes its result to
  a column. Every array of @main ends at its value as a function of the launch memory.
-/
import proofs.«207198_g34918084116659_cont_8to1_b_1870_22_alg».proof.Proof.BitsLaunchA
import proofs.«207198_g34918084116659_cont_8to1_b_1870_22_alg».proof.Proof.BitsSplit
import proofs.«207198_g34918084116659_cont_8to1_b_1870_22_alg».proof.Proof.BitsMainDefs
import proofs.«207198_g34918084116659_cont_8to1_b_1870_22_alg».proof.Proof.BitsMlpCall
import proofs.«207198_g34918084116659_cont_8to1_b_1870_22_alg».proof.Proof.BitsGlueFrame

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sub_split held_congr held_sdiff_result wp_hlo_within)

variable (m : (ℓ : Loc nD τ sig) → Buf (Elt F) ℓ) (ρ : Dev nD → PrngReg)

variable [FloatOps F]

/-! ## The launch's deal as a valuation -/

theorem unscoped_held (d : Dev nD) : (unscopedBufs d (fun b => m ((SparseCore.T d).loc b)) : sProp 𝕄) = held (T d) Sall (V0 m d) := by
  unfold unscopedBufs held Sall
  rw [bigSep_map]
  rfl

/-- The six arrays the SparseCore call moves. -/
def T6 : Finset (DevRef τ sig) :=
  {Proc.devRef .tc (main_arg0 : Ref sig .tc), Proc.devRef .tc (main_arg1 : Ref sig .tc), Proc.devRef .tc (main_arg2 : Ref sig .tc),
   Proc.devRef .tc (main_arg3 : Ref sig .tc), ou', oi'}

omit [FloatOps F] in
theorem T6_sub : T6 ⊆ Sall := by decide
omit [FloatOps F] in
theorem Sreg_sub : MlpRegion.Sreg ⊆ Sall := by decide

omit [FloatOps F] in
theorem held_T6 (d : Dev nD) (Vv : Valuation τ sig (Elt F)) :
    (held (T d) T6 Vv : sProp 𝕄)
      = iprop((uidLoc d ↦{fullShare} Vv (Proc.devRef .tc (main_arg0 : Ref sig .tc))) ∗ (iidLoc d ↦{fullShare} Vv (Proc.devRef .tc (main_arg1 : Ref sig .tc)))
          ∗ (utLoc d ↦{fullShare} Vv (Proc.devRef .tc (main_arg2 : Ref sig .tc))) ∗ (itLoc d ↦{fullShare} Vv (Proc.devRef .tc (main_arg3 : Ref sig .tc)))
          ∗ (ouLoc d ↦{fullShare} Vv ou') ∗ (oiLoc d ↦{fullShare} Vv oi')) := by
  unfold held T6
  rw [SparseCore.bigSep_insert' (by decide), SparseCore.bigSep_insert' (by decide), SparseCore.bigSep_insert' (by decide),
    SparseCore.bigSep_insert' (by decide), SparseCore.bigSep_insert' (by decide), bigSep_singleton]

/-! ## The call's operands, split among the tasks -/

theorem st0_eq (d : Dev nD) :
    (bigSep Finset.univ fun c : Fin ((K (F := F)).nCore 0) => (P m).st 0 d c)
      = iprop((bigSep Finset.univ fun c : Fin 2 => bigSep Finset.univ fun i : Fin 16 => uidLoc d ↦{qT c i} m (uidLoc d))
    ∗ (bigSep Finset.univ fun c : Fin 2 => bigSep Finset.univ fun i : Fin 16 => iidLoc d ↦{qT c i} m (iidLoc d))
    ∗ (bigSep Finset.univ fun c : Fin 2 => bigSep Finset.univ fun i : Fin 16 => utLoc d ↦{qT c i} m (utLoc d))
    ∗ (bigSep Finset.univ fun c : Fin 2 => bigSep Finset.univ fun i : Fin 16 => itLoc d ↦{qT c i} m (itLoc d))
    ∗ (bigSep Finset.univ fun c : Fin 2 => bigSep Finset.univ fun i : Fin 16 => ouLoc d ↦[(ou1 (coordsV c i)).view.set]{fullShare} m (ouLoc d))
    ∗ (bigSep Finset.univ fun c : Fin 2 => bigSep Finset.univ fun i : Fin 16 => ouLoc d ↦[(ou2 (coordsV c i)).view.set]{fullShare} m (ouLoc d))
    ∗ (bigSep Finset.univ fun c : Fin 2 => bigSep Finset.univ fun i : Fin 16 => oiLoc d ↦[(oi1 (coordsV c i)).view.set]{fullShare} m (oiLoc d))
    ∗ (bigSep Finset.univ fun c : Fin 2 => bigSep Finset.univ fun i : Fin 16 => oiLoc d ↦[(oi2 (coordsV c i)).view.set]{fullShare} m (oiLoc d))) := by
  show (bigSep Finset.univ fun c : Fin 2 => bigSep Finset.univ fun i : Fin 16 => tileGo m (qT c i) d (coordsV c i)) = _
  unfold tileGo
  simp only [bigSep_sep']
theorem dn0_eq (d : Dev nD) :
    (bigSep Finset.univ fun c : Fin ((K (F := F)).nCore 0) => (P m).dn 0 d c)
      = iprop((bigSep Finset.univ fun c : Fin 2 => bigSep Finset.univ fun i : Fin 16 => uidLoc d ↦{qT c i} m (uidLoc d))
    ∗ (bigSep Finset.univ fun c : Fin 2 => bigSep Finset.univ fun i : Fin 16 => iidLoc d ↦{qT c i} m (iidLoc d))
    ∗ (bigSep Finset.univ fun c : Fin 2 => bigSep Finset.univ fun i : Fin 16 => utLoc d ↦{qT c i} m (utLoc d))
    ∗ (bigSep Finset.univ fun c : Fin 2 => bigSep Finset.univ fun i : Fin 16 => itLoc d ↦{qT c i} m (itLoc d))
    ∗ (bigSep Finset.univ fun c : Fin 2 => bigSep Finset.univ fun i : Fin 16 => ouLoc d ↦[(ou1 (coordsV c i)).view.set]{fullShare} Gu m d)
    ∗ (bigSep Finset.univ fun c : Fin 2 => bigSep Finset.univ fun i : Fin 16 => ouLoc d ↦[(ou2 (coordsV c i)).view.set]{fullShare} Gu m d)
    ∗ (bigSep Finset.univ fun c : Fin 2 => bigSep Finset.univ fun i : Fin 16 => oiLoc d ↦[(oi1 (coordsV c i)).view.set]{fullShare} Gi m d)
    ∗ (bigSep Finset.univ fun c : Fin 2 => bigSep Finset.univ fun i : Fin 16 => oiLoc d ↦[(oi2 (coordsV c i)).view.set]{fullShare} Gi m d)) := by
  show (bigSep Finset.univ fun c : Fin 2 => bigSep Finset.univ fun i : Fin 16 => tileTd m (qT c i) d (coordsV c i)) = _
  unfold tileTd
  simp only [bigSep_sep']

omit [FloatOps F] in
theorem ou_rows' (d : Dev nD) (f : Buf (Elt F) (ouLoc d)) :
    (ouLoc d ↦{fullShare} f : sProp 𝕄) = iprop((bigSep Finset.univ fun c : Fin 2 => bigSep Finset.univ fun i : Fin 16 => ouLoc d ↦[(ou1 (coordsV c i)).view.set]{fullShare} f)
      ∗ (bigSep Finset.univ fun c : Fin 2 => bigSep Finset.univ fun i : Fin 16 => ouLoc d ↦[(ou2 (coordsV c i)).view.set]{fullShare} f)) := by
  rw [ou_rows]; simp only [bigSep_sep']
omit [FloatOps F] in
theorem oi_rows' (d : Dev nD) (f : Buf (Elt F) (oiLoc d)) :
    (oiLoc d ↦{fullShare} f : sProp 𝕄) = iprop((bigSep Finset.univ fun c : Fin 2 => bigSep Finset.univ fun i : Fin 16 => oiLoc d ↦[(oi1 (coordsV c i)).view.set]{fullShare} f)
      ∗ (bigSep Finset.univ fun c : Fin 2 => bigSep Finset.univ fun i : Fin 16 => oiLoc d ↦[(oi2 (coordsV c i)).view.set]{fullShare} f)) := by
  rw [oi_rows]; simp only [bigSep_sep']

/-- What @main leaves the claim: every array of @main at its final value. -/
abbrev FIN (d : Dev nD) : sProp 𝕄 := held (T d) Sall (V4 m d)

/-! ## The valuations at the arrays the kernels move -/

theorem V2_ou (d : Dev nD) : V2 m d ou' = Gu m d := by
  unfold V2; rw [Function.update_of_ne (show ou' ≠ oi' by decide), Function.update_self]
theorem V2_oi (d : Dev nD) : V2 m d oi' = Gi m d := by
  unfold V2; rw [Function.update_self]
theorem V2_arg (d : Dev nD) (r : Ref sig .tc) (h : r ∉ [main_v0, main_v1, main_v2, main_v3, main_v4, main_v5, main_v6]) (h0 : r ≠ main_v7_0) (h1 : r ≠ main_v7_1) :
    V2 m d (Proc.devRef .tc r) = m (d, Proc.devRef .tc r) := by
  unfold V2
  rw [Function.update_of_ne (fun e => h1 (Proc.devRef_injective _ e)), Function.update_of_ne (fun e => h0 (Proc.devRef_injective _ e)), Glue.V1_keep m d r h]
theorem V2_off (d : Dev nD) : ∀ b ∈ Sall \ T6, V1 m d b = V2 m d b := by
  intro b hb
  have hb' := (Finset.mem_sdiff.mp hb).2
  have h1 : b ≠ oi' := fun e => hb' (by rw [e]; decide)
  have h0 : b ≠ ou' := fun e => hb' (by rw [e]; decide)
  unfold V2
  rw [Function.update_of_ne h1, Function.update_of_ne h0]
theorem V3_off (d : Dev nD) : ∀ b ∈ Sall \ MlpRegion.Sreg, V2 m d b = V3 m d b := by
  intro b hb
  have hb' := (Finset.mem_sdiff.mp hb).2
  have h8 : b ≠ MlpRegion.v8' := fun e => hb' (by rw [e]; decide)
  show V2 m d b = Function.update (V2 m d) MlpRegion.v8' _ b
  rw [Function.update_of_ne h8]

omit [FloatOps F] in
theorem wbelow_after {d : Dev nD} {W W' : Waits sig (HIx 1)} (hW : (K (F := F)).WBelow (SparseCore.T d) W 8) (h : ∀ p ∈ W', p ∈ W ∨ p.2 = none) :
    (K (F := F)).WBelow (SparseCore.T d) W' 8 := fun p hp => by
  rcases h p hp with hp | hp
  · exact hW p hp
  · rw [hp]; exact (Nat.le_of_eq ((K (F := F)).lev_none _)).trans (Nat.zero_le _)

omit [FloatOps F] in
theorem pair_sub (x y : Ref sig .tc) (hx : x.isScoped = false) (hy : y.isScoped = false) :
    ({(Proc.devRef .tc x : DevRef τ sig), (Proc.devRef .tc y : DevRef τ sig)} : Finset (DevRef τ sig)) ⊆ Sall :=
  Finset.insert_subset_iff.mpr ⟨Glue.mem_Sall x hx, Finset.singleton_subset_iff.mpr (Glue.mem_Sall y hy)⟩

/-! ## @main -/

theorem hmain (κ : GSem nD τ sig → ℕ) (d : Dev nD) :
    iprop((K (F := F)).ctx EH (P m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, ⟨Hcg, Hti⟩⟩
  -- the seven host operations on the weights
  iapply (wp_hlo_within 𝒱 (SparseCore.T d) none Set.univ (op := op0 (F := F)) (S := Sall) (pair_sub main_arg4 main_v0 rfl rfl) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := Sall) (pair_sub main_arg4 main_v1 rfl rfl) (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := Sall) (pair_sub main_arg5 main_v2 rfl rfl) (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := Sall) (pair_sub main_arg7 main_v3 rfl rfl) (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := Sall) (pair_sub main_arg9 main_v4 rfl rfl) (V := (op3 (F := F)).result ((op2 (F := F)).result ((op1 (F := F)).result ((op0 (F := F)).result (V0 m d)))))) $$ [Hb Hheld]
  · isplitl [Hb]; · iexact Hb
    iexact Hheld
  iintro ⟨Hb, Hheld⟩
  rw [wp_ret]; imodintro
  iapply (wp_hlo_within 𝒱 (SparseCore.T d) none Set.univ (op := op5 (F := F)) (S := Sall) (pair_sub main_arg11 main_v5 rfl rfl) (V := (op4 (F := F)).result ((op3 (F := F)).result ((op2 (F := F)).result ((op1 (F := F)).result ((op0 (F := F)).result (V0 m d))))))) $$ [Hb Hheld]
  · isplitl [Hb]; · iexact Hb
    iexact Hheld
  iintro ⟨Hb, Hheld⟩
  rw [wp_ret]; imodintro
  iapply (wp_hlo_within 𝒱 (SparseCore.T d) none Set.univ (op := op6 (F := F)) (S := Sall) (pair_sub main_arg13 main_v6 rfl rfl) (V := (op5 (F := F)).result ((op4 (F := F)).result ((op3 (F := F)).result ((op2 (F := F)).result ((op1 (F := F)).result ((op0 (F := F)).result (V0 m d)))))))) $$ [Hb Hheld]
  · isplitl [Hb]; · iexact Hb
    iexact Hheld
  iintro ⟨Hb, Hheld⟩
  rw [wp_ret]; imodintro
  ihave Hheld := (Entails.of_eq (show (held (SparseCore.T d) Sall ((op6 (F := F)).result ((op5 (F := F)).result ((op4 (F := F)).result ((op3 (F := F)).result ((op2 (F := F)).result ((op1 (F := F)).result ((op0 (F := F)).result (V0 m d)))))))) : sProp 𝕄) = held (SparseCore.T d) Sall (V1 m d) from rfl)) $$ Hheld
  -- the SparseCore call: the six arrays it moves out of @main's, each split among the tasks
  ihave Hh := (Entails.of_eq (held_sub_split (SparseCore.T d) T6_sub (V1 m d))) $$ Hheld
  icases Hh with ⟨H6, Hrest⟩
  ihave H6' := (Entails.of_eq (held_T6 (F := F) d (V1 m d))) $$ H6
  rw [Glue.V1_keep m d main_arg0 (by decide), Glue.V1_keep m d main_arg1 (by decide), Glue.V1_keep m d main_arg2 (by decide),
    Glue.V1_keep m d main_arg3 (by decide), Glue.V1_keep m d main_v7_0 (by decide), Glue.V1_keep m d main_v7_1 (by decide)]
  icases H6' with ⟨Huid, Hiid, Hut, Hit, Hou, Hoi⟩
  ihave Huid' := (read_split (F := F) (uidLoc d) _) $$ Huid
  icases Huid' with ⟨HuidR, Huid⟩
  ihave Hiid' := (read_split (F := F) (iidLoc d) _) $$ Hiid
  icases Hiid' with ⟨HiidR, Hiid⟩
  ihave Hut' := (read_split (F := F) (utLoc d) _) $$ Hut
  icases Hut' with ⟨HutR, Hut⟩
  ihave Hit' := (read_split (F := F) (itLoc d) _) $$ Hit
  icases Hit' with ⟨HitR, Hit⟩
  ihave Hou' := (Entails.of_eq (ou_rows' (F := F) d _)) $$ Hou
  icases Hou' with ⟨Hou1, Hou2⟩
  ihave Hoi' := (Entails.of_eq (oi_rows' (F := F) d _)) $$ Hoi
  icases Hoi' with ⟨Hoi1, Hoi2⟩
  iapply ((K (F := F)).wp_run (D (F := F)) 𝒱 (EH := EH) (P := P m) κ d 0) $$ [Hst Huid Hiid Hut Hit Hou1 Hou2 Hoi1 Hoi2 HuidR HiidR HutR HitR Hrest Hb Hcg Hti]
  isplitr; · iexact Hctx
  isplitl [Hst]; · iexact Hst
  isplitl [Huid Hiid Hut Hit Hou1 Hou2 Hoi1 Hoi2]
  · rw [st0_eq]
    isplitl [Huid]; · iexact Huid
    isplitl [Hiid]; · iexact Hiid
    isplitl [Hut]; · iexact Hut
    isplitl [Hit]; · iexact Hit
    isplitl [Hou1]; · iexact Hou1
    isplitl [Hou2]; · iexact Hou2
    isplitl [Hoi1]; · iexact Hoi1
    iexact Hoi2
  iintro ⟨Hst, Hdn⟩
  ihave Hdn' := (Entails.of_eq (dn0_eq m d)) $$ Hdn
  icases Hdn' with ⟨Huid, Hiid, Hut, Hit, Hou1, Hou2, Hoi1, Hoi2⟩
  ihave Huid := (read_join (F := F) (uidLoc d) _) $$ [HuidR Huid]
  · isplitl [HuidR]; · iexact HuidR
    iexact Huid
  ihave Hiid := (read_join (F := F) (iidLoc d) _) $$ [HiidR Hiid]
  · isplitl [HiidR]; · iexact HiidR
    iexact Hiid
  ihave Hut := (read_join (F := F) (utLoc d) _) $$ [HutR Hut]
  · isplitl [HutR]; · iexact HutR
    iexact Hut
  ihave Hit := (read_join (F := F) (itLoc d) _) $$ [HitR Hit]
  · isplitl [HitR]; · iexact HitR
    iexact Hit
  ihave Hou := (Entails.of_eq (ou_rows' (F := F) d (Gu m d)).symm) $$ [Hou1 Hou2]
  · isplitl [Hou1]; · iexact Hou1
    iexact Hou2
  ihave Hoi := (Entails.of_eq (oi_rows' (F := F) d (Gi m d)).symm) $$ [Hoi1 Hoi2]
  · isplitl [Hoi1]; · iexact Hoi1
    iexact Hoi2
  ihave H6 := (Entails.of_eq (held_T6 (F := F) d (V2 m d)).symm) $$ [Huid Hiid Hut Hit Hou Hoi]
  · rw [V2_arg m d main_arg0 (by decide) (by decide) (by decide), V2_arg m d main_arg1 (by decide) (by decide) (by decide),
      V2_arg m d main_arg2 (by decide) (by decide) (by decide), V2_arg m d main_arg3 (by decide) (by decide) (by decide), V2_ou, V2_oi]
    isplitl [Huid]; · iexact Huid
    isplitl [Hiid]; · iexact Hiid
    isplitl [Hut]; · iexact Hut
    isplitl [Hit]; · iexact Hit
    isplitl [Hou]; · iexact Hou
    iexact Hoi
  ihave Hheld := (Entails.of_eq (held_sub_split (SparseCore.T d) T6_sub (V2 m d)).symm) $$ [H6 Hrest]
  · isplitl [H6]; · iexact H6
    iapply (Entails.of_eq (held_congr (SparseCore.T d) (V2_off m d))); iexact Hrest
  -- the TensorCore region, on the fourteen arrays its windows move
  ihave Hh := (Entails.of_eq (held_sub_split (SparseCore.T d) Sreg_sub (V2 m d))) $$ Hheld
  icases Hh with ⟨Hreg, Hrest⟩
  unfold SparseCore.Cfg.tcSt
  rw [show (K (F := F)).Otc d ((0 : Fin 1).val + 1) = 0 from (K (F := F)).Otc_end d (le_refl _), show (K (F := F)).Otc d 1 = 0 from (K (F := F)).Otc_end d (le_refl _)]
  icases Hst with ⟨⟨%W1, %hW1, HO⟩, Hat, Hrd, Hrs, Htoks⟩
  ihave Hlev := ((K (F := F)).ctx_levAts (EH := EH) (P := P m) κ) $$ Hctx
  iapply (MlpRegion.mlp_call (F := F) (V2 m d) W1 d) $$ [Hlev Hb Hreg HO Hcg Hti Hat Hrd Hrs Htoks Hrest]
  isplitl [Hlev]; · iexact Hlev
  isplitl [Hb]; · iexact Hb
  isplitl [Hreg]; · iexact Hreg
  isplitl [HO]; · iexact HO
  isplitl [Hcg]; · iexact Hcg
  isplitl [Hti]; · iexact Hti
  iintro ⟨Hb, Hreg, %W2, %hW2, HO⟩
  ihave Hheld := (Entails.of_eq (held_sub_split (SparseCore.T d) Sreg_sub (V3 m d)).symm) $$ [Hreg Hrest]
  · isplitl [Hreg]; · iexact Hreg
    iapply (Entails.of_eq (held_congr (SparseCore.T d) (V3_off m d))); iexact Hrest
  -- the last reshape
  iapply (wp_hlo_within 𝒱 (SparseCore.T d) none Set.univ (op := op9 (F := F)) (S := Sall) (pair_sub main_v8 main_v9 rfl rfl) (V := V3 m d)) $$ [Hb Hheld]
  · isplitl [Hb]; · iexact Hb
    iexact Hheld
  iintro ⟨Hb, Hheld⟩
  rw [wp_ret]; imodintro
  imodintro
  isplitr [Hheld]
  · isplitl [HO]
    · iexists W2; isplitr
      · ipureintro; exact wbelow_after hW1 hW2
      · iexact HO
    isplitl [Hat]; · iexact Hat
    isplitl [Hrd]; · iexact Hrd
    isplitl [Hrs]; · iexact Hrs
    iexact Htoks
  · iexact Hheld

end Cert.Kernel.Launch

end
-- ==== Proof.BitsRun.lean ====
/-
  The kernel program's run: by the SparseCore launch theorem, from a memory whose two index arrays are in range, every
  weakly fair execution of the TensorCore's @main and the SparseCores' subcores terminates, nothing faulting, with each
  of @main's arrays at the value the stretches of @main leave.
-/
import proofs.«207198_g34918084116659_cont_8to1_b_1870_22_alg».proof.Proof.BitsMain

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held)

variable (m : (ℓ : Loc nD τ sig) → Buf (Elt F) ℓ) (ρ : Dev nD → PrngReg)

variable [FloatOps F]

/-- What the final memory holds: each of @main's arrays at its final value. -/
def fq (d : Dev nD) (s' : Phys nD τ sig (Elt F)) : Prop := ∀ b ∈ Sall, s'.mem.mem (d, b) = V4 m d b

theorem hfin (d : Dev nD) (s' : Phys nD τ sig (Elt F)) : iprop(FIN m d ∗ SI s') ⊢ (⌜fq m d s'⌝ : sProp 𝕄) := by
  show iprop((bigSep Sall fun b => (((d, b) : Loc nD τ sig) ↦{fullShare} V4 m d b : sProp 𝕄)) ∗ SI s') ⊢ _
  iintro ⟨H, HSI⟩
  ihave %h := (SI_pointsTo_bufs_agree (qs := fun _ => fullShare) Sall) $$ [HSI H]
  · isplitl [HSI]; · iexact HSI
    iexact H
  ipureintro
  exact h

theorem run_main [∀ e, Nonempty (Elt F e)] (hfu : ∀ d j, (m (uidLoc d) j).toNat < 100000) (hfi : ∀ d j, (m (iidLoc d) j).toNat < 100000) :
    θ_run (Cert.Kernel.defs (F := F)) (Cert.Kernel.threads (F := F)) ⟨m, fun _ => 0, ρ⟩
      (fun r => ∀ d : Dev nD, ∀ b ∈ Sall, r.2.mem (d, b) = V4 m d b) :=
  SparseCore.Cfg.θ_run_sc (K := K (F := F)) (D := D (F := F)) (𝒱 := 𝒱) (EH := EH) (P := P m) facts v₀
    (fun q hq => match q with | 0 => nomatch hq)
    (fun q _ => match q with | 0 => tileObl m facts hfu hfi)
    (fun q _ => match q with | 0 => SparseCore.Cfg.VecSplit.of_plain (vecSplit m))
    m ρ main (fun d => GG (F := F) d) (FIN m) (u₀ (F := F)) (sep_elim_left.trans (hu₀ m)) (hmain m ρ) (fq m) (hfin m) _ (fun _ h => h)

end Cert.Kernel.Launch

end
-- ==== Proof.lean ====
/-
  Two programs score a batch of 16384 (user, item) pairs, and this file proves they score it alike.

  For row r both compute the same five-layer perceptron of the concatenation of row uid[r] of the user table and
  row iid[r] of the item table (128 numbers each): four dense layers of widths 64, 64, 32, 16, each followed by the
  leaky rectifier x ↦ x for x ≥ 0 and c·x otherwise (c the binary32 number nearest 0.01), and a last dense layer into one number. The reference does
  it array by array: two row look-ups, the concatenation into a [16384, 256] array, five matrix products with bias.
  The kernel program first gathers the 2·16384 rows on the SparseCores, 32 tasks of 512 rows each, every task
  copying its index words and then its rows; then it runs the layers on the TensorCore on four blocks of 4096 rows,
  the first weight matrix cut into its upper and lower 128 rows, the last layer computed as a sum down a column;
  then it reshapes the 16384 results into a column.

  On the extended reals the two agree exactly. One law of arithmetic joins them: a sum over 256 positions is the sum
  over the first 128 plus the sum over the last 128, so the product with the concatenation is the sum of the two half
  products. Everything else is bookkeeping of which row and column each operation reads. The precondition says every
  index word lies in [0, 99999]: then the reference's wrap of negative indices, its bounds mask and the look-up's
  clamp all do nothing, and the gather reads exactly the rows the index words name. Both programs leave their
  arguments as they found them, at the word level as on the extended reals.
-/
import proofs.«207198_g34918084116659_cont_8to1_b_1870_22_alg».proof.Defs
import proofs.«207198_g34918084116659_cont_8to1_b_1870_22_alg».proof.Proof.Gen.Kernel
import proofs.«207198_g34918084116659_cont_8to1_b_1870_22_alg».proof.Proof.Gen.Kernel.Skeleton
import proofs.«207198_g34918084116659_cont_8to1_b_1870_22_alg».proof.Proof.Gen.Kernel.Launch
import proofs.«207198_g34918084116659_cont_8to1_b_1870_22_alg».proof.Proof.Gen.Kernel.Points
import proofs.«207198_g34918084116659_cont_8to1_b_1870_22_alg».proof.Proof.Gen.KernelIdeal
import proofs.«207198_g34918084116659_cont_8to1_b_1870_22_alg».proof.Proof.Gen.KernelIdeal.Skeleton
import proofs.«207198_g34918084116659_cont_8to1_b_1870_22_alg».proof.Proof.Gen.KernelIdeal.Launch
import proofs.«207198_g34918084116659_cont_8to1_b_1870_22_alg».proof.Proof.Gen.KernelIdeal.Points
import proofs.«207198_g34918084116659_cont_8to1_b_1870_22_alg».proof.Proof.Gen.ReferenceIdeal
import proofs.«207198_g34918084116659_cont_8to1_b_1870_22_alg».proof.Proof.Gen.Pre_input_domain
import proofs.«207198_g34918084116659_cont_8to1_b_1870_22_alg».proof.Proof.IdealGlueClaims
import proofs.«207198_g34918084116659_cont_8to1_b_1870_22_alg».proof.Proof.IdealMlpValue
import proofs.«207198_g34918084116659_cont_8to1_b_1870_22_alg».proof.Proof.IdealRun
import proofs.«207198_g34918084116659_cont_8to1_b_1870_22_alg».proof.Proof.BitsRun
import proofs.«207198_g34918084116659_cont_8to1_b_1870_22_alg».proof.Proof.BitsGlueFrame
import Idealize.ShloMosaic.Adequacy
import Idealize.ShloMosaic.Init

noncomputable section

namespace Cert.Proof

open Idealize.ShloMosaic Idealize.SL.Sem

/-- The network region's result row by row, in the form the comparison with the reference uses: a block of rows of a
    gathered array is the same function whichever way its row index is written. -/
theorem mlpOutApply : Cert.KernelIdeal.Glue.MlpOutApply :=
  fun u i w1a w1b b1 w2 b2 w3 b3 w4 b4 w5 b5 t r =>
    Cert.KernelIdeal.MlpRegion.mlpOut_apply (F := Ideal) u i w1a w1b b1 w2 b2 w3 b3 w4 b4 w5 b5 t r

/-- The kernel program's run on the extended reals. -/
theorem runsIdeal : Cert.KernelIdeal.Glue.RunsTo Ideal :=
  fun m ρ h0 h1 => Cert.KernelIdeal.Launch.run_main (F := Ideal) m ρ h0 h1

/-- The kernel program's run at the word level. -/
theorem runsBits : Cert.Kernel.Glue.RunsTo Bits :=
  fun m ρ h0 h1 => Cert.Kernel.Launch.run_main (F := Bits) m ρ h0 h1

/-- The word-level kernel program's frame, from its run. -/
theorem frame_k : Cert.frame_Kernel :=
  fun m g hpre => Cert.Kernel.Glue.frame (F := Bits) runsBits m g hpre

theorem claim : Cert.Claim :=
  ⟨Cert.Kernel.Gen.facts, Cert.KernelIdeal.Gen.facts, Cert.ReferenceIdeal.Gen.facts, Cert.Pre_input_domain.Gen.facts,
    frame_k, Cert.GlueClaims.frame_ki runsIdeal, Cert.GlueClaims.frame_ri, trivial,
    Cert.GlueClaims.algebraic runsIdeal mlpOutApply⟩

end Cert.Proof

end
